-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : FVec F S8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192 : Shape := ⟨1, ![8192]⟩
abbrev S2x18 : Shape := ⟨2, ![2, 18]⟩
abbrev S8192x1 : Shape := ⟨2, ![8192, 1]⟩
abbrev S1x8192 : Shape := ⟨2, ![1, 8192]⟩
abbrev S2x1x8192 : Shape := ⟨3, ![2, 1, 8192]⟩
abbrev S1024x1 : Shape := ⟨2, ![1024, 1]⟩
abbrev S1x1 : Shape := ⟨2, ![1, 1]⟩
abbrev S1x1024 : Shape := ⟨2, ![1, 1024]⟩
abbrev S1x1x8192 : Shape := ⟨3, ![1, 1, 8192]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩

abbrev nBuf : Space → Nat
  | .hbm => 51
  | .vmem => 12
  | .smem => 4
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192x1, .f32⟩
  | .hbm, ⟨3, _⟩ => ⟨S1x8192, .f32⟩
  | .hbm, ⟨4, _⟩ => ⟨S2x1x8192, .f32⟩
  | .hbm, ⟨5, _⟩ => ⟨S1x1x8192, .f32⟩
  | .hbm, ⟨6, _⟩ => ⟨S8192, .f32⟩
  | .hbm, ⟨7, _⟩ => ⟨S1x1x8192, .f32⟩
  | .hbm, ⟨8, _⟩ => ⟨S8192, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192x1, .f32⟩
  | .hbm, ⟨14, _⟩ => ⟨S1x8192, .f32⟩
  | .hbm, ⟨15, _⟩ => ⟨S2x1x8192, .f32⟩
  | .hbm, ⟨16, _⟩ => ⟨S1x1x8192, .f32⟩
  | .hbm, ⟨17, _⟩ => ⟨S8192, .f32⟩
  | .hbm, ⟨18, _⟩ => ⟨S1x1x8192, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1x1x8192, .f32⟩
  | .local _ .vmem, ⟨5, _⟩ => ⟨S1x1x8192, .f32⟩
  | .local _ .vmem, ⟨6, _⟩ => ⟨S1024x1, .f32⟩
  | .local _ .vmem, ⟨7, _⟩ => ⟨S1024x1, .f32⟩
  | .local _ .vmem, ⟨8, _⟩ => ⟨S1x1024, .f32⟩
  | .local _ .vmem, ⟨9, _⟩ => ⟨S1x1024, .f32⟩
  | .local _ .vmem, ⟨10, _⟩ => ⟨S1x1x8192, .f32⟩
  | .local _ .vmem, ⟨11, _⟩ => ⟨S1x1x8192, .f32⟩
  | .local _ .smem, ⟨0, _⟩ => ⟨S2x18, .i32⟩
  | .local _ .smem, ⟨1, _⟩ => ⟨S2x18, .i32⟩
  | .local _ .smem, ⟨2, _⟩ => ⟨S2x18, .i32⟩
  | .local _ .smem, ⟨3, _⟩ => ⟨S2x18, .i32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_3 : Ref sig .tc := ⟨.hbm, 21, rfl⟩
abbrev main_v18 : Ref sig .tc := ⟨.hbm, 22, rfl⟩
abbrev main_v19 : Ref sig .tc := ⟨.hbm, 23, rfl⟩
abbrev main_cst_4 : Ref sig .tc := ⟨.hbm, 24, rfl⟩
abbrev main_v20 : Ref sig .tc := ⟨.hbm, 25, rfl⟩
abbrev main_cst_5 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_6 : Ref sig .tc := ⟨.hbm, 30, rfl⟩
abbrev main_v24 : Ref sig .tc := ⟨.hbm, 31, rfl⟩
abbrev main_cst_7 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_8 : Ref sig .tc := ⟨.hbm, 37, rfl⟩
abbrev main_v29 : Ref sig .tc := ⟨.hbm, 38, rfl⟩
abbrev main_v30 : Ref sig .tc := ⟨.hbm, 39, rfl⟩
abbrev main_cst_9 : Ref sig .tc := ⟨.hbm, 40, rfl⟩
abbrev main_v31 : Ref sig .tc := ⟨.hbm, 41, rfl⟩
abbrev main_v32 : Ref sig .tc := ⟨.hbm, 42, rfl⟩
abbrev main_cst_10 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_11 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 18], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
def k0_mult1 (v5 : BitVec 32) : BitVec 32 :=
  let c1024_i32 : BitVec 32 := 1024#32
  let v19 : BitVec 32 := Scalar.muli v5 c1024_i32
  v19

def k0_off2 (v5 : BitVec 32) : Fin 3 → Nat :=
  let c0_4 : Index := 0#32
  let c0_5 : Index := 0#32
  let c1024_i32 : BitVec 32 := 1024#32
  let v19 : BitVec 32 := Scalar.muli v5 c1024_i32
  let v20 : BitVec 32 := v19
  let v21 : Index := Scalar.indexCast v20
  ![0, 0, v21.toNat]

def k0_chk1 (v5 : BitVec 32) : Prop :=
  (128 ∣ (k0_mult1 v5).toNat) ∧
  (∀ a, (k0_off2 v5) a + S1x1x1024.size a ≤ S1x1x8192.size a)
instance k0_chk1.dec : ∀ (v5 : BitVec 32), Decidable (k0_chk1 v5) := fun v5 => decidable_of_iff' _ (Iff.of_eq (k0_chk1.eq_1 v5))
theorem k0_mult1_dvd : ∀ (v5 : BitVec 32) (k0_hw1 : k0_chk1 v5), 128 ∣ (k0_mult1 v5).toNat := fun v5 k0_hw1 => k0_hw1.1
theorem k0_off2_inb : ∀ (v5 : BitVec 32) (k0_hw1 : k0_chk1 v5), ∀ a, (k0_off2 v5) a + S1x1x1024.size a ≤ S1x1x8192.size a := fun v5 k0_hw1 => k0_hw1.2

def k0_mult2 (v8 : BitVec 32) : BitVec 32 :=
  let c1024_i32_11 : BitVec 32 := 1024#32
  let v36 : BitVec 32 := Scalar.muli v8 c1024_i32_11
  v36
def k0_cond2 (v5 : BitVec 32) (v8 : BitVec 32) : BitVec 1 :=
  let v29 : BitVec 1 := Scalar.cmpi .ne v5 v8
  let v30 : BitVec 32 := Scalar.extui v29
  let c0_i32_8 : BitVec 32 := 0#32
  let v31 : BitVec 1 := Scalar.cmpi .ne v30 c0_i32_8
  v31

def k0_off3 (v8 : BitVec 32) : Fin 3 → Nat :=
  let c0_12 : Index := 0#32
  let c0_13 : Index := 0#32
  let c1024_i32_11 : BitVec 32 := 1024#32
  let v36 : BitVec 32 := Scalar.muli v8 c1024_i32_11
  let v37 : BitVec 32 := v36
  let v38 : Index := Scalar.indexCast v37
  ![0, 0, v38.toNat]

def k0_chk2 (v5 : BitVec 32) (v8 : BitVec 32) : Prop :=
  (∀ (k0_h2 : k0_cond2 v5 v8 = 1#1), 128 ∣ (k0_mult2 v8).toNat) ∧
  (∀ (k0_h2 : k0_cond2 v5 v8 = 1#1), ∀ a, (k0_off3 v8) a + S1x1x1024.size a ≤ S1x1x8192.size a)
instance k0_chk2.dec : ∀ (v5 : BitVec 32) (v8 : BitVec 32), Decidable (k0_chk2 v5 v8) := fun v5 v8 => decidable_of_iff' _ (Iff.of_eq (k0_chk2.eq_1 v5 v8))
theorem k0_mult2_dvd : ∀ (v5 : BitVec 32) (v8 : BitVec 32) (k0_hw2 : k0_chk2 v5 v8), ∀ (k0_h2 : k0_cond2 v5 v8 = 1#1), 128 ∣ (k0_mult2 v8).toNat := fun v5 v8 k0_hw2 k0_h2 => k0_hw2.1 k0_h2
theorem k0_off3_inb : ∀ (v5 : BitVec 32) (v8 : BitVec 32) (k0_hw2 : k0_chk2 v5 v8), ∀ (k0_h2 : k0_cond2 v5 v8 = 1#1), ∀ a, (k0_off3 v8) a + S1x1x1024.size a ≤ S1x1x8192.size a := fun v5 v8 k0_hw2 k0_h2 => k0_hw2.2 k0_h2

def cc0_transform_0 (k0_off1_inb : ∀ i : grid0.Coords, ∀ a, (k0_off1 i) a + S1x1.size a ≤ S2x18.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S2x18) ![v0.toNat, v1.toNat] S1x1.size (k0_off1_inb i)) numel1_S1x1
  let c0_i32 : BitVec 32 := 0#32
  let c0_i32_0 : BitVec 32 := 0#32
  ![v2.toNat, c0_i32.toNat]

def cc0_transform_1 (k0_off1_inb : ∀ i : grid0.Coords, ∀ a, (k0_off1 i) a + S1x1.size a ≤ S2x18.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 1 (Rect.unit (s := S2x18) ![v0.toNat, v1.toNat] S1x1.size (k0_off1_inb i)) numel1_S1x1
  let c0_i32 : BitVec 32 := 0#32
  let c0_i32_0 : BitVec 32 := 0#32
  ![c0_i32.toNat, v2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 18], ![false, false]⟩

abbrev pre1 : Pipeline.Prefetch sig := ⟨2, ![main_c_1.idx, main_c_2.idx], fun | 0 => main_c_1.names | 1 => main_c_2.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
def k1_mult1 (v5 : BitVec 32) : BitVec 32 :=
  let c1024_i32 : BitVec 32 := 1024#32
  let v19 : BitVec 32 := Scalar.muli v5 c1024_i32
  v19

def k1_off2 (v5 : BitVec 32) : Fin 3 → Nat :=
  let c0_4 : Index := 0#32
  let c0_5 : Index := 0#32
  let c1024_i32 : BitVec 32 := 1024#32
  let v19 : BitVec 32 := Scalar.muli v5 c1024_i32
  let v20 : BitVec 32 := v19
  let v21 : Index := Scalar.indexCast v20
  ![0, 0, v21.toNat]

def k1_chk1 (v5 : BitVec 32) : Prop :=
  (128 ∣ (k1_mult1 v5).toNat) ∧
  (∀ a, (k1_off2 v5) a + S1x1x1024.size a ≤ S1x1x8192.size a)
instance k1_chk1.dec : ∀ (v5 : BitVec 32), Decidable (k1_chk1 v5) := fun v5 => decidable_of_iff' _ (Iff.of_eq (k1_chk1.eq_1 v5))
theorem k1_mult1_dvd : ∀ (v5 : BitVec 32) (k1_hw1 : k1_chk1 v5), 128 ∣ (k1_mult1 v5).toNat := fun v5 k1_hw1 => k1_hw1.1
theorem k1_off2_inb : ∀ (v5 : BitVec 32) (k1_hw1 : k1_chk1 v5), ∀ a, (k1_off2 v5) a + S1x1x1024.size a ≤ S1x1x8192.size a := fun v5 k1_hw1 => k1_hw1.2

def k1_mult2 (v8 : BitVec 32) : BitVec 32 :=
  let c1024_i32_11 : BitVec 32 := 1024#32
  let v36 : BitVec 32 := Scalar.muli v8 c1024_i32_11
  v36
def k1_cond2 (v5 : BitVec 32) (v8 : BitVec 32) : BitVec 1 :=
  let v29 : BitVec 1 := Scalar.cmpi .ne v5 v8
  let v30 : BitVec 32 := Scalar.extui v29
  let c0_i32_8 : BitVec 32 := 0#32
  let v31 : BitVec 1 := Scalar.cmpi .ne v30 c0_i32_8
  v31

def k1_off3 (v8 : BitVec 32) : Fin 3 → Nat :=
  let c0_12 : Index := 0#32
  let c0_13 : Index := 0#32
  let c1024_i32_11 : BitVec 32 := 1024#32
  let v36 : BitVec 32 := Scalar.muli v8 c1024_i32_11
  let v37 : BitVec 32 := v36
  let v38 : Index := Scalar.indexCast v37
  ![0, 0, v38.toNat]

def k1_chk2 (v5 : BitVec 32) (v8 : BitVec 32) : Prop :=
  (∀ (k1_h2 : k1_cond2 v5 v8 = 1#1), 128 ∣ (k1_mult2 v8).toNat) ∧
  (∀ (k1_h2 : k1_cond2 v5 v8 = 1#1), ∀ a, (k1_off3 v8) a + S1x1x1024.size a ≤ S1x1x8192.size a)
instance k1_chk2.dec : ∀ (v5 : BitVec 32) (v8 : BitVec 32), Decidable (k1_chk2 v5 v8) := fun v5 v8 => decidable_of_iff' _ (Iff.of_eq (k1_chk2.eq_1 v5 v8))
theorem k1_mult2_dvd : ∀ (v5 : BitVec 32) (v8 : BitVec 32) (k1_hw2 : k1_chk2 v5 v8), ∀ (k1_h2 : k1_cond2 v5 v8 = 1#1), 128 ∣ (k1_mult2 v8).toNat := fun v5 v8 k1_hw2 k1_h2 => k1_hw2.1 k1_h2
theorem k1_off3_inb : ∀ (v5 : BitVec 32) (v8 : BitVec 32) (k1_hw2 : k1_chk2 v5 v8), ∀ (k1_h2 : k1_cond2 v5 v8 = 1#1), ∀ a, (k1_off3 v8) a + S1x1x1024.size a ≤ S1x1x8192.size a := fun v5 v8 k1_hw2 k1_h2 => k1_hw2.2 k1_h2

def cc1_transform_0 (k1_off1_inb : ∀ i : grid1.Coords, ∀ a, (k1_off1 i) a + S1x1.size a ≤ S2x18.size a) (numel1_S1x1 : S1x1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S2x18) ![v0.toNat, v1.toNat] S1x1.size (k1_off1_inb i)) numel1_S1x1
  let c0_i32 : BitVec 32 := 0#32
  let c0_i32_0 : BitVec 32 := 0#32
  ![v2.toNat, c0_i32.toNat]

def cc1_transform_1 (k1_off1_inb : ∀ i : grid1.Coords, ∀ a, (k1_off1 i) a + S1x1.size a ≤ S2x18.size a) (numel1_S1x1 : S1x1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 1 (Rect.unit (s := S2x18) ![v0.toNat, v1.toNat] S1x1.size (k1_off1_inb i)) numel1_S1x1
  let c0_i32 : BitVec 32 := 0#32
  let c0_i32_0 : BitVec 32 := 0#32
  ![c0_i32.toNat, v2.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S8192_S8192x1 : S8192.ShapeCasts S8192x1
  shapeCasts_S8192_S1x8192 : S8192.ShapeCasts S1x8192
  numel1_S1x1 : S1x1.numel = 1
  inb_S1x1x8192_S1x1x8192_0_0_0 : ∀ a, (![0, 0, 0] : Fin 3 → Nat) a + S1x1x8192.size a ≤ S1x1x8192.size a
  h_S1x1x8192 : 0 < S1x1x8192.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1x1024 : S1024.ShapeCasts S1x1024
  h_S1x1x1024 : 0 < S1x1x1024.numel
  shapeCasts_S1x1x1024_S1x1024 : S1x1x1024.ShapeCasts S1x1024
  shapeCasts_S1x1024_S1x1x1024 : S1x1024.ShapeCasts S1x1x1024
  reduces_S1024x1024_S1024_2 : S1024x1024.Reduces [0] S1024
  slices_S2x1x8192_S1x1x8192_0_0_0 : S2x1x8192.Slices ![0, 0, 0] S1x1x8192
  shapeCasts_S1x1x8192_S8192 : S1x1x8192.ShapeCasts S8192
  slices_S2x1x8192_S1x1x8192_1_0_0 : S2x1x8192.Slices ![1, 0, 0] S1x1x8192
  bcast_S_S8192 : S_.BroadcastsInDim S8192 (![] : Fin 0 → Fin S8192.rank)
  reducesTo_S8192_S_d0 : S8192.ReducesTo [0] S_
  h_S_ : 0 < S_.numel
  hrank0 : 0 < grid0.rank
  k0_off1_inb : ∀ i : grid0.Coords, ∀ a, (k0_off1 i) a + S1x1.size a ≤ S2x18.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1x1 pf i = cc0_transform_0 k0_off1_inb numel1_S1x1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1x1 pf i = cc0_transform_1 k0_off1_inb numel1_S1x1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8192.size a ≤ S2x1x8192.size a
  hwx0_2 : ∀ i : grid0.Coords, EltTy.bits .f32 = 32 ∨ (Rect.block (s := S2x1x8192) S1x1x8192.size (cc0_transform_2 i) (hinb0_2 i)).WholeWords (EltTy.packing .f32)
  hrank1 : 0 < grid1.rank
  k1_off1_inb : ∀ i : grid1.Coords, ∀ a, (k1_off1 i) a + S1x1.size a ≤ S2x18.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1x1 pf i = cc1_transform_0 k1_off1_inb numel1_S1x1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1x1 pf i = cc1_transform_1 k1_off1_inb numel1_S1x1 pf i'
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x8192.size a ≤ S2x1x8192.size a
  hwx1_2 : ∀ i : grid1.Coords, EltTy.bits .f32 = 32 ∨ (Rect.block (s := S2x1x8192) S1x1x8192.size (cc1_transform_2 i) (hinb1_2 i)).WholeWords (EltTy.packing .f32)

variable [Facts₀]

abbrev spec0_0 : Pipeline.WinSpec sig grid0.rank :=
  Pipeline.WinSpec.ofSpec (Memref.whole main_v0) S1024x1.size reads0_0 false false 2 stage0_0 sem0_0 nbuf0_0 hstage0_0

abbrev spec0_1 : Pipeline.WinSpec sig grid0.rank :=
  Pipeline.WinSpec.ofSpec (Memref.whole main_v1) S1x1024.size reads0_1 false false 2 stage0_1 sem0_1 nbuf0_1 hstage0_1

abbrev spec0_2 : Pipeline.WinSpec sig grid0.rank :=
  Pipeline.WinSpec.ofSpec (Memref.whole main_v2) S1x1x8192.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1x1 pf | 1 => cc0_transform_1 k0_off1_inb numel1_S1x1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1x1 pf i a + 1) * S1024x1.size a ≤ S8192x1.size a), EltTy.bits .f32 = 32 ∨ (Rect.block (s := S8192x1) S1024x1.size (cc0_transform_0 k0_off1_inb numel1_S1x1 pf i) h).WholeWords (EltTy.packing .f32)) ∧
  (∀ i : grid0.Coords, ∃ h : (∀ a, (cc0_transform_1 k0_off1_inb numel1_S1x1 pf i a + 1) * S1x1024.size a ≤ S1x8192.size a), EltTy.bits .f32 = 32 ∨ (Rect.block (s := S1x8192) S1x1024.size (cc0_transform_1 k0_off1_inb numel1_S1x1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | ⟨_ + 3, h⟩ => absurd h (Nat.not_lt.2 (Nat.le_add_left _ _))
abbrev spec1_0 : Pipeline.WinSpec sig grid1.rank :=
  Pipeline.WinSpec.ofSpec (Memref.whole main_v10) S1024x1.size reads1_0 false false 2 stage1_0 sem1_0 nbuf1_0 hstage1_0

abbrev spec1_1 : Pipeline.WinSpec sig grid1.rank :=
  Pipeline.WinSpec.ofSpec (Memref.whole main_v11) S1x1024.size reads1_1 false false 2 stage1_1 sem1_1 nbuf1_1 hstage1_1

abbrev spec1_2 : Pipeline.WinSpec sig grid1.rank :=
  Pipeline.WinSpec.ofSpec (Memref.whole main_v12) S1x1x8192.size reads1_2 true false 2 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_0 k1_off1_inb numel1_S1x1 pf | 1 => cc1_transform_1 k1_off1_inb numel1_S1x1 pf | 2 => cc1_transform_2 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 | ⟨_ + 3, h⟩ => absurd h (Nat.not_lt.2 (Nat.le_add_left _ _))
def ok1 (pf : pre1.Contents (Elt F)) : Prop :=
  (∀ i : grid1.Coords, ∃ h : (∀ a, (cc1_transform_0 k1_off1_inb numel1_S1x1 pf i a + 1) * S1024x1.size a ≤ S8192x1.size a), EltTy.bits .f32 = 32 ∨ (Rect.block (s := S8192x1) S1024x1.size (cc1_transform_0 k1_off1_inb numel1_S1x1 pf i) h).WholeWords (EltTy.packing .f32)) ∧
  (∀ i : grid1.Coords, ∃ h : (∀ a, (cc1_transform_1 k1_off1_inb numel1_S1x1 pf i a + 1) * S1x1024.size a ≤ S1x8192.size a), EltTy.bits .f32 = 32 ∨ (Rect.block (s := S1x8192) S1x1024.size (cc1_transform_1 k1_off1_inb numel1_S1x1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2 i).elim fun h _ => h a | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2 i).elim fun _ h => h | 2 => hwx1_2 | ⟨_ + 3, h⟩ => absurd h (Nat.not_lt.2 (Nat.le_add_left _ _))

class Facts : Prop extends Facts₀ where
  harr0 : ∀ w, (spec0 w).arr.IsWhole
  harr1 : ∀ w, (spec1 w).arr.IsWhole

variable [Facts]
-- ==== ReferenceIdeal.lean ====
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩

abbrev nBuf : Space → Nat
  | .hbm => 71
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192x1, .f32⟩
  | .hbm, ⟨3, _⟩ => ⟨S1x8192, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1, .f32⟩
  | .hbm, ⟨24, _⟩ => ⟨S1x8192, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S_, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S8192, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_v31 : Ref sig .tc := ⟨.hbm, 43, rfl⟩
abbrev main_cst_9 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_11 : Ref sig .tc := ⟨.hbm, 50, rfl⟩
abbrev main_v36 : Ref sig .tc := ⟨.hbm, 51, rfl⟩
abbrev main_cst_12 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_13 : Ref sig .tc := ⟨.hbm, 57, rfl⟩
abbrev main_v41 : Ref sig .tc := ⟨.hbm, 58, rfl⟩
abbrev main_v42 : Ref sig .tc := ⟨.hbm, 59, rfl⟩
abbrev main_cst_14 : Ref sig .tc := ⟨.hbm, 60, rfl⟩
abbrev main_v43 : Ref sig .tc := ⟨.hbm, 61, rfl⟩
abbrev main_v44 : Ref sig .tc := ⟨.hbm, 62, rfl⟩
abbrev main_cst_15 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_16 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  reducesTo_S8192_S_d0 : S8192.ReducesTo [0] S_

variable [Facts₀]

class Facts : Prop extends Facts₀ where

variable [Facts]
-- ==== Proof.K.Pred.Words.lean ====
import proofs.«115298_j79809082295156_2_alg».proof.Proof.Gen.Kernel.Launch
import proofs.«115298_j79809082295156_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.Kernel.PredRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The pair tables as the body is handed them, and the words it reads -/

abbrev tbR : Memref sig .tc .smem S2x18 .i32 := Memref.whole main_c
abbrev htbR : tbR.IsWhole := Memref.isWhole_whole _
abbrev tbC : Memref sig .tc .smem S2x18 .i32 := Memref.whole main_c_0
abbrev htbC : tbC.IsWhole := Memref.isWhole_whole _

abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare} f

/-- The word of a table at the grid point's cell. -/
abbrev wd (c : Dev nD) (i : grid0.Coords) (M : Memref sig .tc .smem S2x18 .i32) (xt : TbBuf (F := F) c M) : Elt F .i32 :=
  M.view.readAt (Elt F) (Rect.unit (s := S2x18) (k0_off1 i) S1x1.size (k0_off1_inb i)).toLoadRect xt (Shape.Idx.first (numel1_S1x1.symm ▸ Nat.one_pos))

/-- The first conditional's condition: the second grid coordinate is zero (the first pair of a sweep). -/
abbrev condFirst (i : grid0.Coords) : Prop := (Scalar.cmpi .ne (Scalar.extui (Scalar.cmpi .eq (BitVec.ofNat 32 (i 1).val) 0#32)) 0#32) = 1#1

/-! ## The tables' literal contents, and the words at each grid point

The two tables are constants of the program: row `k` of each lists, pair by pair, the row block and the column
block of the pairs sweep `k` visits. Everything the control and the slices need of them is decided here, once,
over the 36 grid points. -/

/-- The row-block table and the column-block table, as the host constants write them. -/
abbrev TR : S2x18.Idx → BitVec 32 := fun i => lit0 (S2x18.rowMajor i)
abbrev TC : S2x18.Idx → BitVec 32 := fun i => lit1 (S2x18.rowMajor i)

/-- Both tables as the region's prefetched contents. -/
def tblL : pre0.Contents (Elt F) := fun | ⟨0, _⟩ => TR | ⟨1, _⟩ => TC | ⟨_ + 2, h⟩ => absurd h (Nat.not_lt.2 (Nat.le_add_left _ _))

/-- The table cell a grid point reads. -/
abbrev cell (i : grid0.Coords) : S2x18.Idx :=
  (Rect.unit (s := S2x18) (k0_off1 i) S1x1.size (k0_off1_inb i)).emb (Shape.Idx.first (numel1_S1x1.symm ▸ Nat.one_pos))

/-- The row block and the column block of the pair at point `t`, as words. -/
def wr (t : Fin grid0.N) : BitVec 32 := TR (cell (grid0.coords t))
def wc (t : Fin grid0.N) : BitVec 32 := TC (cell (grid0.coords t))

theorem wd_r (c : Dev nD) (t : Fin grid0.N) : wd (F := F) c (grid0.coords t) tbR (tblL (F := F) 0) = wr t := rfl
theorem wd_c (c : Dev nD) (t : Fin grid0.N) : wd (F := F) c (grid0.coords t) tbC (tblL (F := F) 1) = wc t := rfl

/-- At every point both blocks are below 8, so the slices the body takes at 1024 times them lie inside the row of 8192. -/
theorem chk_all : ∀ t : Fin grid0.N, k0_chk1 (wr t) ∧ k0_chk2 (wr t) (wc t) := by decide +kernel

/-- The accumulator is reset exactly at the first point of each sweep. -/
theorem hcondFirst : ∀ t : Fin grid0.N, condFirst (grid0.coords t) ↔ t.val % 18 = 0 := by decide +kernel

/-- The side condition of the tables' contents: every block the index maps name lies inside its array. -/
theorem ok_tblL : ok0 (F := F) (tblL (F := F)) := by
  have h0 : ∀ i : grid0.Coords, ∀ a, (![(TR (cell i)).toNat, 0] a + 1) * S1024x1.size a ≤ S8192x1.size a := by decide +kernel
  have h1 : ∀ i : grid0.Coords, ∀ a, (![0, (TC (cell i)).toNat] a + 1) * S1x1024.size a ≤ S1x8192.size a := by decide +kernel
  exact ⟨fun i => ⟨h0 i, .inl rfl⟩, fun i => ⟨h1 i, .inl rfl⟩⟩

end Cert.Kernel.PredRank
end
-- ==== Proof.K.Pred.RunA.lean ====
import proofs.«115298_j79809082295156_2_alg».proof.Proof.K.Pred.Words
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.Kernel.PredRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a first point of a sweep whose pair is on the diagonal (one slice updated):
    on whole staging memrefs, the two input blocks at their contents,
    the tables at theirs with the point's two words in range, it runs to the continuation holding the inputs and
    the tables as they were and the accumulator's buffer with the body's stores written (the first of them the zero fill of the whole buffer); the stores, newest first, are the witness the run finds. -/
noncomputable def kernelRun_A (c : Dev nD) (i : grid0.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : condFirst i)
    (x0 : Vec F S1024x1 .f32) (x1 : Vec F S1x1024 .f32)
    (xt0 : TbBuf (F := F) c tbR) (xt1 : TbBuf (F := F) c tbC)
    (hw1 : k0_chk1 (wd c i tbR xt0)) (hw2 : k0_chk2 (wd c i tbR xt0) (wd c i tbC xt1))
    (hc2 : ¬k0_cond2 (wd c i tbR xt0) (wd c i tbC xt1) = 1#1) :
    { L : List (View.Piece (Elt F) S1x1x8192 .f32) //
      ∀ (E : Set ℕ) (K : PUnit → sProp 𝕄),
        iprop(owns (c : Thread nD τ) arg4 fullShare x0 ∗ owns (c : Thread nD τ) arg5 fullShare x1 ∗ (∃ d, owns (c : Thread nD τ) arg6 fullShare d)
            ∗ tbPt c tbR xt0 ∗ tbPt c tbC xt1
            ∗ (iprop(owns (c : Thread nD τ) arg4 fullShare x0 ∗ owns (c : Thread nD τ) arg5 fullShare x1
                ∗ (∃ f, arg6.view.loc (c : Thread nD τ) ↦[arg6.view.set]{fullShare} arg6.view.writes (Elt F) f L)
                ∗ tbPt c tbR xt0 ∗ tbPt c tbC xt1) -∗ K ⟨⟩))
          ⊢ wp frame (wpE (defs₀ (F := F)) Variants.none c none) E (cc0__pair_kernel i tbR htbR tbC htbC arg4 harg4 arg5 harg5 arg6 harg6) K } := by
  refine ⟨?_, fun E K => ?run⟩
  case run =>
    simp only [cc0__pair_kernel_eq_skeleton]; unfold cc0__pair_kernel_skel
    unfold owns
    iintro ⟨⟨%f0, %hf0, H0⟩, ⟨%f1, %hf1, H1⟩, ⟨%d2, %f2, -, H2⟩, HT0, HT1, Hk⟩
    obtain rfl := harg4.eq_unread hf0; obtain rfl := harg5.eq_unread hf1
    sl_exec (disch := first | exact hc0 | sl_exact hw1 | sl_exact hw2 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]; · iexists _; iexact H2
    isplitl [HT0]; · iexact HT0
    iexact HT1

end Cert.Kernel.PredRank
end
-- ==== Proof.K.Pred.RunB.lean ====
import proofs.«115298_j79809082295156_2_alg».proof.Proof.K.Pred.Words
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.Kernel.PredRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a first point of a sweep whose pair is off the diagonal (two slices updated):
    on whole staging memrefs, the two input blocks at their contents,
    the tables at theirs with the point's two words in range, it runs to the continuation holding the inputs and
    the tables as they were and the accumulator's buffer with the body's stores written (the first of them the zero fill of the whole buffer); the stores, newest first, are the witness the run finds. -/
noncomputable def kernelRun_B (c : Dev nD) (i : grid0.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : condFirst i)
    (x0 : Vec F S1024x1 .f32) (x1 : Vec F S1x1024 .f32)
    (xt0 : TbBuf (F := F) c tbR) (xt1 : TbBuf (F := F) c tbC)
    (hw1 : k0_chk1 (wd c i tbR xt0)) (hw2 : k0_chk2 (wd c i tbR xt0) (wd c i tbC xt1))
    (hc2 : k0_cond2 (wd c i tbR xt0) (wd c i tbC xt1) = 1#1) :
    { L : List (View.Piece (Elt F) S1x1x8192 .f32) //
      ∀ (E : Set ℕ) (K : PUnit → sProp 𝕄),
        iprop(owns (c : Thread nD τ) arg4 fullShare x0 ∗ owns (c : Thread nD τ) arg5 fullShare x1 ∗ (∃ d, owns (c : Thread nD τ) arg6 fullShare d)
            ∗ tbPt c tbR xt0 ∗ tbPt c tbC xt1
            ∗ (iprop(owns (c : Thread nD τ) arg4 fullShare x0 ∗ owns (c : Thread nD τ) arg5 fullShare x1
                ∗ (∃ f, arg6.view.loc (c : Thread nD τ) ↦[arg6.view.set]{fullShare} arg6.view.writes (Elt F) f L)
                ∗ tbPt c tbR xt0 ∗ tbPt c tbC xt1) -∗ K ⟨⟩))
          ⊢ wp frame (wpE (defs₀ (F := F)) Variants.none c none) E (cc0__pair_kernel i tbR htbR tbC htbC arg4 harg4 arg5 harg5 arg6 harg6) K } := by
  refine ⟨?_, fun E K => ?run⟩
  case run =>
    simp only [cc0__pair_kernel_eq_skeleton]; unfold cc0__pair_kernel_skel
    unfold owns
    iintro ⟨⟨%f0, %hf0, H0⟩, ⟨%f1, %hf1, H1⟩, ⟨%d2, %f2, -, H2⟩, HT0, HT1, Hk⟩
    obtain rfl := harg4.eq_unread hf0; obtain rfl := harg5.eq_unread hf1
    sl_exec (disch := first | exact hc0 | sl_exact hw1 | sl_exact hw2 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]; · iexists _; iexact H2
    isplitl [HT0]; · iexact HT0
    iexact HT1

end Cert.Kernel.PredRank
end
-- ==== Proof.K.Pred.RunC.lean ====
import proofs.«115298_j79809082295156_2_alg».proof.Proof.K.Pred.Words
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.Kernel.PredRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a later point of a sweep whose pair is on the diagonal (one slice updated):
    on whole staging memrefs, the two input blocks at their contents, the accumulator's buffer at its running contents `xo`,
    the tables at theirs with the point's two words in range, it runs to the continuation holding the inputs and
    the tables as they were and the accumulator's buffer with the body's stores written over `xo`; the stores, newest first, are the witness the run finds. -/
noncomputable def kernelRun_C (c : Dev nD) (i : grid0.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : ¬condFirst i)
    (x0 : Vec F S1024x1 .f32) (x1 : Vec F S1x1024 .f32) (xo : Vec F S1x1x8192 .f32)
    (xt0 : TbBuf (F := F) c tbR) (xt1 : TbBuf (F := F) c tbC)
    (hw1 : k0_chk1 (wd c i tbR xt0)) (hw2 : k0_chk2 (wd c i tbR xt0) (wd c i tbC xt1))
    (hc2 : ¬k0_cond2 (wd c i tbR xt0) (wd c i tbC xt1) = 1#1) :
    { L : List (View.Piece (Elt F) S1x1x8192 .f32) //
      ∀ (E : Set ℕ) (K : PUnit → sProp 𝕄),
        iprop(owns (c : Thread nD τ) arg4 fullShare x0 ∗ owns (c : Thread nD τ) arg5 fullShare x1 ∗ owns (c : Thread nD τ) arg6 fullShare xo
            ∗ tbPt c tbR xt0 ∗ tbPt c tbC xt1
            ∗ (iprop(owns (c : Thread nD τ) arg4 fullShare x0 ∗ owns (c : Thread nD τ) arg5 fullShare x1
                ∗ (arg6.view.loc (c : Thread nD τ) ↦[arg6.view.set]{fullShare} arg6.view.writes (Elt F) (harg6.unread xo) L)
                ∗ tbPt c tbR xt0 ∗ tbPt c tbC xt1) -∗ K ⟨⟩))
          ⊢ wp frame (wpE (defs₀ (F := F)) Variants.none c none) E (cc0__pair_kernel i tbR htbR tbC htbC arg4 harg4 arg5 harg5 arg6 harg6) K } := by
  refine ⟨?_, fun E K => ?run⟩
  case run =>
    simp only [cc0__pair_kernel_eq_skeleton]; unfold cc0__pair_kernel_skel
    unfold owns
    iintro ⟨⟨%f0, %hf0, H0⟩, ⟨%f1, %hf1, H1⟩, ⟨%f2, %hf2, H2⟩, HT0, HT1, Hk⟩
    obtain rfl := harg4.eq_unread hf0; obtain rfl := harg5.eq_unread hf1; obtain rfl := harg6.eq_unread hf2
    sl_exec (disch := first | exact hc0 | sl_exact hw1 | sl_exact hw2 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]; · iexact H2
    isplitl [HT0]; · iexact HT0
    iexact HT1

end Cert.Kernel.PredRank
end
-- ==== Proof.K.Pred.RunD.lean ====
import proofs.«115298_j79809082295156_2_alg».proof.Proof.K.Pred.Words
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.Kernel.PredRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a later point of a sweep whose pair is off the diagonal (two slices updated):
    on whole staging memrefs, the two input blocks at their contents, the accumulator's buffer at its running contents `xo`,
    the tables at theirs with the point's two words in range, it runs to the continuation holding the inputs and
    the tables as they were and the accumulator's buffer with the body's stores written over `xo`; the stores, newest first, are the witness the run finds. -/
noncomputable def kernelRun_D (c : Dev nD) (i : grid0.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : ¬condFirst i)
    (x0 : Vec F S1024x1 .f32) (x1 : Vec F S1x1024 .f32) (xo : Vec F S1x1x8192 .f32)
    (xt0 : TbBuf (F := F) c tbR) (xt1 : TbBuf (F := F) c tbC)
    (hw1 : k0_chk1 (wd c i tbR xt0)) (hw2 : k0_chk2 (wd c i tbR xt0) (wd c i tbC xt1))
    (hc2 : k0_cond2 (wd c i tbR xt0) (wd c i tbC xt1) = 1#1) :
    { L : List (View.Piece (Elt F) S1x1x8192 .f32) //
      ∀ (E : Set ℕ) (K : PUnit → sProp 𝕄),
        iprop(owns (c : Thread nD τ) arg4 fullShare x0 ∗ owns (c : Thread nD τ) arg5 fullShare x1 ∗ owns (c : Thread nD τ) arg6 fullShare xo
            ∗ tbPt c tbR xt0 ∗ tbPt c tbC xt1
            ∗ (iprop(owns (c : Thread nD τ) arg4 fullShare x0 ∗ owns (c : Thread nD τ) arg5 fullShare x1
                ∗ (arg6.view.loc (c : Thread nD τ) ↦[arg6.view.set]{fullShare} arg6.view.writes (Elt F) (harg6.unread xo) L)
                ∗ tbPt c tbR xt0 ∗ tbPt c tbC xt1) -∗ K ⟨⟩))
          ⊢ wp frame (wpE (defs₀ (F := F)) Variants.none c none) E (cc0__pair_kernel i tbR htbR tbC htbC arg4 harg4 arg5 harg5 arg6 harg6) K } := by
  refine ⟨?_, fun E K => ?run⟩
  case run =>
    simp only [cc0__pair_kernel_eq_skeleton]; unfold cc0__pair_kernel_skel
    unfold owns
    iintro ⟨⟨%f0, %hf0, H0⟩, ⟨%f1, %hf1, H1⟩, ⟨%f2, %hf2, H2⟩, HT0, HT1, Hk⟩
    obtain rfl := harg4.eq_unread hf0; obtain rfl := harg5.eq_unread hf1; obtain rfl := harg6.eq_unread hf2
    sl_exec (disch := first | exact hc0 | sl_exact hw1 | sl_exact hw2 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]; · iexact H2
    isplitl [HT0]; · iexact HT0
    iexact HT1

end Cert.Kernel.PredRank
end
-- ==== Proof.K.Pred.Region.lean ====
import proofs.«115298_j79809082295156_2_alg».proof.Proof.K.Pred.RunA
import proofs.«115298_j79809082295156_2_alg».proof.Proof.K.Pred.RunB
import proofs.«115298_j79809082295156_2_alg».proof.Proof.K.Pred.RunC
import proofs.«115298_j79809082295156_2_alg».proof.Proof.K.Pred.RunD
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.Kernel.PredRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The region at entry contents `V` and tables `a`

Everything here is stated for ANY admissible contents `a` of the two tables; the run instantiates them at the
literal tables last. -/

variable (V : (c : Dev nD) → (b : Ref sig .tc) → Buf (Elt F) ((c : Thread nD τ).loc b))
variable (a : (pcfg0 (F := F)).Adm)

abbrev cfgA : Pipeline.Cfg sig Λ₀ := cfg0 a

/-- Window `w`'s block at point `t`, read off its array as the region finds it. -/
def iblk (c : Dev nD) (w : Fin (cfgA a).W) (t : Fin (cfgA a).N) : (((cfgA a).win w).xblock ((cfgA a).grid.coords t)).Idx → Elt F ((cfgA a).win w).elt :=
  (((cfgA a).win w).blk t).view.read (Elt F) (V c (Pipeline.arrRef spec0 w))

/-- An input window's current staging buffer holds its block at every point, fetched there or not. -/
theorem before_in0_of {c : Dev nD} (dat : Dat τ (Elt F) Unit ℕ (UR sig nD τ) ℕ (cfgA a) c) (hA : dat.A 0 = V c (Pipeline.arrRef spec0 0))
    (hafter : ∀ t, dat.after 0 t = iblk V a c 0 t) (t : Fin (cfgA a).N) (d) : dat.before 0 t d = iblk V a c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ (cfgA a) c) (hA : dat.A 1 = V c (Pipeline.arrRef spec0 1))
    (hafter : ∀ t, dat.after 1 t = iblk V a c 1 t) (t : Fin (cfgA a).N) (d) : dat.before 1 t d = iblk V a c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, and its wholeness. -/
abbrev ms_0 (t : Fin (cfgA a).N) : Memref sig .tc .vmem S1024x1 .f32 := spec0_0.stage ((cfgA a).slots t 0)
abbrev hs_0 (t : Fin (cfgA a).N) : (ms_0 a t).IsWhole := hstage0_0 (((cfgA a).slots t 0).cast nbuf0_0)
abbrev ms_1 (t : Fin (cfgA a).N) : Memref sig .tc .vmem S1x1024 .f32 := spec0_1.stage ((cfgA a).slots t 1)
abbrev hs_1 (t : Fin (cfgA a).N) : (ms_1 a t).IsWhole := hstage0_1 (((cfgA a).slots t 1).cast nbuf0_1)
abbrev ms_2 (t : Fin (cfgA a).N) : Memref sig .tc .vmem S1x1x8192 .f32 := spec0_2.stage ((cfgA a).slots t 2)
abbrev hs_2 (t : Fin (cfgA a).N) : (ms_2 a t).IsWhole := hstage0_2 (((cfgA a).slots t 2).cast nbuf0_2)

/-- The kernel body at point `t`, on what the pipeline calls it with. -/
abbrev bodyAt (t : Fin (cfgA a).N) : Prog (TpuEff nD τ sig (Elt F) Λ₀ .tc) PUnit :=
  cc0__pair_kernel (grid0.coords t) tbR htbR tbC htbC (ms_0 a t) (hs_0 a t) (ms_1 a t) (hs_1 a t) (ms_2 a t) (hs_2 a t)

/-- The accumulator's window is written back at the last point of each sweep only, whatever the tables hold (its index map reads none). -/
theorem flush_2 : ∀ t : Fin (cfgA a).N, ((cfgA a).win 2).flush t = true ↔ t.val % 18 = 17 :=
  (by decide +kernel : ∀ t : Fin grid0.N, Pipeline.Window.flushOf grid0 true cc0_transform_2 t = true ↔ t.val % 18 = 17)

/-- The tables, held whole, one by one. -/
theorem tables_eq (c : Dev nD) : (Pipeline.prefHeld pre0 c (fun _ => fullShare) a.1 : sProp 𝕄) = iprop(tbPt c tbR (a.1 0) ∗ tbPt c tbC (a.1 1)) := by
  unfold Pipeline.prefHeld
  rw [show (Finset.univ : Finset (Fin 2)) = insert (0 : Fin 2) {(1 : Fin 2)} from by decide,
    bigSep_insert (by decide), bigSep_singleton]
  rfl

/-- The side conditions the body assumes of the two words it reads, at every point. -/
def Hyps : Prop :=
  ∀ (c : Dev nD) (t : Fin (cfgA a).N),
    k0_chk1 (wd c (grid0.coords t) tbR (a.1 0)) ∧ k0_chk2 (wd c (grid0.coords t) tbR (a.1 0)) (wd c (grid0.coords t) tbC (a.1 1))

/-- Whether the pair at point `t` is off the diagonal, as the body decides it. -/
abbrev offDiag (c : Dev nD) (t : Fin (cfgA a).N) : Prop :=
  k0_cond2 (wd c (grid0.coords t) tbR (a.1 0)) (wd c (grid0.coords t) tbC (a.1 1)) = 1#1

/-- At a first point the body's oldest store fills the whole buffer with zeros, so its stores cover it whatever the later ones are. -/
theorem cover_A (c : Dev nD) (i : grid0.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : condFirst i)
    (x0 : Vec F S1024x1 .f32) (x1 : Vec F S1x1024 .f32)
    (xt0 : TbBuf (F := F) c tbR) (xt1 : TbBuf (F := F) c tbC)
    (hw1 : k0_chk1 (wd c i tbR xt0)) (hw2 : k0_chk2 (wd c i tbR xt0) (wd c i tbC xt1))
    (hc2 : ¬k0_cond2 (wd c i tbR xt0) (wd c i tbC xt1) = 1#1) (y : S1x1x8192.Idx) :
    ∃ pc ∈ (kernelRun_A c i arg4 harg4 arg5 harg5 arg6 harg6 hc0 x0 x1 xt0 xt1 hw1 hw2 hc2).1, y ∈ pc.1.set :=
  View.cover_of_wholeMem (kernelRun_A c i arg4 harg4 arg5 harg5 arg6 harg6 hc0 x0 x1 xt0 xt1 hw1 hw2 hc2).1 (by sl_whole_mem) y

/-- What the body leaves in the accumulator's staging buffer in this case: its stores read back (over anything: they cover the buffer). -/
def out_A (c : Dev nD) (i : grid0.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : condFirst i)
    (x0 : Vec F S1024x1 .f32) (x1 : Vec F S1x1024 .f32)
    (xt0 : TbBuf (F := F) c tbR) (xt1 : TbBuf (F := F) c tbC)
    (hw1 : k0_chk1 (wd c i tbR xt0)) (hw2 : k0_chk2 (wd c i tbR xt0) (wd c i tbC xt1))
    (hc2 : ¬k0_cond2 (wd c i tbR xt0) (wd c i tbC xt1) = 1#1) : Vec F S1x1x8192 .f32 :=
  arg6.view.read (Elt F) (arg6.view.writes (Elt F) arg6.view.junk (kernelRun_A c i arg4 harg4 arg5 harg5 arg6 harg6 hc0 x0 x1 xt0 xt1 hw1 hw2 hc2).1)

/-- At a first point the body's oldest store fills the whole buffer with zeros, so its stores cover it whatever the later ones are. -/
theorem cover_B (c : Dev nD) (i : grid0.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : condFirst i)
    (x0 : Vec F S1024x1 .f32) (x1 : Vec F S1x1024 .f32)
    (xt0 : TbBuf (F := F) c tbR) (xt1 : TbBuf (F := F) c tbC)
    (hw1 : k0_chk1 (wd c i tbR xt0)) (hw2 : k0_chk2 (wd c i tbR xt0) (wd c i tbC xt1))
    (hc2 : k0_cond2 (wd c i tbR xt0) (wd c i tbC xt1) = 1#1) (y : S1x1x8192.Idx) :
    ∃ pc ∈ (kernelRun_B c i arg4 harg4 arg5 harg5 arg6 harg6 hc0 x0 x1 xt0 xt1 hw1 hw2 hc2).1, y ∈ pc.1.set :=
  View.cover_of_wholeMem (kernelRun_B c i arg4 harg4 arg5 harg5 arg6 harg6 hc0 x0 x1 xt0 xt1 hw1 hw2 hc2).1 (by sl_whole_mem) y

/-- What the body leaves in the accumulator's staging buffer in this case: its stores read back (over anything: they cover the buffer). -/
def out_B (c : Dev nD) (i : grid0.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : condFirst i)
    (x0 : Vec F S1024x1 .f32) (x1 : Vec F S1x1024 .f32)
    (xt0 : TbBuf (F := F) c tbR) (xt1 : TbBuf (F := F) c tbC)
    (hw1 : k0_chk1 (wd c i tbR xt0)) (hw2 : k0_chk2 (wd c i tbR xt0) (wd c i tbC xt1))
    (hc2 : k0_cond2 (wd c i tbR xt0) (wd c i tbC xt1) = 1#1) : Vec F S1x1x8192 .f32 :=
  arg6.view.read (Elt F) (arg6.view.writes (Elt F) arg6.view.junk (kernelRun_B c i arg4 harg4 arg5 harg5 arg6 harg6 hc0 x0 x1 xt0 xt1 hw1 hw2 hc2).1)

/-- What the body leaves in the accumulator's staging buffer in this case: its stores read back over the running contents. -/
def out_C (c : Dev nD) (i : grid0.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : ¬condFirst i)
    (x0 : Vec F S1024x1 .f32) (x1 : Vec F S1x1024 .f32) (xo : Vec F S1x1x8192 .f32)
    (xt0 : TbBuf (F := F) c tbR) (xt1 : TbBuf (F := F) c tbC)
    (hw1 : k0_chk1 (wd c i tbR xt0)) (hw2 : k0_chk2 (wd c i tbR xt0) (wd c i tbC xt1))
    (hc2 : ¬k0_cond2 (wd c i tbR xt0) (wd c i tbC xt1) = 1#1) : Vec F S1x1x8192 .f32 :=
  arg6.view.read (Elt F) (arg6.view.writes (Elt F) (harg6.unread xo) (kernelRun_C c i arg4 harg4 arg5 harg5 arg6 harg6 hc0 x0 x1 xo xt0 xt1 hw1 hw2 hc2).1)

/-- What the body leaves in the accumulator's staging buffer in this case: its stores read back over the running contents. -/
def out_D (c : Dev nD) (i : grid0.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : ¬condFirst i)
    (x0 : Vec F S1024x1 .f32) (x1 : Vec F S1x1024 .f32) (xo : Vec F S1x1x8192 .f32)
    (xt0 : TbBuf (F := F) c tbR) (xt1 : TbBuf (F := F) c tbC)
    (hw1 : k0_chk1 (wd c i tbR xt0)) (hw2 : k0_chk2 (wd c i tbR xt0) (wd c i tbC xt1))
    (hc2 : k0_cond2 (wd c i tbR xt0) (wd c i tbC xt1) = 1#1) : Vec F S1x1x8192 .f32 :=
  arg6.view.read (Elt F) (arg6.view.writes (Elt F) (harg6.unread xo) (kernelRun_D c i arg4 harg4 arg5 harg5 arg6 harg6 hc0 x0 x1 xo xt0 xt1 hw1 hw2 hc2).1)

/-! ## What the accumulator's buffer holds after each point -/

/-- The accumulation: at a first point of a sweep the first-point case's contents, at a later point the later-point
    case's over what the point before left (the buffer is not written back in between). -/
def outsAt (hH : Hyps a) (c : Dev nD) : (n : ℕ) → n < (cfgA a).N → Vec F S1x1x8192 .f32
  | 0, hn =>
    if h2 : offDiag a c ⟨0, hn⟩ then
      out_B c (grid0.coords ⟨0, hn⟩) (ms_0 a ⟨0, hn⟩) (hs_0 a ⟨0, hn⟩) (ms_1 a ⟨0, hn⟩) (hs_1 a ⟨0, hn⟩) (ms_2 a ⟨0, hn⟩) (hs_2 a ⟨0, hn⟩) ((hcondFirst ⟨0, hn⟩).mpr (Nat.zero_mod _))
        (iblk V a c 0 ⟨0, hn⟩) (iblk V a c 1 ⟨0, hn⟩) (a.1 0) (a.1 1) (hH c ⟨0, hn⟩).1 (hH c ⟨0, hn⟩).2 h2
    else
      out_A c (grid0.coords ⟨0, hn⟩) (ms_0 a ⟨0, hn⟩) (hs_0 a ⟨0, hn⟩) (ms_1 a ⟨0, hn⟩) (hs_1 a ⟨0, hn⟩) (ms_2 a ⟨0, hn⟩) (hs_2 a ⟨0, hn⟩) ((hcondFirst ⟨0, hn⟩).mpr (Nat.zero_mod _))
        (iblk V a c 0 ⟨0, hn⟩) (iblk V a c 1 ⟨0, hn⟩) (a.1 0) (a.1 1) (hH c ⟨0, hn⟩).1 (hH c ⟨0, hn⟩).2 h2
  | n + 1, hn =>
    if h0 : (n + 1) % 18 = 0 then
      if h2 : offDiag a c ⟨n + 1, hn⟩ then
        out_B c (grid0.coords ⟨n + 1, hn⟩) (ms_0 a ⟨n + 1, hn⟩) (hs_0 a ⟨n + 1, hn⟩) (ms_1 a ⟨n + 1, hn⟩) (hs_1 a ⟨n + 1, hn⟩) (ms_2 a ⟨n + 1, hn⟩) (hs_2 a ⟨n + 1, hn⟩) ((hcondFirst ⟨n + 1, hn⟩).mpr h0)
          (iblk V a c 0 ⟨n + 1, hn⟩) (iblk V a c 1 ⟨n + 1, hn⟩) (a.1 0) (a.1 1) (hH c ⟨n + 1, hn⟩).1 (hH c ⟨n + 1, hn⟩).2 h2
      else
        out_A c (grid0.coords ⟨n + 1, hn⟩) (ms_0 a ⟨n + 1, hn⟩) (hs_0 a ⟨n + 1, hn⟩) (ms_1 a ⟨n + 1, hn⟩) (hs_1 a ⟨n + 1, hn⟩) (ms_2 a ⟨n + 1, hn⟩) (hs_2 a ⟨n + 1, hn⟩) ((hcondFirst ⟨n + 1, hn⟩).mpr h0)
          (iblk V a c 0 ⟨n + 1, hn⟩) (iblk V a c 1 ⟨n + 1, hn⟩) (a.1 0) (a.1 1) (hH c ⟨n + 1, hn⟩).1 (hH c ⟨n + 1, hn⟩).2 h2
    else
      if h2 : offDiag a c ⟨n + 1, hn⟩ then
        out_D c (grid0.coords ⟨n + 1, hn⟩) (ms_0 a ⟨n + 1, hn⟩) (hs_0 a ⟨n + 1, hn⟩) (ms_1 a ⟨n + 1, hn⟩) (hs_1 a ⟨n + 1, hn⟩) (ms_2 a ⟨n + 1, hn⟩) (hs_2 a ⟨n + 1, hn⟩) (fun h => h0 ((hcondFirst ⟨n + 1, hn⟩).mp h))
          (iblk V a c 0 ⟨n + 1, hn⟩) (iblk V a c 1 ⟨n + 1, hn⟩) (outsAt hH c n (Nat.lt_of_succ_lt hn)) (a.1 0) (a.1 1) (hH c ⟨n + 1, hn⟩).1 (hH c ⟨n + 1, hn⟩).2 h2
      else
        out_C c (grid0.coords ⟨n + 1, hn⟩) (ms_0 a ⟨n + 1, hn⟩) (hs_0 a ⟨n + 1, hn⟩) (ms_1 a ⟨n + 1, hn⟩) (hs_1 a ⟨n + 1, hn⟩) (ms_2 a ⟨n + 1, hn⟩) (hs_2 a ⟨n + 1, hn⟩) (fun h => h0 ((hcondFirst ⟨n + 1, hn⟩).mp h))
          (iblk V a c 0 ⟨n + 1, hn⟩) (iblk V a c 1 ⟨n + 1, hn⟩) (outsAt hH c n (Nat.lt_of_succ_lt hn)) (a.1 0) (a.1 1) (hH c ⟨n + 1, hn⟩).1 (hH c ⟨n + 1, hn⟩).2 h2

/-- `outsAt` at a first point, on the diagonal. -/
theorem outsAt_A (hH : Hyps a) (c : Dev nD) (t : Fin (cfgA a).N) (h0 : t.val % 18 = 0) (h2 : ¬offDiag a c t) :
    outsAt V a hH c t.val t.isLt = out_A c (grid0.coords t) (ms_0 a t) (hs_0 a t) (ms_1 a t) (hs_1 a t) (ms_2 a t) (hs_2 a t) ((hcondFirst t).mpr h0) (iblk V a c 0 t) (iblk V a c 1 t) (a.1 0) (a.1 1) (hH c t).1 (hH c t).2 h2 := by
  obtain ⟨n, hn⟩ := t
  cases n with
  | zero => exact (dif_neg h2).trans rfl
  | succ n => exact (dif_pos h0).trans ((dif_neg h2).trans rfl)
/-- `outsAt` at a first point, off the diagonal. -/
theorem outsAt_B (hH : Hyps a) (c : Dev nD) (t : Fin (cfgA a).N) (h0 : t.val % 18 = 0) (h2 : offDiag a c t) :
    outsAt V a hH c t.val t.isLt = out_B c (grid0.coords t) (ms_0 a t) (hs_0 a t) (ms_1 a t) (hs_1 a t) (ms_2 a t) (hs_2 a t) ((hcondFirst t).mpr h0) (iblk V a c 0 t) (iblk V a c 1 t) (a.1 0) (a.1 1) (hH c t).1 (hH c t).2 h2 := by
  obtain ⟨n, hn⟩ := t
  cases n with
  | zero => exact (dif_pos h2).trans rfl
  | succ n => exact (dif_pos h0).trans ((dif_pos h2).trans rfl)
/-- `outsAt` at a later point, on the diagonal: over what the point before left. -/
theorem outsAt_C (hH : Hyps a) (c : Dev nD) (t : Fin (cfgA a).N) (h0 : ¬t.val % 18 = 0) (h2 : ¬offDiag a c t) :
    outsAt V a hH c t.val t.isLt = out_C c (grid0.coords t) (ms_0 a t) (hs_0 a t) (ms_1 a t) (hs_1 a t) (ms_2 a t) (hs_2 a t) (fun h => h0 ((hcondFirst t).mp h)) (iblk V a c 0 t) (iblk V a c 1 t)
      (outsAt V a hH c (t.val - 1) (Nat.lt_of_le_of_lt (Nat.sub_le _ _) t.isLt)) (a.1 0) (a.1 1) (hH c t).1 (hH c t).2 h2 := by
  obtain ⟨n, hn⟩ := t
  cases n with
  | zero => exact (by exfalso; exact absurd (Nat.zero_mod _) h0)
  | succ n => exact (dif_neg h0).trans ((dif_neg h2).trans rfl)
/-- `outsAt` at a later point, off the diagonal. -/
theorem outsAt_D (hH : Hyps a) (c : Dev nD) (t : Fin (cfgA a).N) (h0 : ¬t.val % 18 = 0) (h2 : offDiag a c t) :
    outsAt V a hH c t.val t.isLt = out_D c (grid0.coords t) (ms_0 a t) (hs_0 a t) (ms_1 a t) (hs_1 a t) (ms_2 a t) (hs_2 a t) (fun h => h0 ((hcondFirst t).mp h)) (iblk V a c 0 t) (iblk V a c 1 t)
      (outsAt V a hH c (t.val - 1) (Nat.lt_of_le_of_lt (Nat.sub_le _ _) t.isLt)) (a.1 0) (a.1 1) (hH c t).1 (hH c t).2 h2 := by
  obtain ⟨n, hn⟩ := t
  cases n with
  | zero => exact (by exfalso; exact absurd (Nat.zero_mod _) h0)
  | succ n => exact (dif_neg h0).trans ((dif_pos h2).trans rfl)

/-! ## The pipeline's proof data -/

/-- The proof data on core `c`: the arrays as the region finds them; after the body at point `t` each input's buffer
    at its block and the accumulator's at `outsAt`; the invariant the scoped rest, the generator register and the
    two tables held whole; nothing owed; full shares. -/
def dat (hH : Hyps a) (c : Dev nD) : Dat τ (Elt F) Unit ℕ (UR sig nD τ) ℕ (cfgA a) c where
  A w := V c (Pipeline.arrRef spec0 w)
  after w t := match w with
    | ⟨0, _⟩ => iblk V a c 0 t
    | ⟨1, _⟩ => iblk V a c 1 t
    | ⟨2, _⟩ => outsAt V a hH c t.val t.isLt
  Φ _ := iprop(Pipeline.ΦA spec0 c ∗ Pipeline.prefHeld pre0 c (fun _ => fullShare) a.1)
  q _ := fullShare
  owed _ := 0

theorem A_eq (hH : Hyps a) (c : Dev nD) (w : Fin (cfgA a).W) : (dat V a hH c).A w = V c (Pipeline.arrRef spec0 w) := by
  dsimp only [dat]
theorem after_0 (hH : Hyps a) (c : Dev nD) (t : Fin (cfgA a).N) : (dat V a hH c).after 0 t = iblk V a c 0 t := by dsimp only [dat]; try rfl
theorem after_1 (hH : Hyps a) (c : Dev nD) (t : Fin (cfgA a).N) : (dat V a hH c).after 1 t = iblk V a c 1 t := by dsimp only [dat]; try rfl
theorem after_2 (hH : Hyps a) (c : Dev nD) (t : Fin (cfgA a).N) : (dat V a hH c).after 2 t = outsAt V a hH c t.val t.isLt := by dsimp only [dat]; try rfl

theorem before_0 (hH : Hyps a) (c : Dev nD) (t : Fin (cfgA a).N) (d) : (dat V a hH c).before 0 t d = iblk V a c 0 t :=
  before_in0_of V a (dat V a hH c) (A_eq V a hH c 0) (after_0 V a hH c) t d
theorem before_1 (hH : Hyps a) (c : Dev nD) (t : Fin (cfgA a).N) (d) : (dat V a hH c).before 1 t d = iblk V a c 1 t :=
  before_in1_of V a (dat V a hH c) (A_eq V a hH c 1) (after_1 V a hH c) t d
/-- At a later point of a sweep the accumulator's buffer holds what the body left at the point before: it was not
    written back in between. -/
theorem before_2_later (hH : Hyps a) (c : Dev nD) (t : Fin (cfgA a).N) (h0 : ¬t.val % 18 = 0) (d) :
    (dat V a hH c).before 2 t d = outsAt V a hH c (t.val - 1) (Nat.lt_of_le_of_lt (Nat.sub_le _ _) t.isLt) := by
  have hN : t.val < 36 := lt_of_lt_of_eq t.isLt (show (cfgA a).N = 36 from N_0)
  rw [Dat.before_out_kept _ 2 rfl t (by omega) (Bool.eq_false_iff.mpr fun h => by have := (flush_2 a _).mp h; dsimp only at this; omega)
    (fun _ => rfl) (fun _ _ => rfl)]
  exact after_2 V a hH c _

/-! ## The body obligation, at a generic point -/

def bodyPre (hH : Hyps a) (c : Dev nD) (t : Fin (cfgA a).N) : sProp 𝕄 :=
  iprop((dat V a hH c).Φ t.castSucc ∗ (dat V a hH c).owesAt () t.castSucc
    ∗ (∃ d, owns (c : Thread nD τ) (ms_0 a t) fullShare ((dat V a hH c).before 0 t d))
    ∗ (∃ d, owns (c : Thread nD τ) (ms_1 a t) fullShare ((dat V a hH c).before 1 t d))
    ∗ (∃ d, owns (c : Thread nD τ) (ms_2 a t) fullShare ((dat V a hH c).before 2 t d)))

def bodyPost (hH : Hyps a) (c : Dev nD) (t : Fin (cfgA a).N) : sProp 𝕄 :=
  iprop((dat V a hH c).Φ t.succ ∗ (dat V a hH c).owesAt () t.succ
    ∗ owns (c : Thread nD τ) (ms_0 a t) fullShare ((dat V a hH c).after 0 t)
    ∗ owns (c : Thread nD τ) (ms_1 a t) fullShare ((dat V a hH c).after 1 t)
    ∗ owns (c : Thread nD τ) (ms_2 a t) fullShare ((dat V a hH c).after 2 t))

set_option maxHeartbeats 3200000 in
/-- The body at any point: the inputs' memrefs hold their blocks; the point is a first or a later point of its sweep
    and its pair on or off the diagonal (four cases); at a later point the accumulator's buffer holds what the point
    before left; so that case's run applies. The invariant passes through, the tables lent to the run and taken back. -/
theorem sound_body (hH : Hyps a) (c : Dev nD) (t : Fin (cfgA a).N) :
    bodyPre V a hH c t ⊢ wp frame (wpE (defs₀ (F := F)) Variants.none c none) Set.univ (bodyAt a t) (fun _ => bodyPost V a hH c t) := by
  unfold bodyPre bodyPost bodyAt
  simp only [before_0, before_1]
  rw [show (dat V a hH c).Φ t.succ = (dat V a hH c).Φ t.castSucc from rfl,
    show (dat V a hH c).owesAt () t.succ = (dat V a hH c).owesAt () t.castSucc from rfl,
    after_0, after_1, after_2]
  rw [show (dat V a hH c).Φ t.castSucc = iprop(Pipeline.ΦA spec0 c ∗ Pipeline.prefHeld pre0 c (fun _ => fullShare) a.1) from rfl, tables_eq]
  by_cases h0 : t.val % 18 = 0
  · by_cases h2 : offDiag a c t
    ·
      rw [outsAt_B V a hH c t h0 h2]
      unfold out_B
      iintro ⟨⟨HΦ, ⟨HT0, HT1⟩⟩, Ho, ⟨%d0, H0⟩, ⟨%d1, H1⟩, ⟨%d2, H2⟩⟩
      iapply ((kernelRun_B c (grid0.coords t) (ms_0 a t) (hs_0 a t) (ms_1 a t) (hs_1 a t) (ms_2 a t) (hs_2 a t) ((hcondFirst t).mpr h0) (iblk V a c 0 t) (iblk V a c 1 t) (a.1 0) (a.1 1) (hH c t).1 (hH c t).2 h2).2 Set.univ _)
      isplitl [H0]; · iexact H0
      isplitl [H1]; · iexact H1
      isplitl [H2]; · iexists _; iexact H2
      isplitl [HT0]; · iexact HT0
      isplitl [HT1]; · iexact HT1
      iintro ⟨H0, H1, ⟨%e2, H2⟩, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      unfold owns; iexists _; isplitr
      swap; · iexact H2
      ipureintro; exact View.read_writes_of_cover _ _ _ _ _ (cover_B c (grid0.coords t) (ms_0 a t) (hs_0 a t) (ms_1 a t) (hs_1 a t) (ms_2 a t) (hs_2 a t) ((hcondFirst t).mpr h0) (iblk V a c 0 t) (iblk V a c 1 t) (a.1 0) (a.1 1) (hH c t).1 (hH c t).2 h2)
    ·
      rw [outsAt_A V a hH c t h0 h2]
      unfold out_A
      iintro ⟨⟨HΦ, ⟨HT0, HT1⟩⟩, Ho, ⟨%d0, H0⟩, ⟨%d1, H1⟩, ⟨%d2, H2⟩⟩
      iapply ((kernelRun_A c (grid0.coords t) (ms_0 a t) (hs_0 a t) (ms_1 a t) (hs_1 a t) (ms_2 a t) (hs_2 a t) ((hcondFirst t).mpr h0) (iblk V a c 0 t) (iblk V a c 1 t) (a.1 0) (a.1 1) (hH c t).1 (hH c t).2 h2).2 Set.univ _)
      isplitl [H0]; · iexact H0
      isplitl [H1]; · iexact H1
      isplitl [H2]; · iexists _; iexact H2
      isplitl [HT0]; · iexact HT0
      isplitl [HT1]; · iexact HT1
      iintro ⟨H0, H1, ⟨%e2, H2⟩, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      unfold owns; iexists _; isplitr
      swap; · iexact H2
      ipureintro; exact View.read_writes_of_cover _ _ _ _ _ (cover_A c (grid0.coords t) (ms_0 a t) (hs_0 a t) (ms_1 a t) (hs_1 a t) (ms_2 a t) (hs_2 a t) ((hcondFirst t).mpr h0) (iblk V a c 0 t) (iblk V a c 1 t) (a.1 0) (a.1 1) (hH c t).1 (hH c t).2 h2)
  · by_cases h2 : offDiag a c t
    ·
      rw [outsAt_D V a hH c t h0 h2]
      simp only [before_2_later V a hH c t h0]
      unfold out_D
      iintro ⟨⟨HΦ, ⟨HT0, HT1⟩⟩, Ho, ⟨%d0, H0⟩, ⟨%d1, H1⟩, ⟨%d2, H2⟩⟩
      iapply ((kernelRun_D c (grid0.coords t) (ms_0 a t) (hs_0 a t) (ms_1 a t) (hs_1 a t) (ms_2 a t) (hs_2 a t) (fun h => h0 ((hcondFirst t).mp h)) (iblk V a c 0 t) (iblk V a c 1 t) (outsAt V a hH c (t.val - 1) (Nat.lt_of_le_of_lt (Nat.sub_le _ _) t.isLt)) (a.1 0) (a.1 1) (hH c t).1 (hH c t).2 h2).2 Set.univ _)
      isplitl [H0]; · iexact H0
      isplitl [H1]; · iexact H1
      isplitl [H2]; · iexact H2
      isplitl [HT0]; · iexact HT0
      isplitl [HT1]; · iexact HT1
      iintro ⟨H0, H1, H2, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      unfold owns; iexists _; isplitr
      swap; · iexact H2
      ipureintro; rfl
    ·
      rw [outsAt_C V a hH c t h0 h2]
      simp only [before_2_later V a hH c t h0]
      unfold out_C
      iintro ⟨⟨HΦ, ⟨HT0, HT1⟩⟩, Ho, ⟨%d0, H0⟩, ⟨%d1, H1⟩, ⟨%d2, H2⟩⟩
      iapply ((kernelRun_C c (grid0.coords t) (ms_0 a t) (hs_0 a t) (ms_1 a t) (hs_1 a t) (ms_2 a t) (hs_2 a t) (fun h => h0 ((hcondFirst t).mp h)) (iblk V a c 0 t) (iblk V a c 1 t) (outsAt V a hH c (t.val - 1) (Nat.lt_of_le_of_lt (Nat.sub_le _ _) t.isLt)) (a.1 0) (a.1 1) (hH c t).1 (hH c t).2 h2).2 Set.univ _)
      isplitl [H0]; · iexact H0
      isplitl [H1]; · iexact H1
      isplitl [H2]; · iexact H2
      isplitl [HT0]; · iexact HT0
      isplitl [HT1]; · iexact HT1
      iintro ⟨H0, H1, H2, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      unfold owns; iexists _; isplitr
      swap; · iexact H2
      ipureintro; rfl

/-- The library's body obligation, at every point. -/
theorem body_obligation (hH : Hyps a) (c : Dev nD) : BodyObligation (dat (F := F) V a hH c) (defs₀ (F := F)) Variants.none () Set.univ := fun t => by
  rw [bigSep_W0, bigSep_W0]
  exact sound_body V a hH c t

end Cert.Kernel.PredRank
end
-- ==== Proof.K.Targ.Words.lean ====
import proofs.«115298_j79809082295156_2_alg».proof.Proof.Gen.Kernel.Launch
import proofs.«115298_j79809082295156_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.Kernel.TargRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The pair tables as the body is handed them, and the words it reads -/

abbrev tbR : Memref sig .tc .smem S2x18 .i32 := Memref.whole main_c_1
abbrev htbR : tbR.IsWhole := Memref.isWhole_whole _
abbrev tbC : Memref sig .tc .smem S2x18 .i32 := Memref.whole main_c_2
abbrev htbC : tbC.IsWhole := Memref.isWhole_whole _

abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare} f

/-- The word of a table at the grid point's cell. -/
abbrev wd (c : Dev nD) (i : grid1.Coords) (M : Memref sig .tc .smem S2x18 .i32) (xt : TbBuf (F := F) c M) : Elt F .i32 :=
  M.view.readAt (Elt F) (Rect.unit (s := S2x18) (k1_off1 i) S1x1.size (k1_off1_inb i)).toLoadRect xt (Shape.Idx.first (numel1_S1x1.symm ▸ Nat.one_pos))

/-- The first conditional's condition: the second grid coordinate is zero (the first pair of a sweep). -/
abbrev condFirst (i : grid1.Coords) : Prop := (Scalar.cmpi .ne (Scalar.extui (Scalar.cmpi .eq (BitVec.ofNat 32 (i 1).val) 0#32)) 0#32) = 1#1

/-! ## The tables' literal contents, and the words at each grid point

The two tables are constants of the program: row `k` of each lists, pair by pair, the row block and the column
block of the pairs sweep `k` visits. Everything the control and the slices need of them is decided here, once,
over the 36 grid points. -/

/-- The row-block table and the column-block table, as the host constants write them. -/
abbrev TR : S2x18.Idx → BitVec 32 := fun i => lit2 (S2x18.rowMajor i)
abbrev TC : S2x18.Idx → BitVec 32 := fun i => lit3 (S2x18.rowMajor i)

/-- Both tables as the region's prefetched contents. -/
def tblL : pre1.Contents (Elt F) := fun | ⟨0, _⟩ => TR | ⟨1, _⟩ => TC | ⟨_ + 2, h⟩ => absurd h (Nat.not_lt.2 (Nat.le_add_left _ _))

/-- The table cell a grid point reads. -/
abbrev cell (i : grid1.Coords) : S2x18.Idx :=
  (Rect.unit (s := S2x18) (k1_off1 i) S1x1.size (k1_off1_inb i)).emb (Shape.Idx.first (numel1_S1x1.symm ▸ Nat.one_pos))

/-- The row block and the column block of the pair at point `t`, as words. -/
def wr (t : Fin grid1.N) : BitVec 32 := TR (cell (grid1.coords t))
def wc (t : Fin grid1.N) : BitVec 32 := TC (cell (grid1.coords t))

theorem wd_r (c : Dev nD) (t : Fin grid1.N) : wd (F := F) c (grid1.coords t) tbR (tblL (F := F) 0) = wr t := rfl
theorem wd_c (c : Dev nD) (t : Fin grid1.N) : wd (F := F) c (grid1.coords t) tbC (tblL (F := F) 1) = wc t := rfl

/-- At every point both blocks are below 8, so the slices the body takes at 1024 times them lie inside the row of 8192. -/
theorem chk_all : ∀ t : Fin grid1.N, k1_chk1 (wr t) ∧ k1_chk2 (wr t) (wc t) := by decide +kernel

/-- The accumulator is reset exactly at the first point of each sweep. -/
theorem hcondFirst : ∀ t : Fin grid1.N, condFirst (grid1.coords t) ↔ t.val % 18 = 0 := by decide +kernel

/-- The side condition of the tables' contents: every block the index maps name lies inside its array. -/
theorem ok_tblL : ok1 (F := F) (tblL (F := F)) := by
  have h0 : ∀ i : grid1.Coords, ∀ a, (![(TR (cell i)).toNat, 0] a + 1) * S1024x1.size a ≤ S8192x1.size a := by decide +kernel
  have h1 : ∀ i : grid1.Coords, ∀ a, (![0, (TC (cell i)).toNat] a + 1) * S1x1024.size a ≤ S1x8192.size a := by decide +kernel
  exact ⟨fun i => ⟨h0 i, .inl rfl⟩, fun i => ⟨h1 i, .inl rfl⟩⟩

end Cert.Kernel.TargRank
end
-- ==== Proof.K.Targ.RunA.lean ====
import proofs.«115298_j79809082295156_2_alg».proof.Proof.K.Targ.Words
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.Kernel.TargRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a first point of a sweep whose pair is on the diagonal (one slice updated):
    on whole staging memrefs, the two input blocks at their contents,
    the tables at theirs with the point's two words in range, it runs to the continuation holding the inputs and
    the tables as they were and the accumulator's buffer with the body's stores written (the first of them the zero fill of the whole buffer); the stores, newest first, are the witness the run finds. -/
noncomputable def kernelRun_A (c : Dev nD) (i : grid1.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : condFirst i)
    (x0 : Vec F S1024x1 .f32) (x1 : Vec F S1x1024 .f32)
    (xt0 : TbBuf (F := F) c tbR) (xt1 : TbBuf (F := F) c tbC)
    (hw1 : k1_chk1 (wd c i tbR xt0)) (hw2 : k1_chk2 (wd c i tbR xt0) (wd c i tbC xt1))
    (hc2 : ¬k1_cond2 (wd c i tbR xt0) (wd c i tbC xt1) = 1#1) :
    { L : List (View.Piece (Elt F) S1x1x8192 .f32) //
      ∀ (E : Set ℕ) (K : PUnit → sProp 𝕄),
        iprop(owns (c : Thread nD τ) arg4 fullShare x0 ∗ owns (c : Thread nD τ) arg5 fullShare x1 ∗ (∃ d, owns (c : Thread nD τ) arg6 fullShare d)
            ∗ tbPt c tbR xt0 ∗ tbPt c tbC xt1
            ∗ (iprop(owns (c : Thread nD τ) arg4 fullShare x0 ∗ owns (c : Thread nD τ) arg5 fullShare x1
                ∗ (∃ f, arg6.view.loc (c : Thread nD τ) ↦[arg6.view.set]{fullShare} arg6.view.writes (Elt F) f L)
                ∗ tbPt c tbR xt0 ∗ tbPt c tbC xt1) -∗ K ⟨⟩))
          ⊢ wp frame (wpE (defs₀ (F := F)) Variants.none c none) E (cc1__pair_kernel i tbR htbR tbC htbC arg4 harg4 arg5 harg5 arg6 harg6) K } := by
  refine ⟨?_, fun E K => ?run⟩
  case run =>
    simp only [cc1__pair_kernel_eq_skeleton]; unfold cc1__pair_kernel_skel
    unfold owns
    iintro ⟨⟨%f0, %hf0, H0⟩, ⟨%f1, %hf1, H1⟩, ⟨%d2, %f2, -, H2⟩, HT0, HT1, Hk⟩
    obtain rfl := harg4.eq_unread hf0; obtain rfl := harg5.eq_unread hf1
    sl_exec (disch := first | exact hc0 | sl_exact hw1 | sl_exact hw2 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]; · iexists _; iexact H2
    isplitl [HT0]; · iexact HT0
    iexact HT1

end Cert.Kernel.TargRank
end
-- ==== Proof.K.Targ.RunB.lean ====
import proofs.«115298_j79809082295156_2_alg».proof.Proof.K.Targ.Words
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.Kernel.TargRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a first point of a sweep whose pair is off the diagonal (two slices updated):
    on whole staging memrefs, the two input blocks at their contents,
    the tables at theirs with the point's two words in range, it runs to the continuation holding the inputs and
    the tables as they were and the accumulator's buffer with the body's stores written (the first of them the zero fill of the whole buffer); the stores, newest first, are the witness the run finds. -/
noncomputable def kernelRun_B (c : Dev nD) (i : grid1.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : condFirst i)
    (x0 : Vec F S1024x1 .f32) (x1 : Vec F S1x1024 .f32)
    (xt0 : TbBuf (F := F) c tbR) (xt1 : TbBuf (F := F) c tbC)
    (hw1 : k1_chk1 (wd c i tbR xt0)) (hw2 : k1_chk2 (wd c i tbR xt0) (wd c i tbC xt1))
    (hc2 : k1_cond2 (wd c i tbR xt0) (wd c i tbC xt1) = 1#1) :
    { L : List (View.Piece (Elt F) S1x1x8192 .f32) //
      ∀ (E : Set ℕ) (K : PUnit → sProp 𝕄),
        iprop(owns (c : Thread nD τ) arg4 fullShare x0 ∗ owns (c : Thread nD τ) arg5 fullShare x1 ∗ (∃ d, owns (c : Thread nD τ) arg6 fullShare d)
            ∗ tbPt c tbR xt0 ∗ tbPt c tbC xt1
            ∗ (iprop(owns (c : Thread nD τ) arg4 fullShare x0 ∗ owns (c : Thread nD τ) arg5 fullShare x1
                ∗ (∃ f, arg6.view.loc (c : Thread nD τ) ↦[arg6.view.set]{fullShare} arg6.view.writes (Elt F) f L)
                ∗ tbPt c tbR xt0 ∗ tbPt c tbC xt1) -∗ K ⟨⟩))
          ⊢ wp frame (wpE (defs₀ (F := F)) Variants.none c none) E (cc1__pair_kernel i tbR htbR tbC htbC arg4 harg4 arg5 harg5 arg6 harg6) K } := by
  refine ⟨?_, fun E K => ?run⟩
  case run =>
    simp only [cc1__pair_kernel_eq_skeleton]; unfold cc1__pair_kernel_skel
    unfold owns
    iintro ⟨⟨%f0, %hf0, H0⟩, ⟨%f1, %hf1, H1⟩, ⟨%d2, %f2, -, H2⟩, HT0, HT1, Hk⟩
    obtain rfl := harg4.eq_unread hf0; obtain rfl := harg5.eq_unread hf1
    sl_exec (disch := first | exact hc0 | sl_exact hw1 | sl_exact hw2 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]; · iexists _; iexact H2
    isplitl [HT0]; · iexact HT0
    iexact HT1

end Cert.Kernel.TargRank
end
-- ==== Proof.K.Targ.RunC.lean ====
import proofs.«115298_j79809082295156_2_alg».proof.Proof.K.Targ.Words
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.Kernel.TargRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a later point of a sweep whose pair is on the diagonal (one slice updated):
    on whole staging memrefs, the two input blocks at their contents, the accumulator's buffer at its running contents `xo`,
    the tables at theirs with the point's two words in range, it runs to the continuation holding the inputs and
    the tables as they were and the accumulator's buffer with the body's stores written over `xo`; the stores, newest first, are the witness the run finds. -/
noncomputable def kernelRun_C (c : Dev nD) (i : grid1.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : ¬condFirst i)
    (x0 : Vec F S1024x1 .f32) (x1 : Vec F S1x1024 .f32) (xo : Vec F S1x1x8192 .f32)
    (xt0 : TbBuf (F := F) c tbR) (xt1 : TbBuf (F := F) c tbC)
    (hw1 : k1_chk1 (wd c i tbR xt0)) (hw2 : k1_chk2 (wd c i tbR xt0) (wd c i tbC xt1))
    (hc2 : ¬k1_cond2 (wd c i tbR xt0) (wd c i tbC xt1) = 1#1) :
    { L : List (View.Piece (Elt F) S1x1x8192 .f32) //
      ∀ (E : Set ℕ) (K : PUnit → sProp 𝕄),
        iprop(owns (c : Thread nD τ) arg4 fullShare x0 ∗ owns (c : Thread nD τ) arg5 fullShare x1 ∗ owns (c : Thread nD τ) arg6 fullShare xo
            ∗ tbPt c tbR xt0 ∗ tbPt c tbC xt1
            ∗ (iprop(owns (c : Thread nD τ) arg4 fullShare x0 ∗ owns (c : Thread nD τ) arg5 fullShare x1
                ∗ (arg6.view.loc (c : Thread nD τ) ↦[arg6.view.set]{fullShare} arg6.view.writes (Elt F) (harg6.unread xo) L)
                ∗ tbPt c tbR xt0 ∗ tbPt c tbC xt1) -∗ K ⟨⟩))
          ⊢ wp frame (wpE (defs₀ (F := F)) Variants.none c none) E (cc1__pair_kernel i tbR htbR tbC htbC arg4 harg4 arg5 harg5 arg6 harg6) K } := by
  refine ⟨?_, fun E K => ?run⟩
  case run =>
    simp only [cc1__pair_kernel_eq_skeleton]; unfold cc1__pair_kernel_skel
    unfold owns
    iintro ⟨⟨%f0, %hf0, H0⟩, ⟨%f1, %hf1, H1⟩, ⟨%f2, %hf2, H2⟩, HT0, HT1, Hk⟩
    obtain rfl := harg4.eq_unread hf0; obtain rfl := harg5.eq_unread hf1; obtain rfl := harg6.eq_unread hf2
    sl_exec (disch := first | exact hc0 | sl_exact hw1 | sl_exact hw2 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]; · iexact H2
    isplitl [HT0]; · iexact HT0
    iexact HT1

end Cert.Kernel.TargRank
end
-- ==== Proof.K.Targ.RunD.lean ====
import proofs.«115298_j79809082295156_2_alg».proof.Proof.K.Targ.Words
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.Kernel.TargRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a later point of a sweep whose pair is off the diagonal (two slices updated):
    on whole staging memrefs, the two input blocks at their contents, the accumulator's buffer at its running contents `xo`,
    the tables at theirs with the point's two words in range, it runs to the continuation holding the inputs and
    the tables as they were and the accumulator's buffer with the body's stores written over `xo`; the stores, newest first, are the witness the run finds. -/
noncomputable def kernelRun_D (c : Dev nD) (i : grid1.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : ¬condFirst i)
    (x0 : Vec F S1024x1 .f32) (x1 : Vec F S1x1024 .f32) (xo : Vec F S1x1x8192 .f32)
    (xt0 : TbBuf (F := F) c tbR) (xt1 : TbBuf (F := F) c tbC)
    (hw1 : k1_chk1 (wd c i tbR xt0)) (hw2 : k1_chk2 (wd c i tbR xt0) (wd c i tbC xt1))
    (hc2 : k1_cond2 (wd c i tbR xt0) (wd c i tbC xt1) = 1#1) :
    { L : List (View.Piece (Elt F) S1x1x8192 .f32) //
      ∀ (E : Set ℕ) (K : PUnit → sProp 𝕄),
        iprop(owns (c : Thread nD τ) arg4 fullShare x0 ∗ owns (c : Thread nD τ) arg5 fullShare x1 ∗ owns (c : Thread nD τ) arg6 fullShare xo
            ∗ tbPt c tbR xt0 ∗ tbPt c tbC xt1
            ∗ (iprop(owns (c : Thread nD τ) arg4 fullShare x0 ∗ owns (c : Thread nD τ) arg5 fullShare x1
                ∗ (arg6.view.loc (c : Thread nD τ) ↦[arg6.view.set]{fullShare} arg6.view.writes (Elt F) (harg6.unread xo) L)
                ∗ tbPt c tbR xt0 ∗ tbPt c tbC xt1) -∗ K ⟨⟩))
          ⊢ wp frame (wpE (defs₀ (F := F)) Variants.none c none) E (cc1__pair_kernel i tbR htbR tbC htbC arg4 harg4 arg5 harg5 arg6 harg6) K } := by
  refine ⟨?_, fun E K => ?run⟩
  case run =>
    simp only [cc1__pair_kernel_eq_skeleton]; unfold cc1__pair_kernel_skel
    unfold owns
    iintro ⟨⟨%f0, %hf0, H0⟩, ⟨%f1, %hf1, H1⟩, ⟨%f2, %hf2, H2⟩, HT0, HT1, Hk⟩
    obtain rfl := harg4.eq_unread hf0; obtain rfl := harg5.eq_unread hf1; obtain rfl := harg6.eq_unread hf2
    sl_exec (disch := first | exact hc0 | sl_exact hw1 | sl_exact hw2 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]; · iexact H2
    isplitl [HT0]; · iexact HT0
    iexact HT1

end Cert.Kernel.TargRank
end
-- ==== Proof.K.Targ.Region.lean ====
import proofs.«115298_j79809082295156_2_alg».proof.Proof.K.Targ.RunA
import proofs.«115298_j79809082295156_2_alg».proof.Proof.K.Targ.RunB
import proofs.«115298_j79809082295156_2_alg».proof.Proof.K.Targ.RunC
import proofs.«115298_j79809082295156_2_alg».proof.Proof.K.Targ.RunD
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.Kernel.TargRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The region at entry contents `V` and tables `a`

Everything here is stated for ANY admissible contents `a` of the two tables; the run instantiates them at the
literal tables last. -/

variable (V : (c : Dev nD) → (b : Ref sig .tc) → Buf (Elt F) ((c : Thread nD τ).loc b))
variable (a : (pcfg1 (F := F)).Adm)

abbrev cfgA : Pipeline.Cfg sig Λ₀ := cfg1 a

/-- Window `w`'s block at point `t`, read off its array as the region finds it. -/
def iblk (c : Dev nD) (w : Fin (cfgA a).W) (t : Fin (cfgA a).N) : (((cfgA a).win w).xblock ((cfgA a).grid.coords t)).Idx → Elt F ((cfgA a).win w).elt :=
  (((cfgA a).win w).blk t).view.read (Elt F) (V c (Pipeline.arrRef spec1 w))

/-- An input window's current staging buffer holds its block at every point, fetched there or not. -/
theorem before_in0_of {c : Dev nD} (dat : Dat τ (Elt F) Unit ℕ (UR sig nD τ) ℕ (cfgA a) c) (hA : dat.A 0 = V c (Pipeline.arrRef spec1 0))
    (hafter : ∀ t, dat.after 0 t = iblk V a c 0 t) (t : Fin (cfgA a).N) (d) : dat.before 0 t d = iblk V a c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ (cfgA a) c) (hA : dat.A 1 = V c (Pipeline.arrRef spec1 1))
    (hafter : ∀ t, dat.after 1 t = iblk V a c 1 t) (t : Fin (cfgA a).N) (d) : dat.before 1 t d = iblk V a c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, and its wholeness. -/
abbrev ms_0 (t : Fin (cfgA a).N) : Memref sig .tc .vmem S1024x1 .f32 := spec1_0.stage ((cfgA a).slots t 0)
abbrev hs_0 (t : Fin (cfgA a).N) : (ms_0 a t).IsWhole := hstage1_0 (((cfgA a).slots t 0).cast nbuf1_0)
abbrev ms_1 (t : Fin (cfgA a).N) : Memref sig .tc .vmem S1x1024 .f32 := spec1_1.stage ((cfgA a).slots t 1)
abbrev hs_1 (t : Fin (cfgA a).N) : (ms_1 a t).IsWhole := hstage1_1 (((cfgA a).slots t 1).cast nbuf1_1)
abbrev ms_2 (t : Fin (cfgA a).N) : Memref sig .tc .vmem S1x1x8192 .f32 := spec1_2.stage ((cfgA a).slots t 2)
abbrev hs_2 (t : Fin (cfgA a).N) : (ms_2 a t).IsWhole := hstage1_2 (((cfgA a).slots t 2).cast nbuf1_2)

/-- The kernel body at point `t`, on what the pipeline calls it with. -/
abbrev bodyAt (t : Fin (cfgA a).N) : Prog (TpuEff nD τ sig (Elt F) Λ₀ .tc) PUnit :=
  cc1__pair_kernel (grid1.coords t) tbR htbR tbC htbC (ms_0 a t) (hs_0 a t) (ms_1 a t) (hs_1 a t) (ms_2 a t) (hs_2 a t)

/-- The accumulator's window is written back at the last point of each sweep only, whatever the tables hold (its index map reads none). -/
theorem flush_2 : ∀ t : Fin (cfgA a).N, ((cfgA a).win 2).flush t = true ↔ t.val % 18 = 17 :=
  (by decide +kernel : ∀ t : Fin grid1.N, Pipeline.Window.flushOf grid1 true cc1_transform_2 t = true ↔ t.val % 18 = 17)

/-- The tables, held whole, one by one. -/
theorem tables_eq (c : Dev nD) : (Pipeline.prefHeld pre1 c (fun _ => fullShare) a.1 : sProp 𝕄) = iprop(tbPt c tbR (a.1 0) ∗ tbPt c tbC (a.1 1)) := by
  unfold Pipeline.prefHeld
  rw [show (Finset.univ : Finset (Fin 2)) = insert (0 : Fin 2) {(1 : Fin 2)} from by decide,
    bigSep_insert (by decide), bigSep_singleton]
  rfl

/-- The side conditions the body assumes of the two words it reads, at every point. -/
def Hyps : Prop :=
  ∀ (c : Dev nD) (t : Fin (cfgA a).N),
    k1_chk1 (wd c (grid1.coords t) tbR (a.1 0)) ∧ k1_chk2 (wd c (grid1.coords t) tbR (a.1 0)) (wd c (grid1.coords t) tbC (a.1 1))

/-- Whether the pair at point `t` is off the diagonal, as the body decides it. -/
abbrev offDiag (c : Dev nD) (t : Fin (cfgA a).N) : Prop :=
  k1_cond2 (wd c (grid1.coords t) tbR (a.1 0)) (wd c (grid1.coords t) tbC (a.1 1)) = 1#1

/-- At a first point the body's oldest store fills the whole buffer with zeros, so its stores cover it whatever the later ones are. -/
theorem cover_A (c : Dev nD) (i : grid1.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : condFirst i)
    (x0 : Vec F S1024x1 .f32) (x1 : Vec F S1x1024 .f32)
    (xt0 : TbBuf (F := F) c tbR) (xt1 : TbBuf (F := F) c tbC)
    (hw1 : k1_chk1 (wd c i tbR xt0)) (hw2 : k1_chk2 (wd c i tbR xt0) (wd c i tbC xt1))
    (hc2 : ¬k1_cond2 (wd c i tbR xt0) (wd c i tbC xt1) = 1#1) (y : S1x1x8192.Idx) :
    ∃ pc ∈ (kernelRun_A c i arg4 harg4 arg5 harg5 arg6 harg6 hc0 x0 x1 xt0 xt1 hw1 hw2 hc2).1, y ∈ pc.1.set :=
  View.cover_of_wholeMem (kernelRun_A c i arg4 harg4 arg5 harg5 arg6 harg6 hc0 x0 x1 xt0 xt1 hw1 hw2 hc2).1 (by sl_whole_mem) y

/-- What the body leaves in the accumulator's staging buffer in this case: its stores read back (over anything: they cover the buffer). -/
def out_A (c : Dev nD) (i : grid1.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : condFirst i)
    (x0 : Vec F S1024x1 .f32) (x1 : Vec F S1x1024 .f32)
    (xt0 : TbBuf (F := F) c tbR) (xt1 : TbBuf (F := F) c tbC)
    (hw1 : k1_chk1 (wd c i tbR xt0)) (hw2 : k1_chk2 (wd c i tbR xt0) (wd c i tbC xt1))
    (hc2 : ¬k1_cond2 (wd c i tbR xt0) (wd c i tbC xt1) = 1#1) : Vec F S1x1x8192 .f32 :=
  arg6.view.read (Elt F) (arg6.view.writes (Elt F) arg6.view.junk (kernelRun_A c i arg4 harg4 arg5 harg5 arg6 harg6 hc0 x0 x1 xt0 xt1 hw1 hw2 hc2).1)

/-- At a first point the body's oldest store fills the whole buffer with zeros, so its stores cover it whatever the later ones are. -/
theorem cover_B (c : Dev nD) (i : grid1.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : condFirst i)
    (x0 : Vec F S1024x1 .f32) (x1 : Vec F S1x1024 .f32)
    (xt0 : TbBuf (F := F) c tbR) (xt1 : TbBuf (F := F) c tbC)
    (hw1 : k1_chk1 (wd c i tbR xt0)) (hw2 : k1_chk2 (wd c i tbR xt0) (wd c i tbC xt1))
    (hc2 : k1_cond2 (wd c i tbR xt0) (wd c i tbC xt1) = 1#1) (y : S1x1x8192.Idx) :
    ∃ pc ∈ (kernelRun_B c i arg4 harg4 arg5 harg5 arg6 harg6 hc0 x0 x1 xt0 xt1 hw1 hw2 hc2).1, y ∈ pc.1.set :=
  View.cover_of_wholeMem (kernelRun_B c i arg4 harg4 arg5 harg5 arg6 harg6 hc0 x0 x1 xt0 xt1 hw1 hw2 hc2).1 (by sl_whole_mem) y

/-- What the body leaves in the accumulator's staging buffer in this case: its stores read back (over anything: they cover the buffer). -/
def out_B (c : Dev nD) (i : grid1.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : condFirst i)
    (x0 : Vec F S1024x1 .f32) (x1 : Vec F S1x1024 .f32)
    (xt0 : TbBuf (F := F) c tbR) (xt1 : TbBuf (F := F) c tbC)
    (hw1 : k1_chk1 (wd c i tbR xt0)) (hw2 : k1_chk2 (wd c i tbR xt0) (wd c i tbC xt1))
    (hc2 : k1_cond2 (wd c i tbR xt0) (wd c i tbC xt1) = 1#1) : Vec F S1x1x8192 .f32 :=
  arg6.view.read (Elt F) (arg6.view.writes (Elt F) arg6.view.junk (kernelRun_B c i arg4 harg4 arg5 harg5 arg6 harg6 hc0 x0 x1 xt0 xt1 hw1 hw2 hc2).1)

/-- What the body leaves in the accumulator's staging buffer in this case: its stores read back over the running contents. -/
def out_C (c : Dev nD) (i : grid1.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : ¬condFirst i)
    (x0 : Vec F S1024x1 .f32) (x1 : Vec F S1x1024 .f32) (xo : Vec F S1x1x8192 .f32)
    (xt0 : TbBuf (F := F) c tbR) (xt1 : TbBuf (F := F) c tbC)
    (hw1 : k1_chk1 (wd c i tbR xt0)) (hw2 : k1_chk2 (wd c i tbR xt0) (wd c i tbC xt1))
    (hc2 : ¬k1_cond2 (wd c i tbR xt0) (wd c i tbC xt1) = 1#1) : Vec F S1x1x8192 .f32 :=
  arg6.view.read (Elt F) (arg6.view.writes (Elt F) (harg6.unread xo) (kernelRun_C c i arg4 harg4 arg5 harg5 arg6 harg6 hc0 x0 x1 xo xt0 xt1 hw1 hw2 hc2).1)

/-- What the body leaves in the accumulator's staging buffer in this case: its stores read back over the running contents. -/
def out_D (c : Dev nD) (i : grid1.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : ¬condFirst i)
    (x0 : Vec F S1024x1 .f32) (x1 : Vec F S1x1024 .f32) (xo : Vec F S1x1x8192 .f32)
    (xt0 : TbBuf (F := F) c tbR) (xt1 : TbBuf (F := F) c tbC)
    (hw1 : k1_chk1 (wd c i tbR xt0)) (hw2 : k1_chk2 (wd c i tbR xt0) (wd c i tbC xt1))
    (hc2 : k1_cond2 (wd c i tbR xt0) (wd c i tbC xt1) = 1#1) : Vec F S1x1x8192 .f32 :=
  arg6.view.read (Elt F) (arg6.view.writes (Elt F) (harg6.unread xo) (kernelRun_D c i arg4 harg4 arg5 harg5 arg6 harg6 hc0 x0 x1 xo xt0 xt1 hw1 hw2 hc2).1)

/-! ## What the accumulator's buffer holds after each point -/

/-- The accumulation: at a first point of a sweep the first-point case's contents, at a later point the later-point
    case's over what the point before left (the buffer is not written back in between). -/
def outsAt (hH : Hyps a) (c : Dev nD) : (n : ℕ) → n < (cfgA a).N → Vec F S1x1x8192 .f32
  | 0, hn =>
    if h2 : offDiag a c ⟨0, hn⟩ then
      out_B c (grid1.coords ⟨0, hn⟩) (ms_0 a ⟨0, hn⟩) (hs_0 a ⟨0, hn⟩) (ms_1 a ⟨0, hn⟩) (hs_1 a ⟨0, hn⟩) (ms_2 a ⟨0, hn⟩) (hs_2 a ⟨0, hn⟩) ((hcondFirst ⟨0, hn⟩).mpr (Nat.zero_mod _))
        (iblk V a c 0 ⟨0, hn⟩) (iblk V a c 1 ⟨0, hn⟩) (a.1 0) (a.1 1) (hH c ⟨0, hn⟩).1 (hH c ⟨0, hn⟩).2 h2
    else
      out_A c (grid1.coords ⟨0, hn⟩) (ms_0 a ⟨0, hn⟩) (hs_0 a ⟨0, hn⟩) (ms_1 a ⟨0, hn⟩) (hs_1 a ⟨0, hn⟩) (ms_2 a ⟨0, hn⟩) (hs_2 a ⟨0, hn⟩) ((hcondFirst ⟨0, hn⟩).mpr (Nat.zero_mod _))
        (iblk V a c 0 ⟨0, hn⟩) (iblk V a c 1 ⟨0, hn⟩) (a.1 0) (a.1 1) (hH c ⟨0, hn⟩).1 (hH c ⟨0, hn⟩).2 h2
  | n + 1, hn =>
    if h0 : (n + 1) % 18 = 0 then
      if h2 : offDiag a c ⟨n + 1, hn⟩ then
        out_B c (grid1.coords ⟨n + 1, hn⟩) (ms_0 a ⟨n + 1, hn⟩) (hs_0 a ⟨n + 1, hn⟩) (ms_1 a ⟨n + 1, hn⟩) (hs_1 a ⟨n + 1, hn⟩) (ms_2 a ⟨n + 1, hn⟩) (hs_2 a ⟨n + 1, hn⟩) ((hcondFirst ⟨n + 1, hn⟩).mpr h0)
          (iblk V a c 0 ⟨n + 1, hn⟩) (iblk V a c 1 ⟨n + 1, hn⟩) (a.1 0) (a.1 1) (hH c ⟨n + 1, hn⟩).1 (hH c ⟨n + 1, hn⟩).2 h2
      else
        out_A c (grid1.coords ⟨n + 1, hn⟩) (ms_0 a ⟨n + 1, hn⟩) (hs_0 a ⟨n + 1, hn⟩) (ms_1 a ⟨n + 1, hn⟩) (hs_1 a ⟨n + 1, hn⟩) (ms_2 a ⟨n + 1, hn⟩) (hs_2 a ⟨n + 1, hn⟩) ((hcondFirst ⟨n + 1, hn⟩).mpr h0)
          (iblk V a c 0 ⟨n + 1, hn⟩) (iblk V a c 1 ⟨n + 1, hn⟩) (a.1 0) (a.1 1) (hH c ⟨n + 1, hn⟩).1 (hH c ⟨n + 1, hn⟩).2 h2
    else
      if h2 : offDiag a c ⟨n + 1, hn⟩ then
        out_D c (grid1.coords ⟨n + 1, hn⟩) (ms_0 a ⟨n + 1, hn⟩) (hs_0 a ⟨n + 1, hn⟩) (ms_1 a ⟨n + 1, hn⟩) (hs_1 a ⟨n + 1, hn⟩) (ms_2 a ⟨n + 1, hn⟩) (hs_2 a ⟨n + 1, hn⟩) (fun h => h0 ((hcondFirst ⟨n + 1, hn⟩).mp h))
          (iblk V a c 0 ⟨n + 1, hn⟩) (iblk V a c 1 ⟨n + 1, hn⟩) (outsAt hH c n (Nat.lt_of_succ_lt hn)) (a.1 0) (a.1 1) (hH c ⟨n + 1, hn⟩).1 (hH c ⟨n + 1, hn⟩).2 h2
      else
        out_C c (grid1.coords ⟨n + 1, hn⟩) (ms_0 a ⟨n + 1, hn⟩) (hs_0 a ⟨n + 1, hn⟩) (ms_1 a ⟨n + 1, hn⟩) (hs_1 a ⟨n + 1, hn⟩) (ms_2 a ⟨n + 1, hn⟩) (hs_2 a ⟨n + 1, hn⟩) (fun h => h0 ((hcondFirst ⟨n + 1, hn⟩).mp h))
          (iblk V a c 0 ⟨n + 1, hn⟩) (iblk V a c 1 ⟨n + 1, hn⟩) (outsAt hH c n (Nat.lt_of_succ_lt hn)) (a.1 0) (a.1 1) (hH c ⟨n + 1, hn⟩).1 (hH c ⟨n + 1, hn⟩).2 h2

/-- `outsAt` at a first point, on the diagonal. -/
theorem outsAt_A (hH : Hyps a) (c : Dev nD) (t : Fin (cfgA a).N) (h0 : t.val % 18 = 0) (h2 : ¬offDiag a c t) :
    outsAt V a hH c t.val t.isLt = out_A c (grid1.coords t) (ms_0 a t) (hs_0 a t) (ms_1 a t) (hs_1 a t) (ms_2 a t) (hs_2 a t) ((hcondFirst t).mpr h0) (iblk V a c 0 t) (iblk V a c 1 t) (a.1 0) (a.1 1) (hH c t).1 (hH c t).2 h2 := by
  obtain ⟨n, hn⟩ := t
  cases n with
  | zero => exact (dif_neg h2).trans rfl
  | succ n => exact (dif_pos h0).trans ((dif_neg h2).trans rfl)
/-- `outsAt` at a first point, off the diagonal. -/
theorem outsAt_B (hH : Hyps a) (c : Dev nD) (t : Fin (cfgA a).N) (h0 : t.val % 18 = 0) (h2 : offDiag a c t) :
    outsAt V a hH c t.val t.isLt = out_B c (grid1.coords t) (ms_0 a t) (hs_0 a t) (ms_1 a t) (hs_1 a t) (ms_2 a t) (hs_2 a t) ((hcondFirst t).mpr h0) (iblk V a c 0 t) (iblk V a c 1 t) (a.1 0) (a.1 1) (hH c t).1 (hH c t).2 h2 := by
  obtain ⟨n, hn⟩ := t
  cases n with
  | zero => exact (dif_pos h2).trans rfl
  | succ n => exact (dif_pos h0).trans ((dif_pos h2).trans rfl)
/-- `outsAt` at a later point, on the diagonal: over what the point before left. -/
theorem outsAt_C (hH : Hyps a) (c : Dev nD) (t : Fin (cfgA a).N) (h0 : ¬t.val % 18 = 0) (h2 : ¬offDiag a c t) :
    outsAt V a hH c t.val t.isLt = out_C c (grid1.coords t) (ms_0 a t) (hs_0 a t) (ms_1 a t) (hs_1 a t) (ms_2 a t) (hs_2 a t) (fun h => h0 ((hcondFirst t).mp h)) (iblk V a c 0 t) (iblk V a c 1 t)
      (outsAt V a hH c (t.val - 1) (Nat.lt_of_le_of_lt (Nat.sub_le _ _) t.isLt)) (a.1 0) (a.1 1) (hH c t).1 (hH c t).2 h2 := by
  obtain ⟨n, hn⟩ := t
  cases n with
  | zero => exact (by exfalso; exact absurd (Nat.zero_mod _) h0)
  | succ n => exact (dif_neg h0).trans ((dif_neg h2).trans rfl)
/-- `outsAt` at a later point, off the diagonal. -/
theorem outsAt_D (hH : Hyps a) (c : Dev nD) (t : Fin (cfgA a).N) (h0 : ¬t.val % 18 = 0) (h2 : offDiag a c t) :
    outsAt V a hH c t.val t.isLt = out_D c (grid1.coords t) (ms_0 a t) (hs_0 a t) (ms_1 a t) (hs_1 a t) (ms_2 a t) (hs_2 a t) (fun h => h0 ((hcondFirst t).mp h)) (iblk V a c 0 t) (iblk V a c 1 t)
      (outsAt V a hH c (t.val - 1) (Nat.lt_of_le_of_lt (Nat.sub_le _ _) t.isLt)) (a.1 0) (a.1 1) (hH c t).1 (hH c t).2 h2 := by
  obtain ⟨n, hn⟩ := t
  cases n with
  | zero => exact (by exfalso; exact absurd (Nat.zero_mod _) h0)
  | succ n => exact (dif_neg h0).trans ((dif_pos h2).trans rfl)

/-! ## The pipeline's proof data -/

/-- The proof data on core `c`: the arrays as the region finds them; after the body at point `t` each input's buffer
    at its block and the accumulator's at `outsAt`; the invariant the scoped rest, the generator register and the
    two tables held whole; nothing owed; full shares. -/
def dat (hH : Hyps a) (c : Dev nD) : Dat τ (Elt F) Unit ℕ (UR sig nD τ) ℕ (cfgA a) c where
  A w := V c (Pipeline.arrRef spec1 w)
  after w t := match w with
    | ⟨0, _⟩ => iblk V a c 0 t
    | ⟨1, _⟩ => iblk V a c 1 t
    | ⟨2, _⟩ => outsAt V a hH c t.val t.isLt
  Φ _ := iprop(Pipeline.ΦA spec1 c ∗ Pipeline.prefHeld pre1 c (fun _ => fullShare) a.1)
  q _ := fullShare
  owed _ := 0

theorem A_eq (hH : Hyps a) (c : Dev nD) (w : Fin (cfgA a).W) : (dat V a hH c).A w = V c (Pipeline.arrRef spec1 w) := by
  dsimp only [dat]
theorem after_0 (hH : Hyps a) (c : Dev nD) (t : Fin (cfgA a).N) : (dat V a hH c).after 0 t = iblk V a c 0 t := by dsimp only [dat]; try rfl
theorem after_1 (hH : Hyps a) (c : Dev nD) (t : Fin (cfgA a).N) : (dat V a hH c).after 1 t = iblk V a c 1 t := by dsimp only [dat]; try rfl
theorem after_2 (hH : Hyps a) (c : Dev nD) (t : Fin (cfgA a).N) : (dat V a hH c).after 2 t = outsAt V a hH c t.val t.isLt := by dsimp only [dat]; try rfl

theorem before_0 (hH : Hyps a) (c : Dev nD) (t : Fin (cfgA a).N) (d) : (dat V a hH c).before 0 t d = iblk V a c 0 t :=
  before_in0_of V a (dat V a hH c) (A_eq V a hH c 0) (after_0 V a hH c) t d
theorem before_1 (hH : Hyps a) (c : Dev nD) (t : Fin (cfgA a).N) (d) : (dat V a hH c).before 1 t d = iblk V a c 1 t :=
  before_in1_of V a (dat V a hH c) (A_eq V a hH c 1) (after_1 V a hH c) t d
/-- At a later point of a sweep the accumulator's buffer holds what the body left at the point before: it was not
    written back in between. -/
theorem before_2_later (hH : Hyps a) (c : Dev nD) (t : Fin (cfgA a).N) (h0 : ¬t.val % 18 = 0) (d) :
    (dat V a hH c).before 2 t d = outsAt V a hH c (t.val - 1) (Nat.lt_of_le_of_lt (Nat.sub_le _ _) t.isLt) := by
  have hN : t.val < 36 := lt_of_lt_of_eq t.isLt (show (cfgA a).N = 36 from N_1)
  rw [Dat.before_out_kept _ 2 rfl t (by omega) (Bool.eq_false_iff.mpr fun h => by have := (flush_2 a _).mp h; dsimp only at this; omega)
    (fun _ => rfl) (fun _ _ => rfl)]
  exact after_2 V a hH c _

/-! ## The body obligation, at a generic point -/

def bodyPre (hH : Hyps a) (c : Dev nD) (t : Fin (cfgA a).N) : sProp 𝕄 :=
  iprop((dat V a hH c).Φ t.castSucc ∗ (dat V a hH c).owesAt () t.castSucc
    ∗ (∃ d, owns (c : Thread nD τ) (ms_0 a t) fullShare ((dat V a hH c).before 0 t d))
    ∗ (∃ d, owns (c : Thread nD τ) (ms_1 a t) fullShare ((dat V a hH c).before 1 t d))
    ∗ (∃ d, owns (c : Thread nD τ) (ms_2 a t) fullShare ((dat V a hH c).before 2 t d)))

def bodyPost (hH : Hyps a) (c : Dev nD) (t : Fin (cfgA a).N) : sProp 𝕄 :=
  iprop((dat V a hH c).Φ t.succ ∗ (dat V a hH c).owesAt () t.succ
    ∗ owns (c : Thread nD τ) (ms_0 a t) fullShare ((dat V a hH c).after 0 t)
    ∗ owns (c : Thread nD τ) (ms_1 a t) fullShare ((dat V a hH c).after 1 t)
    ∗ owns (c : Thread nD τ) (ms_2 a t) fullShare ((dat V a hH c).after 2 t))

set_option maxHeartbeats 3200000 in
/-- The body at any point: the inputs' memrefs hold their blocks; the point is a first or a later point of its sweep
    and its pair on or off the diagonal (four cases); at a later point the accumulator's buffer holds what the point
    before left; so that case's run applies. The invariant passes through, the tables lent to the run and taken back. -/
theorem sound_body (hH : Hyps a) (c : Dev nD) (t : Fin (cfgA a).N) :
    bodyPre V a hH c t ⊢ wp frame (wpE (defs₀ (F := F)) Variants.none c none) Set.univ (bodyAt a t) (fun _ => bodyPost V a hH c t) := by
  unfold bodyPre bodyPost bodyAt
  simp only [before_0, before_1]
  rw [show (dat V a hH c).Φ t.succ = (dat V a hH c).Φ t.castSucc from rfl,
    show (dat V a hH c).owesAt () t.succ = (dat V a hH c).owesAt () t.castSucc from rfl,
    after_0, after_1, after_2]
  rw [show (dat V a hH c).Φ t.castSucc = iprop(Pipeline.ΦA spec1 c ∗ Pipeline.prefHeld pre1 c (fun _ => fullShare) a.1) from rfl, tables_eq]
  by_cases h0 : t.val % 18 = 0
  · by_cases h2 : offDiag a c t
    ·
      rw [outsAt_B V a hH c t h0 h2]
      unfold out_B
      iintro ⟨⟨HΦ, ⟨HT0, HT1⟩⟩, Ho, ⟨%d0, H0⟩, ⟨%d1, H1⟩, ⟨%d2, H2⟩⟩
      iapply ((kernelRun_B c (grid1.coords t) (ms_0 a t) (hs_0 a t) (ms_1 a t) (hs_1 a t) (ms_2 a t) (hs_2 a t) ((hcondFirst t).mpr h0) (iblk V a c 0 t) (iblk V a c 1 t) (a.1 0) (a.1 1) (hH c t).1 (hH c t).2 h2).2 Set.univ _)
      isplitl [H0]; · iexact H0
      isplitl [H1]; · iexact H1
      isplitl [H2]; · iexists _; iexact H2
      isplitl [HT0]; · iexact HT0
      isplitl [HT1]; · iexact HT1
      iintro ⟨H0, H1, ⟨%e2, H2⟩, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      unfold owns; iexists _; isplitr
      swap; · iexact H2
      ipureintro; exact View.read_writes_of_cover _ _ _ _ _ (cover_B c (grid1.coords t) (ms_0 a t) (hs_0 a t) (ms_1 a t) (hs_1 a t) (ms_2 a t) (hs_2 a t) ((hcondFirst t).mpr h0) (iblk V a c 0 t) (iblk V a c 1 t) (a.1 0) (a.1 1) (hH c t).1 (hH c t).2 h2)
    ·
      rw [outsAt_A V a hH c t h0 h2]
      unfold out_A
      iintro ⟨⟨HΦ, ⟨HT0, HT1⟩⟩, Ho, ⟨%d0, H0⟩, ⟨%d1, H1⟩, ⟨%d2, H2⟩⟩
      iapply ((kernelRun_A c (grid1.coords t) (ms_0 a t) (hs_0 a t) (ms_1 a t) (hs_1 a t) (ms_2 a t) (hs_2 a t) ((hcondFirst t).mpr h0) (iblk V a c 0 t) (iblk V a c 1 t) (a.1 0) (a.1 1) (hH c t).1 (hH c t).2 h2).2 Set.univ _)
      isplitl [H0]; · iexact H0
      isplitl [H1]; · iexact H1
      isplitl [H2]; · iexists _; iexact H2
      isplitl [HT0]; · iexact HT0
      isplitl [HT1]; · iexact HT1
      iintro ⟨H0, H1, ⟨%e2, H2⟩, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      unfold owns; iexists _; isplitr
      swap; · iexact H2
      ipureintro; exact View.read_writes_of_cover _ _ _ _ _ (cover_A c (grid1.coords t) (ms_0 a t) (hs_0 a t) (ms_1 a t) (hs_1 a t) (ms_2 a t) (hs_2 a t) ((hcondFirst t).mpr h0) (iblk V a c 0 t) (iblk V a c 1 t) (a.1 0) (a.1 1) (hH c t).1 (hH c t).2 h2)
  · by_cases h2 : offDiag a c t
    ·
      rw [outsAt_D V a hH c t h0 h2]
      simp only [before_2_later V a hH c t h0]
      unfold out_D
      iintro ⟨⟨HΦ, ⟨HT0, HT1⟩⟩, Ho, ⟨%d0, H0⟩, ⟨%d1, H1⟩, ⟨%d2, H2⟩⟩
      iapply ((kernelRun_D c (grid1.coords t) (ms_0 a t) (hs_0 a t) (ms_1 a t) (hs_1 a t) (ms_2 a t) (hs_2 a t) (fun h => h0 ((hcondFirst t).mp h)) (iblk V a c 0 t) (iblk V a c 1 t) (outsAt V a hH c (t.val - 1) (Nat.lt_of_le_of_lt (Nat.sub_le _ _) t.isLt)) (a.1 0) (a.1 1) (hH c t).1 (hH c t).2 h2).2 Set.univ _)
      isplitl [H0]; · iexact H0
      isplitl [H1]; · iexact H1
      isplitl [H2]; · iexact H2
      isplitl [HT0]; · iexact HT0
      isplitl [HT1]; · iexact HT1
      iintro ⟨H0, H1, H2, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      unfold owns; iexists _; isplitr
      swap; · iexact H2
      ipureintro; rfl
    ·
      rw [outsAt_C V a hH c t h0 h2]
      simp only [before_2_later V a hH c t h0]
      unfold out_C
      iintro ⟨⟨HΦ, ⟨HT0, HT1⟩⟩, Ho, ⟨%d0, H0⟩, ⟨%d1, H1⟩, ⟨%d2, H2⟩⟩
      iapply ((kernelRun_C c (grid1.coords t) (ms_0 a t) (hs_0 a t) (ms_1 a t) (hs_1 a t) (ms_2 a t) (hs_2 a t) (fun h => h0 ((hcondFirst t).mp h)) (iblk V a c 0 t) (iblk V a c 1 t) (outsAt V a hH c (t.val - 1) (Nat.lt_of_le_of_lt (Nat.sub_le _ _) t.isLt)) (a.1 0) (a.1 1) (hH c t).1 (hH c t).2 h2).2 Set.univ _)
      isplitl [H0]; · iexact H0
      isplitl [H1]; · iexact H1
      isplitl [H2]; · iexact H2
      isplitl [HT0]; · iexact HT0
      isplitl [HT1]; · iexact HT1
      iintro ⟨H0, H1, H2, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      unfold owns; iexists _; isplitr
      swap; · iexact H2
      ipureintro; rfl

/-- The library's body obligation, at every point. -/
theorem body_obligation (hH : Hyps a) (c : Dev nD) : BodyObligation (dat (F := F) V a hH c) (defs₀ (F := F)) Variants.none () Set.univ := fun t => by
  rw [bigSep_W1, bigSep_W1]
  exact sound_body V a hH c t

end Cert.Kernel.TargRank
end
-- ==== Proof.K.Sweep.lean ====
import proofs.«115298_j79809082295156_2_alg».proof.Proof.K.Pred.Region
import proofs.«115298_j79809082295156_2_alg».proof.Proof.K.Targ.Region
import proofs.«115298_j79809082295156_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sweep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables' contents and the side conditions at them -/

/-- The two calls' tables at their literal contents. -/
abbrev adm0 : (pcfg0 (F := F)).Adm := ⟨PredRank.tblL, PredRank.ok_tblL⟩
abbrev adm1 : (pcfg1 (F := F)).Adm := ⟨TargRank.tblL, TargRank.ok_tblL⟩
abbrev adm : (p : Fin 2) → (pcfgs (F := F) p).Adm := fun | ⟨0, _⟩ => adm0 | ⟨1, _⟩ => adm1 | ⟨_ + 2, h⟩ => absurd h (Nat.not_lt.2 (Nat.le_add_left _ _))

/-- At every point the two words the body reads are block numbers below 8. -/
theorem hyps0 : PredRank.Hyps (adm0 (F := F)) := fun c t => PredRank.chk_all t
theorem hyps1 : TargRank.Hyps (adm1 (F := F)) := fun c t => TargRank.chk_all t

/-! ## The buffers' contents at each boundary of @main: a fold from the launch memory -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At the first call's exit: its arrays at what the pipeline leaves, every other buffer as entered. -/
def W2 (c : Dev nD) : Valuation τ sig (Elt F) :=
  Pipeline.withArrays spec0 c (W1 m c) fun w => (PredRank.dat (V1 m) adm0 hyps0 c).arrAt w (cfg0 (adm0 (F := F))).N
theorem W2_arr (c : Dev nD) (w : Fin (cfg0 (adm0 (F := F))).W) :
    W2 m c (Proc.devRef .tc (Pipeline.arrRef spec0 w)) = (PredRank.dat (V1 m) adm0 hyps0 c).arrAt w (cfg0 (adm0 (F := F))).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin (cfg0 (adm0 (F := F))).W) :
    (PredRank.dat (V1 m) adm0 hyps0 c).arrAt w (cfg0 (adm0 (F := F))).N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At the second call's exit: its arrays at what the pipeline leaves, every other buffer as entered. -/
def W4 (c : Dev nD) : Valuation τ sig (Elt F) :=
  Pipeline.withArrays spec1 c (W3 m c) fun w => (TargRank.dat (V3 m) adm1 hyps1 c).arrAt w (cfg1 (adm1 (F := F))).N
theorem W4_arr (c : Dev nD) (w : Fin (cfg1 (adm1 (F := F))).W) :
    W4 m c (Proc.devRef .tc (Pipeline.arrRef spec1 w)) = (TargRank.dat (V3 m) adm1 hyps1 c).arrAt w (cfg1 (adm1 (F := F))).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin (cfg1 (adm1 (F := F))).W) :
    (TargRank.dat (V3 m) adm1 hyps1 c).arrAt w (cfg1 (adm1 (F := F))).N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

abbrev W5 : Dev nD → Valuation τ sig (Elt F) := fun c => StableHlo.after hostOps2 (W4 m c)

/-! ### The tables as each call finds them: the host constants' literals -/

theorem tables0 (c : Dev nD) : (fun k => V1 m c (pre0.ref k)) = (adm0 (F := F)).1 := by
  funext k
  match k with
  | ⟨0, _⟩ => show StableHlo.after hostOps0 (W0 m c) (Proc.devRef .tc main_c) = _; after_results; rfl
  | ⟨1, _⟩ => show StableHlo.after hostOps0 (W0 m c) (Proc.devRef .tc main_c_0) = _; after_results; rfl

theorem tables1 (c : Dev nD) : (fun k => V3 m c (pre1.ref k)) = (adm1 (F := F)).1 := by
  funext k
  match k with
  | ⟨0, _⟩ =>
    show StableHlo.after hostOps1 (W2 m c) (Proc.devRef .tc main_c_1) = _
    rw [StableHlo.after_of_writes_sub hostOps1 _ hostOps1_writes (by decide : main_c_1 ∉ hostOps1_W), W2_of_ne m c main_c_1 (by decide)]
    show StableHlo.after hostOps0 (W0 m c) (Proc.devRef .tc main_c_1) = _; after_results; rfl
  | ⟨1, _⟩ =>
    show StableHlo.after hostOps1 (W2 m c) (Proc.devRef .tc main_c_2) = _
    rw [StableHlo.after_of_writes_sub hostOps1 _ hostOps1_writes (by decide : main_c_2 ∉ hostOps1_W), W2_of_ne m c main_c_2 (by decide)]
    show StableHlo.after hostOps0 (W0 m c) (Proc.devRef .tc main_c_2) = _; after_results; rfl

/-- The unscoped buffers that are no array of call 0: its two tables, at their literal contents, and the rest. -/
theorem rest_split0 (c : Dev nD) :
    (Pipeline.unscopedRest (Ix := Unit) (Name := ℕ) (U := UR sig nD τ) (Lvl := ℕ) spec0 c (V1 m c) : sProp 𝕄)
      = iprop(Pipeline.prefHeld pre0 c (fun _ => fullShare) (adm0 (F := F)).1 ∗ Pipeline.unscopedRestP pre0 spec0 c (V1 m c)) := by
  have e0 := Pipeline.unscopedRest_split (Ix := Unit) (Name := ℕ) (U := UR sig nD τ) (Lvl := ℕ) (win := spec0) (pre := pre0) (launch0 (F := F)).pre c (V1 m c)
  rw [tables0 m c] at e0
  exact e0

/-- The unscoped buffers that are no array of call 1: its two tables, at their literal contents, and the rest. -/
theorem rest_split1 (c : Dev nD) :
    (Pipeline.unscopedRest (Ix := Unit) (Name := ℕ) (U := UR sig nD τ) (Lvl := ℕ) spec1 c (V3 m c) : sProp 𝕄)
      = iprop(Pipeline.prefHeld pre1 c (fun _ => fullShare) (adm1 (F := F)).1 ∗ Pipeline.unscopedRestP pre1 spec1 c (V3 m c)) := by
  have e0 := Pipeline.unscopedRest_split (Ix := Unit) (Name := ℕ) (U := UR sig nD τ) (Lvl := ℕ) (win := spec1) (pre := pre1) (launch1 (F := F)).pre c (V3 m c)
  rw [tables1 m c] at e0
  exact e0

/-! ### The arguments end as launched -/

theorem W5_arg0 (c : Dev nD) : W5 m c (Proc.devRef .tc main_arg0) = m ((c : Thread nD τ).loc main_arg0) :=
  (StableHlo.after_of_writes_sub hostOps2 _ hostOps2_writes (by decide : main_arg0 ∉ hostOps2_W)).trans <|
  (W4_of_ne m c main_arg0 (by decide)).trans <|
  (StableHlo.after_of_writes_sub hostOps1 _ hostOps1_writes (by decide : main_arg0 ∉ hostOps1_W)).trans <|
  (W2_of_ne m c main_arg0 (by decide)).trans <|
  (StableHlo.after_of_writes_sub hostOps0 _ hostOps0_writes (by decide : main_arg0 ∉ hostOps0_W)).trans rfl
theorem W5_arg1 (c : Dev nD) : W5 m c (Proc.devRef .tc main_arg1) = m ((c : Thread nD τ).loc main_arg1) :=
  (StableHlo.after_of_writes_sub hostOps2 _ hostOps2_writes (by decide : main_arg1 ∉ hostOps2_W)).trans <|
  (W4_of_ne m c main_arg1 (by decide)).trans <|
  (StableHlo.after_of_writes_sub hostOps1 _ hostOps1_writes (by decide : main_arg1 ∉ hostOps1_W)).trans <|
  (W2_of_ne m c main_arg1 (by decide)).trans <|
  (StableHlo.after_of_writes_sub hostOps0 _ hostOps0_writes (by decide : main_arg1 ∉ hostOps0_W)).trans rfl

/-! ## The proof data family and the thread state -/

def pdats : (p : Fin 2) → (c : Dev nD) → Dat τ (Elt F) Unit ℕ (UR sig nD τ) ℕ (Pipeline.pin (pcfgs (F := F)) adm p) c
  | ⟨0, _⟩ => fun c => PredRank.dat (V1 m) adm0 hyps0 c
  | ⟨1, _⟩ => fun c => TargRank.dat (V3 m) adm1 hyps1 c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The two calls as segments -/

set_option backward.isDefEq.respectTransparency.types false in
/-- The first pallas_call as a segment: entered with every unscoped buffer at `W1`, left with them at `W2`.
    Its arrays are split out of the unscoped buffers and put back at what the write-backs leave; its two tables are split
    out of the rest, lent to the invariant whole and taken back; the generator register rides in the invariant; nothing is owed. -/
def reg0 : Pipeline.RegionSeg (pcfgs (F := F)) adm (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (PredRank.body_obligation (V1 m) adm0 hyps0 c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop((∃ r, prngReg c r) ∗ Pipeline.prefHeld pre0 c (fun _ => fullShare) (adm0 (F := F)).1)
  Z c := Pipeline.unscopedRestP (Ix := Unit) (Name := ℕ) (U := UR sig nD τ) (Lvl := ℕ) pre0 spec0 c (V1 m c)
  hentry c := by
    rw [Pipeline.ownSems0_none]
    have hsplit := Pipeline.arrays_of_unscopedBufs (p := 0) (pcfgs (F := F)) adm (pdats m) (launch0 (F := F)).win (launch0 (F := F)).arr_whole c
      ((pdats m 0 c).share_full fun _ => rfl) (V1 m c) fun _ => rfl
    rw [Pipeline.unscopedBufs_held] at hsplit
    have hsplit2 : (Pipeline.unscopedRest (Ix := Unit) (Name := ℕ) (U := UR sig nD τ) (Lvl := ℕ) spec0 c (V1 m c) : sProp 𝕄)
        ⊢ iprop(Pipeline.prefHeld pre0 c (fun _ => fullShare) (adm0 (F := F)).1 ∗ Pipeline.unscopedRestP pre0 spec0 c (V1 m c)) := by
      rw [rest_split0 m c]
    iintro ⟨⟨Hub, Hp, HO⟩, -, -⟩
    ihave H := hsplit $$ Hub
    icases H with ⟨Ha, Hrest⟩
    ihave H2 := hsplit2 $$ Hrest
    icases H2 with ⟨Htab, HrestP⟩
    imodintro
    isplitl [Ha]; · iexact Ha
    isplitl [Htab]; · iexact Htab
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact HrestP
  hin c := by
    rw [show (pdats m 0 c).Φ 0 = iprop(Pipeline.ΦA spec0 c ∗ Pipeline.prefHeld pre0 c (fun _ => fullShare) (adm0 (F := F)).1) from rfl]; unfold Pipeline.ΦA
    iintro ⟨Hp, Ht, Hr⟩
    isplitl [Hr Hp]
    · isplitl [Hr]; · iexact Hr
      iexact Hp
    iexact Ht
  hout c := by
    rw [Pipeline.ownSems0_none, show (pdats m 0 c).Φ (Fin.last _) = iprop(Pipeline.ΦA spec0 c ∗ Pipeline.prefHeld pre0 c (fun _ => fullShare) (adm0 (F := F)).1) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (pdats m) ((pdats m 0 c).share_full fun _ => rfl)
      (V1 m c) (V2 m c) ((pdats m 0 c).arrAt · (cfg0 (adm0 (F := F))).N) (hF0 m c) (hrest0 m c)
    rw [Pipeline.unscopedBufs_held] at hjoin
    have hunsplit : (iprop(Pipeline.prefHeld pre0 c (fun _ => fullShare) (adm0 (F := F)).1 ∗ Pipeline.unscopedRestP pre0 spec0 c (V1 m c)) : sProp 𝕄)
        ⊢ Pipeline.unscopedRest (Ix := Unit) (Name := ℕ) (U := UR sig nD τ) (Lvl := ℕ) spec0 c (V1 m c) := by
      rw [rest_split0 m c]
    iintro ⟨Ha, HO, ⟨Hp, Ht⟩, HrestP⟩
    ihave Hrest := hunsplit $$ [Ht HrestP]
    · isplitl [Ht]; · iexact Ht
      iexact HrestP
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- The second pallas_call as a segment: entered with every unscoped buffer at `W3`, left with them at `W4`.
    Its arrays are split out of the unscoped buffers and put back at what the write-backs leave; its two tables are split
    out of the rest, lent to the invariant whole and taken back; the generator register rides in the invariant; nothing is owed. -/
def reg1 : Pipeline.RegionSeg (pcfgs (F := F)) adm (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (TargRank.body_obligation (V3 m) adm1 hyps1 c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop((∃ r, prngReg c r) ∗ Pipeline.prefHeld pre1 c (fun _ => fullShare) (adm1 (F := F)).1)
  Z c := Pipeline.unscopedRestP (Ix := Unit) (Name := ℕ) (U := UR sig nD τ) (Lvl := ℕ) pre1 spec1 c (V3 m c)
  hentry c := by
    rw [Pipeline.ownSems0_none]
    have hsplit := Pipeline.arrays_of_unscopedBufs (p := 1) (pcfgs (F := F)) adm (pdats m) (launch1 (F := F)).win (launch1 (F := F)).arr_whole c
      ((pdats m 1 c).share_full fun _ => rfl) (V3 m c) fun _ => rfl
    rw [Pipeline.unscopedBufs_held] at hsplit
    have hsplit2 : (Pipeline.unscopedRest (Ix := Unit) (Name := ℕ) (U := UR sig nD τ) (Lvl := ℕ) spec1 c (V3 m c) : sProp 𝕄)
        ⊢ iprop(Pipeline.prefHeld pre1 c (fun _ => fullShare) (adm1 (F := F)).1 ∗ Pipeline.unscopedRestP pre1 spec1 c (V3 m c)) := by
      rw [rest_split1 m c]
    iintro ⟨⟨Hub, Hp, HO⟩, -, -⟩
    ihave H := hsplit $$ Hub
    icases H with ⟨Ha, Hrest⟩
    ihave H2 := hsplit2 $$ Hrest
    icases H2 with ⟨Htab, HrestP⟩
    imodintro
    isplitl [Ha]; · iexact Ha
    isplitl [Htab]; · iexact Htab
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact HrestP
  hin c := by
    rw [show (pdats m 1 c).Φ 0 = iprop(Pipeline.ΦA spec1 c ∗ Pipeline.prefHeld pre1 c (fun _ => fullShare) (adm1 (F := F)).1) from rfl]; unfold Pipeline.ΦA
    iintro ⟨Hp, Ht, Hr⟩
    isplitl [Hr Hp]
    · isplitl [Hr]; · iexact Hr
      iexact Hp
    iexact Ht
  hout c := by
    rw [Pipeline.ownSems0_none, show (pdats m 1 c).Φ (Fin.last _) = iprop(Pipeline.ΦA spec1 c ∗ Pipeline.prefHeld pre1 c (fun _ => fullShare) (adm1 (F := F)).1) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) adm (Ix := Unit) (Name := ℕ) (U := UR sig nD τ) (Lvl := ℕ)
      (launch1 (F := F)).win (launch1 (F := F)).arr_whole c (pdats m) ((pdats m 1 c).share_full fun _ => rfl)
      (V3 m c) (V4 m c) ((pdats m 1 c).arrAt · (cfg1 (adm1 (F := F))).N) (hF1 m c) (hrest1 m c)
    rw [Pipeline.unscopedBufs_held] at hjoin
    have hunsplit : (iprop(Pipeline.prefHeld pre1 c (fun _ => fullShare) (adm1 (F := F)).1 ∗ Pipeline.unscopedRestP pre1 spec1 c (V3 m c)) : sProp 𝕄)
        ⊢ Pipeline.unscopedRest (Ix := Unit) (Name := ℕ) (U := UR sig nD τ) (Lvl := ℕ) spec1 c (V3 m c) := by
      rw [rest_split1 m c]
    iintro ⟨Ha, HO, ⟨Hp, Ht⟩, HrestP⟩
    ihave Hrest := hunsplit $$ [Ht HrestP]
    · isplitl [Ht]; · iexact Ht
      iexact HrestP
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- The whole run, with values: from any memory with zero counters every weakly fair execution of @main terminates,
    and every final state has the result buffer at the last boundary's contents and both arguments as launched. -/
theorem run_valued : θ_run defs (onTc (τ := τ) (main (F := F))) ⟨m, fun _ => 0, ρ⟩ (fun r => ∀ c : Dev nD,
      r.2.mem ((c.tc : Thread nD τ).loc main_v38) = W5 m c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () (cellOf_inj adm) emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm)) (Pipeline.launchToks (Pipeline.pin (pcfgs (F := F)) adm) (cellOf_inj adm))) : sProp 𝕄)
            ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W5 m c) ∗ ∃ r, prngReg c r))
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c =>
      ⟨h c _ (mem_uc main_v38 (by decide)),
        (h c _ (mem_uc main_arg0 (by decide))).trans (W5_arg0 m c),
        (h c _ (mem_uc main_arg1 (by decide))).trans (W5_arg1 m c)⟩)

end Cert.Kernel.Sweep

end
-- ==== Proof.KI.Pred.Words.lean ====
import proofs.«115298_j79809082295156_2_alg».proof.Proof.Gen.KernelIdeal.Launch
import proofs.«115298_j79809082295156_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.KernelIdeal.PredRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The pair tables as the body is handed them, and the words it reads -/

abbrev tbR : Memref sig .tc .smem S2x18 .i32 := Memref.whole main_c
abbrev htbR : tbR.IsWhole := Memref.isWhole_whole _
abbrev tbC : Memref sig .tc .smem S2x18 .i32 := Memref.whole main_c_0
abbrev htbC : tbC.IsWhole := Memref.isWhole_whole _

abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare} f

/-- The word of a table at the grid point's cell. -/
abbrev wd (c : Dev nD) (i : grid0.Coords) (M : Memref sig .tc .smem S2x18 .i32) (xt : TbBuf (F := F) c M) : Elt F .i32 :=
  M.view.readAt (Elt F) (Rect.unit (s := S2x18) (k0_off1 i) S1x1.size (k0_off1_inb i)).toLoadRect xt (Shape.Idx.first (numel1_S1x1.symm ▸ Nat.one_pos))

/-- The first conditional's condition: the second grid coordinate is zero (the first pair of a sweep). -/
abbrev condFirst (i : grid0.Coords) : Prop := (Scalar.cmpi .ne (Scalar.extui (Scalar.cmpi .eq (BitVec.ofNat 32 (i 1).val) 0#32)) 0#32) = 1#1

/-! ## The tables' literal contents, and the words at each grid point

The two tables are constants of the program: row `k` of each lists, pair by pair, the row block and the column
block of the pairs sweep `k` visits. Everything the control and the slices need of them is decided here, once,
over the 36 grid points. -/

/-- The row-block table and the column-block table, as the host constants write them. -/
abbrev TR : S2x18.Idx → BitVec 32 := fun i => lit0 (S2x18.rowMajor i)
abbrev TC : S2x18.Idx → BitVec 32 := fun i => lit1 (S2x18.rowMajor i)

/-- Both tables as the region's prefetched contents. -/
def tblL : pre0.Contents (Elt F) := fun | ⟨0, _⟩ => TR | ⟨1, _⟩ => TC | ⟨_ + 2, h⟩ => absurd h (Nat.not_lt.2 (Nat.le_add_left _ _))

/-- The table cell a grid point reads. -/
abbrev cell (i : grid0.Coords) : S2x18.Idx :=
  (Rect.unit (s := S2x18) (k0_off1 i) S1x1.size (k0_off1_inb i)).emb (Shape.Idx.first (numel1_S1x1.symm ▸ Nat.one_pos))

/-- The row block and the column block of the pair at point `t`, as words. -/
def wr (t : Fin grid0.N) : BitVec 32 := TR (cell (grid0.coords t))
def wc (t : Fin grid0.N) : BitVec 32 := TC (cell (grid0.coords t))

theorem wd_r (c : Dev nD) (t : Fin grid0.N) : wd (F := F) c (grid0.coords t) tbR (tblL (F := F) 0) = wr t := rfl
theorem wd_c (c : Dev nD) (t : Fin grid0.N) : wd (F := F) c (grid0.coords t) tbC (tblL (F := F) 1) = wc t := rfl

/-- At every point both blocks are below 8, so the slices the body takes at 1024 times them lie inside the row of 8192. -/
theorem chk_all : ∀ t : Fin grid0.N, k0_chk1 (wr t) ∧ k0_chk2 (wr t) (wc t) := by decide +kernel

/-- The accumulator is reset exactly at the first point of each sweep. -/
theorem hcondFirst : ∀ t : Fin grid0.N, condFirst (grid0.coords t) ↔ t.val % 18 = 0 := by decide +kernel

/-- The side condition of the tables' contents: every block the index maps name lies inside its array. -/
theorem ok_tblL : ok0 (F := F) (tblL (F := F)) := by
  have h0 : ∀ i : grid0.Coords, ∀ a, (![(TR (cell i)).toNat, 0] a + 1) * S1024x1.size a ≤ S8192x1.size a := by decide +kernel
  have h1 : ∀ i : grid0.Coords, ∀ a, (![0, (TC (cell i)).toNat] a + 1) * S1x1024.size a ≤ S1x8192.size a := by decide +kernel
  exact ⟨fun i => ⟨h0 i, .inl rfl⟩, fun i => ⟨h1 i, .inl rfl⟩⟩

end Cert.KernelIdeal.PredRank
end
-- ==== Proof.KI.Pred.RunA.lean ====
import proofs.«115298_j79809082295156_2_alg».proof.Proof.KI.Pred.Words
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.KernelIdeal.PredRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a first point of a sweep whose pair is on the diagonal (one slice updated):
    on whole staging memrefs, the two input blocks at their contents,
    the tables at theirs with the point's two words in range, it runs to the continuation holding the inputs and
    the tables as they were and the accumulator's buffer with the body's stores written (the first of them the zero fill of the whole buffer); the stores, newest first, are the witness the run finds. -/
noncomputable def kernelRun_A (c : Dev nD) (i : grid0.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : condFirst i)
    (x0 : Vec F S1024x1 .f32) (x1 : Vec F S1x1024 .f32)
    (xt0 : TbBuf (F := F) c tbR) (xt1 : TbBuf (F := F) c tbC)
    (hw1 : k0_chk1 (wd c i tbR xt0)) (hw2 : k0_chk2 (wd c i tbR xt0) (wd c i tbC xt1))
    (hc2 : ¬k0_cond2 (wd c i tbR xt0) (wd c i tbC xt1) = 1#1) :
    { L : List (View.Piece (Elt F) S1x1x8192 .f32) //
      ∀ (E : Set ℕ) (K : PUnit → sProp 𝕄),
        iprop(owns (c : Thread nD τ) arg4 fullShare x0 ∗ owns (c : Thread nD τ) arg5 fullShare x1 ∗ (∃ d, owns (c : Thread nD τ) arg6 fullShare d)
            ∗ tbPt c tbR xt0 ∗ tbPt c tbC xt1
            ∗ (iprop(owns (c : Thread nD τ) arg4 fullShare x0 ∗ owns (c : Thread nD τ) arg5 fullShare x1
                ∗ (∃ f, arg6.view.loc (c : Thread nD τ) ↦[arg6.view.set]{fullShare} arg6.view.writes (Elt F) f L)
                ∗ tbPt c tbR xt0 ∗ tbPt c tbC xt1) -∗ K ⟨⟩))
          ⊢ wp frame (wpE (defs₀ (F := F)) Variants.none c none) E (cc0__pair_kernel i tbR htbR tbC htbC arg4 harg4 arg5 harg5 arg6 harg6) K } := by
  refine ⟨?_, fun E K => ?run⟩
  case run =>
    simp only [cc0__pair_kernel_eq_skeleton]; unfold cc0__pair_kernel_skel
    unfold owns
    iintro ⟨⟨%f0, %hf0, H0⟩, ⟨%f1, %hf1, H1⟩, ⟨%d2, %f2, -, H2⟩, HT0, HT1, Hk⟩
    obtain rfl := harg4.eq_unread hf0; obtain rfl := harg5.eq_unread hf1
    sl_exec (disch := first | exact hc0 | sl_exact hw1 | sl_exact hw2 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]; · iexists _; iexact H2
    isplitl [HT0]; · iexact HT0
    iexact HT1

end Cert.KernelIdeal.PredRank
end
-- ==== Proof.KI.Pred.RunB.lean ====
import proofs.«115298_j79809082295156_2_alg».proof.Proof.KI.Pred.Words
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.KernelIdeal.PredRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a first point of a sweep whose pair is off the diagonal (two slices updated):
    on whole staging memrefs, the two input blocks at their contents,
    the tables at theirs with the point's two words in range, it runs to the continuation holding the inputs and
    the tables as they were and the accumulator's buffer with the body's stores written (the first of them the zero fill of the whole buffer); the stores, newest first, are the witness the run finds. -/
noncomputable def kernelRun_B (c : Dev nD) (i : grid0.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : condFirst i)
    (x0 : Vec F S1024x1 .f32) (x1 : Vec F S1x1024 .f32)
    (xt0 : TbBuf (F := F) c tbR) (xt1 : TbBuf (F := F) c tbC)
    (hw1 : k0_chk1 (wd c i tbR xt0)) (hw2 : k0_chk2 (wd c i tbR xt0) (wd c i tbC xt1))
    (hc2 : k0_cond2 (wd c i tbR xt0) (wd c i tbC xt1) = 1#1) :
    { L : List (View.Piece (Elt F) S1x1x8192 .f32) //
      ∀ (E : Set ℕ) (K : PUnit → sProp 𝕄),
        iprop(owns (c : Thread nD τ) arg4 fullShare x0 ∗ owns (c : Thread nD τ) arg5 fullShare x1 ∗ (∃ d, owns (c : Thread nD τ) arg6 fullShare d)
            ∗ tbPt c tbR xt0 ∗ tbPt c tbC xt1
            ∗ (iprop(owns (c : Thread nD τ) arg4 fullShare x0 ∗ owns (c : Thread nD τ) arg5 fullShare x1
                ∗ (∃ f, arg6.view.loc (c : Thread nD τ) ↦[arg6.view.set]{fullShare} arg6.view.writes (Elt F) f L)
                ∗ tbPt c tbR xt0 ∗ tbPt c tbC xt1) -∗ K ⟨⟩))
          ⊢ wp frame (wpE (defs₀ (F := F)) Variants.none c none) E (cc0__pair_kernel i tbR htbR tbC htbC arg4 harg4 arg5 harg5 arg6 harg6) K } := by
  refine ⟨?_, fun E K => ?run⟩
  case run =>
    simp only [cc0__pair_kernel_eq_skeleton]; unfold cc0__pair_kernel_skel
    unfold owns
    iintro ⟨⟨%f0, %hf0, H0⟩, ⟨%f1, %hf1, H1⟩, ⟨%d2, %f2, -, H2⟩, HT0, HT1, Hk⟩
    obtain rfl := harg4.eq_unread hf0; obtain rfl := harg5.eq_unread hf1
    sl_exec (disch := first | exact hc0 | sl_exact hw1 | sl_exact hw2 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]; · iexists _; iexact H2
    isplitl [HT0]; · iexact HT0
    iexact HT1

end Cert.KernelIdeal.PredRank
end
-- ==== Proof.KI.Pred.RunC.lean ====
import proofs.«115298_j79809082295156_2_alg».proof.Proof.KI.Pred.Words
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.KernelIdeal.PredRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a later point of a sweep whose pair is on the diagonal (one slice updated):
    on whole staging memrefs, the two input blocks at their contents, the accumulator's buffer at its running contents `xo`,
    the tables at theirs with the point's two words in range, it runs to the continuation holding the inputs and
    the tables as they were and the accumulator's buffer with the body's stores written over `xo`; the stores, newest first, are the witness the run finds. -/
noncomputable def kernelRun_C (c : Dev nD) (i : grid0.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : ¬condFirst i)
    (x0 : Vec F S1024x1 .f32) (x1 : Vec F S1x1024 .f32) (xo : Vec F S1x1x8192 .f32)
    (xt0 : TbBuf (F := F) c tbR) (xt1 : TbBuf (F := F) c tbC)
    (hw1 : k0_chk1 (wd c i tbR xt0)) (hw2 : k0_chk2 (wd c i tbR xt0) (wd c i tbC xt1))
    (hc2 : ¬k0_cond2 (wd c i tbR xt0) (wd c i tbC xt1) = 1#1) :
    { L : List (View.Piece (Elt F) S1x1x8192 .f32) //
      ∀ (E : Set ℕ) (K : PUnit → sProp 𝕄),
        iprop(owns (c : Thread nD τ) arg4 fullShare x0 ∗ owns (c : Thread nD τ) arg5 fullShare x1 ∗ owns (c : Thread nD τ) arg6 fullShare xo
            ∗ tbPt c tbR xt0 ∗ tbPt c tbC xt1
            ∗ (iprop(owns (c : Thread nD τ) arg4 fullShare x0 ∗ owns (c : Thread nD τ) arg5 fullShare x1
                ∗ (arg6.view.loc (c : Thread nD τ) ↦[arg6.view.set]{fullShare} arg6.view.writes (Elt F) (harg6.unread xo) L)
                ∗ tbPt c tbR xt0 ∗ tbPt c tbC xt1) -∗ K ⟨⟩))
          ⊢ wp frame (wpE (defs₀ (F := F)) Variants.none c none) E (cc0__pair_kernel i tbR htbR tbC htbC arg4 harg4 arg5 harg5 arg6 harg6) K } := by
  refine ⟨?_, fun E K => ?run⟩
  case run =>
    simp only [cc0__pair_kernel_eq_skeleton]; unfold cc0__pair_kernel_skel
    unfold owns
    iintro ⟨⟨%f0, %hf0, H0⟩, ⟨%f1, %hf1, H1⟩, ⟨%f2, %hf2, H2⟩, HT0, HT1, Hk⟩
    obtain rfl := harg4.eq_unread hf0; obtain rfl := harg5.eq_unread hf1; obtain rfl := harg6.eq_unread hf2
    sl_exec (disch := first | exact hc0 | sl_exact hw1 | sl_exact hw2 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]; · iexact H2
    isplitl [HT0]; · iexact HT0
    iexact HT1

end Cert.KernelIdeal.PredRank
end
-- ==== Proof.KI.Pred.RunD.lean ====
import proofs.«115298_j79809082295156_2_alg».proof.Proof.KI.Pred.Words
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.KernelIdeal.PredRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a later point of a sweep whose pair is off the diagonal (two slices updated):
    on whole staging memrefs, the two input blocks at their contents, the accumulator's buffer at its running contents `xo`,
    the tables at theirs with the point's two words in range, it runs to the continuation holding the inputs and
    the tables as they were and the accumulator's buffer with the body's stores written over `xo`; the stores, newest first, are the witness the run finds. -/
noncomputable def kernelRun_D (c : Dev nD) (i : grid0.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : ¬condFirst i)
    (x0 : Vec F S1024x1 .f32) (x1 : Vec F S1x1024 .f32) (xo : Vec F S1x1x8192 .f32)
    (xt0 : TbBuf (F := F) c tbR) (xt1 : TbBuf (F := F) c tbC)
    (hw1 : k0_chk1 (wd c i tbR xt0)) (hw2 : k0_chk2 (wd c i tbR xt0) (wd c i tbC xt1))
    (hc2 : k0_cond2 (wd c i tbR xt0) (wd c i tbC xt1) = 1#1) :
    { L : List (View.Piece (Elt F) S1x1x8192 .f32) //
      ∀ (E : Set ℕ) (K : PUnit → sProp 𝕄),
        iprop(owns (c : Thread nD τ) arg4 fullShare x0 ∗ owns (c : Thread nD τ) arg5 fullShare x1 ∗ owns (c : Thread nD τ) arg6 fullShare xo
            ∗ tbPt c tbR xt0 ∗ tbPt c tbC xt1
            ∗ (iprop(owns (c : Thread nD τ) arg4 fullShare x0 ∗ owns (c : Thread nD τ) arg5 fullShare x1
                ∗ (arg6.view.loc (c : Thread nD τ) ↦[arg6.view.set]{fullShare} arg6.view.writes (Elt F) (harg6.unread xo) L)
                ∗ tbPt c tbR xt0 ∗ tbPt c tbC xt1) -∗ K ⟨⟩))
          ⊢ wp frame (wpE (defs₀ (F := F)) Variants.none c none) E (cc0__pair_kernel i tbR htbR tbC htbC arg4 harg4 arg5 harg5 arg6 harg6) K } := by
  refine ⟨?_, fun E K => ?run⟩
  case run =>
    simp only [cc0__pair_kernel_eq_skeleton]; unfold cc0__pair_kernel_skel
    unfold owns
    iintro ⟨⟨%f0, %hf0, H0⟩, ⟨%f1, %hf1, H1⟩, ⟨%f2, %hf2, H2⟩, HT0, HT1, Hk⟩
    obtain rfl := harg4.eq_unread hf0; obtain rfl := harg5.eq_unread hf1; obtain rfl := harg6.eq_unread hf2
    sl_exec (disch := first | exact hc0 | sl_exact hw1 | sl_exact hw2 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]; · iexact H2
    isplitl [HT0]; · iexact HT0
    iexact HT1

end Cert.KernelIdeal.PredRank
end
-- ==== Proof.KI.Pred.Region.lean ====
import proofs.«115298_j79809082295156_2_alg».proof.Proof.KI.Pred.RunA
import proofs.«115298_j79809082295156_2_alg».proof.Proof.KI.Pred.RunB
import proofs.«115298_j79809082295156_2_alg».proof.Proof.KI.Pred.RunC
import proofs.«115298_j79809082295156_2_alg».proof.Proof.KI.Pred.RunD
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.KernelIdeal.PredRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The region at entry contents `V` and tables `a`

Everything here is stated for ANY admissible contents `a` of the two tables; the run instantiates them at the
literal tables last. -/

variable (V : (c : Dev nD) → (b : Ref sig .tc) → Buf (Elt F) ((c : Thread nD τ).loc b))
variable (a : (pcfg0 (F := F)).Adm)

abbrev cfgA : Pipeline.Cfg sig Λ₀ := cfg0 a

/-- Window `w`'s block at point `t`, read off its array as the region finds it. -/
def iblk (c : Dev nD) (w : Fin (cfgA a).W) (t : Fin (cfgA a).N) : (((cfgA a).win w).xblock ((cfgA a).grid.coords t)).Idx → Elt F ((cfgA a).win w).elt :=
  (((cfgA a).win w).blk t).view.read (Elt F) (V c (Pipeline.arrRef spec0 w))

/-- An input window's current staging buffer holds its block at every point, fetched there or not. -/
theorem before_in0_of {c : Dev nD} (dat : Dat τ (Elt F) Unit ℕ (UR sig nD τ) ℕ (cfgA a) c) (hA : dat.A 0 = V c (Pipeline.arrRef spec0 0))
    (hafter : ∀ t, dat.after 0 t = iblk V a c 0 t) (t : Fin (cfgA a).N) (d) : dat.before 0 t d = iblk V a c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ (cfgA a) c) (hA : dat.A 1 = V c (Pipeline.arrRef spec0 1))
    (hafter : ∀ t, dat.after 1 t = iblk V a c 1 t) (t : Fin (cfgA a).N) (d) : dat.before 1 t d = iblk V a c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, and its wholeness. -/
abbrev ms_0 (t : Fin (cfgA a).N) : Memref sig .tc .vmem S1024x1 .f32 := spec0_0.stage ((cfgA a).slots t 0)
abbrev hs_0 (t : Fin (cfgA a).N) : (ms_0 a t).IsWhole := hstage0_0 (((cfgA a).slots t 0).cast nbuf0_0)
abbrev ms_1 (t : Fin (cfgA a).N) : Memref sig .tc .vmem S1x1024 .f32 := spec0_1.stage ((cfgA a).slots t 1)
abbrev hs_1 (t : Fin (cfgA a).N) : (ms_1 a t).IsWhole := hstage0_1 (((cfgA a).slots t 1).cast nbuf0_1)
abbrev ms_2 (t : Fin (cfgA a).N) : Memref sig .tc .vmem S1x1x8192 .f32 := spec0_2.stage ((cfgA a).slots t 2)
abbrev hs_2 (t : Fin (cfgA a).N) : (ms_2 a t).IsWhole := hstage0_2 (((cfgA a).slots t 2).cast nbuf0_2)

/-- The kernel body at point `t`, on what the pipeline calls it with. -/
abbrev bodyAt (t : Fin (cfgA a).N) : Prog (TpuEff nD τ sig (Elt F) Λ₀ .tc) PUnit :=
  cc0__pair_kernel (grid0.coords t) tbR htbR tbC htbC (ms_0 a t) (hs_0 a t) (ms_1 a t) (hs_1 a t) (ms_2 a t) (hs_2 a t)

/-- The accumulator's window is written back at the last point of each sweep only, whatever the tables hold (its index map reads none). -/
theorem flush_2 : ∀ t : Fin (cfgA a).N, ((cfgA a).win 2).flush t = true ↔ t.val % 18 = 17 :=
  (by decide +kernel : ∀ t : Fin grid0.N, Pipeline.Window.flushOf grid0 true cc0_transform_2 t = true ↔ t.val % 18 = 17)

/-- The tables, held whole, one by one. -/
theorem tables_eq (c : Dev nD) : (Pipeline.prefHeld pre0 c (fun _ => fullShare) a.1 : sProp 𝕄) = iprop(tbPt c tbR (a.1 0) ∗ tbPt c tbC (a.1 1)) := by
  unfold Pipeline.prefHeld
  rw [show (Finset.univ : Finset (Fin 2)) = insert (0 : Fin 2) {(1 : Fin 2)} from by decide,
    bigSep_insert (by decide), bigSep_singleton]
  rfl

/-- The side conditions the body assumes of the two words it reads, at every point. -/
def Hyps : Prop :=
  ∀ (c : Dev nD) (t : Fin (cfgA a).N),
    k0_chk1 (wd c (grid0.coords t) tbR (a.1 0)) ∧ k0_chk2 (wd c (grid0.coords t) tbR (a.1 0)) (wd c (grid0.coords t) tbC (a.1 1))

/-- Whether the pair at point `t` is off the diagonal, as the body decides it. -/
abbrev offDiag (c : Dev nD) (t : Fin (cfgA a).N) : Prop :=
  k0_cond2 (wd c (grid0.coords t) tbR (a.1 0)) (wd c (grid0.coords t) tbC (a.1 1)) = 1#1

/-- At a first point the body's oldest store fills the whole buffer with zeros, so its stores cover it whatever the later ones are. -/
theorem cover_A (c : Dev nD) (i : grid0.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : condFirst i)
    (x0 : Vec F S1024x1 .f32) (x1 : Vec F S1x1024 .f32)
    (xt0 : TbBuf (F := F) c tbR) (xt1 : TbBuf (F := F) c tbC)
    (hw1 : k0_chk1 (wd c i tbR xt0)) (hw2 : k0_chk2 (wd c i tbR xt0) (wd c i tbC xt1))
    (hc2 : ¬k0_cond2 (wd c i tbR xt0) (wd c i tbC xt1) = 1#1) (y : S1x1x8192.Idx) :
    ∃ pc ∈ (kernelRun_A c i arg4 harg4 arg5 harg5 arg6 harg6 hc0 x0 x1 xt0 xt1 hw1 hw2 hc2).1, y ∈ pc.1.set :=
  View.cover_of_wholeMem (kernelRun_A c i arg4 harg4 arg5 harg5 arg6 harg6 hc0 x0 x1 xt0 xt1 hw1 hw2 hc2).1 (by sl_whole_mem) y

/-- What the body leaves in the accumulator's staging buffer in this case: its stores read back (over anything: they cover the buffer). -/
def out_A (c : Dev nD) (i : grid0.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : condFirst i)
    (x0 : Vec F S1024x1 .f32) (x1 : Vec F S1x1024 .f32)
    (xt0 : TbBuf (F := F) c tbR) (xt1 : TbBuf (F := F) c tbC)
    (hw1 : k0_chk1 (wd c i tbR xt0)) (hw2 : k0_chk2 (wd c i tbR xt0) (wd c i tbC xt1))
    (hc2 : ¬k0_cond2 (wd c i tbR xt0) (wd c i tbC xt1) = 1#1) : Vec F S1x1x8192 .f32 :=
  arg6.view.read (Elt F) (arg6.view.writes (Elt F) arg6.view.junk (kernelRun_A c i arg4 harg4 arg5 harg5 arg6 harg6 hc0 x0 x1 xt0 xt1 hw1 hw2 hc2).1)

/-- At a first point the body's oldest store fills the whole buffer with zeros, so its stores cover it whatever the later ones are. -/
theorem cover_B (c : Dev nD) (i : grid0.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : condFirst i)
    (x0 : Vec F S1024x1 .f32) (x1 : Vec F S1x1024 .f32)
    (xt0 : TbBuf (F := F) c tbR) (xt1 : TbBuf (F := F) c tbC)
    (hw1 : k0_chk1 (wd c i tbR xt0)) (hw2 : k0_chk2 (wd c i tbR xt0) (wd c i tbC xt1))
    (hc2 : k0_cond2 (wd c i tbR xt0) (wd c i tbC xt1) = 1#1) (y : S1x1x8192.Idx) :
    ∃ pc ∈ (kernelRun_B c i arg4 harg4 arg5 harg5 arg6 harg6 hc0 x0 x1 xt0 xt1 hw1 hw2 hc2).1, y ∈ pc.1.set :=
  View.cover_of_wholeMem (kernelRun_B c i arg4 harg4 arg5 harg5 arg6 harg6 hc0 x0 x1 xt0 xt1 hw1 hw2 hc2).1 (by sl_whole_mem) y

/-- What the body leaves in the accumulator's staging buffer in this case: its stores read back (over anything: they cover the buffer). -/
def out_B (c : Dev nD) (i : grid0.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : condFirst i)
    (x0 : Vec F S1024x1 .f32) (x1 : Vec F S1x1024 .f32)
    (xt0 : TbBuf (F := F) c tbR) (xt1 : TbBuf (F := F) c tbC)
    (hw1 : k0_chk1 (wd c i tbR xt0)) (hw2 : k0_chk2 (wd c i tbR xt0) (wd c i tbC xt1))
    (hc2 : k0_cond2 (wd c i tbR xt0) (wd c i tbC xt1) = 1#1) : Vec F S1x1x8192 .f32 :=
  arg6.view.read (Elt F) (arg6.view.writes (Elt F) arg6.view.junk (kernelRun_B c i arg4 harg4 arg5 harg5 arg6 harg6 hc0 x0 x1 xt0 xt1 hw1 hw2 hc2).1)

/-- What the body leaves in the accumulator's staging buffer in this case: its stores read back over the running contents. -/
def out_C (c : Dev nD) (i : grid0.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : ¬condFirst i)
    (x0 : Vec F S1024x1 .f32) (x1 : Vec F S1x1024 .f32) (xo : Vec F S1x1x8192 .f32)
    (xt0 : TbBuf (F := F) c tbR) (xt1 : TbBuf (F := F) c tbC)
    (hw1 : k0_chk1 (wd c i tbR xt0)) (hw2 : k0_chk2 (wd c i tbR xt0) (wd c i tbC xt1))
    (hc2 : ¬k0_cond2 (wd c i tbR xt0) (wd c i tbC xt1) = 1#1) : Vec F S1x1x8192 .f32 :=
  arg6.view.read (Elt F) (arg6.view.writes (Elt F) (harg6.unread xo) (kernelRun_C c i arg4 harg4 arg5 harg5 arg6 harg6 hc0 x0 x1 xo xt0 xt1 hw1 hw2 hc2).1)

/-- What the body leaves in the accumulator's staging buffer in this case: its stores read back over the running contents. -/
def out_D (c : Dev nD) (i : grid0.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : ¬condFirst i)
    (x0 : Vec F S1024x1 .f32) (x1 : Vec F S1x1024 .f32) (xo : Vec F S1x1x8192 .f32)
    (xt0 : TbBuf (F := F) c tbR) (xt1 : TbBuf (F := F) c tbC)
    (hw1 : k0_chk1 (wd c i tbR xt0)) (hw2 : k0_chk2 (wd c i tbR xt0) (wd c i tbC xt1))
    (hc2 : k0_cond2 (wd c i tbR xt0) (wd c i tbC xt1) = 1#1) : Vec F S1x1x8192 .f32 :=
  arg6.view.read (Elt F) (arg6.view.writes (Elt F) (harg6.unread xo) (kernelRun_D c i arg4 harg4 arg5 harg5 arg6 harg6 hc0 x0 x1 xo xt0 xt1 hw1 hw2 hc2).1)

/-! ## What the accumulator's buffer holds after each point -/

/-- The accumulation: at a first point of a sweep the first-point case's contents, at a later point the later-point
    case's over what the point before left (the buffer is not written back in between). -/
def outsAt (hH : Hyps a) (c : Dev nD) : (n : ℕ) → n < (cfgA a).N → Vec F S1x1x8192 .f32
  | 0, hn =>
    if h2 : offDiag a c ⟨0, hn⟩ then
      out_B c (grid0.coords ⟨0, hn⟩) (ms_0 a ⟨0, hn⟩) (hs_0 a ⟨0, hn⟩) (ms_1 a ⟨0, hn⟩) (hs_1 a ⟨0, hn⟩) (ms_2 a ⟨0, hn⟩) (hs_2 a ⟨0, hn⟩) ((hcondFirst ⟨0, hn⟩).mpr (Nat.zero_mod _))
        (iblk V a c 0 ⟨0, hn⟩) (iblk V a c 1 ⟨0, hn⟩) (a.1 0) (a.1 1) (hH c ⟨0, hn⟩).1 (hH c ⟨0, hn⟩).2 h2
    else
      out_A c (grid0.coords ⟨0, hn⟩) (ms_0 a ⟨0, hn⟩) (hs_0 a ⟨0, hn⟩) (ms_1 a ⟨0, hn⟩) (hs_1 a ⟨0, hn⟩) (ms_2 a ⟨0, hn⟩) (hs_2 a ⟨0, hn⟩) ((hcondFirst ⟨0, hn⟩).mpr (Nat.zero_mod _))
        (iblk V a c 0 ⟨0, hn⟩) (iblk V a c 1 ⟨0, hn⟩) (a.1 0) (a.1 1) (hH c ⟨0, hn⟩).1 (hH c ⟨0, hn⟩).2 h2
  | n + 1, hn =>
    if h0 : (n + 1) % 18 = 0 then
      if h2 : offDiag a c ⟨n + 1, hn⟩ then
        out_B c (grid0.coords ⟨n + 1, hn⟩) (ms_0 a ⟨n + 1, hn⟩) (hs_0 a ⟨n + 1, hn⟩) (ms_1 a ⟨n + 1, hn⟩) (hs_1 a ⟨n + 1, hn⟩) (ms_2 a ⟨n + 1, hn⟩) (hs_2 a ⟨n + 1, hn⟩) ((hcondFirst ⟨n + 1, hn⟩).mpr h0)
          (iblk V a c 0 ⟨n + 1, hn⟩) (iblk V a c 1 ⟨n + 1, hn⟩) (a.1 0) (a.1 1) (hH c ⟨n + 1, hn⟩).1 (hH c ⟨n + 1, hn⟩).2 h2
      else
        out_A c (grid0.coords ⟨n + 1, hn⟩) (ms_0 a ⟨n + 1, hn⟩) (hs_0 a ⟨n + 1, hn⟩) (ms_1 a ⟨n + 1, hn⟩) (hs_1 a ⟨n + 1, hn⟩) (ms_2 a ⟨n + 1, hn⟩) (hs_2 a ⟨n + 1, hn⟩) ((hcondFirst ⟨n + 1, hn⟩).mpr h0)
          (iblk V a c 0 ⟨n + 1, hn⟩) (iblk V a c 1 ⟨n + 1, hn⟩) (a.1 0) (a.1 1) (hH c ⟨n + 1, hn⟩).1 (hH c ⟨n + 1, hn⟩).2 h2
    else
      if h2 : offDiag a c ⟨n + 1, hn⟩ then
        out_D c (grid0.coords ⟨n + 1, hn⟩) (ms_0 a ⟨n + 1, hn⟩) (hs_0 a ⟨n + 1, hn⟩) (ms_1 a ⟨n + 1, hn⟩) (hs_1 a ⟨n + 1, hn⟩) (ms_2 a ⟨n + 1, hn⟩) (hs_2 a ⟨n + 1, hn⟩) (fun h => h0 ((hcondFirst ⟨n + 1, hn⟩).mp h))
          (iblk V a c 0 ⟨n + 1, hn⟩) (iblk V a c 1 ⟨n + 1, hn⟩) (outsAt hH c n (Nat.lt_of_succ_lt hn)) (a.1 0) (a.1 1) (hH c ⟨n + 1, hn⟩).1 (hH c ⟨n + 1, hn⟩).2 h2
      else
        out_C c (grid0.coords ⟨n + 1, hn⟩) (ms_0 a ⟨n + 1, hn⟩) (hs_0 a ⟨n + 1, hn⟩) (ms_1 a ⟨n + 1, hn⟩) (hs_1 a ⟨n + 1, hn⟩) (ms_2 a ⟨n + 1, hn⟩) (hs_2 a ⟨n + 1, hn⟩) (fun h => h0 ((hcondFirst ⟨n + 1, hn⟩).mp h))
          (iblk V a c 0 ⟨n + 1, hn⟩) (iblk V a c 1 ⟨n + 1, hn⟩) (outsAt hH c n (Nat.lt_of_succ_lt hn)) (a.1 0) (a.1 1) (hH c ⟨n + 1, hn⟩).1 (hH c ⟨n + 1, hn⟩).2 h2

/-- `outsAt` at a first point, on the diagonal. -/
theorem outsAt_A (hH : Hyps a) (c : Dev nD) (t : Fin (cfgA a).N) (h0 : t.val % 18 = 0) (h2 : ¬offDiag a c t) :
    outsAt V a hH c t.val t.isLt = out_A c (grid0.coords t) (ms_0 a t) (hs_0 a t) (ms_1 a t) (hs_1 a t) (ms_2 a t) (hs_2 a t) ((hcondFirst t).mpr h0) (iblk V a c 0 t) (iblk V a c 1 t) (a.1 0) (a.1 1) (hH c t).1 (hH c t).2 h2 := by
  obtain ⟨n, hn⟩ := t
  cases n with
  | zero => exact (dif_neg h2).trans rfl
  | succ n => exact (dif_pos h0).trans ((dif_neg h2).trans rfl)
/-- `outsAt` at a first point, off the diagonal. -/
theorem outsAt_B (hH : Hyps a) (c : Dev nD) (t : Fin (cfgA a).N) (h0 : t.val % 18 = 0) (h2 : offDiag a c t) :
    outsAt V a hH c t.val t.isLt = out_B c (grid0.coords t) (ms_0 a t) (hs_0 a t) (ms_1 a t) (hs_1 a t) (ms_2 a t) (hs_2 a t) ((hcondFirst t).mpr h0) (iblk V a c 0 t) (iblk V a c 1 t) (a.1 0) (a.1 1) (hH c t).1 (hH c t).2 h2 := by
  obtain ⟨n, hn⟩ := t
  cases n with
  | zero => exact (dif_pos h2).trans rfl
  | succ n => exact (dif_pos h0).trans ((dif_pos h2).trans rfl)
/-- `outsAt` at a later point, on the diagonal: over what the point before left. -/
theorem outsAt_C (hH : Hyps a) (c : Dev nD) (t : Fin (cfgA a).N) (h0 : ¬t.val % 18 = 0) (h2 : ¬offDiag a c t) :
    outsAt V a hH c t.val t.isLt = out_C c (grid0.coords t) (ms_0 a t) (hs_0 a t) (ms_1 a t) (hs_1 a t) (ms_2 a t) (hs_2 a t) (fun h => h0 ((hcondFirst t).mp h)) (iblk V a c 0 t) (iblk V a c 1 t)
      (outsAt V a hH c (t.val - 1) (Nat.lt_of_le_of_lt (Nat.sub_le _ _) t.isLt)) (a.1 0) (a.1 1) (hH c t).1 (hH c t).2 h2 := by
  obtain ⟨n, hn⟩ := t
  cases n with
  | zero => exact (by exfalso; exact absurd (Nat.zero_mod _) h0)
  | succ n => exact (dif_neg h0).trans ((dif_neg h2).trans rfl)
/-- `outsAt` at a later point, off the diagonal. -/
theorem outsAt_D (hH : Hyps a) (c : Dev nD) (t : Fin (cfgA a).N) (h0 : ¬t.val % 18 = 0) (h2 : offDiag a c t) :
    outsAt V a hH c t.val t.isLt = out_D c (grid0.coords t) (ms_0 a t) (hs_0 a t) (ms_1 a t) (hs_1 a t) (ms_2 a t) (hs_2 a t) (fun h => h0 ((hcondFirst t).mp h)) (iblk V a c 0 t) (iblk V a c 1 t)
      (outsAt V a hH c (t.val - 1) (Nat.lt_of_le_of_lt (Nat.sub_le _ _) t.isLt)) (a.1 0) (a.1 1) (hH c t).1 (hH c t).2 h2 := by
  obtain ⟨n, hn⟩ := t
  cases n with
  | zero => exact (by exfalso; exact absurd (Nat.zero_mod _) h0)
  | succ n => exact (dif_neg h0).trans ((dif_pos h2).trans rfl)

/-! ## The pipeline's proof data -/

/-- The proof data on core `c`: the arrays as the region finds them; after the body at point `t` each input's buffer
    at its block and the accumulator's at `outsAt`; the invariant the scoped rest, the generator register and the
    two tables held whole; nothing owed; full shares. -/
def dat (hH : Hyps a) (c : Dev nD) : Dat τ (Elt F) Unit ℕ (UR sig nD τ) ℕ (cfgA a) c where
  A w := V c (Pipeline.arrRef spec0 w)
  after w t := match w with
    | ⟨0, _⟩ => iblk V a c 0 t
    | ⟨1, _⟩ => iblk V a c 1 t
    | ⟨2, _⟩ => outsAt V a hH c t.val t.isLt
  Φ _ := iprop(Pipeline.ΦA spec0 c ∗ Pipeline.prefHeld pre0 c (fun _ => fullShare) a.1)
  q _ := fullShare
  owed _ := 0

theorem A_eq (hH : Hyps a) (c : Dev nD) (w : Fin (cfgA a).W) : (dat V a hH c).A w = V c (Pipeline.arrRef spec0 w) := by
  dsimp only [dat]
theorem after_0 (hH : Hyps a) (c : Dev nD) (t : Fin (cfgA a).N) : (dat V a hH c).after 0 t = iblk V a c 0 t := by dsimp only [dat]; try rfl
theorem after_1 (hH : Hyps a) (c : Dev nD) (t : Fin (cfgA a).N) : (dat V a hH c).after 1 t = iblk V a c 1 t := by dsimp only [dat]; try rfl
theorem after_2 (hH : Hyps a) (c : Dev nD) (t : Fin (cfgA a).N) : (dat V a hH c).after 2 t = outsAt V a hH c t.val t.isLt := by dsimp only [dat]; try rfl

theorem before_0 (hH : Hyps a) (c : Dev nD) (t : Fin (cfgA a).N) (d) : (dat V a hH c).before 0 t d = iblk V a c 0 t :=
  before_in0_of V a (dat V a hH c) (A_eq V a hH c 0) (after_0 V a hH c) t d
theorem before_1 (hH : Hyps a) (c : Dev nD) (t : Fin (cfgA a).N) (d) : (dat V a hH c).before 1 t d = iblk V a c 1 t :=
  before_in1_of V a (dat V a hH c) (A_eq V a hH c 1) (after_1 V a hH c) t d
/-- At a later point of a sweep the accumulator's buffer holds what the body left at the point before: it was not
    written back in between. -/
theorem before_2_later (hH : Hyps a) (c : Dev nD) (t : Fin (cfgA a).N) (h0 : ¬t.val % 18 = 0) (d) :
    (dat V a hH c).before 2 t d = outsAt V a hH c (t.val - 1) (Nat.lt_of_le_of_lt (Nat.sub_le _ _) t.isLt) := by
  have hN : t.val < 36 := lt_of_lt_of_eq t.isLt (show (cfgA a).N = 36 from N_0)
  rw [Dat.before_out_kept _ 2 rfl t (by omega) (Bool.eq_false_iff.mpr fun h => by have := (flush_2 a _).mp h; dsimp only at this; omega)
    (fun _ => rfl) (fun _ _ => rfl)]
  exact after_2 V a hH c _

/-! ## The body obligation, at a generic point -/

def bodyPre (hH : Hyps a) (c : Dev nD) (t : Fin (cfgA a).N) : sProp 𝕄 :=
  iprop((dat V a hH c).Φ t.castSucc ∗ (dat V a hH c).owesAt () t.castSucc
    ∗ (∃ d, owns (c : Thread nD τ) (ms_0 a t) fullShare ((dat V a hH c).before 0 t d))
    ∗ (∃ d, owns (c : Thread nD τ) (ms_1 a t) fullShare ((dat V a hH c).before 1 t d))
    ∗ (∃ d, owns (c : Thread nD τ) (ms_2 a t) fullShare ((dat V a hH c).before 2 t d)))

def bodyPost (hH : Hyps a) (c : Dev nD) (t : Fin (cfgA a).N) : sProp 𝕄 :=
  iprop((dat V a hH c).Φ t.succ ∗ (dat V a hH c).owesAt () t.succ
    ∗ owns (c : Thread nD τ) (ms_0 a t) fullShare ((dat V a hH c).after 0 t)
    ∗ owns (c : Thread nD τ) (ms_1 a t) fullShare ((dat V a hH c).after 1 t)
    ∗ owns (c : Thread nD τ) (ms_2 a t) fullShare ((dat V a hH c).after 2 t))

set_option maxHeartbeats 3200000 in
/-- The body at any point: the inputs' memrefs hold their blocks; the point is a first or a later point of its sweep
    and its pair on or off the diagonal (four cases); at a later point the accumulator's buffer holds what the point
    before left; so that case's run applies. The invariant passes through, the tables lent to the run and taken back. -/
theorem sound_body (hH : Hyps a) (c : Dev nD) (t : Fin (cfgA a).N) :
    bodyPre V a hH c t ⊢ wp frame (wpE (defs₀ (F := F)) Variants.none c none) Set.univ (bodyAt a t) (fun _ => bodyPost V a hH c t) := by
  unfold bodyPre bodyPost bodyAt
  simp only [before_0, before_1]
  rw [show (dat V a hH c).Φ t.succ = (dat V a hH c).Φ t.castSucc from rfl,
    show (dat V a hH c).owesAt () t.succ = (dat V a hH c).owesAt () t.castSucc from rfl,
    after_0, after_1, after_2]
  rw [show (dat V a hH c).Φ t.castSucc = iprop(Pipeline.ΦA spec0 c ∗ Pipeline.prefHeld pre0 c (fun _ => fullShare) a.1) from rfl, tables_eq]
  by_cases h0 : t.val % 18 = 0
  · by_cases h2 : offDiag a c t
    ·
      rw [outsAt_B V a hH c t h0 h2]
      unfold out_B
      iintro ⟨⟨HΦ, ⟨HT0, HT1⟩⟩, Ho, ⟨%d0, H0⟩, ⟨%d1, H1⟩, ⟨%d2, H2⟩⟩
      iapply ((kernelRun_B c (grid0.coords t) (ms_0 a t) (hs_0 a t) (ms_1 a t) (hs_1 a t) (ms_2 a t) (hs_2 a t) ((hcondFirst t).mpr h0) (iblk V a c 0 t) (iblk V a c 1 t) (a.1 0) (a.1 1) (hH c t).1 (hH c t).2 h2).2 Set.univ _)
      isplitl [H0]; · iexact H0
      isplitl [H1]; · iexact H1
      isplitl [H2]; · iexists _; iexact H2
      isplitl [HT0]; · iexact HT0
      isplitl [HT1]; · iexact HT1
      iintro ⟨H0, H1, ⟨%e2, H2⟩, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      unfold owns; iexists _; isplitr
      swap; · iexact H2
      ipureintro; exact View.read_writes_of_cover _ _ _ _ _ (cover_B c (grid0.coords t) (ms_0 a t) (hs_0 a t) (ms_1 a t) (hs_1 a t) (ms_2 a t) (hs_2 a t) ((hcondFirst t).mpr h0) (iblk V a c 0 t) (iblk V a c 1 t) (a.1 0) (a.1 1) (hH c t).1 (hH c t).2 h2)
    ·
      rw [outsAt_A V a hH c t h0 h2]
      unfold out_A
      iintro ⟨⟨HΦ, ⟨HT0, HT1⟩⟩, Ho, ⟨%d0, H0⟩, ⟨%d1, H1⟩, ⟨%d2, H2⟩⟩
      iapply ((kernelRun_A c (grid0.coords t) (ms_0 a t) (hs_0 a t) (ms_1 a t) (hs_1 a t) (ms_2 a t) (hs_2 a t) ((hcondFirst t).mpr h0) (iblk V a c 0 t) (iblk V a c 1 t) (a.1 0) (a.1 1) (hH c t).1 (hH c t).2 h2).2 Set.univ _)
      isplitl [H0]; · iexact H0
      isplitl [H1]; · iexact H1
      isplitl [H2]; · iexists _; iexact H2
      isplitl [HT0]; · iexact HT0
      isplitl [HT1]; · iexact HT1
      iintro ⟨H0, H1, ⟨%e2, H2⟩, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      unfold owns; iexists _; isplitr
      swap; · iexact H2
      ipureintro; exact View.read_writes_of_cover _ _ _ _ _ (cover_A c (grid0.coords t) (ms_0 a t) (hs_0 a t) (ms_1 a t) (hs_1 a t) (ms_2 a t) (hs_2 a t) ((hcondFirst t).mpr h0) (iblk V a c 0 t) (iblk V a c 1 t) (a.1 0) (a.1 1) (hH c t).1 (hH c t).2 h2)
  · by_cases h2 : offDiag a c t
    ·
      rw [outsAt_D V a hH c t h0 h2]
      simp only [before_2_later V a hH c t h0]
      unfold out_D
      iintro ⟨⟨HΦ, ⟨HT0, HT1⟩⟩, Ho, ⟨%d0, H0⟩, ⟨%d1, H1⟩, ⟨%d2, H2⟩⟩
      iapply ((kernelRun_D c (grid0.coords t) (ms_0 a t) (hs_0 a t) (ms_1 a t) (hs_1 a t) (ms_2 a t) (hs_2 a t) (fun h => h0 ((hcondFirst t).mp h)) (iblk V a c 0 t) (iblk V a c 1 t) (outsAt V a hH c (t.val - 1) (Nat.lt_of_le_of_lt (Nat.sub_le _ _) t.isLt)) (a.1 0) (a.1 1) (hH c t).1 (hH c t).2 h2).2 Set.univ _)
      isplitl [H0]; · iexact H0
      isplitl [H1]; · iexact H1
      isplitl [H2]; · iexact H2
      isplitl [HT0]; · iexact HT0
      isplitl [HT1]; · iexact HT1
      iintro ⟨H0, H1, H2, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      unfold owns; iexists _; isplitr
      swap; · iexact H2
      ipureintro; rfl
    ·
      rw [outsAt_C V a hH c t h0 h2]
      simp only [before_2_later V a hH c t h0]
      unfold out_C
      iintro ⟨⟨HΦ, ⟨HT0, HT1⟩⟩, Ho, ⟨%d0, H0⟩, ⟨%d1, H1⟩, ⟨%d2, H2⟩⟩
      iapply ((kernelRun_C c (grid0.coords t) (ms_0 a t) (hs_0 a t) (ms_1 a t) (hs_1 a t) (ms_2 a t) (hs_2 a t) (fun h => h0 ((hcondFirst t).mp h)) (iblk V a c 0 t) (iblk V a c 1 t) (outsAt V a hH c (t.val - 1) (Nat.lt_of_le_of_lt (Nat.sub_le _ _) t.isLt)) (a.1 0) (a.1 1) (hH c t).1 (hH c t).2 h2).2 Set.univ _)
      isplitl [H0]; · iexact H0
      isplitl [H1]; · iexact H1
      isplitl [H2]; · iexact H2
      isplitl [HT0]; · iexact HT0
      isplitl [HT1]; · iexact HT1
      iintro ⟨H0, H1, H2, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      unfold owns; iexists _; isplitr
      swap; · iexact H2
      ipureintro; rfl

/-- The library's body obligation, at every point. -/
theorem body_obligation (hH : Hyps a) (c : Dev nD) : BodyObligation (dat (F := F) V a hH c) (defs₀ (F := F)) Variants.none () Set.univ := fun t => by
  rw [bigSep_W0, bigSep_W0]
  exact sound_body V a hH c t

end Cert.KernelIdeal.PredRank
end
-- ==== Proof.KI.Targ.Words.lean ====
import proofs.«115298_j79809082295156_2_alg».proof.Proof.Gen.KernelIdeal.Launch
import proofs.«115298_j79809082295156_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.KernelIdeal.TargRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The pair tables as the body is handed them, and the words it reads -/

abbrev tbR : Memref sig .tc .smem S2x18 .i32 := Memref.whole main_c_1
abbrev htbR : tbR.IsWhole := Memref.isWhole_whole _
abbrev tbC : Memref sig .tc .smem S2x18 .i32 := Memref.whole main_c_2
abbrev htbC : tbC.IsWhole := Memref.isWhole_whole _

abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare} f

/-- The word of a table at the grid point's cell. -/
abbrev wd (c : Dev nD) (i : grid1.Coords) (M : Memref sig .tc .smem S2x18 .i32) (xt : TbBuf (F := F) c M) : Elt F .i32 :=
  M.view.readAt (Elt F) (Rect.unit (s := S2x18) (k1_off1 i) S1x1.size (k1_off1_inb i)).toLoadRect xt (Shape.Idx.first (numel1_S1x1.symm ▸ Nat.one_pos))

/-- The first conditional's condition: the second grid coordinate is zero (the first pair of a sweep). -/
abbrev condFirst (i : grid1.Coords) : Prop := (Scalar.cmpi .ne (Scalar.extui (Scalar.cmpi .eq (BitVec.ofNat 32 (i 1).val) 0#32)) 0#32) = 1#1

/-! ## The tables' literal contents, and the words at each grid point

The two tables are constants of the program: row `k` of each lists, pair by pair, the row block and the column
block of the pairs sweep `k` visits. Everything the control and the slices need of them is decided here, once,
over the 36 grid points. -/

/-- The row-block table and the column-block table, as the host constants write them. -/
abbrev TR : S2x18.Idx → BitVec 32 := fun i => lit2 (S2x18.rowMajor i)
abbrev TC : S2x18.Idx → BitVec 32 := fun i => lit3 (S2x18.rowMajor i)

/-- Both tables as the region's prefetched contents. -/
def tblL : pre1.Contents (Elt F) := fun | ⟨0, _⟩ => TR | ⟨1, _⟩ => TC | ⟨_ + 2, h⟩ => absurd h (Nat.not_lt.2 (Nat.le_add_left _ _))

/-- The table cell a grid point reads. -/
abbrev cell (i : grid1.Coords) : S2x18.Idx :=
  (Rect.unit (s := S2x18) (k1_off1 i) S1x1.size (k1_off1_inb i)).emb (Shape.Idx.first (numel1_S1x1.symm ▸ Nat.one_pos))

/-- The row block and the column block of the pair at point `t`, as words. -/
def wr (t : Fin grid1.N) : BitVec 32 := TR (cell (grid1.coords t))
def wc (t : Fin grid1.N) : BitVec 32 := TC (cell (grid1.coords t))

theorem wd_r (c : Dev nD) (t : Fin grid1.N) : wd (F := F) c (grid1.coords t) tbR (tblL (F := F) 0) = wr t := rfl
theorem wd_c (c : Dev nD) (t : Fin grid1.N) : wd (F := F) c (grid1.coords t) tbC (tblL (F := F) 1) = wc t := rfl

/-- At every point both blocks are below 8, so the slices the body takes at 1024 times them lie inside the row of 8192. -/
theorem chk_all : ∀ t : Fin grid1.N, k1_chk1 (wr t) ∧ k1_chk2 (wr t) (wc t) := by decide +kernel

/-- The accumulator is reset exactly at the first point of each sweep. -/
theorem hcondFirst : ∀ t : Fin grid1.N, condFirst (grid1.coords t) ↔ t.val % 18 = 0 := by decide +kernel

/-- The side condition of the tables' contents: every block the index maps name lies inside its array. -/
theorem ok_tblL : ok1 (F := F) (tblL (F := F)) := by
  have h0 : ∀ i : grid1.Coords, ∀ a, (![(TR (cell i)).toNat, 0] a + 1) * S1024x1.size a ≤ S8192x1.size a := by decide +kernel
  have h1 : ∀ i : grid1.Coords, ∀ a, (![0, (TC (cell i)).toNat] a + 1) * S1x1024.size a ≤ S1x8192.size a := by decide +kernel
  exact ⟨fun i => ⟨h0 i, .inl rfl⟩, fun i => ⟨h1 i, .inl rfl⟩⟩

end Cert.KernelIdeal.TargRank
end
-- ==== Proof.KI.Targ.RunA.lean ====
import proofs.«115298_j79809082295156_2_alg».proof.Proof.KI.Targ.Words
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.KernelIdeal.TargRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a first point of a sweep whose pair is on the diagonal (one slice updated):
    on whole staging memrefs, the two input blocks at their contents,
    the tables at theirs with the point's two words in range, it runs to the continuation holding the inputs and
    the tables as they were and the accumulator's buffer with the body's stores written (the first of them the zero fill of the whole buffer); the stores, newest first, are the witness the run finds. -/
noncomputable def kernelRun_A (c : Dev nD) (i : grid1.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : condFirst i)
    (x0 : Vec F S1024x1 .f32) (x1 : Vec F S1x1024 .f32)
    (xt0 : TbBuf (F := F) c tbR) (xt1 : TbBuf (F := F) c tbC)
    (hw1 : k1_chk1 (wd c i tbR xt0)) (hw2 : k1_chk2 (wd c i tbR xt0) (wd c i tbC xt1))
    (hc2 : ¬k1_cond2 (wd c i tbR xt0) (wd c i tbC xt1) = 1#1) :
    { L : List (View.Piece (Elt F) S1x1x8192 .f32) //
      ∀ (E : Set ℕ) (K : PUnit → sProp 𝕄),
        iprop(owns (c : Thread nD τ) arg4 fullShare x0 ∗ owns (c : Thread nD τ) arg5 fullShare x1 ∗ (∃ d, owns (c : Thread nD τ) arg6 fullShare d)
            ∗ tbPt c tbR xt0 ∗ tbPt c tbC xt1
            ∗ (iprop(owns (c : Thread nD τ) arg4 fullShare x0 ∗ owns (c : Thread nD τ) arg5 fullShare x1
                ∗ (∃ f, arg6.view.loc (c : Thread nD τ) ↦[arg6.view.set]{fullShare} arg6.view.writes (Elt F) f L)
                ∗ tbPt c tbR xt0 ∗ tbPt c tbC xt1) -∗ K ⟨⟩))
          ⊢ wp frame (wpE (defs₀ (F := F)) Variants.none c none) E (cc1__pair_kernel i tbR htbR tbC htbC arg4 harg4 arg5 harg5 arg6 harg6) K } := by
  refine ⟨?_, fun E K => ?run⟩
  case run =>
    simp only [cc1__pair_kernel_eq_skeleton]; unfold cc1__pair_kernel_skel
    unfold owns
    iintro ⟨⟨%f0, %hf0, H0⟩, ⟨%f1, %hf1, H1⟩, ⟨%d2, %f2, -, H2⟩, HT0, HT1, Hk⟩
    obtain rfl := harg4.eq_unread hf0; obtain rfl := harg5.eq_unread hf1
    sl_exec (disch := first | exact hc0 | sl_exact hw1 | sl_exact hw2 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]; · iexists _; iexact H2
    isplitl [HT0]; · iexact HT0
    iexact HT1

end Cert.KernelIdeal.TargRank
end
-- ==== Proof.KI.Targ.RunB.lean ====
import proofs.«115298_j79809082295156_2_alg».proof.Proof.KI.Targ.Words
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.KernelIdeal.TargRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a first point of a sweep whose pair is off the diagonal (two slices updated):
    on whole staging memrefs, the two input blocks at their contents,
    the tables at theirs with the point's two words in range, it runs to the continuation holding the inputs and
    the tables as they were and the accumulator's buffer with the body's stores written (the first of them the zero fill of the whole buffer); the stores, newest first, are the witness the run finds. -/
noncomputable def kernelRun_B (c : Dev nD) (i : grid1.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : condFirst i)
    (x0 : Vec F S1024x1 .f32) (x1 : Vec F S1x1024 .f32)
    (xt0 : TbBuf (F := F) c tbR) (xt1 : TbBuf (F := F) c tbC)
    (hw1 : k1_chk1 (wd c i tbR xt0)) (hw2 : k1_chk2 (wd c i tbR xt0) (wd c i tbC xt1))
    (hc2 : k1_cond2 (wd c i tbR xt0) (wd c i tbC xt1) = 1#1) :
    { L : List (View.Piece (Elt F) S1x1x8192 .f32) //
      ∀ (E : Set ℕ) (K : PUnit → sProp 𝕄),
        iprop(owns (c : Thread nD τ) arg4 fullShare x0 ∗ owns (c : Thread nD τ) arg5 fullShare x1 ∗ (∃ d, owns (c : Thread nD τ) arg6 fullShare d)
            ∗ tbPt c tbR xt0 ∗ tbPt c tbC xt1
            ∗ (iprop(owns (c : Thread nD τ) arg4 fullShare x0 ∗ owns (c : Thread nD τ) arg5 fullShare x1
                ∗ (∃ f, arg6.view.loc (c : Thread nD τ) ↦[arg6.view.set]{fullShare} arg6.view.writes (Elt F) f L)
                ∗ tbPt c tbR xt0 ∗ tbPt c tbC xt1) -∗ K ⟨⟩))
          ⊢ wp frame (wpE (defs₀ (F := F)) Variants.none c none) E (cc1__pair_kernel i tbR htbR tbC htbC arg4 harg4 arg5 harg5 arg6 harg6) K } := by
  refine ⟨?_, fun E K => ?run⟩
  case run =>
    simp only [cc1__pair_kernel_eq_skeleton]; unfold cc1__pair_kernel_skel
    unfold owns
    iintro ⟨⟨%f0, %hf0, H0⟩, ⟨%f1, %hf1, H1⟩, ⟨%d2, %f2, -, H2⟩, HT0, HT1, Hk⟩
    obtain rfl := harg4.eq_unread hf0; obtain rfl := harg5.eq_unread hf1
    sl_exec (disch := first | exact hc0 | sl_exact hw1 | sl_exact hw2 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]; · iexists _; iexact H2
    isplitl [HT0]; · iexact HT0
    iexact HT1

end Cert.KernelIdeal.TargRank
end
-- ==== Proof.KI.Targ.RunC.lean ====
import proofs.«115298_j79809082295156_2_alg».proof.Proof.KI.Targ.Words
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.KernelIdeal.TargRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a later point of a sweep whose pair is on the diagonal (one slice updated):
    on whole staging memrefs, the two input blocks at their contents, the accumulator's buffer at its running contents `xo`,
    the tables at theirs with the point's two words in range, it runs to the continuation holding the inputs and
    the tables as they were and the accumulator's buffer with the body's stores written over `xo`; the stores, newest first, are the witness the run finds. -/
noncomputable def kernelRun_C (c : Dev nD) (i : grid1.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : ¬condFirst i)
    (x0 : Vec F S1024x1 .f32) (x1 : Vec F S1x1024 .f32) (xo : Vec F S1x1x8192 .f32)
    (xt0 : TbBuf (F := F) c tbR) (xt1 : TbBuf (F := F) c tbC)
    (hw1 : k1_chk1 (wd c i tbR xt0)) (hw2 : k1_chk2 (wd c i tbR xt0) (wd c i tbC xt1))
    (hc2 : ¬k1_cond2 (wd c i tbR xt0) (wd c i tbC xt1) = 1#1) :
    { L : List (View.Piece (Elt F) S1x1x8192 .f32) //
      ∀ (E : Set ℕ) (K : PUnit → sProp 𝕄),
        iprop(owns (c : Thread nD τ) arg4 fullShare x0 ∗ owns (c : Thread nD τ) arg5 fullShare x1 ∗ owns (c : Thread nD τ) arg6 fullShare xo
            ∗ tbPt c tbR xt0 ∗ tbPt c tbC xt1
            ∗ (iprop(owns (c : Thread nD τ) arg4 fullShare x0 ∗ owns (c : Thread nD τ) arg5 fullShare x1
                ∗ (arg6.view.loc (c : Thread nD τ) ↦[arg6.view.set]{fullShare} arg6.view.writes (Elt F) (harg6.unread xo) L)
                ∗ tbPt c tbR xt0 ∗ tbPt c tbC xt1) -∗ K ⟨⟩))
          ⊢ wp frame (wpE (defs₀ (F := F)) Variants.none c none) E (cc1__pair_kernel i tbR htbR tbC htbC arg4 harg4 arg5 harg5 arg6 harg6) K } := by
  refine ⟨?_, fun E K => ?run⟩
  case run =>
    simp only [cc1__pair_kernel_eq_skeleton]; unfold cc1__pair_kernel_skel
    unfold owns
    iintro ⟨⟨%f0, %hf0, H0⟩, ⟨%f1, %hf1, H1⟩, ⟨%f2, %hf2, H2⟩, HT0, HT1, Hk⟩
    obtain rfl := harg4.eq_unread hf0; obtain rfl := harg5.eq_unread hf1; obtain rfl := harg6.eq_unread hf2
    sl_exec (disch := first | exact hc0 | sl_exact hw1 | sl_exact hw2 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]; · iexact H2
    isplitl [HT0]; · iexact HT0
    iexact HT1

end Cert.KernelIdeal.TargRank
end
-- ==== Proof.KI.Targ.RunD.lean ====
import proofs.«115298_j79809082295156_2_alg».proof.Proof.KI.Targ.Words
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.KernelIdeal.TargRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a later point of a sweep whose pair is off the diagonal (two slices updated):
    on whole staging memrefs, the two input blocks at their contents, the accumulator's buffer at its running contents `xo`,
    the tables at theirs with the point's two words in range, it runs to the continuation holding the inputs and
    the tables as they were and the accumulator's buffer with the body's stores written over `xo`; the stores, newest first, are the witness the run finds. -/
noncomputable def kernelRun_D (c : Dev nD) (i : grid1.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : ¬condFirst i)
    (x0 : Vec F S1024x1 .f32) (x1 : Vec F S1x1024 .f32) (xo : Vec F S1x1x8192 .f32)
    (xt0 : TbBuf (F := F) c tbR) (xt1 : TbBuf (F := F) c tbC)
    (hw1 : k1_chk1 (wd c i tbR xt0)) (hw2 : k1_chk2 (wd c i tbR xt0) (wd c i tbC xt1))
    (hc2 : k1_cond2 (wd c i tbR xt0) (wd c i tbC xt1) = 1#1) :
    { L : List (View.Piece (Elt F) S1x1x8192 .f32) //
      ∀ (E : Set ℕ) (K : PUnit → sProp 𝕄),
        iprop(owns (c : Thread nD τ) arg4 fullShare x0 ∗ owns (c : Thread nD τ) arg5 fullShare x1 ∗ owns (c : Thread nD τ) arg6 fullShare xo
            ∗ tbPt c tbR xt0 ∗ tbPt c tbC xt1
            ∗ (iprop(owns (c : Thread nD τ) arg4 fullShare x0 ∗ owns (c : Thread nD τ) arg5 fullShare x1
                ∗ (arg6.view.loc (c : Thread nD τ) ↦[arg6.view.set]{fullShare} arg6.view.writes (Elt F) (harg6.unread xo) L)
                ∗ tbPt c tbR xt0 ∗ tbPt c tbC xt1) -∗ K ⟨⟩))
          ⊢ wp frame (wpE (defs₀ (F := F)) Variants.none c none) E (cc1__pair_kernel i tbR htbR tbC htbC arg4 harg4 arg5 harg5 arg6 harg6) K } := by
  refine ⟨?_, fun E K => ?run⟩
  case run =>
    simp only [cc1__pair_kernel_eq_skeleton]; unfold cc1__pair_kernel_skel
    unfold owns
    iintro ⟨⟨%f0, %hf0, H0⟩, ⟨%f1, %hf1, H1⟩, ⟨%f2, %hf2, H2⟩, HT0, HT1, Hk⟩
    obtain rfl := harg4.eq_unread hf0; obtain rfl := harg5.eq_unread hf1; obtain rfl := harg6.eq_unread hf2
    sl_exec (disch := first | exact hc0 | sl_exact hw1 | sl_exact hw2 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]; · iexact H2
    isplitl [HT0]; · iexact HT0
    iexact HT1

end Cert.KernelIdeal.TargRank
end
-- ==== Proof.KI.Targ.Region.lean ====
import proofs.«115298_j79809082295156_2_alg».proof.Proof.KI.Targ.RunA
import proofs.«115298_j79809082295156_2_alg».proof.Proof.KI.Targ.RunB
import proofs.«115298_j79809082295156_2_alg».proof.Proof.KI.Targ.RunC
import proofs.«115298_j79809082295156_2_alg».proof.Proof.KI.Targ.RunD
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.KernelIdeal.TargRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The region at entry contents `V` and tables `a`

Everything here is stated for ANY admissible contents `a` of the two tables; the run instantiates them at the
literal tables last. -/

variable (V : (c : Dev nD) → (b : Ref sig .tc) → Buf (Elt F) ((c : Thread nD τ).loc b))
variable (a : (pcfg1 (F := F)).Adm)

abbrev cfgA : Pipeline.Cfg sig Λ₀ := cfg1 a

/-- Window `w`'s block at point `t`, read off its array as the region finds it. -/
def iblk (c : Dev nD) (w : Fin (cfgA a).W) (t : Fin (cfgA a).N) : (((cfgA a).win w).xblock ((cfgA a).grid.coords t)).Idx → Elt F ((cfgA a).win w).elt :=
  (((cfgA a).win w).blk t).view.read (Elt F) (V c (Pipeline.arrRef spec1 w))

/-- An input window's current staging buffer holds its block at every point, fetched there or not. -/
theorem before_in0_of {c : Dev nD} (dat : Dat τ (Elt F) Unit ℕ (UR sig nD τ) ℕ (cfgA a) c) (hA : dat.A 0 = V c (Pipeline.arrRef spec1 0))
    (hafter : ∀ t, dat.after 0 t = iblk V a c 0 t) (t : Fin (cfgA a).N) (d) : dat.before 0 t d = iblk V a c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ (cfgA a) c) (hA : dat.A 1 = V c (Pipeline.arrRef spec1 1))
    (hafter : ∀ t, dat.after 1 t = iblk V a c 1 t) (t : Fin (cfgA a).N) (d) : dat.before 1 t d = iblk V a c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, and its wholeness. -/
abbrev ms_0 (t : Fin (cfgA a).N) : Memref sig .tc .vmem S1024x1 .f32 := spec1_0.stage ((cfgA a).slots t 0)
abbrev hs_0 (t : Fin (cfgA a).N) : (ms_0 a t).IsWhole := hstage1_0 (((cfgA a).slots t 0).cast nbuf1_0)
abbrev ms_1 (t : Fin (cfgA a).N) : Memref sig .tc .vmem S1x1024 .f32 := spec1_1.stage ((cfgA a).slots t 1)
abbrev hs_1 (t : Fin (cfgA a).N) : (ms_1 a t).IsWhole := hstage1_1 (((cfgA a).slots t 1).cast nbuf1_1)
abbrev ms_2 (t : Fin (cfgA a).N) : Memref sig .tc .vmem S1x1x8192 .f32 := spec1_2.stage ((cfgA a).slots t 2)
abbrev hs_2 (t : Fin (cfgA a).N) : (ms_2 a t).IsWhole := hstage1_2 (((cfgA a).slots t 2).cast nbuf1_2)

/-- The kernel body at point `t`, on what the pipeline calls it with. -/
abbrev bodyAt (t : Fin (cfgA a).N) : Prog (TpuEff nD τ sig (Elt F) Λ₀ .tc) PUnit :=
  cc1__pair_kernel (grid1.coords t) tbR htbR tbC htbC (ms_0 a t) (hs_0 a t) (ms_1 a t) (hs_1 a t) (ms_2 a t) (hs_2 a t)

/-- The accumulator's window is written back at the last point of each sweep only, whatever the tables hold (its index map reads none). -/
theorem flush_2 : ∀ t : Fin (cfgA a).N, ((cfgA a).win 2).flush t = true ↔ t.val % 18 = 17 :=
  (by decide +kernel : ∀ t : Fin grid1.N, Pipeline.Window.flushOf grid1 true cc1_transform_2 t = true ↔ t.val % 18 = 17)

/-- The tables, held whole, one by one. -/
theorem tables_eq (c : Dev nD) : (Pipeline.prefHeld pre1 c (fun _ => fullShare) a.1 : sProp 𝕄) = iprop(tbPt c tbR (a.1 0) ∗ tbPt c tbC (a.1 1)) := by
  unfold Pipeline.prefHeld
  rw [show (Finset.univ : Finset (Fin 2)) = insert (0 : Fin 2) {(1 : Fin 2)} from by decide,
    bigSep_insert (by decide), bigSep_singleton]
  rfl

/-- The side conditions the body assumes of the two words it reads, at every point. -/
def Hyps : Prop :=
  ∀ (c : Dev nD) (t : Fin (cfgA a).N),
    k1_chk1 (wd c (grid1.coords t) tbR (a.1 0)) ∧ k1_chk2 (wd c (grid1.coords t) tbR (a.1 0)) (wd c (grid1.coords t) tbC (a.1 1))

/-- Whether the pair at point `t` is off the diagonal, as the body decides it. -/
abbrev offDiag (c : Dev nD) (t : Fin (cfgA a).N) : Prop :=
  k1_cond2 (wd c (grid1.coords t) tbR (a.1 0)) (wd c (grid1.coords t) tbC (a.1 1)) = 1#1

/-- At a first point the body's oldest store fills the whole buffer with zeros, so its stores cover it whatever the later ones are. -/
theorem cover_A (c : Dev nD) (i : grid1.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : condFirst i)
    (x0 : Vec F S1024x1 .f32) (x1 : Vec F S1x1024 .f32)
    (xt0 : TbBuf (F := F) c tbR) (xt1 : TbBuf (F := F) c tbC)
    (hw1 : k1_chk1 (wd c i tbR xt0)) (hw2 : k1_chk2 (wd c i tbR xt0) (wd c i tbC xt1))
    (hc2 : ¬k1_cond2 (wd c i tbR xt0) (wd c i tbC xt1) = 1#1) (y : S1x1x8192.Idx) :
    ∃ pc ∈ (kernelRun_A c i arg4 harg4 arg5 harg5 arg6 harg6 hc0 x0 x1 xt0 xt1 hw1 hw2 hc2).1, y ∈ pc.1.set :=
  View.cover_of_wholeMem (kernelRun_A c i arg4 harg4 arg5 harg5 arg6 harg6 hc0 x0 x1 xt0 xt1 hw1 hw2 hc2).1 (by sl_whole_mem) y

/-- What the body leaves in the accumulator's staging buffer in this case: its stores read back (over anything: they cover the buffer). -/
def out_A (c : Dev nD) (i : grid1.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : condFirst i)
    (x0 : Vec F S1024x1 .f32) (x1 : Vec F S1x1024 .f32)
    (xt0 : TbBuf (F := F) c tbR) (xt1 : TbBuf (F := F) c tbC)
    (hw1 : k1_chk1 (wd c i tbR xt0)) (hw2 : k1_chk2 (wd c i tbR xt0) (wd c i tbC xt1))
    (hc2 : ¬k1_cond2 (wd c i tbR xt0) (wd c i tbC xt1) = 1#1) : Vec F S1x1x8192 .f32 :=
  arg6.view.read (Elt F) (arg6.view.writes (Elt F) arg6.view.junk (kernelRun_A c i arg4 harg4 arg5 harg5 arg6 harg6 hc0 x0 x1 xt0 xt1 hw1 hw2 hc2).1)

/-- At a first point the body's oldest store fills the whole buffer with zeros, so its stores cover it whatever the later ones are. -/
theorem cover_B (c : Dev nD) (i : grid1.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : condFirst i)
    (x0 : Vec F S1024x1 .f32) (x1 : Vec F S1x1024 .f32)
    (xt0 : TbBuf (F := F) c tbR) (xt1 : TbBuf (F := F) c tbC)
    (hw1 : k1_chk1 (wd c i tbR xt0)) (hw2 : k1_chk2 (wd c i tbR xt0) (wd c i tbC xt1))
    (hc2 : k1_cond2 (wd c i tbR xt0) (wd c i tbC xt1) = 1#1) (y : S1x1x8192.Idx) :
    ∃ pc ∈ (kernelRun_B c i arg4 harg4 arg5 harg5 arg6 harg6 hc0 x0 x1 xt0 xt1 hw1 hw2 hc2).1, y ∈ pc.1.set :=
  View.cover_of_wholeMem (kernelRun_B c i arg4 harg4 arg5 harg5 arg6 harg6 hc0 x0 x1 xt0 xt1 hw1 hw2 hc2).1 (by sl_whole_mem) y

/-- What the body leaves in the accumulator's staging buffer in this case: its stores read back (over anything: they cover the buffer). -/
def out_B (c : Dev nD) (i : grid1.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : condFirst i)
    (x0 : Vec F S1024x1 .f32) (x1 : Vec F S1x1024 .f32)
    (xt0 : TbBuf (F := F) c tbR) (xt1 : TbBuf (F := F) c tbC)
    (hw1 : k1_chk1 (wd c i tbR xt0)) (hw2 : k1_chk2 (wd c i tbR xt0) (wd c i tbC xt1))
    (hc2 : k1_cond2 (wd c i tbR xt0) (wd c i tbC xt1) = 1#1) : Vec F S1x1x8192 .f32 :=
  arg6.view.read (Elt F) (arg6.view.writes (Elt F) arg6.view.junk (kernelRun_B c i arg4 harg4 arg5 harg5 arg6 harg6 hc0 x0 x1 xt0 xt1 hw1 hw2 hc2).1)

/-- What the body leaves in the accumulator's staging buffer in this case: its stores read back over the running contents. -/
def out_C (c : Dev nD) (i : grid1.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : ¬condFirst i)
    (x0 : Vec F S1024x1 .f32) (x1 : Vec F S1x1024 .f32) (xo : Vec F S1x1x8192 .f32)
    (xt0 : TbBuf (F := F) c tbR) (xt1 : TbBuf (F := F) c tbC)
    (hw1 : k1_chk1 (wd c i tbR xt0)) (hw2 : k1_chk2 (wd c i tbR xt0) (wd c i tbC xt1))
    (hc2 : ¬k1_cond2 (wd c i tbR xt0) (wd c i tbC xt1) = 1#1) : Vec F S1x1x8192 .f32 :=
  arg6.view.read (Elt F) (arg6.view.writes (Elt F) (harg6.unread xo) (kernelRun_C c i arg4 harg4 arg5 harg5 arg6 harg6 hc0 x0 x1 xo xt0 xt1 hw1 hw2 hc2).1)

/-- What the body leaves in the accumulator's staging buffer in this case: its stores read back over the running contents. -/
def out_D (c : Dev nD) (i : grid1.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole) (hc0 : ¬condFirst i)
    (x0 : Vec F S1024x1 .f32) (x1 : Vec F S1x1024 .f32) (xo : Vec F S1x1x8192 .f32)
    (xt0 : TbBuf (F := F) c tbR) (xt1 : TbBuf (F := F) c tbC)
    (hw1 : k1_chk1 (wd c i tbR xt0)) (hw2 : k1_chk2 (wd c i tbR xt0) (wd c i tbC xt1))
    (hc2 : k1_cond2 (wd c i tbR xt0) (wd c i tbC xt1) = 1#1) : Vec F S1x1x8192 .f32 :=
  arg6.view.read (Elt F) (arg6.view.writes (Elt F) (harg6.unread xo) (kernelRun_D c i arg4 harg4 arg5 harg5 arg6 harg6 hc0 x0 x1 xo xt0 xt1 hw1 hw2 hc2).1)

/-! ## What the accumulator's buffer holds after each point -/

/-- The accumulation: at a first point of a sweep the first-point case's contents, at a later point the later-point
    case's over what the point before left (the buffer is not written back in between). -/
def outsAt (hH : Hyps a) (c : Dev nD) : (n : ℕ) → n < (cfgA a).N → Vec F S1x1x8192 .f32
  | 0, hn =>
    if h2 : offDiag a c ⟨0, hn⟩ then
      out_B c (grid1.coords ⟨0, hn⟩) (ms_0 a ⟨0, hn⟩) (hs_0 a ⟨0, hn⟩) (ms_1 a ⟨0, hn⟩) (hs_1 a ⟨0, hn⟩) (ms_2 a ⟨0, hn⟩) (hs_2 a ⟨0, hn⟩) ((hcondFirst ⟨0, hn⟩).mpr (Nat.zero_mod _))
        (iblk V a c 0 ⟨0, hn⟩) (iblk V a c 1 ⟨0, hn⟩) (a.1 0) (a.1 1) (hH c ⟨0, hn⟩).1 (hH c ⟨0, hn⟩).2 h2
    else
      out_A c (grid1.coords ⟨0, hn⟩) (ms_0 a ⟨0, hn⟩) (hs_0 a ⟨0, hn⟩) (ms_1 a ⟨0, hn⟩) (hs_1 a ⟨0, hn⟩) (ms_2 a ⟨0, hn⟩) (hs_2 a ⟨0, hn⟩) ((hcondFirst ⟨0, hn⟩).mpr (Nat.zero_mod _))
        (iblk V a c 0 ⟨0, hn⟩) (iblk V a c 1 ⟨0, hn⟩) (a.1 0) (a.1 1) (hH c ⟨0, hn⟩).1 (hH c ⟨0, hn⟩).2 h2
  | n + 1, hn =>
    if h0 : (n + 1) % 18 = 0 then
      if h2 : offDiag a c ⟨n + 1, hn⟩ then
        out_B c (grid1.coords ⟨n + 1, hn⟩) (ms_0 a ⟨n + 1, hn⟩) (hs_0 a ⟨n + 1, hn⟩) (ms_1 a ⟨n + 1, hn⟩) (hs_1 a ⟨n + 1, hn⟩) (ms_2 a ⟨n + 1, hn⟩) (hs_2 a ⟨n + 1, hn⟩) ((hcondFirst ⟨n + 1, hn⟩).mpr h0)
          (iblk V a c 0 ⟨n + 1, hn⟩) (iblk V a c 1 ⟨n + 1, hn⟩) (a.1 0) (a.1 1) (hH c ⟨n + 1, hn⟩).1 (hH c ⟨n + 1, hn⟩).2 h2
      else
        out_A c (grid1.coords ⟨n + 1, hn⟩) (ms_0 a ⟨n + 1, hn⟩) (hs_0 a ⟨n + 1, hn⟩) (ms_1 a ⟨n + 1, hn⟩) (hs_1 a ⟨n + 1, hn⟩) (ms_2 a ⟨n + 1, hn⟩) (hs_2 a ⟨n + 1, hn⟩) ((hcondFirst ⟨n + 1, hn⟩).mpr h0)
          (iblk V a c 0 ⟨n + 1, hn⟩) (iblk V a c 1 ⟨n + 1, hn⟩) (a.1 0) (a.1 1) (hH c ⟨n + 1, hn⟩).1 (hH c ⟨n + 1, hn⟩).2 h2
    else
      if h2 : offDiag a c ⟨n + 1, hn⟩ then
        out_D c (grid1.coords ⟨n + 1, hn⟩) (ms_0 a ⟨n + 1, hn⟩) (hs_0 a ⟨n + 1, hn⟩) (ms_1 a ⟨n + 1, hn⟩) (hs_1 a ⟨n + 1, hn⟩) (ms_2 a ⟨n + 1, hn⟩) (hs_2 a ⟨n + 1, hn⟩) (fun h => h0 ((hcondFirst ⟨n + 1, hn⟩).mp h))
          (iblk V a c 0 ⟨n + 1, hn⟩) (iblk V a c 1 ⟨n + 1, hn⟩) (outsAt hH c n (Nat.lt_of_succ_lt hn)) (a.1 0) (a.1 1) (hH c ⟨n + 1, hn⟩).1 (hH c ⟨n + 1, hn⟩).2 h2
      else
        out_C c (grid1.coords ⟨n + 1, hn⟩) (ms_0 a ⟨n + 1, hn⟩) (hs_0 a ⟨n + 1, hn⟩) (ms_1 a ⟨n + 1, hn⟩) (hs_1 a ⟨n + 1, hn⟩) (ms_2 a ⟨n + 1, hn⟩) (hs_2 a ⟨n + 1, hn⟩) (fun h => h0 ((hcondFirst ⟨n + 1, hn⟩).mp h))
          (iblk V a c 0 ⟨n + 1, hn⟩) (iblk V a c 1 ⟨n + 1, hn⟩) (outsAt hH c n (Nat.lt_of_succ_lt hn)) (a.1 0) (a.1 1) (hH c ⟨n + 1, hn⟩).1 (hH c ⟨n + 1, hn⟩).2 h2

/-- `outsAt` at a first point, on the diagonal. -/
theorem outsAt_A (hH : Hyps a) (c : Dev nD) (t : Fin (cfgA a).N) (h0 : t.val % 18 = 0) (h2 : ¬offDiag a c t) :
    outsAt V a hH c t.val t.isLt = out_A c (grid1.coords t) (ms_0 a t) (hs_0 a t) (ms_1 a t) (hs_1 a t) (ms_2 a t) (hs_2 a t) ((hcondFirst t).mpr h0) (iblk V a c 0 t) (iblk V a c 1 t) (a.1 0) (a.1 1) (hH c t).1 (hH c t).2 h2 := by
  obtain ⟨n, hn⟩ := t
  cases n with
  | zero => exact (dif_neg h2).trans rfl
  | succ n => exact (dif_pos h0).trans ((dif_neg h2).trans rfl)
/-- `outsAt` at a first point, off the diagonal. -/
theorem outsAt_B (hH : Hyps a) (c : Dev nD) (t : Fin (cfgA a).N) (h0 : t.val % 18 = 0) (h2 : offDiag a c t) :
    outsAt V a hH c t.val t.isLt = out_B c (grid1.coords t) (ms_0 a t) (hs_0 a t) (ms_1 a t) (hs_1 a t) (ms_2 a t) (hs_2 a t) ((hcondFirst t).mpr h0) (iblk V a c 0 t) (iblk V a c 1 t) (a.1 0) (a.1 1) (hH c t).1 (hH c t).2 h2 := by
  obtain ⟨n, hn⟩ := t
  cases n with
  | zero => exact (dif_pos h2).trans rfl
  | succ n => exact (dif_pos h0).trans ((dif_pos h2).trans rfl)
/-- `outsAt` at a later point, on the diagonal: over what the point before left. -/
theorem outsAt_C (hH : Hyps a) (c : Dev nD) (t : Fin (cfgA a).N) (h0 : ¬t.val % 18 = 0) (h2 : ¬offDiag a c t) :
    outsAt V a hH c t.val t.isLt = out_C c (grid1.coords t) (ms_0 a t) (hs_0 a t) (ms_1 a t) (hs_1 a t) (ms_2 a t) (hs_2 a t) (fun h => h0 ((hcondFirst t).mp h)) (iblk V a c 0 t) (iblk V a c 1 t)
      (outsAt V a hH c (t.val - 1) (Nat.lt_of_le_of_lt (Nat.sub_le _ _) t.isLt)) (a.1 0) (a.1 1) (hH c t).1 (hH c t).2 h2 := by
  obtain ⟨n, hn⟩ := t
  cases n with
  | zero => exact (by exfalso; exact absurd (Nat.zero_mod _) h0)
  | succ n => exact (dif_neg h0).trans ((dif_neg h2).trans rfl)
/-- `outsAt` at a later point, off the diagonal. -/
theorem outsAt_D (hH : Hyps a) (c : Dev nD) (t : Fin (cfgA a).N) (h0 : ¬t.val % 18 = 0) (h2 : offDiag a c t) :
    outsAt V a hH c t.val t.isLt = out_D c (grid1.coords t) (ms_0 a t) (hs_0 a t) (ms_1 a t) (hs_1 a t) (ms_2 a t) (hs_2 a t) (fun h => h0 ((hcondFirst t).mp h)) (iblk V a c 0 t) (iblk V a c 1 t)
      (outsAt V a hH c (t.val - 1) (Nat.lt_of_le_of_lt (Nat.sub_le _ _) t.isLt)) (a.1 0) (a.1 1) (hH c t).1 (hH c t).2 h2 := by
  obtain ⟨n, hn⟩ := t
  cases n with
  | zero => exact (by exfalso; exact absurd (Nat.zero_mod _) h0)
  | succ n => exact (dif_neg h0).trans ((dif_pos h2).trans rfl)

/-! ## The pipeline's proof data -/

/-- The proof data on core `c`: the arrays as the region finds them; after the body at point `t` each input's buffer
    at its block and the accumulator's at `outsAt`; the invariant the scoped rest, the generator register and the
    two tables held whole; nothing owed; full shares. -/
def dat (hH : Hyps a) (c : Dev nD) : Dat τ (Elt F) Unit ℕ (UR sig nD τ) ℕ (cfgA a) c where
  A w := V c (Pipeline.arrRef spec1 w)
  after w t := match w with
    | ⟨0, _⟩ => iblk V a c 0 t
    | ⟨1, _⟩ => iblk V a c 1 t
    | ⟨2, _⟩ => outsAt V a hH c t.val t.isLt
  Φ _ := iprop(Pipeline.ΦA spec1 c ∗ Pipeline.prefHeld pre1 c (fun _ => fullShare) a.1)
  q _ := fullShare
  owed _ := 0

theorem A_eq (hH : Hyps a) (c : Dev nD) (w : Fin (cfgA a).W) : (dat V a hH c).A w = V c (Pipeline.arrRef spec1 w) := by
  dsimp only [dat]
theorem after_0 (hH : Hyps a) (c : Dev nD) (t : Fin (cfgA a).N) : (dat V a hH c).after 0 t = iblk V a c 0 t := by dsimp only [dat]; try rfl
theorem after_1 (hH : Hyps a) (c : Dev nD) (t : Fin (cfgA a).N) : (dat V a hH c).after 1 t = iblk V a c 1 t := by dsimp only [dat]; try rfl
theorem after_2 (hH : Hyps a) (c : Dev nD) (t : Fin (cfgA a).N) : (dat V a hH c).after 2 t = outsAt V a hH c t.val t.isLt := by dsimp only [dat]; try rfl

theorem before_0 (hH : Hyps a) (c : Dev nD) (t : Fin (cfgA a).N) (d) : (dat V a hH c).before 0 t d = iblk V a c 0 t :=
  before_in0_of V a (dat V a hH c) (A_eq V a hH c 0) (after_0 V a hH c) t d
theorem before_1 (hH : Hyps a) (c : Dev nD) (t : Fin (cfgA a).N) (d) : (dat V a hH c).before 1 t d = iblk V a c 1 t :=
  before_in1_of V a (dat V a hH c) (A_eq V a hH c 1) (after_1 V a hH c) t d
/-- At a later point of a sweep the accumulator's buffer holds what the body left at the point before: it was not
    written back in between. -/
theorem before_2_later (hH : Hyps a) (c : Dev nD) (t : Fin (cfgA a).N) (h0 : ¬t.val % 18 = 0) (d) :
    (dat V a hH c).before 2 t d = outsAt V a hH c (t.val - 1) (Nat.lt_of_le_of_lt (Nat.sub_le _ _) t.isLt) := by
  have hN : t.val < 36 := lt_of_lt_of_eq t.isLt (show (cfgA a).N = 36 from N_1)
  rw [Dat.before_out_kept _ 2 rfl t (by omega) (Bool.eq_false_iff.mpr fun h => by have := (flush_2 a _).mp h; dsimp only at this; omega)
    (fun _ => rfl) (fun _ _ => rfl)]
  exact after_2 V a hH c _

/-! ## The body obligation, at a generic point -/

def bodyPre (hH : Hyps a) (c : Dev nD) (t : Fin (cfgA a).N) : sProp 𝕄 :=
  iprop((dat V a hH c).Φ t.castSucc ∗ (dat V a hH c).owesAt () t.castSucc
    ∗ (∃ d, owns (c : Thread nD τ) (ms_0 a t) fullShare ((dat V a hH c).before 0 t d))
    ∗ (∃ d, owns (c : Thread nD τ) (ms_1 a t) fullShare ((dat V a hH c).before 1 t d))
    ∗ (∃ d, owns (c : Thread nD τ) (ms_2 a t) fullShare ((dat V a hH c).before 2 t d)))

def bodyPost (hH : Hyps a) (c : Dev nD) (t : Fin (cfgA a).N) : sProp 𝕄 :=
  iprop((dat V a hH c).Φ t.succ ∗ (dat V a hH c).owesAt () t.succ
    ∗ owns (c : Thread nD τ) (ms_0 a t) fullShare ((dat V a hH c).after 0 t)
    ∗ owns (c : Thread nD τ) (ms_1 a t) fullShare ((dat V a hH c).after 1 t)
    ∗ owns (c : Thread nD τ) (ms_2 a t) fullShare ((dat V a hH c).after 2 t))

set_option maxHeartbeats 3200000 in
/-- The body at any point: the inputs' memrefs hold their blocks; the point is a first or a later point of its sweep
    and its pair on or off the diagonal (four cases); at a later point the accumulator's buffer holds what the point
    before left; so that case's run applies. The invariant passes through, the tables lent to the run and taken back. -/
theorem sound_body (hH : Hyps a) (c : Dev nD) (t : Fin (cfgA a).N) :
    bodyPre V a hH c t ⊢ wp frame (wpE (defs₀ (F := F)) Variants.none c none) Set.univ (bodyAt a t) (fun _ => bodyPost V a hH c t) := by
  unfold bodyPre bodyPost bodyAt
  simp only [before_0, before_1]
  rw [show (dat V a hH c).Φ t.succ = (dat V a hH c).Φ t.castSucc from rfl,
    show (dat V a hH c).owesAt () t.succ = (dat V a hH c).owesAt () t.castSucc from rfl,
    after_0, after_1, after_2]
  rw [show (dat V a hH c).Φ t.castSucc = iprop(Pipeline.ΦA spec1 c ∗ Pipeline.prefHeld pre1 c (fun _ => fullShare) a.1) from rfl, tables_eq]
  by_cases h0 : t.val % 18 = 0
  · by_cases h2 : offDiag a c t
    ·
      rw [outsAt_B V a hH c t h0 h2]
      unfold out_B
      iintro ⟨⟨HΦ, ⟨HT0, HT1⟩⟩, Ho, ⟨%d0, H0⟩, ⟨%d1, H1⟩, ⟨%d2, H2⟩⟩
      iapply ((kernelRun_B c (grid1.coords t) (ms_0 a t) (hs_0 a t) (ms_1 a t) (hs_1 a t) (ms_2 a t) (hs_2 a t) ((hcondFirst t).mpr h0) (iblk V a c 0 t) (iblk V a c 1 t) (a.1 0) (a.1 1) (hH c t).1 (hH c t).2 h2).2 Set.univ _)
      isplitl [H0]; · iexact H0
      isplitl [H1]; · iexact H1
      isplitl [H2]; · iexists _; iexact H2
      isplitl [HT0]; · iexact HT0
      isplitl [HT1]; · iexact HT1
      iintro ⟨H0, H1, ⟨%e2, H2⟩, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      unfold owns; iexists _; isplitr
      swap; · iexact H2
      ipureintro; exact View.read_writes_of_cover _ _ _ _ _ (cover_B c (grid1.coords t) (ms_0 a t) (hs_0 a t) (ms_1 a t) (hs_1 a t) (ms_2 a t) (hs_2 a t) ((hcondFirst t).mpr h0) (iblk V a c 0 t) (iblk V a c 1 t) (a.1 0) (a.1 1) (hH c t).1 (hH c t).2 h2)
    ·
      rw [outsAt_A V a hH c t h0 h2]
      unfold out_A
      iintro ⟨⟨HΦ, ⟨HT0, HT1⟩⟩, Ho, ⟨%d0, H0⟩, ⟨%d1, H1⟩, ⟨%d2, H2⟩⟩
      iapply ((kernelRun_A c (grid1.coords t) (ms_0 a t) (hs_0 a t) (ms_1 a t) (hs_1 a t) (ms_2 a t) (hs_2 a t) ((hcondFirst t).mpr h0) (iblk V a c 0 t) (iblk V a c 1 t) (a.1 0) (a.1 1) (hH c t).1 (hH c t).2 h2).2 Set.univ _)
      isplitl [H0]; · iexact H0
      isplitl [H1]; · iexact H1
      isplitl [H2]; · iexists _; iexact H2
      isplitl [HT0]; · iexact HT0
      isplitl [HT1]; · iexact HT1
      iintro ⟨H0, H1, ⟨%e2, H2⟩, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      unfold owns; iexists _; isplitr
      swap; · iexact H2
      ipureintro; exact View.read_writes_of_cover _ _ _ _ _ (cover_A c (grid1.coords t) (ms_0 a t) (hs_0 a t) (ms_1 a t) (hs_1 a t) (ms_2 a t) (hs_2 a t) ((hcondFirst t).mpr h0) (iblk V a c 0 t) (iblk V a c 1 t) (a.1 0) (a.1 1) (hH c t).1 (hH c t).2 h2)
  · by_cases h2 : offDiag a c t
    ·
      rw [outsAt_D V a hH c t h0 h2]
      simp only [before_2_later V a hH c t h0]
      unfold out_D
      iintro ⟨⟨HΦ, ⟨HT0, HT1⟩⟩, Ho, ⟨%d0, H0⟩, ⟨%d1, H1⟩, ⟨%d2, H2⟩⟩
      iapply ((kernelRun_D c (grid1.coords t) (ms_0 a t) (hs_0 a t) (ms_1 a t) (hs_1 a t) (ms_2 a t) (hs_2 a t) (fun h => h0 ((hcondFirst t).mp h)) (iblk V a c 0 t) (iblk V a c 1 t) (outsAt V a hH c (t.val - 1) (Nat.lt_of_le_of_lt (Nat.sub_le _ _) t.isLt)) (a.1 0) (a.1 1) (hH c t).1 (hH c t).2 h2).2 Set.univ _)
      isplitl [H0]; · iexact H0
      isplitl [H1]; · iexact H1
      isplitl [H2]; · iexact H2
      isplitl [HT0]; · iexact HT0
      isplitl [HT1]; · iexact HT1
      iintro ⟨H0, H1, H2, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      unfold owns; iexists _; isplitr
      swap; · iexact H2
      ipureintro; rfl
    ·
      rw [outsAt_C V a hH c t h0 h2]
      simp only [before_2_later V a hH c t h0]
      unfold out_C
      iintro ⟨⟨HΦ, ⟨HT0, HT1⟩⟩, Ho, ⟨%d0, H0⟩, ⟨%d1, H1⟩, ⟨%d2, H2⟩⟩
      iapply ((kernelRun_C c (grid1.coords t) (ms_0 a t) (hs_0 a t) (ms_1 a t) (hs_1 a t) (ms_2 a t) (hs_2 a t) (fun h => h0 ((hcondFirst t).mp h)) (iblk V a c 0 t) (iblk V a c 1 t) (outsAt V a hH c (t.val - 1) (Nat.lt_of_le_of_lt (Nat.sub_le _ _) t.isLt)) (a.1 0) (a.1 1) (hH c t).1 (hH c t).2 h2).2 Set.univ _)
      isplitl [H0]; · iexact H0
      isplitl [H1]; · iexact H1
      isplitl [H2]; · iexact H2
      isplitl [HT0]; · iexact HT0
      isplitl [HT1]; · iexact HT1
      iintro ⟨H0, H1, H2, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      unfold owns; iexists _; isplitr
      swap; · iexact H2
      ipureintro; rfl

/-- The library's body obligation, at every point. -/
theorem body_obligation (hH : Hyps a) (c : Dev nD) : BodyObligation (dat (F := F) V a hH c) (defs₀ (F := F)) Variants.none () Set.univ := fun t => by
  rw [bigSep_W1, bigSep_W1]
  exact sound_body V a hH c t

end Cert.KernelIdeal.TargRank
end
-- ==== Proof.KI.Sweep.lean ====
import proofs.«115298_j79809082295156_2_alg».proof.Proof.KI.Pred.Region
import proofs.«115298_j79809082295156_2_alg».proof.Proof.KI.Targ.Region
import proofs.«115298_j79809082295156_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sweep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables' contents and the side conditions at them -/

/-- The two calls' tables at their literal contents. -/
abbrev adm0 : (pcfg0 (F := F)).Adm := ⟨PredRank.tblL, PredRank.ok_tblL⟩
abbrev adm1 : (pcfg1 (F := F)).Adm := ⟨TargRank.tblL, TargRank.ok_tblL⟩
abbrev adm : (p : Fin 2) → (pcfgs (F := F) p).Adm := fun | ⟨0, _⟩ => adm0 | ⟨1, _⟩ => adm1 | ⟨_ + 2, h⟩ => absurd h (Nat.not_lt.2 (Nat.le_add_left _ _))

/-- At every point the two words the body reads are block numbers below 8. -/
theorem hyps0 : PredRank.Hyps (adm0 (F := F)) := fun c t => PredRank.chk_all t
theorem hyps1 : TargRank.Hyps (adm1 (F := F)) := fun c t => TargRank.chk_all t

/-! ## The buffers' contents at each boundary of @main: a fold from the launch memory -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At the first call's exit: its arrays at what the pipeline leaves, every other buffer as entered. -/
def W2 (c : Dev nD) : Valuation τ sig (Elt F) :=
  Pipeline.withArrays spec0 c (W1 m c) fun w => (PredRank.dat (V1 m) adm0 hyps0 c).arrAt w (cfg0 (adm0 (F := F))).N
theorem W2_arr (c : Dev nD) (w : Fin (cfg0 (adm0 (F := F))).W) :
    W2 m c (Proc.devRef .tc (Pipeline.arrRef spec0 w)) = (PredRank.dat (V1 m) adm0 hyps0 c).arrAt w (cfg0 (adm0 (F := F))).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin (cfg0 (adm0 (F := F))).W) :
    (PredRank.dat (V1 m) adm0 hyps0 c).arrAt w (cfg0 (adm0 (F := F))).N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At the second call's exit: its arrays at what the pipeline leaves, every other buffer as entered. -/
def W4 (c : Dev nD) : Valuation τ sig (Elt F) :=
  Pipeline.withArrays spec1 c (W3 m c) fun w => (TargRank.dat (V3 m) adm1 hyps1 c).arrAt w (cfg1 (adm1 (F := F))).N
theorem W4_arr (c : Dev nD) (w : Fin (cfg1 (adm1 (F := F))).W) :
    W4 m c (Proc.devRef .tc (Pipeline.arrRef spec1 w)) = (TargRank.dat (V3 m) adm1 hyps1 c).arrAt w (cfg1 (adm1 (F := F))).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin (cfg1 (adm1 (F := F))).W) :
    (TargRank.dat (V3 m) adm1 hyps1 c).arrAt w (cfg1 (adm1 (F := F))).N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

abbrev W5 : Dev nD → Valuation τ sig (Elt F) := fun c => StableHlo.after hostOps2 (W4 m c)

/-! ### The tables as each call finds them: the host constants' literals -/

theorem tables0 (c : Dev nD) : (fun k => V1 m c (pre0.ref k)) = (adm0 (F := F)).1 := by
  funext k
  match k with
  | ⟨0, _⟩ => show StableHlo.after hostOps0 (W0 m c) (Proc.devRef .tc main_c) = _; after_results; rfl
  | ⟨1, _⟩ => show StableHlo.after hostOps0 (W0 m c) (Proc.devRef .tc main_c_0) = _; after_results; rfl

theorem tables1 (c : Dev nD) : (fun k => V3 m c (pre1.ref k)) = (adm1 (F := F)).1 := by
  funext k
  match k with
  | ⟨0, _⟩ =>
    show StableHlo.after hostOps1 (W2 m c) (Proc.devRef .tc main_c_1) = _
    rw [StableHlo.after_of_writes_sub hostOps1 _ hostOps1_writes (by decide : main_c_1 ∉ hostOps1_W), W2_of_ne m c main_c_1 (by decide)]
    show StableHlo.after hostOps0 (W0 m c) (Proc.devRef .tc main_c_1) = _; after_results; rfl
  | ⟨1, _⟩ =>
    show StableHlo.after hostOps1 (W2 m c) (Proc.devRef .tc main_c_2) = _
    rw [StableHlo.after_of_writes_sub hostOps1 _ hostOps1_writes (by decide : main_c_2 ∉ hostOps1_W), W2_of_ne m c main_c_2 (by decide)]
    show StableHlo.after hostOps0 (W0 m c) (Proc.devRef .tc main_c_2) = _; after_results; rfl

/-- The unscoped buffers that are no array of call 0: its two tables, at their literal contents, and the rest. -/
theorem rest_split0 (c : Dev nD) :
    (Pipeline.unscopedRest (Ix := Unit) (Name := ℕ) (U := UR sig nD τ) (Lvl := ℕ) spec0 c (V1 m c) : sProp 𝕄)
      = iprop(Pipeline.prefHeld pre0 c (fun _ => fullShare) (adm0 (F := F)).1 ∗ Pipeline.unscopedRestP pre0 spec0 c (V1 m c)) := by
  have e0 := Pipeline.unscopedRest_split (Ix := Unit) (Name := ℕ) (U := UR sig nD τ) (Lvl := ℕ) (win := spec0) (pre := pre0) (launch0 (F := F)).pre c (V1 m c)
  rw [tables0 m c] at e0
  exact e0

/-- The unscoped buffers that are no array of call 1: its two tables, at their literal contents, and the rest. -/
theorem rest_split1 (c : Dev nD) :
    (Pipeline.unscopedRest (Ix := Unit) (Name := ℕ) (U := UR sig nD τ) (Lvl := ℕ) spec1 c (V3 m c) : sProp 𝕄)
      = iprop(Pipeline.prefHeld pre1 c (fun _ => fullShare) (adm1 (F := F)).1 ∗ Pipeline.unscopedRestP pre1 spec1 c (V3 m c)) := by
  have e0 := Pipeline.unscopedRest_split (Ix := Unit) (Name := ℕ) (U := UR sig nD τ) (Lvl := ℕ) (win := spec1) (pre := pre1) (launch1 (F := F)).pre c (V3 m c)
  rw [tables1 m c] at e0
  exact e0

/-! ### The arguments end as launched -/

theorem W5_arg0 (c : Dev nD) : W5 m c (Proc.devRef .tc main_arg0) = m ((c : Thread nD τ).loc main_arg0) :=
  (StableHlo.after_of_writes_sub hostOps2 _ hostOps2_writes (by decide : main_arg0 ∉ hostOps2_W)).trans <|
  (W4_of_ne m c main_arg0 (by decide)).trans <|
  (StableHlo.after_of_writes_sub hostOps1 _ hostOps1_writes (by decide : main_arg0 ∉ hostOps1_W)).trans <|
  (W2_of_ne m c main_arg0 (by decide)).trans <|
  (StableHlo.after_of_writes_sub hostOps0 _ hostOps0_writes (by decide : main_arg0 ∉ hostOps0_W)).trans rfl
theorem W5_arg1 (c : Dev nD) : W5 m c (Proc.devRef .tc main_arg1) = m ((c : Thread nD τ).loc main_arg1) :=
  (StableHlo.after_of_writes_sub hostOps2 _ hostOps2_writes (by decide : main_arg1 ∉ hostOps2_W)).trans <|
  (W4_of_ne m c main_arg1 (by decide)).trans <|
  (StableHlo.after_of_writes_sub hostOps1 _ hostOps1_writes (by decide : main_arg1 ∉ hostOps1_W)).trans <|
  (W2_of_ne m c main_arg1 (by decide)).trans <|
  (StableHlo.after_of_writes_sub hostOps0 _ hostOps0_writes (by decide : main_arg1 ∉ hostOps0_W)).trans rfl

/-! ## The proof data family and the thread state -/

def pdats : (p : Fin 2) → (c : Dev nD) → Dat τ (Elt F) Unit ℕ (UR sig nD τ) ℕ (Pipeline.pin (pcfgs (F := F)) adm p) c
  | ⟨0, _⟩ => fun c => PredRank.dat (V1 m) adm0 hyps0 c
  | ⟨1, _⟩ => fun c => TargRank.dat (V3 m) adm1 hyps1 c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The two calls as segments -/

set_option backward.isDefEq.respectTransparency.types false in
/-- The first pallas_call as a segment: entered with every unscoped buffer at `W1`, left with them at `W2`.
    Its arrays are split out of the unscoped buffers and put back at what the write-backs leave; its two tables are split
    out of the rest, lent to the invariant whole and taken back; the generator register rides in the invariant; nothing is owed. -/
def reg0 : Pipeline.RegionSeg (pcfgs (F := F)) adm (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (PredRank.body_obligation (V1 m) adm0 hyps0 c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop((∃ r, prngReg c r) ∗ Pipeline.prefHeld pre0 c (fun _ => fullShare) (adm0 (F := F)).1)
  Z c := Pipeline.unscopedRestP (Ix := Unit) (Name := ℕ) (U := UR sig nD τ) (Lvl := ℕ) pre0 spec0 c (V1 m c)
  hentry c := by
    rw [Pipeline.ownSems0_none]
    have hsplit := Pipeline.arrays_of_unscopedBufs (p := 0) (pcfgs (F := F)) adm (pdats m) (launch0 (F := F)).win (launch0 (F := F)).arr_whole c
      ((pdats m 0 c).share_full fun _ => rfl) (V1 m c) fun _ => rfl
    rw [Pipeline.unscopedBufs_held] at hsplit
    have hsplit2 : (Pipeline.unscopedRest (Ix := Unit) (Name := ℕ) (U := UR sig nD τ) (Lvl := ℕ) spec0 c (V1 m c) : sProp 𝕄)
        ⊢ iprop(Pipeline.prefHeld pre0 c (fun _ => fullShare) (adm0 (F := F)).1 ∗ Pipeline.unscopedRestP pre0 spec0 c (V1 m c)) := by
      rw [rest_split0 m c]
    iintro ⟨⟨Hub, Hp, HO⟩, -, -⟩
    ihave H := hsplit $$ Hub
    icases H with ⟨Ha, Hrest⟩
    ihave H2 := hsplit2 $$ Hrest
    icases H2 with ⟨Htab, HrestP⟩
    imodintro
    isplitl [Ha]; · iexact Ha
    isplitl [Htab]; · iexact Htab
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact HrestP
  hin c := by
    rw [show (pdats m 0 c).Φ 0 = iprop(Pipeline.ΦA spec0 c ∗ Pipeline.prefHeld pre0 c (fun _ => fullShare) (adm0 (F := F)).1) from rfl]; unfold Pipeline.ΦA
    iintro ⟨Hp, Ht, Hr⟩
    isplitl [Hr Hp]
    · isplitl [Hr]; · iexact Hr
      iexact Hp
    iexact Ht
  hout c := by
    rw [Pipeline.ownSems0_none, show (pdats m 0 c).Φ (Fin.last _) = iprop(Pipeline.ΦA spec0 c ∗ Pipeline.prefHeld pre0 c (fun _ => fullShare) (adm0 (F := F)).1) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (pdats m) ((pdats m 0 c).share_full fun _ => rfl)
      (V1 m c) (V2 m c) ((pdats m 0 c).arrAt · (cfg0 (adm0 (F := F))).N) (hF0 m c) (hrest0 m c)
    rw [Pipeline.unscopedBufs_held] at hjoin
    have hunsplit : (iprop(Pipeline.prefHeld pre0 c (fun _ => fullShare) (adm0 (F := F)).1 ∗ Pipeline.unscopedRestP pre0 spec0 c (V1 m c)) : sProp 𝕄)
        ⊢ Pipeline.unscopedRest (Ix := Unit) (Name := ℕ) (U := UR sig nD τ) (Lvl := ℕ) spec0 c (V1 m c) := by
      rw [rest_split0 m c]
    iintro ⟨Ha, HO, ⟨Hp, Ht⟩, HrestP⟩
    ihave Hrest := hunsplit $$ [Ht HrestP]
    · isplitl [Ht]; · iexact Ht
      iexact HrestP
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- The second pallas_call as a segment: entered with every unscoped buffer at `W3`, left with them at `W4`.
    Its arrays are split out of the unscoped buffers and put back at what the write-backs leave; its two tables are split
    out of the rest, lent to the invariant whole and taken back; the generator register rides in the invariant; nothing is owed. -/
def reg1 : Pipeline.RegionSeg (pcfgs (F := F)) adm (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (TargRank.body_obligation (V3 m) adm1 hyps1 c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop((∃ r, prngReg c r) ∗ Pipeline.prefHeld pre1 c (fun _ => fullShare) (adm1 (F := F)).1)
  Z c := Pipeline.unscopedRestP (Ix := Unit) (Name := ℕ) (U := UR sig nD τ) (Lvl := ℕ) pre1 spec1 c (V3 m c)
  hentry c := by
    rw [Pipeline.ownSems0_none]
    have hsplit := Pipeline.arrays_of_unscopedBufs (p := 1) (pcfgs (F := F)) adm (pdats m) (launch1 (F := F)).win (launch1 (F := F)).arr_whole c
      ((pdats m 1 c).share_full fun _ => rfl) (V3 m c) fun _ => rfl
    rw [Pipeline.unscopedBufs_held] at hsplit
    have hsplit2 : (Pipeline.unscopedRest (Ix := Unit) (Name := ℕ) (U := UR sig nD τ) (Lvl := ℕ) spec1 c (V3 m c) : sProp 𝕄)
        ⊢ iprop(Pipeline.prefHeld pre1 c (fun _ => fullShare) (adm1 (F := F)).1 ∗ Pipeline.unscopedRestP pre1 spec1 c (V3 m c)) := by
      rw [rest_split1 m c]
    iintro ⟨⟨Hub, Hp, HO⟩, -, -⟩
    ihave H := hsplit $$ Hub
    icases H with ⟨Ha, Hrest⟩
    ihave H2 := hsplit2 $$ Hrest
    icases H2 with ⟨Htab, HrestP⟩
    imodintro
    isplitl [Ha]; · iexact Ha
    isplitl [Htab]; · iexact Htab
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact HrestP
  hin c := by
    rw [show (pdats m 1 c).Φ 0 = iprop(Pipeline.ΦA spec1 c ∗ Pipeline.prefHeld pre1 c (fun _ => fullShare) (adm1 (F := F)).1) from rfl]; unfold Pipeline.ΦA
    iintro ⟨Hp, Ht, Hr⟩
    isplitl [Hr Hp]
    · isplitl [Hr]; · iexact Hr
      iexact Hp
    iexact Ht
  hout c := by
    rw [Pipeline.ownSems0_none, show (pdats m 1 c).Φ (Fin.last _) = iprop(Pipeline.ΦA spec1 c ∗ Pipeline.prefHeld pre1 c (fun _ => fullShare) (adm1 (F := F)).1) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) adm (Ix := Unit) (Name := ℕ) (U := UR sig nD τ) (Lvl := ℕ)
      (launch1 (F := F)).win (launch1 (F := F)).arr_whole c (pdats m) ((pdats m 1 c).share_full fun _ => rfl)
      (V3 m c) (V4 m c) ((pdats m 1 c).arrAt · (cfg1 (adm1 (F := F))).N) (hF1 m c) (hrest1 m c)
    rw [Pipeline.unscopedBufs_held] at hjoin
    have hunsplit : (iprop(Pipeline.prefHeld pre1 c (fun _ => fullShare) (adm1 (F := F)).1 ∗ Pipeline.unscopedRestP pre1 spec1 c (V3 m c)) : sProp 𝕄)
        ⊢ Pipeline.unscopedRest (Ix := Unit) (Name := ℕ) (U := UR sig nD τ) (Lvl := ℕ) spec1 c (V3 m c) := by
      rw [rest_split1 m c]
    iintro ⟨Ha, HO, ⟨Hp, Ht⟩, HrestP⟩
    ihave Hrest := hunsplit $$ [Ht HrestP]
    · isplitl [Ht]; · iexact Ht
      iexact HrestP
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- The whole run, with values: from any memory with zero counters every weakly fair execution of @main terminates,
    and every final state has the result buffer at the last boundary's contents and both arguments as launched. -/
theorem run_valued : θ_run defs (onTc (τ := τ) (main (F := F))) ⟨m, fun _ => 0, ρ⟩ (fun r => ∀ c : Dev nD,
      r.2.mem ((c.tc : Thread nD τ).loc main_v38) = W5 m c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () (cellOf_inj adm) emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm)) (Pipeline.launchToks (Pipeline.pin (pcfgs (F := F)) adm) (cellOf_inj adm))) : sProp 𝕄)
            ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W5 m c) ∗ ∃ r, prngReg c r))
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c =>
      ⟨h c _ (mem_uc main_v38 (by decide)),
        (h c _ (mem_uc main_arg0 (by decide))).trans (W5_arg0 m c),
        (h c _ (mem_uc main_arg1 (by decide))).trans (W5_arg1 m c)⟩)

end Cert.KernelIdeal.Sweep

end
-- ==== Proof.RankSpec.lean ====
/-
  The mathematics both programs compute, over the reals.

  For a vector x of 8192 reals the soft rank of entry i is  1 + Σ_j σ(x i − x j),  σ(d) = 1 / (1 + e^(−d)).
  The kernel does not form that sum row by row: it walks the 36 unordered pairs (r, c), r ≤ c, of the eight
  blocks of 1024 entries, 18 pairs on each of two sweeps, and for a pair adds to block r the row sums
  Σ_l σ(x j − x (c, l)) and, when r ≠ c, to block c the mirrored column sums 1024 − Σ_l σ(x (r, l) − x j),
  which are Σ_l σ(x j − x (r, l)) because σ(−d) = 1 − σ(d). Here the two sweeps are written as a recursion
  on the number of pairs done (`sweepR`), the pair tables as the literal lists the program holds.
-/
import Idealize.ShloMosaic.PureOps.Ideal
import Idealize.ShloMosaic.Lib.ValueIdx

noncomputable section

open scoped BigOperators

namespace Cert.RankSpec

open Idealize.ShloMosaic

/-- The logistic function on the reals. -/
def sgm (d : ℝ) : ℝ := (1 + Real.exp (-d))⁻¹

/-- The soft rank of entry `i`: one plus the sum over all entries `j` of σ(x i − x j). -/
def rankR (x : Fin 8192 → ℝ) (i : Fin 8192) : ℝ := (∑ j : Fin 8192, sgm (x i - x j)) + 1

/-- A real vector of length 8192 as an array of extended reals. -/
def liftE (x : Fin 8192 → ℝ) : FVec Ideal (⟨1, ![8192]⟩ : Shape) .f32 := fun i => ((x (i 0) : ℝ) : EReal)

/-- The soft ranks as an array of extended reals. -/
def rankE (x : Fin 8192 → ℝ) : FVec Ideal (⟨1, ![8192]⟩ : Shape) .f32 := liftE (rankR x)

/-- Entry `l` of block `b`. -/
def blkIdx (b : Fin 8) (l : Fin 1024) : Fin 8192 := ⟨1024 * b.val + l.val, by omega⟩

/-- What a pair (r, c) adds to an entry `j` of block r: the sum of σ(x j − ·) over block c. -/
def rowPart (x : Fin 8192 → ℝ) (c : Fin 8) (j : Fin 8192) : ℝ := ∑ l : Fin 1024, sgm (x j - x (blkIdx c l))

/-- What a pair (r, c), r ≠ c, adds to an entry `j` of block c: 1024 minus the sum of σ(· − x j) over block r. -/
def colPart (x : Fin 8192 → ℝ) (r : Fin 8) (j : Fin 8192) : ℝ := 1024 - ∑ l : Fin 1024, sgm (x (blkIdx r l) - x j)

/-- One pair's update of the accumulator. -/
def stepR (x : Fin 8192 → ℝ) (r c : Fin 8) (acc : Fin 8192 → ℝ) : Fin 8192 → ℝ := fun j =>
  if r ≠ c ∧ j.val / 1024 = c.val then acc j + colPart x r j
  else if j.val / 1024 = r.val then acc j + rowPart x c j
  else acc j

/-- The accumulator after the first `n` pairs of a sweep that starts from zero. -/
def sweepR (x : Fin 8192 → ℝ) (R C : Fin 18 → Fin 8) : ℕ → Fin 8192 → ℝ
  | 0 => fun _ => 0
  | n + 1 => if h : n < 18 then stepR x (R ⟨n, h⟩) (C ⟨n, h⟩) (sweepR x R C n) else sweepR x R C n

/-- The row blocks of the pairs, sweep by sweep, as the program's table lists them. -/
def rTab : Fin 2 → Fin 18 → Fin 8 :=
  ![![0, 0, 0, 0, 1, 1, 1, 1, 2, 2, 2, 3, 3, 4, 4, 5, 5, 6], ![0, 0, 0, 0, 1, 1, 1, 2, 2, 2, 3, 3, 3, 4, 4, 5, 6, 7]]

/-- The column blocks of the pairs. -/
def cTab : Fin 2 → Fin 18 → Fin 8 :=
  ![![0, 2, 4, 6, 1, 3, 5, 7, 3, 5, 7, 4, 6, 4, 6, 5, 7, 7], ![1, 3, 5, 7, 2, 4, 6, 2, 4, 6, 3, 5, 7, 5, 7, 6, 6, 7]]

end Cert.RankSpec

end
-- ==== Proof.RefRank.lean ====
/-
  The reference program's side of the certificate, at the ideal values (a float an extended real).

  The reference computes, for each of its two arguments x, the soft rank of every entry,
      rank x i = (0 + Σ_k 1 / (1 + e^(−((x i − x k) / 1)))) + 1,
  by filling an 8192 × 8192 table and summing its rows, and then minus the Pearson correlation of the two rank
  vectors (`tail`): each vector minus its mean, the sum of the products over the root of the product of the two sums
  of squares plus a small constant.

  On REAL entries the rank is the real number `Cert.RankSpec.rankR x i`: the quotient by 1 is the identity, the
  exponential of a real is real and positive, so 1 + e^(−d) is a nonzero real and its reciprocal is the real logistic
  value `sgm d`; a sum of reals is a real (`coe_sum`). So the two rank stages at lifted real vectors are the lifted
  soft ranks (`ref_rank`, `ref_rank'`), and the result is `tail` of those (`ref_result`). Nothing is proved ABOUT
  `tail`: any program that ends in the same operations on the same two rank vectors ends in the same value.

  The precondition says that every entry of both arguments has absolute value below +∞; an extended real with
  that property is a real (`real_of_abs_lt_inf`), so both arguments are lifts of real vectors (`finite_of_pre`).
-/
import proofs.«115298_j79809082295156_2_alg».proof.Defs
import proofs.«115298_j79809082295156_2_alg».proof.Proof.Gen.ReferenceIdeal.Run
import proofs.«115298_j79809082295156_2_alg».proof.Proof.Gen.ReferenceIdeal.Read
import proofs.«115298_j79809082295156_2_alg».proof.Proof.Gen.Pre_finite_inputs
import proofs.«115298_j79809082295156_2_alg».proof.Proof.RankSpec
import Idealize.ShloMosaic.Lib.ReduceAll

noncomputable section

open scoped BigOperators
open Idealize.ShloMosaic Idealize.ShloMosaic.TcCoe Idealize.SL.Sem Idealize.ShloMosaic.ValueIdx

namespace Cert.RefSide

open Cert.ReferenceIdeal Cert.ReferenceIdeal.Gen Cert.ReferenceIdeal.Read Cert.RankSpec

/-! ## The correlation of two rank vectors -/

/-- A vector minus its mean: the sum of its 8192 entries, from zero, divided by 8192, subtracted from every entry. -/
def centre (r : FVec Ideal S8192 .f32) : FVec Ideal S8192 .f32 :=
  subf r (broadcastInDim S8192 ![] bcast_S_S8192
    (Host.divf (F := Ideal) (Host.reduceAdd (F := Ideal) r (constant (F := Ideal) S_ .f32 0x00000000#32) reducesTo_S8192_S_d0 h_S_)
      (constant (F := Ideal) S_ .f32 0x46000000#32)))

/-- The sum of the entries of a vector, from zero. -/
def total (v : FVec Ideal S8192 .f32) : FVec Ideal S_ .f32 :=
  Host.reduceAdd (F := Ideal) v (constant (F := Ideal) S_ .f32 0x00000000#32) reducesTo_S8192_S_d0 h_S_

/-- Minus the Pearson correlation of two vectors, with the small constant added to the denominator:
    −(Σ ĉp·ĉt) / (√((Σ ĉp²)·(Σ ĉt²)) + ε), ĉ the centred vector. -/
def tail (rp rt : FVec Ideal S8192 .f32) : FVec Ideal S_ .f32 :=
  Host.negf (F := Ideal) (Host.divf (F := Ideal) (total (mulf (centre rp) (centre rt)))
    (addf (Host.sqrt (F := Ideal) (mulf (total (mulf (centre rp) (centre rp))) (total (mulf (centre rt) (centre rt)))))
      (constant (F := Ideal) S_ .f32 0x322BCC77#32)))

/-- The reference's last stage is the correlation of its two rank stages. -/
theorem stage_tail (x0 x1 : FVec Ideal S8192 .f32) :
    val_main_v50 (F := Ideal) x0 x1 = tail (val_main_v15 (F := Ideal) x0) (val_main_v31 (F := Ideal) x1) := rfl

/-- The same operations, spelt out over any witnesses of the three shape facts they take, are `tail`. -/
theorem tail_of_ops (hb : S_.BroadcastsInDim S8192 (![] : Fin 0 → Fin S8192.rank)) (hr : S8192.ReducesTo [0] S_)
    (hn : 0 < S_.numel) (rp rt : FVec Ideal S8192 .f32) :
    Host.negf (F := Ideal) (Host.divf (F := Ideal)
      (Host.reduceAdd (F := Ideal)
        (mulf
          (subf rp (broadcastInDim S8192 ![] hb (Host.divf (F := Ideal)
            (Host.reduceAdd (F := Ideal) rp (constant (F := Ideal) S_ .f32 0x00000000#32) hr hn) (constant (F := Ideal) S_ .f32 0x46000000#32))))
          (subf rt (broadcastInDim S8192 ![] hb (Host.divf (F := Ideal)
            (Host.reduceAdd (F := Ideal) rt (constant (F := Ideal) S_ .f32 0x00000000#32) hr hn) (constant (F := Ideal) S_ .f32 0x46000000#32)))))
        (constant (F := Ideal) S_ .f32 0x00000000#32) hr hn)
      (addf (Host.sqrt (F := Ideal) (mulf
          (Host.reduceAdd (F := Ideal)
            (mulf
              (subf rp (broadcastInDim S8192 ![] hb (Host.divf (F := Ideal)
                (Host.reduceAdd (F := Ideal) rp (constant (F := Ideal) S_ .f32 0x00000000#32) hr hn) (constant (F := Ideal) S_ .f32 0x46000000#32))))
              (subf rp (broadcastInDim S8192 ![] hb (Host.divf (F := Ideal)
                (Host.reduceAdd (F := Ideal) rp (constant (F := Ideal) S_ .f32 0x00000000#32) hr hn) (constant (F := Ideal) S_ .f32 0x46000000#32)))))
            (constant (F := Ideal) S_ .f32 0x00000000#32) hr hn)
          (Host.reduceAdd (F := Ideal)
            (mulf
              (subf rt (broadcastInDim S8192 ![] hb (Host.divf (F := Ideal)
                (Host.reduceAdd (F := Ideal) rt (constant (F := Ideal) S_ .f32 0x00000000#32) hr hn) (constant (F := Ideal) S_ .f32 0x46000000#32))))
              (subf rt (broadcastInDim S8192 ![] hb (Host.divf (F := Ideal)
                (Host.reduceAdd (F := Ideal) rt (constant (F := Ideal) S_ .f32 0x00000000#32) hr hn) (constant (F := Ideal) S_ .f32 0x46000000#32)))))
            (constant (F := Ideal) S_ .f32 0x00000000#32) hr hn)))
        (constant (F := Ideal) S_ .f32 0x322BCC77#32)))
    = tail rp rt := rfl

/-! ## The rank stage on real entries -/

/-- The word of 1.0 denotes the real 1. -/
theorem ofBits_one : Ideal.ofBits .f32 0x3F800000#32 = 1 := by
  simp [Ideal.ofBits, Ideal.ieee, -EReal.coe_mul]; norm_num

/-- The coercion of the reals into the extended reals commutes with finite sums. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- One term of a rank: on reals a, b the quotient (a − b) / 1 is a − b, and 1 / (1 + e^(−(a − b))) is the real
    logistic value of a − b. -/
theorem sig_term (a b : ℝ) :
    FloatOps.hostDivf (F := Ideal) (φ := .f32) (FloatOps.ofBits .f32 0x3F800000#32)
      (FloatOps.addf (FloatOps.ofBits .f32 0x3F800000#32)
        (FloatOps.hostUnary .exp (FloatOps.hostNegf
          (FloatOps.hostDivf (FloatOps.subf ((a : ℝ) : EReal) ((b : ℝ) : EReal)) (FloatOps.ofBits .f32 0x3F800000#32)))))
      = ((sgm (a - b) : ℝ) : EReal) := by
  have h1 : Ideal.div (((a : ℝ) : EReal) - ((b : ℝ) : EReal)) 1 = ((a - b : ℝ) : EReal) := by
    rw [← EReal.coe_one, Ideal.div_coe one_ne_zero, div_one, EReal.coe_one, mul_one, EReal.coe_sub]
  simp only [Ideal.hostDivf_def, Ideal.addf_def, Ideal.subf_def, Ideal.hostUnary_exp_def, Ideal.hostNegf_def,
    Ideal.negf_def, Ideal.ofBits_def, ofBits_one, h1]
  exact Ideal.logistic_coe (a - b)

/-- One entry of the 8192 × 8192 table the reference sums along its rows: at row p, column k, the logistic value of
    x p − x k. -/
theorem entry0 (x' : Fin 8192 → ℝ) (p k : Fin 8192) :
    val_main_v12 (F := Ideal) (liftE x') (idx_main_v13 (ix1 p) k) = ((sgm (x' p - x' k) : ℝ) : EReal) := by
  rw [val_main_v12_apply, val_main_v11_apply, val_main_cst_1_apply, val_main_v10_apply, val_main_v9_apply,
    val_main_cst_0_apply, val_main_v8_apply, val_main_v7_apply, val_main_v6_apply, val_main_v4_apply, val_main_v5_apply,
    val_main_cst_apply, val_main_v2_apply, val_main_v0_apply, val_main_v3_apply, val_main_v1_apply]
  exact sig_term (x' p) (x' k)

/-- The same entry of the second argument's table. -/
theorem entry1 (x' : Fin 8192 → ℝ) (p k : Fin 8192) :
    val_main_v28 (F := Ideal) (liftE x') (idx_main_v29 (ix1 p) k) = ((sgm (x' p - x' k) : ℝ) : EReal) := by
  rw [val_main_v28_apply, val_main_v27_apply, val_main_cst_6_apply, val_main_v26_apply, val_main_v25_apply,
    val_main_cst_5_apply, val_main_v24_apply, val_main_v23_apply, val_main_v22_apply, val_main_v20_apply, val_main_v21_apply,
    val_main_cst_4_apply, val_main_v18_apply, val_main_v16_apply, val_main_v19_apply, val_main_v17_apply]
  exact sig_term (x' p) (x' k)

/-- Zero plus a sum of reals plus one, in the extended reals, is the real sum plus one. -/
theorem rank_close (f : Fin 8192 → ℝ) :
    FloatOps.addf (F := Ideal) (φ := .f32) (FloatOps.ofBits .f32 0x00000000#32 + ∑ k : Fin 8192, ((f k : ℝ) : EReal))
      (FloatOps.ofBits .f32 0x3F800000#32) = (((∑ k : Fin 8192, f k) + 1 : ℝ) : EReal) := by
  simp only [Ideal.addf_def, Ideal.ofBits_def, ofBits_one, Ideal.ofBits_zero_f32, zero_add]
  rw [← coe_sum, EReal.coe_add, EReal.coe_one]

/-- On a real vector the reference's first rank stage is the soft rank. -/
theorem ref_rank (x' : Fin 8192 → ℝ) : val_main_v15 (F := Ideal) (liftE x') = rankE x' := by
  funext i
  obtain ⟨p, rfl⟩ : ∃ p : Fin 8192, i = ix1 p := ⟨i 0, eq_ix1 i⟩
  rw [val_main_v15_apply, val_main_v13_apply, val_main_v14_apply, val_main_cst_3_apply, val_main_cst_2_apply]
  simp only [entry0]
  exact rank_close fun k => sgm (x' p - x' k)

/-- On a real vector the reference's second rank stage is the soft rank. -/
theorem ref_rank' (y' : Fin 8192 → ℝ) : val_main_v31 (F := Ideal) (liftE y') = rankE y' := by
  funext i
  obtain ⟨p, rfl⟩ : ∃ p : Fin 8192, i = ix1 p := ⟨i 0, eq_ix1 i⟩
  rw [val_main_v31_apply, val_main_v29_apply, val_main_v30_apply, val_main_cst_8_apply, val_main_cst_7_apply]
  simp only [entry1]
  exact rank_close fun k => sgm (y' p - y' k)

/-- On real vectors the reference's last stage is the correlation of the two soft-rank vectors. -/
theorem ref_result (x' y' : Fin 8192 → ℝ) :
    val_main_v50 (F := Ideal) (liftE x') (liftE y') = tail (rankE x') (rankE y') := by
  rw [stage_tail, ref_rank, ref_rank']

/-! ## Finite inputs are real vectors -/

/-- The word 0x7F800000 denotes +∞. -/
theorem ofBits_inf : Ideal.ofBits .f32 0x7F800000#32 = ⊤ := by simp [Ideal.ofBits, Ideal.ieee]

/-- An extended real whose absolute value is below +∞ is a real. -/
theorem real_of_abs_lt_inf (a : EReal)
    (h : FloatOps.cmpf (F := Ideal) (φ := .f32) .olt (FloatOps.hostAbsf a) (FloatOps.ofBits .f32 0x7F800000#32) = 1#1) :
    ∃ r : ℝ, a = (r : EReal) := by
  have h' : Ideal.cmp .olt (max a (-a)) (Ideal.ofBits .f32 0x7F800000#32) = 1#1 := h
  rw [ofBits_inf] at h'
  induction a using EReal.rec with
  | bot => simp [Ideal.cmp] at h'
  | top => simp [Ideal.cmp] at h'
  | coe r => exact ⟨r, rfl⟩

instance : Subsingleton Cert.Pre_finite_inputs.S_.Idx := ⟨fun a b => funext fun d => d.elim0⟩

/-- A vector all of whose entries have absolute value below +∞ is the lift of a real vector. -/
theorem lift_of_all_finite [Cert.Pre_finite_inputs.Facts] (a : FVec Ideal Cert.Pre_finite_inputs.S8192 .f32)
    (h : ∀ i, cmpf .olt (Host.absf (F := Ideal) a)
      (broadcastInDim Cert.Pre_finite_inputs.S8192 ![] Cert.Pre_finite_inputs.Facts.bcast_S_S8192
        (constant (F := Ideal) Cert.Pre_finite_inputs.S_ .f32 0x7F800000#32)) i = 1#1) :
    ∃ x' : Fin 8192 → ℝ, a = liftE x' := by
  have hr : ∀ p : Fin 8192, ∃ r : ℝ, a (ix1 p) = (r : EReal) := fun p => real_of_abs_lt_inf _ (h (ix1 p))
  choose x' hx' using hr
  refine ⟨x', funext fun i => ?_⟩
  obtain ⟨p, rfl⟩ : ∃ p : Fin 8192, i = ix1 p := ⟨i 0, eq_ix1 i⟩
  exact hx' p

/-- Under the precondition — every entry of both inputs has absolute value below +∞ — both inputs are lifts of real
    vectors. -/
theorem finite_of_pre [Cert.Pre_finite_inputs.Facts] (a0 a1 : FVec Ideal Cert.Pre_finite_inputs.S8192 .f32)
    (h : Cert.Pre_finite_inputs.fn (F := Ideal) a0 a1 = fun _ => 1#1) :
    ∃ x' y' : Fin 8192 → ℝ, a0 = liftE x' ∧ a1 = liftE y' := by
  have h0 := congrFun h ix0
  dsimp only [Cert.Pre_finite_inputs.fn] at h0
  obtain ⟨e0, e1⟩ := IntOp.andi_eq_one.1 h0
  obtain ⟨x', hx'⟩ := lift_of_all_finite a0 (Host.reduce_andi_all _ _ _ _ _ e0)
  obtain ⟨y', hy'⟩ := lift_of_all_finite a1 (Host.reduce_andi_all _ _ _ _ _ e1)
  exact ⟨x', y', hx', hy'⟩

/-! ## The reference's run -/

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- From a memory whose two arguments are, on every device, lifts of real vectors, the reference runs, ends with the
    correlation of the two soft-rank vectors in its result, and leaves its arguments unchanged. -/
theorem ref_run (m' : (ℓ : Loc nD τ sig) → Buf (Elt Ideal) ℓ) (ρ' : Dev nD → PrngReg) (x' y' : Dev nD → Fin 8192 → ℝ)
    (hx : ∀ c : Dev nD, m' ((c.tc : Thread nD τ).loc main_arg0) = liftE (x' c))
    (hy : ∀ c : Dev nD, m' ((c.tc : Thread nD τ).loc main_arg1) = liftE (y' c)) :
    θ_run (Cert.ReferenceIdeal.defs (F := Ideal)) (onTc (τ := τ) (main (F := Ideal))) ⟨m', fun _ => 0, ρ'⟩ (fun r => ∀ c : Dev nD,
      r.2.mem ((c.tc : Thread nD τ).loc main_v50) = tail (rankE (x' c)) (rankE (y' c))
      ∧ r.2.mem ((c.tc : Thread nD τ).loc main_arg0) = m' ((c.tc : Thread nD τ).loc main_arg0)
      ∧ r.2.mem ((c.tc : Thread nD τ).loc main_arg1) = m' ((c.tc : Thread nD τ).loc main_arg1)) :=
  (θ_run Cert.ReferenceIdeal.defs _ _).mono
    (fun _ h c => ⟨(h c).1.trans (by rw [val_main_v50_eq, hx c, hy c]; exact ref_result (x' c) (y' c)), (h c).2⟩)
    (Cert.ReferenceIdeal.Value.run (F := Ideal) m' ρ')

end Cert.RefSide

end
-- ==== Proof.KI.HostStages.lean ====
/-
  The kernel program's three stretches of host operations, each read as what it leaves in a buffer given any
  contents before it.

  The first stretch writes the four pair tables (constants of the program) and lays the first argument out as a
  column [8192, 1] and as a row [1, 8192]: a change of shape keeps the row-major order, so entry (p, 0) of the
  column and entry (0, p) of the row are entry p of the argument. The second stretch takes the two rows of the
  [2, 1, 8192] array the first rank region leaves, flattens each to 8192 entries, adds them entry by entry and
  adds one — the first rank vector (`twoRowsVec`) — and lays the second argument out as the first. The third
  stretch makes the second rank vector in the same way of what the second rank region leaves, and ends with the
  operations of the correlation (`Cert.RefSide.tail`) on the two rank vectors; the first of the two it finds and
  does not write. Each stretch leaves every buffer it does not write as it was (`keeps0`, `keeps1`, `keeps2`).
-/
import proofs.«115298_j79809082295156_2_alg».proof.Proof.Gen.KernelIdeal.Launch
import proofs.«115298_j79809082295156_2_alg».proof.Proof.Gen.KernelIdeal.Regions
import proofs.«115298_j79809082295156_2_alg».proof.Proof.KI.Pred.Words
import proofs.«115298_j79809082295156_2_alg».proof.Proof.KI.Targ.Words
import proofs.«115298_j79809082295156_2_alg».proof.Proof.RefRank
import Idealize.ShloMosaic.Lib.StableHlo.Run
import Idealize.ShloMosaic.Lib.Pipeline.Value
import Idealize.ShloMosaic.Lib.ValueIdx

noncomputable section

namespace Cert.KernelIdeal.HostStages

open Idealize.ShloMosaic Idealize.ShloMosaic.TcCoe Idealize.ShloMosaic.StableHlo Idealize.ShloMosaic.ValueIdx
open Cert.KernelIdeal Cert.KernelIdeal.Gen

section AnyValues

variable {F : FTy → Type} [FloatOps F]

/-! ## The first stretch: the four pair tables and the two layouts of the first argument -/

theorem c_eq (W : Valuation τ sig (Elt F)) : StableHlo.after hostOps0 W main_c = PredRank.TR := by
  show StableHlo.after hostOps0 W (Proc.devRef .tc main_c) = _
  after_results
  rfl

theorem c_0_eq (W : Valuation τ sig (Elt F)) : StableHlo.after hostOps0 W main_c_0 = PredRank.TC := by
  show StableHlo.after hostOps0 W (Proc.devRef .tc main_c_0) = _
  after_results
  rfl

theorem c_1_eq (W : Valuation τ sig (Elt F)) : StableHlo.after hostOps0 W main_c_1 = TargRank.TR := by
  show StableHlo.after hostOps0 W (Proc.devRef .tc main_c_1) = _
  after_results
  rfl

theorem c_2_eq (W : Valuation τ sig (Elt F)) : StableHlo.after hostOps0 W main_c_2 = TargRank.TC := by
  show StableHlo.after hostOps0 W (Proc.devRef .tc main_c_2) = _
  after_results
  rfl

theorem tables0 (W : Valuation τ sig (Elt F)) :
    StableHlo.after hostOps0 W main_c = PredRank.TR ∧ StableHlo.after hostOps0 W main_c_0 = PredRank.TC
      ∧ StableHlo.after hostOps0 W main_c_1 = TargRank.TR ∧ StableHlo.after hostOps0 W main_c_2 = TargRank.TC :=
  ⟨c_eq W, c_0_eq W, c_1_eq W, c_2_eq W⟩

/-- A vector of 8192 entries laid out as a column: entry (p, 0) is entry p. -/
theorem col_apply (x : S8192.Idx → F .f32) (h : S8192.ShapeCasts S8192x1) (p : Fin 8192) :
    shapeCast S8192x1 x h (ValueIdx.ix2 p (0 : Fin 1)) = x (ValueIdx.ix1 p) :=
  shapeCast_apply x h _ _ (by
    rw [Shape.rowMajor_val_one, Shape.rowMajor_val_two]; show p.val = p.val * 1 + 0; omega)

/-- A vector of 8192 entries laid out as a row: entry (0, p) is entry p. -/
theorem row_apply (x : S8192.Idx → F .f32) (h : S8192.ShapeCasts S1x8192) (p : Fin 8192) :
    shapeCast S1x8192 x h (ValueIdx.ix2 (0 : Fin 1) p) = x (ValueIdx.ix1 p) :=
  shapeCast_apply x h _ _ (by
    rw [Shape.rowMajor_val_one, Shape.rowMajor_val_two]; show p.val = 0 * 8192 + p.val; omega)

theorem v0_apply (W : Valuation τ sig (Elt F)) (p : Fin 8192) :
    StableHlo.after hostOps0 W main_v0 (ValueIdx.ix2 p (0 : Fin 1)) = W main_arg0 (ValueIdx.ix1 p) := by
  show StableHlo.after hostOps0 W (Proc.devRef .tc main_v0) (ValueIdx.ix2 p (0 : Fin 1)) = _
  after_results
  exact col_apply _ _ p

theorem v1_apply (W : Valuation τ sig (Elt F)) (p : Fin 8192) :
    StableHlo.after hostOps0 W main_v1 (ValueIdx.ix2 (0 : Fin 1) p) = W main_arg0 (ValueIdx.ix1 p) := by
  show StableHlo.after hostOps0 W (Proc.devRef .tc main_v1) (ValueIdx.ix2 (0 : Fin 1) p) = _
  after_results
  exact row_apply _ _ p

/-! ## The second stretch: the two layouts of the second argument -/

theorem v10_apply (W : Valuation τ sig (Elt F)) (p : Fin 8192) :
    StableHlo.after hostOps1 W main_v10 (ValueIdx.ix2 p (0 : Fin 1)) = W main_arg1 (ValueIdx.ix1 p) := by
  show StableHlo.after hostOps1 W (Proc.devRef .tc main_v10) (ValueIdx.ix2 p (0 : Fin 1)) = _
  after_results
  exact col_apply _ _ p

theorem v11_apply (W : Valuation τ sig (Elt F)) (p : Fin 8192) :
    StableHlo.after hostOps1 W main_v11 (ValueIdx.ix2 (0 : Fin 1) p) = W main_arg1 (ValueIdx.ix1 p) := by
  show StableHlo.after hostOps1 W (Proc.devRef .tc main_v11) (ValueIdx.ix2 (0 : Fin 1) p) = _
  after_results
  exact row_apply _ _ p

/-! ## What each stretch leaves alone -/

theorem keeps0 (W : Valuation τ sig (Elt F)) (r : Ref sig .tc) (h : r ∉ hostOps0_W) :
    StableHlo.after hostOps0 W r = W r := StableHlo.after_of_writes_sub hostOps0 _ hostOps0_writes h
theorem keeps1 (W : Valuation τ sig (Elt F)) (r : Ref sig .tc) (h : r ∉ hostOps1_W) :
    StableHlo.after hostOps1 W r = W r := StableHlo.after_of_writes_sub hostOps1 _ hostOps1_writes h
theorem keeps2 (W : Valuation τ sig (Elt F)) (r : Ref sig .tc) (h : r ∉ hostOps2_W) :
    StableHlo.after hostOps2 W r = W r := StableHlo.after_of_writes_sub hostOps2 _ hostOps2_writes h

end AnyValues

/-! ## The rank vectors and the result, at the ideal values -/

section Rows
variable {α : Type}

/-- Row 0 of a [2, 1, 8192] array, flattened: entry p is entry (0, 0, p). -/
theorem row0_apply (x : S2x1x8192.Idx → α) (hs : S2x1x8192.Slices ![0, 0, 0] S1x1x8192) (hc : S1x1x8192.ShapeCasts S8192)
    (p : Fin 8192) :
    shapeCast S8192 (extractStridedSlice S1x1x8192 ![0, 0, 0] x hs) hc (ValueIdx.ix1 p)
      = x (ValueIdx.ix3 (0 : Fin 2) (0 : Fin 1) p) :=
  (shapeCast_apply _ hc (ValueIdx.ix1 p) (ValueIdx.ix3 (0 : Fin 1) (0 : Fin 1) p) (by
    rw [Shape.rowMajor_val_three, Shape.rowMajor_val_one]; show (0 * 1 + 0) * 8192 + p.val = p.val; omega)).trans
  (extractStridedSlice_apply _ x hs _ _ fun a => by
    match a with
    | ⟨0, _⟩ => rfl
    | ⟨1, _⟩ => rfl
    | ⟨2, _⟩ => show p.val = 0 + p.val; omega)

/-- Row 1 of a [2, 1, 8192] array, flattened: entry p is entry (1, 0, p). -/
theorem row1_apply (x : S2x1x8192.Idx → α) (hs : S2x1x8192.Slices ![1, 0, 0] S1x1x8192) (hc : S1x1x8192.ShapeCasts S8192)
    (p : Fin 8192) :
    shapeCast S8192 (extractStridedSlice S1x1x8192 ![1, 0, 0] x hs) hc (ValueIdx.ix1 p)
      = x (ValueIdx.ix3 (1 : Fin 2) (0 : Fin 1) p) :=
  (shapeCast_apply _ hc (ValueIdx.ix1 p) (ValueIdx.ix3 (0 : Fin 1) (0 : Fin 1) p) (by
    rw [Shape.rowMajor_val_three, Shape.rowMajor_val_one]; show (0 * 1 + 0) * 8192 + p.val = p.val; omega)).trans
  (extractStridedSlice_apply _ x hs _ _ fun a => by
    match a with
    | ⟨0, _⟩ => rfl
    | ⟨1, _⟩ => rfl
    | ⟨2, _⟩ => show p.val = 0 + p.val; omega)

end Rows

/-- What the host makes of the two rows a rank region leaves, at entry p: their sum, plus one. -/
def twoRows (x : FVec Ideal S2x1x8192 .f32) (p : Fin 8192) : EReal :=
  (x (ValueIdx.ix3 (0 : Fin 2) (0 : Fin 1) p) + x (ValueIdx.ix3 (1 : Fin 2) (0 : Fin 1) p)) + 1

/-- The same as a vector of 8192 entries. -/
def twoRowsVec (x : FVec Ideal S2x1x8192 .f32) : FVec Ideal S8192 .f32 := fun i => twoRows x (i 0)

theorem twoRowsVec_apply (x : FVec Ideal S2x1x8192 .f32) (p : Fin 8192) : twoRowsVec x (ValueIdx.ix1 p) = twoRows x p := rfl

/-- The slices, reshapes, sum and added one of a rank's host operations are `twoRowsVec`. -/
theorem stage_twoRows (x : FVec Ideal S2x1x8192 .f32) (hs0 : S2x1x8192.Slices ![0, 0, 0] S1x1x8192)
    (hs1 : S2x1x8192.Slices ![1, 0, 0] S1x1x8192) (hc : S1x1x8192.ShapeCasts S8192)
    (hb : S_.BroadcastsInDim S8192 (![] : Fin 0 → Fin S8192.rank)) :
    addf (addf (shapeCast S8192 (extractStridedSlice S1x1x8192 ![0, 0, 0] x hs0) hc)
        (shapeCast S8192 (extractStridedSlice S1x1x8192 ![1, 0, 0] x hs1) hc))
      (broadcastInDim S8192 ![] hb (constant (F := Ideal) S_ .f32 0x3F800000#32)) = twoRowsVec x := by
  funext i
  obtain ⟨p, rfl⟩ : ∃ p : Fin 8192, i = ValueIdx.ix1 p := ⟨i 0, ValueIdx.eq_ix1 i⟩
  exact congrArg₂ (· + ·) (congrArg₂ (· + ·) (row0_apply x hs0 hc p) (row1_apply x hs1 hc p)) Cert.RefSide.ofBits_one

/-- After the second stretch the first rank vector is `twoRowsVec` of what the first region left. -/
theorem v9_eq (W : Valuation τ sig (Elt Ideal)) :
    StableHlo.after hostOps1 W main_v9 = twoRowsVec (W main_v2) := by
  show StableHlo.after hostOps1 W (Proc.devRef .tc main_v9) = twoRowsVec (W (Proc.devRef .tc main_v2))
  after_results
  exact stage_twoRows _ _ _ _ _

theorem v9_apply (W : Valuation τ sig (Elt Ideal)) (p : Fin 8192) :
    StableHlo.after hostOps1 W main_v9 (ValueIdx.ix1 p) = twoRows (W main_v2) p :=
  congrFun (v9_eq W) (ValueIdx.ix1 p)

/-- After the third stretch the second rank vector is `twoRowsVec` of what the second region left. -/
theorem v19_eq (W : Valuation τ sig (Elt Ideal)) :
    StableHlo.after hostOps2 W main_v19 = twoRowsVec (W main_v12) := by
  show StableHlo.after hostOps2 W (Proc.devRef .tc main_v19) = twoRowsVec (W (Proc.devRef .tc main_v12))
  after_results
  exact stage_twoRows _ _ _ _ _

theorem v19_apply (W : Valuation τ sig (Elt Ideal)) (p : Fin 8192) :
    StableHlo.after hostOps2 W main_v19 (ValueIdx.ix1 p) = twoRows (W main_v12) p :=
  congrFun (v19_eq W) (ValueIdx.ix1 p)

/-- After the third stretch the result is the correlation (`Cert.RefSide.tail`) of the first rank vector, which the
    stretch finds and does not write, and the second, which it makes of what the second region left. -/
theorem v38_eq (W : Valuation τ sig (Elt Ideal)) :
    StableHlo.after hostOps2 W main_v38 = Cert.RefSide.tail (W main_v9) (twoRowsVec (W main_v12)) := by
  show StableHlo.after hostOps2 W (Proc.devRef .tc main_v38)
    = Cert.RefSide.tail (W (Proc.devRef .tc main_v9)) (twoRowsVec (W (Proc.devRef .tc main_v12)))
  after_results_simp
  exact (Cert.RefSide.tail_of_ops _ _ _ _ _).trans (congrArg (Cert.RefSide.tail _) (stage_twoRows _ _ _ _ _))

/-- The same with the second rank vector named as the stretch's own buffer. -/
theorem v38_eq' (W : Valuation τ sig (Elt Ideal)) :
    StableHlo.after hostOps2 W main_v38 = Cert.RefSide.tail (W main_v9) (StableHlo.after hostOps2 W main_v19) :=
  (v38_eq W).trans (congrArg (Cert.RefSide.tail _) (v19_eq W).symm)

end Cert.KernelIdeal.HostStages

end
-- ==== Proof.KI.Pred.OutValue.lean ====
/-
  What the body leaves in the accumulator's buffer, lane by lane, in each of its four control cases.

  The buffer is one row of 8192 lanes, in eight slabs of 1024. A point of the grid names a row slab r and a column
  slab cc. The body first (at the first point of a sweep only) fills the whole row with zeros; it then adds the row
  update into slab r (a load of slab r, the update, a store of slab r) and, when r ≠ cc, the mirrored column update
  into slab cc. Stores are read back newest first: a lane of slab cc reads the column store, a lane of slab r the row
  store, any other lane what was there before (the running contents, or the zero fill). Since r ≠ cc the column load,
  made after the row store, still reads the earlier contents of slab cc.
-/
import proofs.«115298_j79809082295156_2_alg».proof.Proof.KI.Pred.Region
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx
import Idealize.ShloMosaic.Lib.Pipeline.Value

set_option maxRecDepth 16384

noncomputable section

namespace Cert.KernelIdeal.PredRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx (ix2 ix3)

/-! ## Slabs of 1024 lanes of the row of 8192 -/

/-- Lanes [1024 b, 1024 b + 1024) of a row of 8192. -/
def slc (X : Vec F S1x1x8192 .f32) (b : Fin 8) : Vec F S1x1x1024 .f32 := fun y =>
  X (ix3 (0 : Fin 1) (0 : Fin 1) (⟨1024 * b.val + (y 2).val, by
    have h : (y 2).val < 1024 := (y 2).isLt
    have := b.isLt
    omega⟩ : Fin 8192))

/-- The position of lane j within its slab b. -/
def loc (b : Fin 8) (j : Fin 8192) (h : j.val / 1024 = b.val) : Fin 1024 := ⟨j.val - 1024 * b.val, by omega⟩

/-- Two rows that agree on slab b have the same slab b. -/
theorem slc_congr (X Y : Vec F S1x1x8192 .f32) (b : Fin 8)
    (h : ∀ j : Fin 8192, j.val / 1024 = b.val → X (ix3 (0 : Fin 1) (0 : Fin 1) j) = Y (ix3 (0 : Fin 1) (0 : Fin 1) j)) :
    slc X b = slc Y b := by
  funext y
  unfold slc
  exact h _ (by
    show (1024 * b.val + (y 2).val) / 1024 = b.val
    have h2 : (y 2).val < 1024 := (y 2).isLt
    omega)

section Slab
variable (arg6 : Memref sig .tc .vmem S1x1x8192 .f32) (f : arg6.view.ty.Contents (Elt F))

/-- Newest store wins, for a store of one slab: lane j reads the payload when it lies in slab b, else what the
    earlier stores left. -/
theorem read_slab {off : Fin S1x1x8192.rank → ℕ} (inb : ∀ a, off a + S1x1x1024.size a ≤ S1x1x8192.size a)
    (w : (Rect.unit (s := S1x1x8192) off S1x1x1024.size inb).shape.Idx → Elt F .f32)
    (L : List (View.Piece (Elt F) S1x1x8192 .f32)) (b : Fin 8) (hoff : off = ![0, 0, 1024 * b.val]) (j : Fin 8192) :
    arg6.view.read (Elt F) (arg6.view.writes (Elt F) f (⟨Rect.unit off S1x1x1024.size inb, w⟩ :: L)) (ix3 (0 : Fin 1) (0 : Fin 1) j)
      = if h : j.val / 1024 = b.val then w (ix3 (0 : Fin 1) (0 : Fin 1) (loc b j h))
        else arg6.view.read (Elt F) (arg6.view.writes (Elt F) f L) (ix3 (0 : Fin 1) (0 : Fin 1) j) := by
  by_cases h : j.val / 1024 = b.val
  · rw [dif_pos h]
    exact View.read_writes_cons_unit_of_mem arg6.view f inb w L _ (ix3 (0 : Fin 1) (0 : Fin 1) (loc b j h)) hoff (fun a => by
      match a with
      | ⟨0, _⟩ => rfl
      | ⟨1, _⟩ => rfl
      | ⟨2, _⟩ =>
        show j.val = 1024 * b.val + (j.val - 1024 * b.val)
        omega)
  · rw [dif_neg h]
    exact View.read_writes_cons_unit_of_not_mem arg6.view f inb w L _ hoff (2 : Fin 3) (by
      show j.val < 1024 * b.val ∨ 1024 * b.val + 1024 ≤ j.val
      omega)

/-- A load of one slab reads that slab of what the buffer reads. -/
theorem ld_slab {off : Fin S1x1x8192.rank → ℕ} (inb : ∀ a, off a + S1x1x1024.size a ≤ S1x1x8192.size a)
    (b : Fin 8) (hoff : off = ![0, 0, 1024 * b.val]) :
    arg6.view.readAt (Elt F) (Rect.unit (s := S1x1x8192) off S1x1x1024.size inb).toLoadRect f
      = slc (arg6.view.read (Elt F) f) b := by
  subst hoff
  funext y
  rw [View.readAt_apply]
  unfold slc
  refine congrArg _ (funext fun a => Fin.ext ?_)
  match a with
  | ⟨0, _⟩ =>
    have h0 : (y 0).val < 1 := (y 0).isLt
    show 0 + 1 * (y 0).val = 0
    omega
  | ⟨1, _⟩ =>
    have h1 : (y 1).val < 1 := (y 1).isLt
    show 0 + 1 * (y 1).val = 0
    omega
  | ⟨2, _⟩ =>
    show 1024 * b.val + 1 * (y 2).val = 1024 * b.val + (y 2).val
    omega

end Slab

section Stores
variable (arg6 : Memref sig .tc .vmem S1x1x8192 .f32) (f : arg6.view.ty.Contents (Elt F))
  (L0 : List (View.Piece (Elt F) S1x1x8192 .f32)) (X : Vec F S1x1x8192 .f32)
  (hX : arg6.view.read (Elt F) (arg6.view.writes (Elt F) f L0) = X)
include hX

/-- The row store alone, over contents that read X: slab r holds the row update of X's slab r, every other lane X. -/
theorem one_store {off2 : Fin S1x1x8192.rank → ℕ} (inb2 : ∀ a, off2 a + S1x1x1024.size a ≤ S1x1x8192.size a)
    (r : Fin 8) (hoff2 : off2 = ![0, 0, 1024 * r.val]) (x0 : Vec F S1024x1 .f32) (x1 : Vec F S1x1024 .f32) (j : Fin 8192) :
    arg6.view.read (Elt F) (arg6.view.writes (Elt F) f
        (⟨Rect.unit off2 S1x1x1024.size inb2,
          k0_pay3 x0 x1 (arg6.view.readAt (Elt F) (Rect.unit (s := S1x1x8192) off2 S1x1x1024.size inb2).toLoadRect (arg6.view.writes (Elt F) f L0))⟩ :: L0))
        (ix3 (0 : Fin 1) (0 : Fin 1) j)
      = if h : j.val / 1024 = r.val then k0_pay3 x0 x1 (slc X r) (ix3 (0 : Fin 1) (0 : Fin 1) (loc r j h))
        else X (ix3 (0 : Fin 1) (0 : Fin 1) j) := by
  refine (read_slab arg6 f inb2 _ L0 r hoff2 j).trans ?_
  rw [ld_slab arg6 _ inb2 r hoff2, hX]

/-- The row store then the column store of a pair off the diagonal, over contents that read X: slab cc holds the
    column update of X's slab cc (the row store did not touch it), slab r the row update, every other lane X. -/
theorem two_stores {off2 off3 : Fin S1x1x8192.rank → ℕ} (inb2 : ∀ a, off2 a + S1x1x1024.size a ≤ S1x1x8192.size a)
    (inb3 : ∀ a, off3 a + S1x1x1024.size a ≤ S1x1x8192.size a)
    (r cc : Fin 8) (hoff2 : off2 = ![0, 0, 1024 * r.val]) (hoff3 : off3 = ![0, 0, 1024 * cc.val]) (hne : r ≠ cc)
    (x0 : Vec F S1024x1 .f32) (x1 : Vec F S1x1024 .f32) (j : Fin 8192) :
    arg6.view.read (Elt F) (arg6.view.writes (Elt F) f
        (⟨Rect.unit off3 S1x1x1024.size inb3,
          k0_pay4 x0 x1 (arg6.view.readAt (Elt F) (Rect.unit (s := S1x1x8192) off3 S1x1x1024.size inb3).toLoadRect
            (arg6.view.writes (Elt F) f
              (⟨Rect.unit off2 S1x1x1024.size inb2,
                k0_pay3 x0 x1 (arg6.view.readAt (Elt F) (Rect.unit (s := S1x1x8192) off2 S1x1x1024.size inb2).toLoadRect (arg6.view.writes (Elt F) f L0))⟩ :: L0)))⟩
          :: ⟨Rect.unit off2 S1x1x1024.size inb2,
                k0_pay3 x0 x1 (arg6.view.readAt (Elt F) (Rect.unit (s := S1x1x8192) off2 S1x1x1024.size inb2).toLoadRect (arg6.view.writes (Elt F) f L0))⟩ :: L0))
        (ix3 (0 : Fin 1) (0 : Fin 1) j)
      = if h : j.val / 1024 = cc.val then k0_pay4 x0 x1 (slc X cc) (ix3 (0 : Fin 1) (0 : Fin 1) (loc cc j h))
        else if h : j.val / 1024 = r.val then k0_pay3 x0 x1 (slc X r) (ix3 (0 : Fin 1) (0 : Fin 1) (loc r j h))
        else X (ix3 (0 : Fin 1) (0 : Fin 1) j) := by
  have hne' : r.val ≠ cc.val := fun h => hne (Fin.ext h)
  refine (read_slab arg6 f inb3 _ _ cc hoff3 j).trans ?_
  rw [ld_slab arg6 _ inb3 cc hoff3]
  have hv39 : slc (arg6.view.read (Elt F) (arg6.view.writes (Elt F) f
        (⟨Rect.unit off2 S1x1x1024.size inb2,
          k0_pay3 x0 x1 (arg6.view.readAt (Elt F) (Rect.unit (s := S1x1x8192) off2 S1x1x1024.size inb2).toLoadRect (arg6.view.writes (Elt F) f L0))⟩ :: L0))) cc
      = slc X cc :=
    slc_congr _ _ cc (fun j' hj' => by
      rw [read_slab arg6 f inb2 _ L0 r hoff2 j', dif_neg (by omega), hX])
  rw [hv39, one_store arg6 f L0 X hX inb2 r hoff2 x0 x1 j]

end Stores

/-! ## The inputs as the body loads them, and the zero fill -/

/-- A load of the whole first input block reads its contents. -/
theorem ld_arg4 (arg4 : Memref sig .tc .vmem S1024x1 .f32) (harg4 : arg4.IsWhole) (x0 : Vec F S1024x1 .f32) :
    arg4.view.readAt (Elt F) (Rect.unit (s := S1024x1) ![0, 0] S1024x1.size inb_S1024x1_S1024x1_0_0).toLoadRect (harg4.unread x0) = x0 := by
  show View.ld (arg4.view.read (Elt F) (harg4.unread x0)) (Rect.unit (s := S1024x1) ![0, 0] S1024x1.size inb_S1024x1_S1024x1_0_0) = x0
  rw [harg4.read_unread]
  exact View.ld_unit_zero (funext fun a => by match a with | ⟨0, _⟩ => rfl | ⟨1, _⟩ => rfl) _ x0

/-- A load of the whole second input block reads its contents. -/
theorem ld_arg5 (arg5 : Memref sig .tc .vmem S1x1024 .f32) (harg5 : arg5.IsWhole) (x1 : Vec F S1x1024 .f32) :
    arg5.view.readAt (Elt F) (Rect.unit (s := S1x1024) ![0, 0] S1x1024.size inb_S1x1024_S1x1024_0_0).toLoadRect (harg5.unread x1) = x1 := by
  show View.ld (arg5.view.read (Elt F) (harg5.unread x1)) (Rect.unit (s := S1x1024) ![0, 0] S1x1024.size inb_S1x1024_S1x1024_0_0) = x1
  rw [harg5.read_unread]
  exact View.ld_unit_zero (funext fun a => by match a with | ⟨0, _⟩ => rfl | ⟨1, _⟩ => rfl) _ x1

/-- After the fill of the whole buffer the buffer reads the fill, whatever it held. -/
theorem read_fill (arg6 : Memref sig .tc .vmem S1x1x8192 .f32) (f : arg6.view.ty.Contents (Elt F))
    (w : Vec F S1x1x8192 .f32) :
    arg6.view.read (Elt F) (arg6.view.writes (Elt F) f
      [⟨Rect.unit (s := S1x1x8192) ![0, 0, 0] S1x1x8192.size inb_S1x1x8192_S1x1x8192_0_0_0, w⟩]) = w := by
  funext y
  exact View.read_writes_cons_unit_of_mem arg6.view f inb_S1x1x8192_S1x1x8192_0_0_0 w [] y y rfl (fun a => by
    match a with
    | ⟨0, _⟩ => exact (Nat.zero_add _).symm
    | ⟨1, _⟩ => exact (Nat.zero_add _).symm
    | ⟨2, _⟩ => exact (Nat.zero_add _).symm)

/-! ## The four closed forms -/

section Closed
variable (c : Dev nD) (i : grid0.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole)
    (x0 : Vec F S1024x1 .f32) (x1 : Vec F S1x1024 .f32)
    (xt0 : TbBuf (F := F) c tbR) (xt1 : TbBuf (F := F) c tbC)
    (hw1 : k0_chk1 (wd c i tbR xt0)) (hw2 : k0_chk2 (wd c i tbR xt0) (wd c i tbC xt1))

/-- The stores of a later point on the diagonal: the row store alone. -/
theorem list_C (hc0 : ¬condFirst i) (xo : Vec F S1x1x8192 .f32)
    (hc2 : ¬k0_cond2 (wd c i tbR xt0) (wd c i tbC xt1) = 1#1) :
    (kernelRun_C c i arg4 harg4 arg5 harg5 arg6 harg6 hc0 x0 x1 xo xt0 xt1 hw1 hw2 hc2).1
      = [⟨Rect.unit (k0_off2 (wd c i tbR xt0)) S1x1x1024.size (k0_off2_inb (wd c i tbR xt0) hw1),
          k0_pay3
            (arg4.view.readAt (Elt F) (Rect.unit (s := S1024x1) ![0, 0] S1024x1.size inb_S1024x1_S1024x1_0_0).toLoadRect (harg4.unread x0))
            (arg5.view.readAt (Elt F) (Rect.unit (s := S1x1024) ![0, 0] S1x1024.size inb_S1x1024_S1x1024_0_0).toLoadRect (harg5.unread x1))
            (arg6.view.readAt (Elt F) (Rect.unit (s := S1x1x8192) (k0_off2 (wd c i tbR xt0)) S1x1x1024.size (k0_off2_inb (wd c i tbR xt0) hw1)).toLoadRect
              (arg6.view.writes (Elt F) (harg6.unread xo) []))⟩] := rfl

/-- A later point, on the diagonal: slab r gets the row update of the running contents' slab r. -/
theorem out_C_apply (hc0 : ¬condFirst i) (xo : Vec F S1x1x8192 .f32)
    (hc2 : ¬k0_cond2 (wd c i tbR xt0) (wd c i tbC xt1) = 1#1)
    (r : Fin 8) (hoff2 : k0_off2 (wd c i tbR xt0) = ![0, 0, 1024 * r.val]) (j : Fin 8192) :
    out_C c i arg4 harg4 arg5 harg5 arg6 harg6 hc0 x0 x1 xo xt0 xt1 hw1 hw2 hc2 (ix3 (0 : Fin 1) (0 : Fin 1) j)
      = if h : j.val / 1024 = r.val then k0_pay3 x0 x1 (slc xo r) (ix3 (0 : Fin 1) (0 : Fin 1) (loc r j h))
        else xo (ix3 (0 : Fin 1) (0 : Fin 1) j) := by
  unfold out_C
  rw [list_C, ld_arg4, ld_arg5]
  exact one_store arg6 (harg6.unread xo) [] xo (harg6.read_unread xo) (k0_off2_inb (wd c i tbR xt0) hw1) r hoff2 x0 x1 j

/-- The stores of a later point off the diagonal: the column store, then (older) the row store. -/
theorem list_D (hc0 : ¬condFirst i) (xo : Vec F S1x1x8192 .f32)
    (hc2 : k0_cond2 (wd c i tbR xt0) (wd c i tbC xt1) = 1#1) :
    (kernelRun_D c i arg4 harg4 arg5 harg5 arg6 harg6 hc0 x0 x1 xo xt0 xt1 hw1 hw2 hc2).1
      = [⟨Rect.unit (k0_off3 (wd c i tbC xt1)) S1x1x1024.size (k0_off3_inb (wd c i tbR xt0) (wd c i tbC xt1) hw2 hc2),
          k0_pay4
            (arg4.view.readAt (Elt F) (Rect.unit (s := S1024x1) ![0, 0] S1024x1.size inb_S1024x1_S1024x1_0_0).toLoadRect (harg4.unread x0))
            (arg5.view.readAt (Elt F) (Rect.unit (s := S1x1024) ![0, 0] S1x1024.size inb_S1x1024_S1x1024_0_0).toLoadRect (harg5.unread x1))
            (arg6.view.readAt (Elt F) (Rect.unit (s := S1x1x8192) (k0_off3 (wd c i tbC xt1)) S1x1x1024.size (k0_off3_inb (wd c i tbR xt0) (wd c i tbC xt1) hw2 hc2)).toLoadRect
              (arg6.view.writes (Elt F) (harg6.unread xo)
                [⟨Rect.unit (k0_off2 (wd c i tbR xt0)) S1x1x1024.size (k0_off2_inb (wd c i tbR xt0) hw1),
                  k0_pay3
                    (arg4.view.readAt (Elt F) (Rect.unit (s := S1024x1) ![0, 0] S1024x1.size inb_S1024x1_S1024x1_0_0).toLoadRect (harg4.unread x0))
                    (arg5.view.readAt (Elt F) (Rect.unit (s := S1x1024) ![0, 0] S1x1024.size inb_S1x1024_S1x1024_0_0).toLoadRect (harg5.unread x1))
                    (arg6.view.readAt (Elt F) (Rect.unit (s := S1x1x8192) (k0_off2 (wd c i tbR xt0)) S1x1x1024.size (k0_off2_inb (wd c i tbR xt0) hw1)).toLoadRect
                      (arg6.view.writes (Elt F) (harg6.unread xo) []))⟩]))⟩,
         ⟨Rect.unit (k0_off2 (wd c i tbR xt0)) S1x1x1024.size (k0_off2_inb (wd c i tbR xt0) hw1),
          k0_pay3
            (arg4.view.readAt (Elt F) (Rect.unit (s := S1024x1) ![0, 0] S1024x1.size inb_S1024x1_S1024x1_0_0).toLoadRect (harg4.unread x0))
            (arg5.view.readAt (Elt F) (Rect.unit (s := S1x1024) ![0, 0] S1x1024.size inb_S1x1024_S1x1024_0_0).toLoadRect (harg5.unread x1))
            (arg6.view.readAt (Elt F) (Rect.unit (s := S1x1x8192) (k0_off2 (wd c i tbR xt0)) S1x1x1024.size (k0_off2_inb (wd c i tbR xt0) hw1)).toLoadRect
              (arg6.view.writes (Elt F) (harg6.unread xo) []))⟩] := rfl

/-- A later point, off the diagonal: slab cc gets the column update, slab r the row update, of the running contents. -/
theorem out_D_apply (hc0 : ¬condFirst i) (xo : Vec F S1x1x8192 .f32)
    (hc2 : k0_cond2 (wd c i tbR xt0) (wd c i tbC xt1) = 1#1)
    (r cc : Fin 8) (hoff2 : k0_off2 (wd c i tbR xt0) = ![0, 0, 1024 * r.val])
    (hoff3 : k0_off3 (wd c i tbC xt1) = ![0, 0, 1024 * cc.val]) (hne : r ≠ cc) (j : Fin 8192) :
    out_D c i arg4 harg4 arg5 harg5 arg6 harg6 hc0 x0 x1 xo xt0 xt1 hw1 hw2 hc2 (ix3 (0 : Fin 1) (0 : Fin 1) j)
      = if h : j.val / 1024 = cc.val then k0_pay4 x0 x1 (slc xo cc) (ix3 (0 : Fin 1) (0 : Fin 1) (loc cc j h))
        else if h : j.val / 1024 = r.val then k0_pay3 x0 x1 (slc xo r) (ix3 (0 : Fin 1) (0 : Fin 1) (loc r j h))
        else xo (ix3 (0 : Fin 1) (0 : Fin 1) j) := by
  unfold out_D
  rw [list_D, ld_arg4, ld_arg5]
  exact two_stores arg6 (harg6.unread xo) [] xo (harg6.read_unread xo) (k0_off2_inb (wd c i tbR xt0) hw1)
    (k0_off3_inb (wd c i tbR xt0) (wd c i tbC xt1) hw2 hc2) r cc hoff2 hoff3 hne x0 x1 j
end Closed

section ClosedFirst
variable (c : Dev nD) (i : grid0.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole)
    (x0 : Vec F S1024x1 .f32) (x1 : Vec F S1x1024 .f32)
    (xt0 : TbBuf (F := F) c tbR) (xt1 : TbBuf (F := F) c tbC)
    (hw1 : k0_chk1 (wd c i tbR xt0)) (hw2 : k0_chk2 (wd c i tbR xt0) (wd c i tbC xt1))

/-- The stores of a first point on the diagonal: the row store, then (older) the zero fill of the whole buffer. -/
theorem list_A (hc0 : condFirst i) (hc2 : ¬k0_cond2 (wd c i tbR xt0) (wd c i tbC xt1) = 1#1) :
    (kernelRun_A c i arg4 harg4 arg5 harg5 arg6 harg6 hc0 x0 x1 xt0 xt1 hw1 hw2 hc2).1
      = [⟨Rect.unit (k0_off2 (wd c i tbR xt0)) S1x1x1024.size (k0_off2_inb (wd c i tbR xt0) hw1),
          k0_pay3
            (arg4.view.readAt (Elt F) (Rect.unit (s := S1024x1) ![0, 0] S1024x1.size inb_S1024x1_S1024x1_0_0).toLoadRect (harg4.unread x0))
            (arg5.view.readAt (Elt F) (Rect.unit (s := S1x1024) ![0, 0] S1x1024.size inb_S1x1024_S1x1024_0_0).toLoadRect (harg5.unread x1))
            (arg6.view.readAt (Elt F) (Rect.unit (s := S1x1x8192) (k0_off2 (wd c i tbR xt0)) S1x1x1024.size (k0_off2_inb (wd c i tbR xt0) hw1)).toLoadRect
              (arg6.view.writes (Elt F) arg6.view.junk
                [⟨Rect.unit (s := S1x1x8192) ![0, 0, 0] S1x1x8192.size inb_S1x1x8192_S1x1x8192_0_0_0, k0_pay1 (F := F)⟩]))⟩,
         ⟨Rect.unit (s := S1x1x8192) ![0, 0, 0] S1x1x8192.size inb_S1x1x8192_S1x1x8192_0_0_0, k0_pay1 (F := F)⟩] := rfl

/-- A first point, on the diagonal: slab r gets the row update of the zero fill's slab r, every other lane the fill. -/
theorem out_A_apply (hc0 : condFirst i) (hc2 : ¬k0_cond2 (wd c i tbR xt0) (wd c i tbC xt1) = 1#1)
    (r : Fin 8) (hoff2 : k0_off2 (wd c i tbR xt0) = ![0, 0, 1024 * r.val]) (j : Fin 8192) :
    out_A c i arg4 harg4 arg5 harg5 arg6 harg6 hc0 x0 x1 xt0 xt1 hw1 hw2 hc2 (ix3 (0 : Fin 1) (0 : Fin 1) j)
      = if h : j.val / 1024 = r.val then k0_pay3 x0 x1 (slc (k0_pay1 (F := F)) r) (ix3 (0 : Fin 1) (0 : Fin 1) (loc r j h))
        else k0_pay1 (F := F) (ix3 (0 : Fin 1) (0 : Fin 1) j) := by
  unfold out_A
  rw [list_A, ld_arg4, ld_arg5]
  exact one_store arg6 arg6.view.junk _ (k0_pay1 (F := F)) (read_fill arg6 arg6.view.junk (k0_pay1 (F := F)))
    (k0_off2_inb (wd c i tbR xt0) hw1) r hoff2 x0 x1 j

/-- The stores of a first point off the diagonal: the column store, the row store, and (oldest) the zero fill. -/
theorem list_B (hc0 : condFirst i) (hc2 : k0_cond2 (wd c i tbR xt0) (wd c i tbC xt1) = 1#1) :
    (kernelRun_B c i arg4 harg4 arg5 harg5 arg6 harg6 hc0 x0 x1 xt0 xt1 hw1 hw2 hc2).1
      = [⟨Rect.unit (k0_off3 (wd c i tbC xt1)) S1x1x1024.size (k0_off3_inb (wd c i tbR xt0) (wd c i tbC xt1) hw2 hc2),
          k0_pay4
            (arg4.view.readAt (Elt F) (Rect.unit (s := S1024x1) ![0, 0] S1024x1.size inb_S1024x1_S1024x1_0_0).toLoadRect (harg4.unread x0))
            (arg5.view.readAt (Elt F) (Rect.unit (s := S1x1024) ![0, 0] S1x1024.size inb_S1x1024_S1x1024_0_0).toLoadRect (harg5.unread x1))
            (arg6.view.readAt (Elt F) (Rect.unit (s := S1x1x8192) (k0_off3 (wd c i tbC xt1)) S1x1x1024.size (k0_off3_inb (wd c i tbR xt0) (wd c i tbC xt1) hw2 hc2)).toLoadRect
              (arg6.view.writes (Elt F) arg6.view.junk
                [⟨Rect.unit (k0_off2 (wd c i tbR xt0)) S1x1x1024.size (k0_off2_inb (wd c i tbR xt0) hw1),
                  k0_pay3
                    (arg4.view.readAt (Elt F) (Rect.unit (s := S1024x1) ![0, 0] S1024x1.size inb_S1024x1_S1024x1_0_0).toLoadRect (harg4.unread x0))
                    (arg5.view.readAt (Elt F) (Rect.unit (s := S1x1024) ![0, 0] S1x1024.size inb_S1x1024_S1x1024_0_0).toLoadRect (harg5.unread x1))
                    (arg6.view.readAt (Elt F) (Rect.unit (s := S1x1x8192) (k0_off2 (wd c i tbR xt0)) S1x1x1024.size (k0_off2_inb (wd c i tbR xt0) hw1)).toLoadRect
                      (arg6.view.writes (Elt F) arg6.view.junk
                        [⟨Rect.unit (s := S1x1x8192) ![0, 0, 0] S1x1x8192.size inb_S1x1x8192_S1x1x8192_0_0_0, k0_pay1 (F := F)⟩]))⟩,
                 ⟨Rect.unit (s := S1x1x8192) ![0, 0, 0] S1x1x8192.size inb_S1x1x8192_S1x1x8192_0_0_0, k0_pay1 (F := F)⟩]))⟩,
         ⟨Rect.unit (k0_off2 (wd c i tbR xt0)) S1x1x1024.size (k0_off2_inb (wd c i tbR xt0) hw1),
          k0_pay3
            (arg4.view.readAt (Elt F) (Rect.unit (s := S1024x1) ![0, 0] S1024x1.size inb_S1024x1_S1024x1_0_0).toLoadRect (harg4.unread x0))
            (arg5.view.readAt (Elt F) (Rect.unit (s := S1x1024) ![0, 0] S1x1024.size inb_S1x1024_S1x1024_0_0).toLoadRect (harg5.unread x1))
            (arg6.view.readAt (Elt F) (Rect.unit (s := S1x1x8192) (k0_off2 (wd c i tbR xt0)) S1x1x1024.size (k0_off2_inb (wd c i tbR xt0) hw1)).toLoadRect
              (arg6.view.writes (Elt F) arg6.view.junk
                [⟨Rect.unit (s := S1x1x8192) ![0, 0, 0] S1x1x8192.size inb_S1x1x8192_S1x1x8192_0_0_0, k0_pay1 (F := F)⟩]))⟩,
         ⟨Rect.unit (s := S1x1x8192) ![0, 0, 0] S1x1x8192.size inb_S1x1x8192_S1x1x8192_0_0_0, k0_pay1 (F := F)⟩] := rfl

/-- A first point, off the diagonal: slab cc gets the column update, slab r the row update, of the zero fill. -/
theorem out_B_apply (hc0 : condFirst i) (hc2 : k0_cond2 (wd c i tbR xt0) (wd c i tbC xt1) = 1#1)
    (r cc : Fin 8) (hoff2 : k0_off2 (wd c i tbR xt0) = ![0, 0, 1024 * r.val])
    (hoff3 : k0_off3 (wd c i tbC xt1) = ![0, 0, 1024 * cc.val]) (hne : r ≠ cc) (j : Fin 8192) :
    out_B c i arg4 harg4 arg5 harg5 arg6 harg6 hc0 x0 x1 xt0 xt1 hw1 hw2 hc2 (ix3 (0 : Fin 1) (0 : Fin 1) j)
      = if h : j.val / 1024 = cc.val then k0_pay4 x0 x1 (slc (k0_pay1 (F := F)) cc) (ix3 (0 : Fin 1) (0 : Fin 1) (loc cc j h))
        else if h : j.val / 1024 = r.val then k0_pay3 x0 x1 (slc (k0_pay1 (F := F)) r) (ix3 (0 : Fin 1) (0 : Fin 1) (loc r j h))
        else k0_pay1 (F := F) (ix3 (0 : Fin 1) (0 : Fin 1) j) := by
  unfold out_B
  rw [list_B, ld_arg4, ld_arg5]
  exact two_stores arg6 arg6.view.junk _ (k0_pay1 (F := F)) (read_fill arg6 arg6.view.junk (k0_pay1 (F := F)))
    (k0_off2_inb (wd c i tbR xt0) hw1) (k0_off3_inb (wd c i tbR xt0) (wd c i tbC xt1) hw2 hc2) r cc hoff2 hoff3 hne x0 x1 j
end ClosedFirst

end Cert.KernelIdeal.PredRank
end
-- ==== Proof.KI.Pred.BlockValue.lean ====
/-
  The pair tables and the blocks they select.

  Point t of the 2 × 18 grid is pair t % 18 of sweep t / 18. The two tables the program holds list, for each point,
  the row block r and the column block c (each below 8) of the pair it visits; the specification's tables list the
  same blocks. Here: the words of the tables are those blocks, and the slices and the condition the body computes
  from them are the slices at 1024 r and 1024 c and "r ≠ c"; the two input windows' blocks at a point are block r
  of the column vector and block c of the row vector (a block's coordinate in its array is the block index times
  the block's size plus the coordinate inside the block); and the accumulator's array, written back only at the
  last point of each sweep, ends holding in row k what the accumulator's buffer held after point 18 k + 17.
-/
import proofs.«115298_j79809082295156_2_alg».proof.Proof.KI.Pred.Region
import proofs.«115298_j79809082295156_2_alg».proof.Proof.RankSpec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.WritesUnit
import Idealize.ShloMosaic.Lib.ValueIdx

set_option maxRecDepth 16384

noncomputable section

namespace Cert.KernelIdeal.PredRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The pair tables, read as blocks

Point `t` of the grid is pair `t % 18` of sweep `t / 18`; its row block and column block are the entries of the
specification's tables there. -/

/-- The row block of the pair at point `t`. -/
def Rk (t : Fin grid0.N) : Fin 8 :=
  Cert.RankSpec.rTab ⟨t.val / 18, Nat.div_lt_of_lt_mul (lt_of_lt_of_eq t.isLt N_0)⟩ ⟨t.val % 18, Nat.mod_lt _ (by decide)⟩
/-- The column block of the pair at point `t`. -/
def Ck (t : Fin grid0.N) : Fin 8 :=
  Cert.RankSpec.cTab ⟨t.val / 18, Nat.div_lt_of_lt_mul (lt_of_lt_of_eq t.isLt N_0)⟩ ⟨t.val % 18, Nat.mod_lt _ (by decide)⟩

/-- The words the program's tables hold at point `t` are the specification's blocks. -/
theorem words_eq : ∀ t : Fin grid0.N, (wr t).toNat = (Rk t).val ∧ (wc t).toNat = (Ck t).val := by decide +kernel

/-- The slice of the accumulator the row block's update touches starts at 1024 times the block. -/
theorem off2_eq : ∀ t : Fin grid0.N, k0_off2 (wr t) = ![0, 0, 1024 * (Rk t).val] := by decide +kernel

/-- The slice the column block's update touches starts at 1024 times the block. -/
theorem off3_eq : ∀ t : Fin grid0.N, k0_off3 (wc t) = ![0, 0, 1024 * (Ck t).val] := by decide +kernel

/-- The mirrored update runs exactly off the diagonal. -/
theorem cond2_iff : ∀ t : Fin grid0.N, (k0_cond2 (wr t) (wc t) = 1#1 ↔ Rk t ≠ Ck t) := by decide +kernel

open Idealize.ShloMosaic.ValueIdx

/-! ## The tables as the program holds them -/

/-- The literal tables, admissible. -/
abbrev adm0 : (pcfg0 (F := F)).Adm := ⟨tblL, ok_tblL⟩

/-- At the literal tables the side conditions of the words hold at every point. -/
theorem h0 : Hyps (adm0 (F := F)) := fun c t => chk_all t

/-! ## The input windows' blocks, read off their arrays

A block's coordinate in its array is the block index times the block's size plus the coordinate inside the block.
The facts are first stated at any admissible tables, with the block index a hypothesis, and then read at the
literal tables. -/

variable (V : (c : Dev nD) → (b : Ref sig .tc) → Buf (Elt F) ((c : Thread nD τ).loc b))

/-- Window 0's block index at a point is the row table's word there, and zero. -/
theorem index0_eq (a : (pcfg0 (F := F)).Adm) (t : Fin (cfgA a).N) :
    ((cfgA a).win 0).index t = ![(a.1 0 (cell (grid0.coords t)) : BitVec 32).toNat, 0] := rfl

/-- Window 1's block index at a point is zero, and the column table's word there. -/
theorem index1_eq (a : (pcfg0 (F := F)).Adm) (t : Fin (cfgA a).N) :
    ((cfgA a).win 1).index t = ![0, (a.1 1 (cell (grid0.coords t)) : BitVec 32).toNat] := rfl

/-- Entry `i` of window 0's block at a point whose block index is `(r, 0)` is entry `i` of block `r` of the column vector. -/
theorem iblk0_of (a : (pcfg0 (F := F)).Adm) (c : Dev nD) (t : Fin (cfgA a).N) (r : Fin 8)
    (hr : ((cfgA a).win 0).index t = ![r.val, 0]) (i : Fin 1024) :
    iblk V a c 0 t (ix2 i (0 : Fin 1)) = V c main_v0 (ix2 (Cert.RankSpec.blkIdx r i) (0 : Fin 1)) := by
  unfold iblk
  show V c main_v0 ((((cfgA a).win 0).blk t).view.emb (ix2 i (0 : Fin 1))) = _
  refine congrArg _ ?_
  funext ax; apply Fin.ext
  have e0 : ((cfgA a).win 0).index t (0 : Fin 2) = r.val := congrFun hr (0 : Fin 2)
  have e1 : ((cfgA a).win 0).index t (1 : Fin 2) = 0 := congrFun hr (1 : Fin 2)
  match ax with
  | ⟨0, _⟩ =>
    show ((cfgA a).win 0).index t (0 : Fin 2) * 1024 + 1 * i.val = 1024 * r.val + i.val
    rw [e0]; omega
  | ⟨1, _⟩ =>
    show ((cfgA a).win 0).index t (1 : Fin 2) * 1 + 1 * 0 = 0
    rw [e1]

/-- Entry `l` of window 1's block at a point whose block index is `(0, r)` is entry `l` of block `r` of the row vector. -/
theorem iblk1_of (a : (pcfg0 (F := F)).Adm) (c : Dev nD) (t : Fin (cfgA a).N) (r : Fin 8)
    (hr : ((cfgA a).win 1).index t = ![0, r.val]) (l : Fin 1024) :
    iblk V a c 1 t (ix2 (0 : Fin 1) l) = V c main_v1 (ix2 (0 : Fin 1) (Cert.RankSpec.blkIdx r l)) := by
  unfold iblk
  show V c main_v1 ((((cfgA a).win 1).blk t).view.emb (ix2 (0 : Fin 1) l)) = _
  refine congrArg _ ?_
  funext ax; apply Fin.ext
  have e0 : ((cfgA a).win 1).index t (0 : Fin 2) = 0 := congrFun hr (0 : Fin 2)
  have e1 : ((cfgA a).win 1).index t (1 : Fin 2) = r.val := congrFun hr (1 : Fin 2)
  match ax with
  | ⟨0, _⟩ =>
    show ((cfgA a).win 1).index t (0 : Fin 2) * 1 + 1 * 0 = 0
    rw [e0]
  | ⟨1, _⟩ =>
    show ((cfgA a).win 1).index t (1 : Fin 2) * 1024 + 1 * l.val = 1024 * r.val + l.val
    rw [e1]; omega

/-- At the literal tables window 0's block at point `t` is block `Rk t` of the column vector. -/
theorem iblk0_apply (c : Dev nD) (t : Fin (cfgA (adm0 (F := F))).N) (i : Fin 1024) :
    iblk V adm0 c 0 t (ix2 i (0 : Fin 1)) = V c main_v0 (ix2 (Cert.RankSpec.blkIdx (Rk t) i) (0 : Fin 1)) :=
  iblk0_of V adm0 c t (Rk t)
    ((index0_eq adm0 t).trans (by show ![(wr t).toNat, 0] = _; rw [(words_eq t).1])) i

/-- At the literal tables window 1's block at point `t` is block `Ck t` of the row vector. -/
theorem iblk1_apply (c : Dev nD) (t : Fin (cfgA (adm0 (F := F))).N) (l : Fin 1024) :
    iblk V adm0 c 1 t (ix2 (0 : Fin 1) l) = V c main_v1 (ix2 (0 : Fin 1) (Cert.RankSpec.blkIdx (Ck t) l)) :=
  iblk1_of V adm0 c t (Ck t)
    ((index1_eq adm0 t).trans (by show ![0, (wc t).toNat] = _; rw [(words_eq t).2])) l

/-! ## The accumulator's array after the region

The accumulator's window is written back at the last point of each sweep only, sweep `k`'s block being row `k`
of the array: so the array ends holding, in row `k`, what the accumulator's buffer held after point `18 k + 17`. -/

/-- Window 2's block index at a point is the point's sweep, and zeros. -/
theorem index2_facts : ∀ t : Fin grid0.N, cc0_transform_2 (grid0.coords t) = ![t.val / 18, 0, 0] := by decide +kernel

/-- So at any admissible tables (window 2's index map reads none). -/
theorem index2_eq (a : (pcfg0 (F := F)).Adm) (t : Fin (cfgA a).N) : ((cfgA a).win 2).index t = ![t.val / 18, 0, 0] :=
  index2_facts t

/-- `outsAt` at equal points. -/
theorem outsAt_congr (a : (pcfg0 (F := F)).Adm) (hH : Hyps a) (c : Dev nD) {n n' : ℕ} (hn : n < (cfgA a).N) (hn' : n' < (cfgA a).N)
    (e : n = n') (y : S1x1x8192.Idx) : outsAt V a hH c n hn y = outsAt V a hH c n' hn' y := by
  subst e; rfl

/-- The last point of sweep `k` is a point of the grid. -/
theorem last_lt (a : (pcfg0 (F := F)).Adm) (k : Fin 2) : 18 * k.val + 17 < (cfgA a).N := by
  rw [show (cfgA a).N = 36 from N_0]; have := k.isLt; omega

/-- Entry `j` of what the accumulator's buffer held after the last point of sweep `k`. -/
def accRow (a : (pcfg0 (F := F)).Adm) (hH : Hyps a) (c : Dev nD) (k : Fin 2) (j : Fin 8192) : Elt F .f32 :=
  outsAt V a hH c (18 * k.val + 17) (last_lt a k) (ix3 (0 : Fin 1) (0 : Fin 1) j)

/-- The array whose blocks the write-backs write: row `k` is `accRow k`. -/
def accArr (a : (pcfg0 (F := F)).Adm) (hH : Hyps a) (c : Dev nD) : S2x1x8192.Idx → Elt F .f32 :=
  fun i => accRow V a hH c (i 0) (i 2)

/-- At a last point of a sweep, the buffer's entry is the row's. -/
theorem outsAt_row (a : (pcfg0 (F := F)).Adm) (hH : Hyps a) (c : Dev nD) (t : Fin (cfgA a).N) (h17 : t.val % 18 = 17)
    (y : S1x1x8192.Idx) (k : Fin 2) (j : Fin 8192) (hk : k.val = t.val / 18) (hj : j.val = (y 2).val) :
    outsAt V a hH c t.val t.isLt y = accRow V a hH c k j := by
  unfold accRow
  have e : y = ix3 (0 : Fin 1) (0 : Fin 1) j := by
    funext ax
    match ax with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => exact Fin.ext hj.symm
  rw [← e]
  exact outsAt_congr V a hH c _ _ (by omega) y

/-- What a write-back writes is its block of `accArr`. -/
theorem flushed2_eq (a : (pcfg0 (F := F)).Adm) (hH : Hyps a) (c : Dev nD) (t : Fin (cfgA a).N)
    (hf : ((cfgA a).win 2).flush t = true) :
    (dat V a hH c).flushed 2 t = (((cfgA a).win 2).blk t).view.read (Elt F) (accArr V a hH c) := by
  have h17 : t.val % 18 = 17 := (flush_2 a t).mp hf
  have e0 : ((cfgA a).win 2).index t (0 : Fin 3) = t.val / 18 := congrFun (index2_eq a t) (0 : Fin 3)
  have e2 : ((cfgA a).win 2).index t (2 : Fin 3) = 0 := congrFun (index2_eq a t) (2 : Fin 3)
  show ((cfgA a).win 2).cut (grid0.coords t) ((dat V a hH c).after 2 t) = _
  rw [after_2]
  funext y
  show outsAt V a hH c t.val t.isLt (((cfgA a).win 2).xinj (grid0.coords t) y)
    = accRow V a hH c ((((cfgA a).win 2).blk t).view.emb y (0 : Fin 3)) ((((cfgA a).win 2).blk t).view.emb y (2 : Fin 3))
  refine outsAt_row V a hH c t h17 _ _ _ ?_ ?_
  · show ((cfgA a).win 2).index t (0 : Fin 3) * 1 + 1 * (y (0 : Fin 3)).val = t.val / 18
    have h : (y (0 : Fin 3)).val < 1 := (y (0 : Fin 3)).isLt
    rw [e0]; omega
  · show ((cfgA a).win 2).index t (2 : Fin 3) * 8192 + 1 * (y (2 : Fin 3)).val = (y (2 : Fin 3)).val
    rw [e2]; omega

/-- The array after the region, at any admissible tables: row `k` holds what the accumulator's buffer held after
    the last point of sweep `k`. -/
theorem arr_final_of (a : (pcfg0 (F := F)).Adm) (hH : Hyps a) (c : Dev nD) (k : Fin 2) (j : Fin 8192) :
    (dat V a hH c).arrAt 2 (cfgA a).N (ix3 k (0 : Fin 1) j) = accRow V a hH c k j := by
  have hlt : 18 * k.val + 17 < (cfgA a).N := last_lt a k
  have hk : k.val < 2 := k.isLt
  have e0 : ((cfgA a).win 2).index ⟨18 * k.val + 17, hlt⟩ (0 : Fin 3) = k.val :=
    (congrFun (index2_eq a ⟨18 * k.val + 17, hlt⟩) (0 : Fin 3)).trans (by show (18 * k.val + 17) / 18 = k.val; omega)
  have e1 : ((cfgA a).win 2).index ⟨18 * k.val + 17, hlt⟩ (1 : Fin 3) = 0 := congrFun (index2_eq a ⟨18 * k.val + 17, hlt⟩) (1 : Fin 3)
  have e2 : ((cfgA a).win 2).index ⟨18 * k.val + 17, hlt⟩ (2 : Fin 3) = 0 := congrFun (index2_eq a ⟨18 * k.val + 17, hlt⟩) (2 : Fin 3)
  refine (dat V a hH c).arrAt_apply_of_mem 2 (accArr V a hH c) (flushed2_eq V a hH c) (cfgA a).N ⟨18 * k.val + 17, hlt⟩
    (ix3 k (0 : Fin 1) j) hlt ((flush_2 a _).mpr (by show (18 * k.val + 17) % 18 = 17; omega)) ?_
  show ix3 k (0 : Fin 1) j ∈ ((View.whole main_v2).slice (((cfgA a).win 2).rect ⟨18 * k.val + 17, hlt⟩)).set
  refine (congrArg (fun S => ix3 k (0 : Fin 1) j ∈ S)
    (View.set_slice_whole main_v2 (((cfgA a).win 2).rect ⟨18 * k.val + 17, hlt⟩))).mpr ?_
  refine Rect.mem_set_unit.mpr fun ax => ?_
  match ax with
  | ⟨0, _⟩ =>
    show ((cfgA a).win 2).index ⟨18 * k.val + 17, hlt⟩ (0 : Fin 3) * 1 ≤ k.val
      ∧ k.val < ((cfgA a).win 2).index ⟨18 * k.val + 17, hlt⟩ (0 : Fin 3) * 1 + 1
    rw [e0]; omega
  | ⟨1, _⟩ =>
    show ((cfgA a).win 2).index ⟨18 * k.val + 17, hlt⟩ (1 : Fin 3) * 1 ≤ 0
      ∧ 0 < ((cfgA a).win 2).index ⟨18 * k.val + 17, hlt⟩ (1 : Fin 3) * 1 + 1
    rw [e1]; omega
  | ⟨2, _⟩ =>
    show ((cfgA a).win 2).index ⟨18 * k.val + 17, hlt⟩ (2 : Fin 3) * 8192 ≤ j.val
      ∧ j.val < ((cfgA a).win 2).index ⟨18 * k.val + 17, hlt⟩ (2 : Fin 3) * 8192 + 8192
    rw [e2]; have := j.isLt; omega

/-- THE ARRAY AFTER THE REGION, at the literal tables: row `k` holds what the accumulator's buffer held after the
    last point of sweep `k`. -/
theorem arr_final (c : Dev nD) (k : Fin 2) (j : Fin 8192) :
    (dat V adm0 h0 c).arrAt 2 (cfgA (adm0 (F := F))).N (ix3 k (0 : Fin 1) j)
      = outsAt V adm0 h0 c (18 * k.val + 17) (last_lt adm0 k) (ix3 (0 : Fin 1) (0 : Fin 1) j) :=
  arr_final_of V adm0 h0 c k j

/-- The input windows' arrays are never written: they end as the region found them. -/
theorem arr_in0 (a : (pcfg0 (F := F)).Adm) (hH : Hyps a) (c : Dev nD) : (dat V a hH c).arrAt 0 (cfgA a).N = V c main_v0 :=
  ((dat V a hH c).arrAt_in 0 rfl _).trans (A_eq V a hH c 0)
theorem arr_in1 (a : (pcfg0 (F := F)).Adm) (hH : Hyps a) (c : Dev nD) : (dat V a hH c).arrAt 1 (cfgA a).N = V c main_v1 :=
  ((dat V a hH c).arrAt_in 1 rfl _).trans (A_eq V a hH c 1)

end Cert.KernelIdeal.PredRank
end
-- ==== Proof.KI.PayValue.lean ====
/-
  The values the kernel body stores, read element by element at the extended reals.

  One call of the body reads a column a (as a [1024, 1] array), a row b (as a [1, 1024] array) and a block u
  of the accumulator (as [1, 1, 1024]). It forms the table σ(a i − b l), i, l < 1024 (two broadcasts, a
  subtraction and the logistic operation, which on a finite extended real is σ), and stores
    · for the row update, u i + Σ_l σ(a i − b l)  (the table summed over axis 1, re-laid [1024] → [1, 1024] → [1, 1, 1024]);
    · for the mirrored column update, u l + (1024 − Σ_i σ(a i − b l))  (the constant 1024.0 minus the table summed over axis 0).
  The very first store writes zero everywhere. Sums of finite extended reals are the real sums, so every
  stored element is a real number.
-/
import proofs.«115298_j79809082295156_2_alg».proof.Proof.Gen.KernelIdeal.Skeleton
import proofs.«115298_j79809082295156_2_alg».proof.Proof.RankSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Idealize.ShloMosaic Idealize.ShloMosaic.ValueIdx Cert.RankSpec Cert.KernelIdeal Cert.KernelIdeal.Gen

/-- The logistic operation on a finite extended real is σ. -/
theorem logistic_sgm (d : ℝ) : Ideal.logistic ((d : ℝ) : EReal) = ((sgm d : ℝ) : EReal) := by
  rw [Ideal.logistic_coe]; rfl

/-- A column [1024, 1] broadcast to [1024, 1024] reads, at (i, l), the column's entry i. -/
theorem broadcastTo_a1_ab_apply {α : Type} (w : S1024x1.Idx → α) (h : S1024x1.Broadcasts S1024x1024) (i l : Fin 1024) :
    broadcastTo S1024x1024 w h (ix2 i l) = w (ix2 i (0 : Fin 1)) := by
  refine broadcastTo_apply w h (ix2 i l) (ix2 i (0 : Fin 1)) fun ax => ?_
  match ax with
  | ⟨0, _⟩ =>
    exact (if_neg (show ¬ ((1024 : ℕ) = 1) by decide)).symm
  | ⟨1, _⟩ => rfl

section
variable (a b : Fin 1024 → ℝ) (x0 : Vec Ideal S1024x1 .f32) (x1 : Vec Ideal S1x1024 .f32)
  (hx0 : ∀ i : Fin 1024, x0 (ix2 i (0 : Fin 1)) = ((a i : ℝ) : EReal))
  (hx1 : ∀ l : Fin 1024, x1 (ix2 (0 : Fin 1) l) = ((b l : ℝ) : EReal))
include hx0 hx1

/-- The logistic table at (i, l) is σ(a i − b l). -/
theorem pay2_apply (i l : Fin 1024) :
    k0_pay2 (F := Ideal) x0 x1 (ix2 i l) = ((sgm (a i - b l) : ℝ) : EReal) := by
  have e0 : broadcastTo S1024x1024 (shapeCast S1024x1 x0 shapeCasts_S1024x1_S1024x1) broadcasts_S1024x1_S1024x1024 (ix2 i l)
      = ((a i : ℝ) : EReal) := by
    rw [shapeCast_self]
    exact (broadcastTo_a1_ab_apply x0 _ i l).trans (hx0 i)
  have e1 : broadcastTo S1024x1024 (shapeCast S1x1024 x1 shapeCasts_S1x1024_S1x1024) broadcasts_S1x1024_S1024x1024 (ix2 i l)
      = ((b l : ℝ) : EReal) := by
    rw [shapeCast_self]
    exact (broadcastTo_1b_ab_apply x1 _ i l).trans (hx1 l)
  show Ideal.logistic (broadcastTo S1024x1024 (shapeCast S1024x1 x0 shapeCasts_S1024x1_S1024x1) broadcasts_S1024x1_S1024x1024 (ix2 i l)
      - broadcastTo S1024x1024 (shapeCast S1x1024 x1 shapeCasts_S1x1024_S1x1024) broadcasts_S1x1024_S1024x1024 (ix2 i l)) = _
  rw [e0, e1, ← EReal.coe_sub, logistic_sgm]

end

/-- A finite sum of real numbers, read in the extended reals, is the real sum. -/
theorem coe_sum {ι : Type} (s : Finset ι) (f : ι → ℝ) :
    (∑ l ∈ s, ((f l : ℝ) : EReal)) = ((∑ l ∈ s, f l : ℝ) : EReal) := by
  classical
  induction s using Finset.induction_on with
  | empty => rw [Finset.sum_empty, Finset.sum_empty, EReal.coe_zero]
  | insert x s hx ih => rw [Finset.sum_insert hx, Finset.sum_insert hx, ih, EReal.coe_add]

/-- The sum over axis 1 of a [1024, 1024] table, read at i, is the sum over l of the table at (i, l). -/
theorem sum_axis1 (src : FVec Ideal S1024x1024 .f32) (hφ : FKind.Formats .f32)
    (hacc : (0x00000000#32 : BitVec 32) = 0x00000000#32) (i : Fin 1024) :
    multiReduction .add [1] S1024 src 0x00000000#32 reduces_S1024x1024_S1024 hφ hacc (ValueIdx.ix1 i)
      = ∑ l : Fin 1024, src (ix2 i l) := by
  refine (Ideal.multiReduction_add_single src 0x00000000#32 reduces_S1024x1024_S1024 hφ hacc (ValueIdx.ix1 i)).trans ?_
  refine Finset.sum_congr rfl fun l _ => congrArg src ?_
  funext c
  match c with
  | ⟨0, _⟩ => rfl
  | ⟨1, _⟩ => rfl

/-- The sum over axis 0 of a [1024, 1024] table, read at l, is the sum over i of the table at (i, l). -/
theorem sum_axis0 (src : FVec Ideal S1024x1024 .f32) (hφ : FKind.Formats .f32)
    (hacc : (0x00000000#32 : BitVec 32) = 0x00000000#32) (l : Fin 1024) :
    multiReduction .add [0] S1024 src 0x00000000#32 reduces_S1024x1024_S1024_2 hφ hacc (ValueIdx.ix1 l)
      = ∑ i : Fin 1024, src (ix2 i l) := by
  refine (Ideal.multiReduction_add_single src 0x00000000#32 reduces_S1024x1024_S1024_2 hφ hacc (ValueIdx.ix1 l)).trans ?_
  refine Finset.sum_congr rfl fun i _ => congrArg src ?_
  funext c
  match c with
  | ⟨0, _⟩ => rfl
  | ⟨1, _⟩ => rfl

/-- The f32 pattern 0x44800000 is the real number 1024. -/
theorem ofBits_1024 : Ideal.ofBits .f32 0x44800000#32 = ((1024 : ℝ) : EReal) := by
  simp [Ideal.ofBits, Ideal.ieee, -EReal.coe_mul]; norm_num

section
variable (a b u : Fin 1024 → ℝ) (x0 : Vec Ideal S1024x1 .f32) (x1 : Vec Ideal S1x1024 .f32) (v : Vec Ideal S1x1x1024 .f32)
  (hx0 : ∀ i : Fin 1024, x0 (ix2 i (0 : Fin 1)) = ((a i : ℝ) : EReal))
  (hx1 : ∀ l : Fin 1024, x1 (ix2 (0 : Fin 1) l) = ((b l : ℝ) : EReal))
  (hv : ∀ l : Fin 1024, v (ix3 (0 : Fin 1) (0 : Fin 1) l) = ((u l : ℝ) : EReal))
include hx0 hx1 hv

/-- The row update: entry i of the stored block is u i plus the sum over l of σ(a i − b l). -/
theorem pay3_apply (i : Fin 1024) :
    k0_pay3 (F := Ideal) x0 x1 v (ix3 (0 : Fin 1) (0 : Fin 1) i)
      = ((u i + ∑ l : Fin 1024, sgm (a i - b l) : ℝ) : EReal) := by
  unfold k0_pay3
  refine (shapeCast_ab_1ab_apply _ _ (0 : Fin 1) (0 : Fin 1) i).trans ?_
  refine (addf_apply _ _ _).trans ?_
  rw [shapeCast_1ab_ab_apply, shapeCast_a_1a_apply, hv, sum_axis1,
    Finset.sum_congr rfl (fun l _ => pay2_apply a b x0 x1 hx0 hx1 i l), coe_sum, ← EReal.coe_add]

/-- The mirrored column update: entry l of the stored block is u l plus 1024 minus the sum over i of σ(a i − b l). -/
theorem pay4_apply (l : Fin 1024) :
    k0_pay4 (F := Ideal) x0 x1 v (ix3 (0 : Fin 1) (0 : Fin 1) l)
      = ((u l + (1024 - ∑ i : Fin 1024, sgm (a i - b l)) : ℝ) : EReal) := by
  unfold k0_pay4
  refine (shapeCast_ab_1ab_apply _ _ (0 : Fin 1) (0 : Fin 1) l).trans ?_
  refine (addf_apply _ _ _).trans ?_
  rw [shapeCast_1ab_ab_apply, hv]
  refine (congrArg (fun z => ((u l : ℝ) : EReal) + z) (subf_apply _ _ _)).trans ?_
  rw [shapeCast_a_1a_apply, sum_axis0,
    Finset.sum_congr rfl (fun i _ => pay2_apply a b x0 x1 hx0 hx1 i l), coe_sum]
  show ((u l : ℝ) : EReal) + (Ideal.ofBits .f32 0x44800000#32 - _) = _
  rw [ofBits_1024, ← EReal.coe_sub, ← EReal.coe_add]
end

/-! The second call's payloads are the first call's, term for term. -/

theorem k1_pay2_eq : @k1_pay2 = @k0_pay2 := rfl
theorem k1_pay3_eq : @k1_pay3 = @k0_pay3 := rfl
theorem k1_pay4_eq : @k1_pay4 = @k0_pay4 := rfl

section
variable (a b u : Fin 1024 → ℝ) (x0 : Vec Ideal S1024x1 .f32) (x1 : Vec Ideal S1x1024 .f32) (v : Vec Ideal S1x1x1024 .f32)
  (hx0 : ∀ i : Fin 1024, x0 (ix2 i (0 : Fin 1)) = ((a i : ℝ) : EReal))
  (hx1 : ∀ l : Fin 1024, x1 (ix2 (0 : Fin 1) l) = ((b l : ℝ) : EReal))
  (hv : ∀ l : Fin 1024, v (ix3 (0 : Fin 1) (0 : Fin 1) l) = ((u l : ℝ) : EReal))
include hx0 hx1 hv

theorem pay3_apply' (i : Fin 1024) :
    k1_pay3 (F := Ideal) x0 x1 v (ix3 (0 : Fin 1) (0 : Fin 1) i)
      = ((u i + ∑ l : Fin 1024, sgm (a i - b l) : ℝ) : EReal) := by
  rw [k1_pay3_eq]; exact pay3_apply a b u x0 x1 v hx0 hx1 hv i

theorem pay4_apply' (l : Fin 1024) :
    k1_pay4 (F := Ideal) x0 x1 v (ix3 (0 : Fin 1) (0 : Fin 1) l)
      = ((u l + (1024 - ∑ i : Fin 1024, sgm (a i - b l)) : ℝ) : EReal) := by
  rw [k1_pay4_eq]; exact pay4_apply a b u x0 x1 v hx0 hx1 hv l
end

/-- The initial store writes zero everywhere. -/
theorem pay1_apply (y : S1x1x8192.Idx) : k0_pay1 (F := Ideal) y = ((0 : ℝ) : EReal) := by
  show Ideal.ofBits .f32 0x00000000#32 = _
  rw [Ideal.ofBits_zero_f32, EReal.coe_zero]

theorem pay1_apply' (y : S1x1x8192.Idx) : k1_pay1 (F := Ideal) y = ((0 : ℝ) : EReal) := by
  show Ideal.ofBits .f32 0x00000000#32 = _
  rw [Ideal.ofBits_zero_f32, EReal.coe_zero]

end Cert.KernelIdeal.PayValue

end
-- ==== Proof.SweepSteps.lean ====
/-
  One pair's update and the sweep recursion, unfolded case by case, and the arithmetic of a point's position in its sweep.
-/
import proofs.«115298_j79809082295156_2_alg».proof.Proof.RankSpec

noncomputable section

namespace Cert.RankSpec

/-- An entry of the column block of an off-diagonal pair gains the mirrored column sum. -/
theorem stepR_col (x : Fin 8192 → ℝ) (r c : Fin 8) (acc : Fin 8192 → ℝ) (j : Fin 8192) (hne : r ≠ c) (hj : j.val / 1024 = c.val) :
    stepR x r c acc j = acc j + colPart x r j := by
  unfold stepR; rw [if_pos ⟨hne, hj⟩]

/-- An entry of the row block gains the row sum (for an off-diagonal pair the row block is not the column block). -/
theorem stepR_row (x : Fin 8192 → ℝ) (r c : Fin 8) (acc : Fin 8192 → ℝ) (j : Fin 8192) (hnc : ¬(r ≠ c ∧ j.val / 1024 = c.val)) (hj : j.val / 1024 = r.val) :
    stepR x r c acc j = acc j + rowPart x c j := by
  unfold stepR; rw [if_neg hnc, if_pos hj]

/-- Every other entry is left alone. -/
theorem stepR_else (x : Fin 8192 → ℝ) (r c : Fin 8) (acc : Fin 8192 → ℝ) (j : Fin 8192) (hnc : ¬(r ≠ c ∧ j.val / 1024 = c.val)) (hj : ¬j.val / 1024 = r.val) :
    stepR x r c acc j = acc j := by
  unfold stepR; rw [if_neg hnc, if_neg hj]

/-- One more pair of a sweep. -/
theorem sweepR_step (x : Fin 8192 → ℝ) (R C : Fin 18 → Fin 8) (n : ℕ) (h : n < 18) :
    sweepR x R C (n + 1) = stepR x (R ⟨n, h⟩) (C ⟨n, h⟩) (sweepR x R C n) := by
  show (if h : n < 18 then stepR x (R ⟨n, h⟩) (C ⟨n, h⟩) (sweepR x R C n) else sweepR x R C n) = _
  rw [dif_pos h]

theorem sweepR_zero (x : Fin 8192 → ℝ) (R C : Fin 18 → Fin 8) : sweepR x R C 0 = fun _ => 0 := rfl

/-- Entry `l` of block `b` lies in block `b`, at position `l`. -/
theorem blkIdx_div (b : Fin 8) (l : Fin 1024) : (blkIdx b l).val / 1024 = b.val := by
  show (1024 * b.val + l.val) / 1024 = b.val
  have := l.isLt; omega
theorem blkIdx_val (b : Fin 8) (l : Fin 1024) : (blkIdx b l).val = 1024 * b.val + l.val := rfl
/-- An entry of block `b` is entry `j − 1024 b` of it. -/
theorem blkIdx_of_div (b : Fin 8) (j : Fin 8192) (h : j.val / 1024 = b.val) (l : Fin 1024) (hl : l.val = j.val - 1024 * b.val) : blkIdx b l = j := by
  apply Fin.ext; show 1024 * b.val + l.val = j.val; have := j.isLt; omega

end Cert.RankSpec

end
-- ==== Proof.KI.Pred.AccValue.lean ====
/-
  The accumulator's buffer after each pair of a sweep, as real numbers.

  With the two input vectors holding the reals x', pair s of sweep k reads block r = rTab k s of the column
  vector and block cc = cTab k s of the row vector. By induction on s the buffer after pair s holds, at lane j,
  the sweep's value after s + 1 pairs: the first pair starts from the zero fill; a later pair starts from what the
  pair before left; in either case a lane of block cc (when r ≠ cc) gains the mirrored column sum, a lane of
  block r the row sum, and every other lane keeps its value — one step of the sweep.
-/
import proofs.«115298_j79809082295156_2_alg».proof.Proof.KI.Pred.OutValue
import proofs.«115298_j79809082295156_2_alg».proof.Proof.KI.Pred.BlockValue
import proofs.«115298_j79809082295156_2_alg».proof.Proof.KI.PayValue
import proofs.«115298_j79809082295156_2_alg».proof.Proof.SweepSteps
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.WritesUnit
import Idealize.ShloMosaic.Lib.ValueIdx

set_option maxRecDepth 16384

noncomputable section

namespace Cert.KernelIdeal.PredRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx (ix2 ix3)
open Cert.RankSpec

/-! ## One pair's update, read off the stored values

The values are stated over variables: the two input blocks hold block r and block cc of the vector x', the
accumulator's row holds the reals acc. -/

/-- A slab read at lane l is the row at entry l of that block. -/
theorem slc_apply (X : Vec Ideal S1x1x8192 .f32) (b : Fin 8) (l : Fin 1024) :
    slc X b (ix3 (0 : Fin 1) (0 : Fin 1) l) = X (ix3 (0 : Fin 1) (0 : Fin 1) (blkIdx b l)) := rfl

section Step
variable (x' : Fin 8192 → ℝ) (r cc : Fin 8) (acc : Fin 8192 → ℝ)
  (x0 : Vec Ideal S1024x1 .f32) (x1 : Vec Ideal S1x1024 .f32) (xo : Vec Ideal S1x1x8192 .f32)
  (hx0 : ∀ i : Fin 1024, x0 (ix2 i (0 : Fin 1)) = ((x' (blkIdx r i) : ℝ) : EReal))
  (hx1 : ∀ l : Fin 1024, x1 (ix2 (0 : Fin 1) l) = ((x' (blkIdx cc l) : ℝ) : EReal))
  (hxo : ∀ p : Fin 8192, xo (ix3 (0 : Fin 1) (0 : Fin 1) p) = ((acc p : ℝ) : EReal))
include hx0 hx1 hxo

/-- The column store at a lane j of block cc holds acc j plus the mirrored column sum against block r. -/
theorem col_value (j : Fin 8192) (h : j.val / 1024 = cc.val) :
    k0_pay4 (F := Ideal) x0 x1 (slc xo cc) (ix3 (0 : Fin 1) (0 : Fin 1) (loc cc j h))
      = ((acc j + colPart x' r j : ℝ) : EReal) := by
  have hj : blkIdx cc (loc cc j h) = j := blkIdx_of_div cc j h _ rfl
  rw [PayValue.pay4_apply (fun i => x' (blkIdx r i)) (fun l => x' (blkIdx cc l)) (fun l => acc (blkIdx cc l))
    x0 x1 (slc xo cc) hx0 hx1 (fun l => (slc_apply xo cc l).trans (hxo _)) (loc cc j h)]
  show ((acc (blkIdx cc (loc cc j h)) + (1024 - ∑ i : Fin 1024, sgm (x' (blkIdx r i) - x' (blkIdx cc (loc cc j h)))) : ℝ) : EReal) = _
  rw [hj]
  rfl

/-- The row store at a lane j of block r holds acc j plus the row sum against block cc. -/
theorem row_value (j : Fin 8192) (h : j.val / 1024 = r.val) :
    k0_pay3 (F := Ideal) x0 x1 (slc xo r) (ix3 (0 : Fin 1) (0 : Fin 1) (loc r j h))
      = ((acc j + rowPart x' cc j : ℝ) : EReal) := by
  have hj : blkIdx r (loc r j h) = j := blkIdx_of_div r j h _ rfl
  rw [PayValue.pay3_apply (fun i => x' (blkIdx r i)) (fun l => x' (blkIdx cc l)) (fun l => acc (blkIdx r l))
    x0 x1 (slc xo r) hx0 hx1 (fun l => (slc_apply xo r l).trans (hxo _)) (loc r j h)]
  show ((acc (blkIdx r (loc r j h)) + ∑ l : Fin 1024, sgm (x' (blkIdx r (loc r j h)) - x' (blkIdx cc l)) : ℝ) : EReal) = _
  rw [hj]
  rfl

/-- Off the diagonal, the buffer after the two stores holds one step of the sweep. -/
theorem stepD_value (hne : r ≠ cc) (j : Fin 8192) :
    (if h : j.val / 1024 = cc.val then k0_pay4 (F := Ideal) x0 x1 (slc xo cc) (ix3 (0 : Fin 1) (0 : Fin 1) (loc cc j h))
      else if h : j.val / 1024 = r.val then k0_pay3 (F := Ideal) x0 x1 (slc xo r) (ix3 (0 : Fin 1) (0 : Fin 1) (loc r j h))
      else xo (ix3 (0 : Fin 1) (0 : Fin 1) j))
      = ((stepR x' r cc acc j : ℝ) : EReal) := by
  have hne' : r.val ≠ cc.val := fun e => hne (Fin.ext e)
  by_cases hc : j.val / 1024 = cc.val
  · rw [dif_pos hc, col_value x' r cc acc x0 x1 xo hx0 hx1 hxo j hc, stepR_col x' r cc acc j hne hc]
  · rw [dif_neg hc]
    by_cases hr : j.val / 1024 = r.val
    · rw [dif_pos hr, row_value x' r cc acc x0 x1 xo hx0 hx1 hxo j hr, stepR_row x' r cc acc j (fun e => hc e.2) hr]
    · rw [dif_neg hr, hxo, stepR_else x' r cc acc j (fun e => hc e.2) hr]

/-- On the diagonal, the buffer after the one store holds one step of the sweep. -/
theorem stepC_value (heq : r = cc) (j : Fin 8192) :
    (if h : j.val / 1024 = r.val then k0_pay3 (F := Ideal) x0 x1 (slc xo r) (ix3 (0 : Fin 1) (0 : Fin 1) (loc r j h))
      else xo (ix3 (0 : Fin 1) (0 : Fin 1) j))
      = ((stepR x' r cc acc j : ℝ) : EReal) := by
  by_cases hr : j.val / 1024 = r.val
  · rw [dif_pos hr, row_value x' r cc acc x0 x1 xo hx0 hx1 hxo j hr, stepR_row x' r cc acc j (fun e => e.1 heq) hr]
  · rw [dif_neg hr, hxo, stepR_else x' r cc acc j (fun e => e.1 heq) hr]

end Step

/-! ## The grid point of pair s of sweep k -/

theorem Rk_eq (k : Fin 2) (s : ℕ) (hs : s < 18) (hn : 18 * k.val + s < grid0.N) :
    Rk ⟨18 * k.val + s, hn⟩ = rTab k ⟨s, hs⟩ := by
  unfold Rk
  congr 1 <;> exact Fin.ext (by
    have := k.isLt
    first
      | (show (18 * k.val + s) / 18 = k.val; omega)
      | (show (18 * k.val + s) % 18 = s; omega))

theorem Ck_eq (k : Fin 2) (s : ℕ) (hs : s < 18) (hn : 18 * k.val + s < grid0.N) :
    Ck ⟨18 * k.val + s, hn⟩ = cTab k ⟨s, hs⟩ := by
  unfold Ck
  congr 1 <;> exact Fin.ext (by
    have := k.isLt
    first
      | (show (18 * k.val + s) / 18 = k.val; omega)
      | (show (18 * k.val + s) % 18 = s; omega))

section Acc
variable (V : (c : Dev nD) → (b : Ref sig .tc) → Buf (Elt Ideal) ((c : Thread nD τ).loc b))

/-- The accumulated contents depend on the point's number only. -/
theorem outsAt_num_congr (c : Dev nD) (n m : ℕ) (e : n = m) (hn : n < (cfgA (adm0 (F := Ideal))).N) (hm : m < (cfgA (adm0 (F := Ideal))).N) :
    outsAt V adm0 h0 c n hn = outsAt V adm0 h0 c m hm := by
  subst e; rfl

/-- The mirrored update runs at a point exactly when its pair is off the diagonal. -/
theorem offDiag_iff (c : Dev nD) (t : Fin (cfgA (adm0 (F := Ideal))).N) : offDiag (adm0 (F := Ideal)) c t ↔ Rk t ≠ Ck t := by
  show k0_cond2 (wd c (grid0.coords t) tbR (tblL (F := Ideal) 0)) (wd c (grid0.coords t) tbC (tblL (F := Ideal) 1)) = 1#1 ↔ _
  rw [wd_r, wd_c]
  exact cond2_iff t

theorem hoff2 (c : Dev nD) (t : Fin (cfgA (adm0 (F := Ideal))).N) :
    k0_off2 (wd c (grid0.coords t) tbR ((adm0 (F := Ideal)).1 0)) = ![0, 0, 1024 * (Rk t).val] := by
  show k0_off2 (wd c (grid0.coords t) tbR (tblL (F := Ideal) 0)) = _
  rw [wd_r]; exact off2_eq t

theorem hoff3 (c : Dev nD) (t : Fin (cfgA (adm0 (F := Ideal))).N) :
    k0_off3 (wd c (grid0.coords t) tbC ((adm0 (F := Ideal)).1 1)) = ![0, 0, 1024 * (Ck t).val] := by
  show k0_off3 (wd c (grid0.coords t) tbC (tblL (F := Ideal) 1)) = _
  rw [wd_c]; exact off3_eq t
end Acc

section Points
variable (V : (c : Dev nD) → (b : Ref sig .tc) → Buf (Elt Ideal) ((c : Thread nD τ).loc b)) (c : Dev nD) (x' : Fin 8192 → ℝ)
  (hV0 : ∀ p : Fin 8192, V c main_v0 (ix2 p (0 : Fin 1)) = ((x' p : ℝ) : EReal))
  (hV1 : ∀ p : Fin 8192, V c main_v1 (ix2 (0 : Fin 1) p) = ((x' p : ℝ) : EReal))
include hV0 hV1

/-- The first point of a sweep leaves one step of the sweep from zero. -/
theorem first_point (t : Fin (cfgA (adm0 (F := Ideal))).N) (h0' : t.val % 18 = 0) (j : Fin 8192) :
    outsAt V adm0 h0 c t.val t.isLt (ix3 (0 : Fin 1) (0 : Fin 1) j)
      = ((stepR x' (Rk t) (Ck t) (fun _ => 0) j : ℝ) : EReal) := by
  have hx0 : ∀ i : Fin 1024, iblk V adm0 c 0 t (ix2 i (0 : Fin 1)) = ((x' (blkIdx (Rk t) i) : ℝ) : EReal) :=
    fun i => (iblk0_apply V c t i).trans (hV0 _)
  have hx1 : ∀ l : Fin 1024, iblk V adm0 c 1 t (ix2 (0 : Fin 1) l) = ((x' (blkIdx (Ck t) l) : ℝ) : EReal) :=
    fun l => (iblk1_apply V c t l).trans (hV1 _)
  have hxo : ∀ p : Fin 8192, k0_pay1 (F := Ideal) (ix3 (0 : Fin 1) (0 : Fin 1) p) = (((fun _ => 0 : Fin 8192 → ℝ) p : ℝ) : EReal) :=
    fun p => PayValue.pay1_apply _
  by_cases h2 : offDiag (adm0 (F := Ideal)) c t
  · have hne : Rk t ≠ Ck t := (offDiag_iff c t).mp h2
    refine (congrFun (outsAt_B V adm0 h0 c t h0' h2) _).trans ?_
    refine (out_B_apply _ _ _ _ _ _ _ _ _ _ _ _ _ _ _ _ (Rk t) (Ck t) (hoff2 c t) (hoff3 c t) hne j).trans ?_
    exact stepD_value x' (Rk t) (Ck t) (fun _ => 0) _ _ _ hx0 hx1 hxo hne j
  · have heq : Rk t = Ck t := not_not.mp (fun hne => h2 ((offDiag_iff c t).mpr hne))
    refine (congrFun (outsAt_A V adm0 h0 c t h0' h2) _).trans ?_
    refine (out_A_apply _ _ _ _ _ _ _ _ _ _ _ _ _ _ _ _ (Rk t) (hoff2 c t) j).trans ?_
    exact stepC_value x' (Rk t) (Ck t) (fun _ => 0) _ _ _ hx0 hx1 hxo heq j

/-- A later point of a sweep leaves one more step of the sweep over what the point before left. -/
theorem later_point (t : Fin (cfgA (adm0 (F := Ideal))).N) (h0' : ¬t.val % 18 = 0) (acc : Fin 8192 → ℝ)
    (hprev : ∀ p : Fin 8192,
      outsAt V adm0 h0 c (t.val - 1) (Nat.lt_of_le_of_lt (Nat.sub_le _ _) t.isLt) (ix3 (0 : Fin 1) (0 : Fin 1) p) = ((acc p : ℝ) : EReal))
    (j : Fin 8192) :
    outsAt V adm0 h0 c t.val t.isLt (ix3 (0 : Fin 1) (0 : Fin 1) j)
      = ((stepR x' (Rk t) (Ck t) acc j : ℝ) : EReal) := by
  have hx0 : ∀ i : Fin 1024, iblk V adm0 c 0 t (ix2 i (0 : Fin 1)) = ((x' (blkIdx (Rk t) i) : ℝ) : EReal) :=
    fun i => (iblk0_apply V c t i).trans (hV0 _)
  have hx1 : ∀ l : Fin 1024, iblk V adm0 c 1 t (ix2 (0 : Fin 1) l) = ((x' (blkIdx (Ck t) l) : ℝ) : EReal) :=
    fun l => (iblk1_apply V c t l).trans (hV1 _)
  by_cases h2 : offDiag (adm0 (F := Ideal)) c t
  · have hne : Rk t ≠ Ck t := (offDiag_iff c t).mp h2
    refine (congrFun (outsAt_D V adm0 h0 c t h0' h2) _).trans ?_
    refine (out_D_apply _ _ _ _ _ _ _ _ _ _ _ _ _ _ _ _ _ (Rk t) (Ck t) (hoff2 c t) (hoff3 c t) hne j).trans ?_
    exact stepD_value x' (Rk t) (Ck t) acc _ _ _ hx0 hx1 hprev hne j
  · have heq : Rk t = Ck t := not_not.mp (fun hne => h2 ((offDiag_iff c t).mpr hne))
    refine (congrFun (outsAt_C V adm0 h0 c t h0' h2) _).trans ?_
    refine (out_C_apply _ _ _ _ _ _ _ _ _ _ _ _ _ _ _ _ _ (Rk t) (hoff2 c t) j).trans ?_
    exact stepC_value x' (Rk t) (Ck t) acc _ _ _ hx0 hx1 hprev heq j

/-- After pair s of sweep k the accumulator's buffer holds the sweep's first s + 1 steps. -/
theorem acc_value (k : Fin 2) (s : ℕ) (hs : s < 18) (hn : 18 * k.val + s < (cfgA (adm0 (F := Ideal))).N) (j : Fin 8192) :
    outsAt V adm0 h0 c (18 * k.val + s) hn (ix3 (0 : Fin 1) (0 : Fin 1) j)
      = ((sweepR x' (rTab k) (cTab k) (s + 1) j : ℝ) : EReal) := by
  induction s generalizing j with
  | zero =>
    refine (first_point V c x' hV0 hV1 ⟨18 * k.val + 0, hn⟩ (by show (18 * k.val + 0) % 18 = 0; omega) j).trans ?_
    rw [sweepR_step x' (rTab k) (cTab k) 0 hs, Rk_eq k 0 hs hn, Ck_eq k 0 hs hn]
    rfl
  | succ s ih =>
    have hs' : s < 18 := by omega
    have hn' : 18 * k.val + s < (cfgA (adm0 (F := Ideal))).N := by omega
    refine (later_point V c x' hV0 hV1 ⟨18 * k.val + (s + 1), hn⟩ (by show ¬(18 * k.val + (s + 1)) % 18 = 0; omega)
      (sweepR x' (rTab k) (cTab k) (s + 1)) (fun p => ?_) j).trans ?_
    · exact (congrFun (outsAt_num_congr V c _ (18 * k.val + s) (by show 18 * k.val + (s + 1) - 1 = 18 * k.val + s; omega) _ hn') _).trans
        (ih hs' hn' p)
    · rw [sweepR_step x' (rTab k) (cTab k) (s + 1) hs, Rk_eq k (s + 1) hs hn, Ck_eq k (s + 1) hs hn]
end Points

end Cert.KernelIdeal.PredRank
end
-- ==== Proof.KI.Targ.OutValue.lean ====
/-
  What the body leaves in the accumulator's buffer, lane by lane, in each of its four control cases.

  The buffer is one row of 8192 lanes, in eight slabs of 1024. A point of the grid names a row slab r and a column
  slab cc. The body first (at the first point of a sweep only) fills the whole row with zeros; it then adds the row
  update into slab r (a load of slab r, the update, a store of slab r) and, when r ≠ cc, the mirrored column update
  into slab cc. Stores are read back newest first: a lane of slab cc reads the column store, a lane of slab r the row
  store, any other lane what was there before (the running contents, or the zero fill). Since r ≠ cc the column load,
  made after the row store, still reads the earlier contents of slab cc.
-/
import proofs.«115298_j79809082295156_2_alg».proof.Proof.KI.Targ.Region
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx
import Idealize.ShloMosaic.Lib.Pipeline.Value

set_option maxRecDepth 16384

noncomputable section

namespace Cert.KernelIdeal.TargRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx (ix2 ix3)

/-! ## Slabs of 1024 lanes of the row of 8192 -/

/-- Lanes [1024 b, 1024 b + 1024) of a row of 8192. -/
def slc (X : Vec F S1x1x8192 .f32) (b : Fin 8) : Vec F S1x1x1024 .f32 := fun y =>
  X (ix3 (0 : Fin 1) (0 : Fin 1) (⟨1024 * b.val + (y 2).val, by
    have h : (y 2).val < 1024 := (y 2).isLt
    have := b.isLt
    omega⟩ : Fin 8192))

/-- The position of lane j within its slab b. -/
def loc (b : Fin 8) (j : Fin 8192) (h : j.val / 1024 = b.val) : Fin 1024 := ⟨j.val - 1024 * b.val, by omega⟩

/-- Two rows that agree on slab b have the same slab b. -/
theorem slc_congr (X Y : Vec F S1x1x8192 .f32) (b : Fin 8)
    (h : ∀ j : Fin 8192, j.val / 1024 = b.val → X (ix3 (0 : Fin 1) (0 : Fin 1) j) = Y (ix3 (0 : Fin 1) (0 : Fin 1) j)) :
    slc X b = slc Y b := by
  funext y
  unfold slc
  exact h _ (by
    show (1024 * b.val + (y 2).val) / 1024 = b.val
    have h2 : (y 2).val < 1024 := (y 2).isLt
    omega)

section Slab
variable (arg6 : Memref sig .tc .vmem S1x1x8192 .f32) (f : arg6.view.ty.Contents (Elt F))

/-- Newest store wins, for a store of one slab: lane j reads the payload when it lies in slab b, else what the
    earlier stores left. -/
theorem read_slab {off : Fin S1x1x8192.rank → ℕ} (inb : ∀ a, off a + S1x1x1024.size a ≤ S1x1x8192.size a)
    (w : (Rect.unit (s := S1x1x8192) off S1x1x1024.size inb).shape.Idx → Elt F .f32)
    (L : List (View.Piece (Elt F) S1x1x8192 .f32)) (b : Fin 8) (hoff : off = ![0, 0, 1024 * b.val]) (j : Fin 8192) :
    arg6.view.read (Elt F) (arg6.view.writes (Elt F) f (⟨Rect.unit off S1x1x1024.size inb, w⟩ :: L)) (ix3 (0 : Fin 1) (0 : Fin 1) j)
      = if h : j.val / 1024 = b.val then w (ix3 (0 : Fin 1) (0 : Fin 1) (loc b j h))
        else arg6.view.read (Elt F) (arg6.view.writes (Elt F) f L) (ix3 (0 : Fin 1) (0 : Fin 1) j) := by
  by_cases h : j.val / 1024 = b.val
  · rw [dif_pos h]
    exact View.read_writes_cons_unit_of_mem arg6.view f inb w L _ (ix3 (0 : Fin 1) (0 : Fin 1) (loc b j h)) hoff (fun a => by
      match a with
      | ⟨0, _⟩ => rfl
      | ⟨1, _⟩ => rfl
      | ⟨2, _⟩ =>
        show j.val = 1024 * b.val + (j.val - 1024 * b.val)
        omega)
  · rw [dif_neg h]
    exact View.read_writes_cons_unit_of_not_mem arg6.view f inb w L _ hoff (2 : Fin 3) (by
      show j.val < 1024 * b.val ∨ 1024 * b.val + 1024 ≤ j.val
      omega)

/-- A load of one slab reads that slab of what the buffer reads. -/
theorem ld_slab {off : Fin S1x1x8192.rank → ℕ} (inb : ∀ a, off a + S1x1x1024.size a ≤ S1x1x8192.size a)
    (b : Fin 8) (hoff : off = ![0, 0, 1024 * b.val]) :
    arg6.view.readAt (Elt F) (Rect.unit (s := S1x1x8192) off S1x1x1024.size inb).toLoadRect f
      = slc (arg6.view.read (Elt F) f) b := by
  subst hoff
  funext y
  rw [View.readAt_apply]
  unfold slc
  refine congrArg _ (funext fun a => Fin.ext ?_)
  match a with
  | ⟨0, _⟩ =>
    have h0 : (y 0).val < 1 := (y 0).isLt
    show 0 + 1 * (y 0).val = 0
    omega
  | ⟨1, _⟩ =>
    have h1 : (y 1).val < 1 := (y 1).isLt
    show 0 + 1 * (y 1).val = 0
    omega
  | ⟨2, _⟩ =>
    show 1024 * b.val + 1 * (y 2).val = 1024 * b.val + (y 2).val
    omega

end Slab

section Stores
variable (arg6 : Memref sig .tc .vmem S1x1x8192 .f32) (f : arg6.view.ty.Contents (Elt F))
  (L0 : List (View.Piece (Elt F) S1x1x8192 .f32)) (X : Vec F S1x1x8192 .f32)
  (hX : arg6.view.read (Elt F) (arg6.view.writes (Elt F) f L0) = X)
include hX

/-- The row store alone, over contents that read X: slab r holds the row update of X's slab r, every other lane X. -/
theorem one_store {off2 : Fin S1x1x8192.rank → ℕ} (inb2 : ∀ a, off2 a + S1x1x1024.size a ≤ S1x1x8192.size a)
    (r : Fin 8) (hoff2 : off2 = ![0, 0, 1024 * r.val]) (x0 : Vec F S1024x1 .f32) (x1 : Vec F S1x1024 .f32) (j : Fin 8192) :
    arg6.view.read (Elt F) (arg6.view.writes (Elt F) f
        (⟨Rect.unit off2 S1x1x1024.size inb2,
          k1_pay3 x0 x1 (arg6.view.readAt (Elt F) (Rect.unit (s := S1x1x8192) off2 S1x1x1024.size inb2).toLoadRect (arg6.view.writes (Elt F) f L0))⟩ :: L0))
        (ix3 (0 : Fin 1) (0 : Fin 1) j)
      = if h : j.val / 1024 = r.val then k1_pay3 x0 x1 (slc X r) (ix3 (0 : Fin 1) (0 : Fin 1) (loc r j h))
        else X (ix3 (0 : Fin 1) (0 : Fin 1) j) := by
  refine (read_slab arg6 f inb2 _ L0 r hoff2 j).trans ?_
  rw [ld_slab arg6 _ inb2 r hoff2, hX]

/-- The row store then the column store of a pair off the diagonal, over contents that read X: slab cc holds the
    column update of X's slab cc (the row store did not touch it), slab r the row update, every other lane X. -/
theorem two_stores {off2 off3 : Fin S1x1x8192.rank → ℕ} (inb2 : ∀ a, off2 a + S1x1x1024.size a ≤ S1x1x8192.size a)
    (inb3 : ∀ a, off3 a + S1x1x1024.size a ≤ S1x1x8192.size a)
    (r cc : Fin 8) (hoff2 : off2 = ![0, 0, 1024 * r.val]) (hoff3 : off3 = ![0, 0, 1024 * cc.val]) (hne : r ≠ cc)
    (x0 : Vec F S1024x1 .f32) (x1 : Vec F S1x1024 .f32) (j : Fin 8192) :
    arg6.view.read (Elt F) (arg6.view.writes (Elt F) f
        (⟨Rect.unit off3 S1x1x1024.size inb3,
          k1_pay4 x0 x1 (arg6.view.readAt (Elt F) (Rect.unit (s := S1x1x8192) off3 S1x1x1024.size inb3).toLoadRect
            (arg6.view.writes (Elt F) f
              (⟨Rect.unit off2 S1x1x1024.size inb2,
                k1_pay3 x0 x1 (arg6.view.readAt (Elt F) (Rect.unit (s := S1x1x8192) off2 S1x1x1024.size inb2).toLoadRect (arg6.view.writes (Elt F) f L0))⟩ :: L0)))⟩
          :: ⟨Rect.unit off2 S1x1x1024.size inb2,
                k1_pay3 x0 x1 (arg6.view.readAt (Elt F) (Rect.unit (s := S1x1x8192) off2 S1x1x1024.size inb2).toLoadRect (arg6.view.writes (Elt F) f L0))⟩ :: L0))
        (ix3 (0 : Fin 1) (0 : Fin 1) j)
      = if h : j.val / 1024 = cc.val then k1_pay4 x0 x1 (slc X cc) (ix3 (0 : Fin 1) (0 : Fin 1) (loc cc j h))
        else if h : j.val / 1024 = r.val then k1_pay3 x0 x1 (slc X r) (ix3 (0 : Fin 1) (0 : Fin 1) (loc r j h))
        else X (ix3 (0 : Fin 1) (0 : Fin 1) j) := by
  have hne' : r.val ≠ cc.val := fun h => hne (Fin.ext h)
  refine (read_slab arg6 f inb3 _ _ cc hoff3 j).trans ?_
  rw [ld_slab arg6 _ inb3 cc hoff3]
  have hv39 : slc (arg6.view.read (Elt F) (arg6.view.writes (Elt F) f
        (⟨Rect.unit off2 S1x1x1024.size inb2,
          k1_pay3 x0 x1 (arg6.view.readAt (Elt F) (Rect.unit (s := S1x1x8192) off2 S1x1x1024.size inb2).toLoadRect (arg6.view.writes (Elt F) f L0))⟩ :: L0))) cc
      = slc X cc :=
    slc_congr _ _ cc (fun j' hj' => by
      rw [read_slab arg6 f inb2 _ L0 r hoff2 j', dif_neg (by omega), hX])
  rw [hv39, one_store arg6 f L0 X hX inb2 r hoff2 x0 x1 j]

end Stores

/-! ## The inputs as the body loads them, and the zero fill -/

/-- A load of the whole first input block reads its contents. -/
theorem ld_arg4 (arg4 : Memref sig .tc .vmem S1024x1 .f32) (harg4 : arg4.IsWhole) (x0 : Vec F S1024x1 .f32) :
    arg4.view.readAt (Elt F) (Rect.unit (s := S1024x1) ![0, 0] S1024x1.size inb_S1024x1_S1024x1_0_0).toLoadRect (harg4.unread x0) = x0 := by
  show View.ld (arg4.view.read (Elt F) (harg4.unread x0)) (Rect.unit (s := S1024x1) ![0, 0] S1024x1.size inb_S1024x1_S1024x1_0_0) = x0
  rw [harg4.read_unread]
  exact View.ld_unit_zero (funext fun a => by match a with | ⟨0, _⟩ => rfl | ⟨1, _⟩ => rfl) _ x0

/-- A load of the whole second input block reads its contents. -/
theorem ld_arg5 (arg5 : Memref sig .tc .vmem S1x1024 .f32) (harg5 : arg5.IsWhole) (x1 : Vec F S1x1024 .f32) :
    arg5.view.readAt (Elt F) (Rect.unit (s := S1x1024) ![0, 0] S1x1024.size inb_S1x1024_S1x1024_0_0).toLoadRect (harg5.unread x1) = x1 := by
  show View.ld (arg5.view.read (Elt F) (harg5.unread x1)) (Rect.unit (s := S1x1024) ![0, 0] S1x1024.size inb_S1x1024_S1x1024_0_0) = x1
  rw [harg5.read_unread]
  exact View.ld_unit_zero (funext fun a => by match a with | ⟨0, _⟩ => rfl | ⟨1, _⟩ => rfl) _ x1

/-- After the fill of the whole buffer the buffer reads the fill, whatever it held. -/
theorem read_fill (arg6 : Memref sig .tc .vmem S1x1x8192 .f32) (f : arg6.view.ty.Contents (Elt F))
    (w : Vec F S1x1x8192 .f32) :
    arg6.view.read (Elt F) (arg6.view.writes (Elt F) f
      [⟨Rect.unit (s := S1x1x8192) ![0, 0, 0] S1x1x8192.size inb_S1x1x8192_S1x1x8192_0_0_0, w⟩]) = w := by
  funext y
  exact View.read_writes_cons_unit_of_mem arg6.view f inb_S1x1x8192_S1x1x8192_0_0_0 w [] y y rfl (fun a => by
    match a with
    | ⟨0, _⟩ => exact (Nat.zero_add _).symm
    | ⟨1, _⟩ => exact (Nat.zero_add _).symm
    | ⟨2, _⟩ => exact (Nat.zero_add _).symm)

/-! ## The four closed forms -/

section Closed
variable (c : Dev nD) (i : grid1.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole)
    (x0 : Vec F S1024x1 .f32) (x1 : Vec F S1x1024 .f32)
    (xt0 : TbBuf (F := F) c tbR) (xt1 : TbBuf (F := F) c tbC)
    (hw1 : k1_chk1 (wd c i tbR xt0)) (hw2 : k1_chk2 (wd c i tbR xt0) (wd c i tbC xt1))

/-- The stores of a later point on the diagonal: the row store alone. -/
theorem list_C (hc0 : ¬condFirst i) (xo : Vec F S1x1x8192 .f32)
    (hc2 : ¬k1_cond2 (wd c i tbR xt0) (wd c i tbC xt1) = 1#1) :
    (kernelRun_C c i arg4 harg4 arg5 harg5 arg6 harg6 hc0 x0 x1 xo xt0 xt1 hw1 hw2 hc2).1
      = [⟨Rect.unit (k1_off2 (wd c i tbR xt0)) S1x1x1024.size (k1_off2_inb (wd c i tbR xt0) hw1),
          k1_pay3
            (arg4.view.readAt (Elt F) (Rect.unit (s := S1024x1) ![0, 0] S1024x1.size inb_S1024x1_S1024x1_0_0).toLoadRect (harg4.unread x0))
            (arg5.view.readAt (Elt F) (Rect.unit (s := S1x1024) ![0, 0] S1x1024.size inb_S1x1024_S1x1024_0_0).toLoadRect (harg5.unread x1))
            (arg6.view.readAt (Elt F) (Rect.unit (s := S1x1x8192) (k1_off2 (wd c i tbR xt0)) S1x1x1024.size (k1_off2_inb (wd c i tbR xt0) hw1)).toLoadRect
              (arg6.view.writes (Elt F) (harg6.unread xo) []))⟩] := rfl

/-- A later point, on the diagonal: slab r gets the row update of the running contents' slab r. -/
theorem out_C_apply (hc0 : ¬condFirst i) (xo : Vec F S1x1x8192 .f32)
    (hc2 : ¬k1_cond2 (wd c i tbR xt0) (wd c i tbC xt1) = 1#1)
    (r : Fin 8) (hoff2 : k1_off2 (wd c i tbR xt0) = ![0, 0, 1024 * r.val]) (j : Fin 8192) :
    out_C c i arg4 harg4 arg5 harg5 arg6 harg6 hc0 x0 x1 xo xt0 xt1 hw1 hw2 hc2 (ix3 (0 : Fin 1) (0 : Fin 1) j)
      = if h : j.val / 1024 = r.val then k1_pay3 x0 x1 (slc xo r) (ix3 (0 : Fin 1) (0 : Fin 1) (loc r j h))
        else xo (ix3 (0 : Fin 1) (0 : Fin 1) j) := by
  unfold out_C
  rw [list_C, ld_arg4, ld_arg5]
  exact one_store arg6 (harg6.unread xo) [] xo (harg6.read_unread xo) (k1_off2_inb (wd c i tbR xt0) hw1) r hoff2 x0 x1 j

/-- The stores of a later point off the diagonal: the column store, then (older) the row store. -/
theorem list_D (hc0 : ¬condFirst i) (xo : Vec F S1x1x8192 .f32)
    (hc2 : k1_cond2 (wd c i tbR xt0) (wd c i tbC xt1) = 1#1) :
    (kernelRun_D c i arg4 harg4 arg5 harg5 arg6 harg6 hc0 x0 x1 xo xt0 xt1 hw1 hw2 hc2).1
      = [⟨Rect.unit (k1_off3 (wd c i tbC xt1)) S1x1x1024.size (k1_off3_inb (wd c i tbR xt0) (wd c i tbC xt1) hw2 hc2),
          k1_pay4
            (arg4.view.readAt (Elt F) (Rect.unit (s := S1024x1) ![0, 0] S1024x1.size inb_S1024x1_S1024x1_0_0).toLoadRect (harg4.unread x0))
            (arg5.view.readAt (Elt F) (Rect.unit (s := S1x1024) ![0, 0] S1x1024.size inb_S1x1024_S1x1024_0_0).toLoadRect (harg5.unread x1))
            (arg6.view.readAt (Elt F) (Rect.unit (s := S1x1x8192) (k1_off3 (wd c i tbC xt1)) S1x1x1024.size (k1_off3_inb (wd c i tbR xt0) (wd c i tbC xt1) hw2 hc2)).toLoadRect
              (arg6.view.writes (Elt F) (harg6.unread xo)
                [⟨Rect.unit (k1_off2 (wd c i tbR xt0)) S1x1x1024.size (k1_off2_inb (wd c i tbR xt0) hw1),
                  k1_pay3
                    (arg4.view.readAt (Elt F) (Rect.unit (s := S1024x1) ![0, 0] S1024x1.size inb_S1024x1_S1024x1_0_0).toLoadRect (harg4.unread x0))
                    (arg5.view.readAt (Elt F) (Rect.unit (s := S1x1024) ![0, 0] S1x1024.size inb_S1x1024_S1x1024_0_0).toLoadRect (harg5.unread x1))
                    (arg6.view.readAt (Elt F) (Rect.unit (s := S1x1x8192) (k1_off2 (wd c i tbR xt0)) S1x1x1024.size (k1_off2_inb (wd c i tbR xt0) hw1)).toLoadRect
                      (arg6.view.writes (Elt F) (harg6.unread xo) []))⟩]))⟩,
         ⟨Rect.unit (k1_off2 (wd c i tbR xt0)) S1x1x1024.size (k1_off2_inb (wd c i tbR xt0) hw1),
          k1_pay3
            (arg4.view.readAt (Elt F) (Rect.unit (s := S1024x1) ![0, 0] S1024x1.size inb_S1024x1_S1024x1_0_0).toLoadRect (harg4.unread x0))
            (arg5.view.readAt (Elt F) (Rect.unit (s := S1x1024) ![0, 0] S1x1024.size inb_S1x1024_S1x1024_0_0).toLoadRect (harg5.unread x1))
            (arg6.view.readAt (Elt F) (Rect.unit (s := S1x1x8192) (k1_off2 (wd c i tbR xt0)) S1x1x1024.size (k1_off2_inb (wd c i tbR xt0) hw1)).toLoadRect
              (arg6.view.writes (Elt F) (harg6.unread xo) []))⟩] := rfl

/-- A later point, off the diagonal: slab cc gets the column update, slab r the row update, of the running contents. -/
theorem out_D_apply (hc0 : ¬condFirst i) (xo : Vec F S1x1x8192 .f32)
    (hc2 : k1_cond2 (wd c i tbR xt0) (wd c i tbC xt1) = 1#1)
    (r cc : Fin 8) (hoff2 : k1_off2 (wd c i tbR xt0) = ![0, 0, 1024 * r.val])
    (hoff3 : k1_off3 (wd c i tbC xt1) = ![0, 0, 1024 * cc.val]) (hne : r ≠ cc) (j : Fin 8192) :
    out_D c i arg4 harg4 arg5 harg5 arg6 harg6 hc0 x0 x1 xo xt0 xt1 hw1 hw2 hc2 (ix3 (0 : Fin 1) (0 : Fin 1) j)
      = if h : j.val / 1024 = cc.val then k1_pay4 x0 x1 (slc xo cc) (ix3 (0 : Fin 1) (0 : Fin 1) (loc cc j h))
        else if h : j.val / 1024 = r.val then k1_pay3 x0 x1 (slc xo r) (ix3 (0 : Fin 1) (0 : Fin 1) (loc r j h))
        else xo (ix3 (0 : Fin 1) (0 : Fin 1) j) := by
  unfold out_D
  rw [list_D, ld_arg4, ld_arg5]
  exact two_stores arg6 (harg6.unread xo) [] xo (harg6.read_unread xo) (k1_off2_inb (wd c i tbR xt0) hw1)
    (k1_off3_inb (wd c i tbR xt0) (wd c i tbC xt1) hw2 hc2) r cc hoff2 hoff3 hne x0 x1 j
end Closed

section ClosedFirst
variable (c : Dev nD) (i : grid1.Coords)
    (arg4 : Memref sig .tc .vmem S1024x1 .f32) (harg4 : arg4.IsWhole) (arg5 : Memref sig .tc .vmem S1x1024 .f32) (harg5 : arg5.IsWhole)
    (arg6 : Memref sig .tc .vmem S1x1x8192 .f32) (harg6 : arg6.IsWhole)
    (x0 : Vec F S1024x1 .f32) (x1 : Vec F S1x1024 .f32)
    (xt0 : TbBuf (F := F) c tbR) (xt1 : TbBuf (F := F) c tbC)
    (hw1 : k1_chk1 (wd c i tbR xt0)) (hw2 : k1_chk2 (wd c i tbR xt0) (wd c i tbC xt1))

/-- The stores of a first point on the diagonal: the row store, then (older) the zero fill of the whole buffer. -/
theorem list_A (hc0 : condFirst i) (hc2 : ¬k1_cond2 (wd c i tbR xt0) (wd c i tbC xt1) = 1#1) :
    (kernelRun_A c i arg4 harg4 arg5 harg5 arg6 harg6 hc0 x0 x1 xt0 xt1 hw1 hw2 hc2).1
      = [⟨Rect.unit (k1_off2 (wd c i tbR xt0)) S1x1x1024.size (k1_off2_inb (wd c i tbR xt0) hw1),
          k1_pay3
            (arg4.view.readAt (Elt F) (Rect.unit (s := S1024x1) ![0, 0] S1024x1.size inb_S1024x1_S1024x1_0_0).toLoadRect (harg4.unread x0))
            (arg5.view.readAt (Elt F) (Rect.unit (s := S1x1024) ![0, 0] S1x1024.size inb_S1x1024_S1x1024_0_0).toLoadRect (harg5.unread x1))
            (arg6.view.readAt (Elt F) (Rect.unit (s := S1x1x8192) (k1_off2 (wd c i tbR xt0)) S1x1x1024.size (k1_off2_inb (wd c i tbR xt0) hw1)).toLoadRect
              (arg6.view.writes (Elt F) arg6.view.junk
                [⟨Rect.unit (s := S1x1x8192) ![0, 0, 0] S1x1x8192.size inb_S1x1x8192_S1x1x8192_0_0_0, k1_pay1 (F := F)⟩]))⟩,
         ⟨Rect.unit (s := S1x1x8192) ![0, 0, 0] S1x1x8192.size inb_S1x1x8192_S1x1x8192_0_0_0, k1_pay1 (F := F)⟩] := rfl

/-- A first point, on the diagonal: slab r gets the row update of the zero fill's slab r, every other lane the fill. -/
theorem out_A_apply (hc0 : condFirst i) (hc2 : ¬k1_cond2 (wd c i tbR xt0) (wd c i tbC xt1) = 1#1)
    (r : Fin 8) (hoff2 : k1_off2 (wd c i tbR xt0) = ![0, 0, 1024 * r.val]) (j : Fin 8192) :
    out_A c i arg4 harg4 arg5 harg5 arg6 harg6 hc0 x0 x1 xt0 xt1 hw1 hw2 hc2 (ix3 (0 : Fin 1) (0 : Fin 1) j)
      = if h : j.val / 1024 = r.val then k1_pay3 x0 x1 (slc (k1_pay1 (F := F)) r) (ix3 (0 : Fin 1) (0 : Fin 1) (loc r j h))
        else k1_pay1 (F := F) (ix3 (0 : Fin 1) (0 : Fin 1) j) := by
  unfold out_A
  rw [list_A, ld_arg4, ld_arg5]
  exact one_store arg6 arg6.view.junk _ (k1_pay1 (F := F)) (read_fill arg6 arg6.view.junk (k1_pay1 (F := F)))
    (k1_off2_inb (wd c i tbR xt0) hw1) r hoff2 x0 x1 j

/-- The stores of a first point off the diagonal: the column store, the row store, and (oldest) the zero fill. -/
theorem list_B (hc0 : condFirst i) (hc2 : k1_cond2 (wd c i tbR xt0) (wd c i tbC xt1) = 1#1) :
    (kernelRun_B c i arg4 harg4 arg5 harg5 arg6 harg6 hc0 x0 x1 xt0 xt1 hw1 hw2 hc2).1
      = [⟨Rect.unit (k1_off3 (wd c i tbC xt1)) S1x1x1024.size (k1_off3_inb (wd c i tbR xt0) (wd c i tbC xt1) hw2 hc2),
          k1_pay4
            (arg4.view.readAt (Elt F) (Rect.unit (s := S1024x1) ![0, 0] S1024x1.size inb_S1024x1_S1024x1_0_0).toLoadRect (harg4.unread x0))
            (arg5.view.readAt (Elt F) (Rect.unit (s := S1x1024) ![0, 0] S1x1024.size inb_S1x1024_S1x1024_0_0).toLoadRect (harg5.unread x1))
            (arg6.view.readAt (Elt F) (Rect.unit (s := S1x1x8192) (k1_off3 (wd c i tbC xt1)) S1x1x1024.size (k1_off3_inb (wd c i tbR xt0) (wd c i tbC xt1) hw2 hc2)).toLoadRect
              (arg6.view.writes (Elt F) arg6.view.junk
                [⟨Rect.unit (k1_off2 (wd c i tbR xt0)) S1x1x1024.size (k1_off2_inb (wd c i tbR xt0) hw1),
                  k1_pay3
                    (arg4.view.readAt (Elt F) (Rect.unit (s := S1024x1) ![0, 0] S1024x1.size inb_S1024x1_S1024x1_0_0).toLoadRect (harg4.unread x0))
                    (arg5.view.readAt (Elt F) (Rect.unit (s := S1x1024) ![0, 0] S1x1024.size inb_S1x1024_S1x1024_0_0).toLoadRect (harg5.unread x1))
                    (arg6.view.readAt (Elt F) (Rect.unit (s := S1x1x8192) (k1_off2 (wd c i tbR xt0)) S1x1x1024.size (k1_off2_inb (wd c i tbR xt0) hw1)).toLoadRect
                      (arg6.view.writes (Elt F) arg6.view.junk
                        [⟨Rect.unit (s := S1x1x8192) ![0, 0, 0] S1x1x8192.size inb_S1x1x8192_S1x1x8192_0_0_0, k1_pay1 (F := F)⟩]))⟩,
                 ⟨Rect.unit (s := S1x1x8192) ![0, 0, 0] S1x1x8192.size inb_S1x1x8192_S1x1x8192_0_0_0, k1_pay1 (F := F)⟩]))⟩,
         ⟨Rect.unit (k1_off2 (wd c i tbR xt0)) S1x1x1024.size (k1_off2_inb (wd c i tbR xt0) hw1),
          k1_pay3
            (arg4.view.readAt (Elt F) (Rect.unit (s := S1024x1) ![0, 0] S1024x1.size inb_S1024x1_S1024x1_0_0).toLoadRect (harg4.unread x0))
            (arg5.view.readAt (Elt F) (Rect.unit (s := S1x1024) ![0, 0] S1x1024.size inb_S1x1024_S1x1024_0_0).toLoadRect (harg5.unread x1))
            (arg6.view.readAt (Elt F) (Rect.unit (s := S1x1x8192) (k1_off2 (wd c i tbR xt0)) S1x1x1024.size (k1_off2_inb (wd c i tbR xt0) hw1)).toLoadRect
              (arg6.view.writes (Elt F) arg6.view.junk
                [⟨Rect.unit (s := S1x1x8192) ![0, 0, 0] S1x1x8192.size inb_S1x1x8192_S1x1x8192_0_0_0, k1_pay1 (F := F)⟩]))⟩,
         ⟨Rect.unit (s := S1x1x8192) ![0, 0, 0] S1x1x8192.size inb_S1x1x8192_S1x1x8192_0_0_0, k1_pay1 (F := F)⟩] := rfl

/-- A first point, off the diagonal: slab cc gets the column update, slab r the row update, of the zero fill. -/
theorem out_B_apply (hc0 : condFirst i) (hc2 : k1_cond2 (wd c i tbR xt0) (wd c i tbC xt1) = 1#1)
    (r cc : Fin 8) (hoff2 : k1_off2 (wd c i tbR xt0) = ![0, 0, 1024 * r.val])
    (hoff3 : k1_off3 (wd c i tbC xt1) = ![0, 0, 1024 * cc.val]) (hne : r ≠ cc) (j : Fin 8192) :
    out_B c i arg4 harg4 arg5 harg5 arg6 harg6 hc0 x0 x1 xt0 xt1 hw1 hw2 hc2 (ix3 (0 : Fin 1) (0 : Fin 1) j)
      = if h : j.val / 1024 = cc.val then k1_pay4 x0 x1 (slc (k1_pay1 (F := F)) cc) (ix3 (0 : Fin 1) (0 : Fin 1) (loc cc j h))
        else if h : j.val / 1024 = r.val then k1_pay3 x0 x1 (slc (k1_pay1 (F := F)) r) (ix3 (0 : Fin 1) (0 : Fin 1) (loc r j h))
        else k1_pay1 (F := F) (ix3 (0 : Fin 1) (0 : Fin 1) j) := by
  unfold out_B
  rw [list_B, ld_arg4, ld_arg5]
  exact two_stores arg6 arg6.view.junk _ (k1_pay1 (F := F)) (read_fill arg6 arg6.view.junk (k1_pay1 (F := F)))
    (k1_off2_inb (wd c i tbR xt0) hw1) (k1_off3_inb (wd c i tbR xt0) (wd c i tbC xt1) hw2 hc2) r cc hoff2 hoff3 hne x0 x1 j
end ClosedFirst

end Cert.KernelIdeal.TargRank
end
-- ==== Proof.KI.Targ.BlockValue.lean ====
/-
  The pair tables and the blocks they select.

  Point t of the 2 × 18 grid is pair t % 18 of sweep t / 18. The two tables the program holds list, for each point,
  the row block r and the column block c (each below 8) of the pair it visits; the specification's tables list the
  same blocks. Here: the words of the tables are those blocks, and the slices and the condition the body computes
  from them are the slices at 1024 r and 1024 c and "r ≠ c"; the two input windows' blocks at a point are block r
  of the column vector and block c of the row vector (a block's coordinate in its array is the block index times
  the block's size plus the coordinate inside the block); and the accumulator's array, written back only at the
  last point of each sweep, ends holding in row k what the accumulator's buffer held after point 18 k + 17.
-/
import proofs.«115298_j79809082295156_2_alg».proof.Proof.KI.Targ.Region
import proofs.«115298_j79809082295156_2_alg».proof.Proof.RankSpec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.WritesUnit
import Idealize.ShloMosaic.Lib.ValueIdx

set_option maxRecDepth 16384

noncomputable section

namespace Cert.KernelIdeal.TargRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The pair tables, read as blocks

Point `t` of the grid is pair `t % 18` of sweep `t / 18`; its row block and column block are the entries of the
specification's tables there. -/

/-- The row block of the pair at point `t`. -/
def Rk (t : Fin grid1.N) : Fin 8 :=
  Cert.RankSpec.rTab ⟨t.val / 18, Nat.div_lt_of_lt_mul (lt_of_lt_of_eq t.isLt N_1)⟩ ⟨t.val % 18, Nat.mod_lt _ (by decide)⟩
/-- The column block of the pair at point `t`. -/
def Ck (t : Fin grid1.N) : Fin 8 :=
  Cert.RankSpec.cTab ⟨t.val / 18, Nat.div_lt_of_lt_mul (lt_of_lt_of_eq t.isLt N_1)⟩ ⟨t.val % 18, Nat.mod_lt _ (by decide)⟩

/-- The words the program's tables hold at point `t` are the specification's blocks. -/
theorem words_eq : ∀ t : Fin grid1.N, (wr t).toNat = (Rk t).val ∧ (wc t).toNat = (Ck t).val := by decide +kernel

/-- The slice of the accumulator the row block's update touches starts at 1024 times the block. -/
theorem off2_eq : ∀ t : Fin grid1.N, k1_off2 (wr t) = ![0, 0, 1024 * (Rk t).val] := by decide +kernel

/-- The slice the column block's update touches starts at 1024 times the block. -/
theorem off3_eq : ∀ t : Fin grid1.N, k1_off3 (wc t) = ![0, 0, 1024 * (Ck t).val] := by decide +kernel

/-- The mirrored update runs exactly off the diagonal. -/
theorem cond2_iff : ∀ t : Fin grid1.N, (k1_cond2 (wr t) (wc t) = 1#1 ↔ Rk t ≠ Ck t) := by decide +kernel

open Idealize.ShloMosaic.ValueIdx

/-! ## The tables as the program holds them -/

/-- The literal tables, admissible. -/
abbrev adm0 : (pcfg1 (F := F)).Adm := ⟨tblL, ok_tblL⟩

/-- At the literal tables the side conditions of the words hold at every point. -/
theorem h0 : Hyps (adm0 (F := F)) := fun c t => chk_all t

/-! ## The input windows' blocks, read off their arrays

A block's coordinate in its array is the block index times the block's size plus the coordinate inside the block.
The facts are first stated at any admissible tables, with the block index a hypothesis, and then read at the
literal tables. -/

variable (V : (c : Dev nD) → (b : Ref sig .tc) → Buf (Elt F) ((c : Thread nD τ).loc b))

/-- Window 0's block index at a point is the row table's word there, and zero. -/
theorem index0_eq (a : (pcfg1 (F := F)).Adm) (t : Fin (cfgA a).N) :
    ((cfgA a).win 0).index t = ![(a.1 0 (cell (grid1.coords t)) : BitVec 32).toNat, 0] := rfl

/-- Window 1's block index at a point is zero, and the column table's word there. -/
theorem index1_eq (a : (pcfg1 (F := F)).Adm) (t : Fin (cfgA a).N) :
    ((cfgA a).win 1).index t = ![0, (a.1 1 (cell (grid1.coords t)) : BitVec 32).toNat] := rfl

/-- Entry `i` of window 0's block at a point whose block index is `(r, 0)` is entry `i` of block `r` of the column vector. -/
theorem iblk0_of (a : (pcfg1 (F := F)).Adm) (c : Dev nD) (t : Fin (cfgA a).N) (r : Fin 8)
    (hr : ((cfgA a).win 0).index t = ![r.val, 0]) (i : Fin 1024) :
    iblk V a c 0 t (ix2 i (0 : Fin 1)) = V c main_v10 (ix2 (Cert.RankSpec.blkIdx r i) (0 : Fin 1)) := by
  unfold iblk
  show V c main_v10 ((((cfgA a).win 0).blk t).view.emb (ix2 i (0 : Fin 1))) = _
  refine congrArg _ ?_
  funext ax; apply Fin.ext
  have e0 : ((cfgA a).win 0).index t (0 : Fin 2) = r.val := congrFun hr (0 : Fin 2)
  have e1 : ((cfgA a).win 0).index t (1 : Fin 2) = 0 := congrFun hr (1 : Fin 2)
  match ax with
  | ⟨0, _⟩ =>
    show ((cfgA a).win 0).index t (0 : Fin 2) * 1024 + 1 * i.val = 1024 * r.val + i.val
    rw [e0]; omega
  | ⟨1, _⟩ =>
    show ((cfgA a).win 0).index t (1 : Fin 2) * 1 + 1 * 0 = 0
    rw [e1]

/-- Entry `l` of window 1's block at a point whose block index is `(0, r)` is entry `l` of block `r` of the row vector. -/
theorem iblk1_of (a : (pcfg1 (F := F)).Adm) (c : Dev nD) (t : Fin (cfgA a).N) (r : Fin 8)
    (hr : ((cfgA a).win 1).index t = ![0, r.val]) (l : Fin 1024) :
    iblk V a c 1 t (ix2 (0 : Fin 1) l) = V c main_v11 (ix2 (0 : Fin 1) (Cert.RankSpec.blkIdx r l)) := by
  unfold iblk
  show V c main_v11 ((((cfgA a).win 1).blk t).view.emb (ix2 (0 : Fin 1) l)) = _
  refine congrArg _ ?_
  funext ax; apply Fin.ext
  have e0 : ((cfgA a).win 1).index t (0 : Fin 2) = 0 := congrFun hr (0 : Fin 2)
  have e1 : ((cfgA a).win 1).index t (1 : Fin 2) = r.val := congrFun hr (1 : Fin 2)
  match ax with
  | ⟨0, _⟩ =>
    show ((cfgA a).win 1).index t (0 : Fin 2) * 1 + 1 * 0 = 0
    rw [e0]
  | ⟨1, _⟩ =>
    show ((cfgA a).win 1).index t (1 : Fin 2) * 1024 + 1 * l.val = 1024 * r.val + l.val
    rw [e1]; omega

/-- At the literal tables window 0's block at point `t` is block `Rk t` of the column vector. -/
theorem iblk0_apply (c : Dev nD) (t : Fin (cfgA (adm0 (F := F))).N) (i : Fin 1024) :
    iblk V adm0 c 0 t (ix2 i (0 : Fin 1)) = V c main_v10 (ix2 (Cert.RankSpec.blkIdx (Rk t) i) (0 : Fin 1)) :=
  iblk0_of V adm0 c t (Rk t)
    ((index0_eq adm0 t).trans (by show ![(wr t).toNat, 0] = _; rw [(words_eq t).1])) i

/-- At the literal tables window 1's block at point `t` is block `Ck t` of the row vector. -/
theorem iblk1_apply (c : Dev nD) (t : Fin (cfgA (adm0 (F := F))).N) (l : Fin 1024) :
    iblk V adm0 c 1 t (ix2 (0 : Fin 1) l) = V c main_v11 (ix2 (0 : Fin 1) (Cert.RankSpec.blkIdx (Ck t) l)) :=
  iblk1_of V adm0 c t (Ck t)
    ((index1_eq adm0 t).trans (by show ![0, (wc t).toNat] = _; rw [(words_eq t).2])) l

/-! ## The accumulator's array after the region

The accumulator's window is written back at the last point of each sweep only, sweep `k`'s block being row `k`
of the array: so the array ends holding, in row `k`, what the accumulator's buffer held after point `18 k + 17`. -/

/-- Window 2's block index at a point is the point's sweep, and zeros. -/
theorem index2_facts : ∀ t : Fin grid1.N, cc1_transform_2 (grid1.coords t) = ![t.val / 18, 0, 0] := by decide +kernel

/-- So at any admissible tables (window 2's index map reads none). -/
theorem index2_eq (a : (pcfg1 (F := F)).Adm) (t : Fin (cfgA a).N) : ((cfgA a).win 2).index t = ![t.val / 18, 0, 0] :=
  index2_facts t

/-- `outsAt` at equal points. -/
theorem outsAt_congr (a : (pcfg1 (F := F)).Adm) (hH : Hyps a) (c : Dev nD) {n n' : ℕ} (hn : n < (cfgA a).N) (hn' : n' < (cfgA a).N)
    (e : n = n') (y : S1x1x8192.Idx) : outsAt V a hH c n hn y = outsAt V a hH c n' hn' y := by
  subst e; rfl

/-- The last point of sweep `k` is a point of the grid. -/
theorem last_lt (a : (pcfg1 (F := F)).Adm) (k : Fin 2) : 18 * k.val + 17 < (cfgA a).N := by
  rw [show (cfgA a).N = 36 from N_1]; have := k.isLt; omega

/-- Entry `j` of what the accumulator's buffer held after the last point of sweep `k`. -/
def accRow (a : (pcfg1 (F := F)).Adm) (hH : Hyps a) (c : Dev nD) (k : Fin 2) (j : Fin 8192) : Elt F .f32 :=
  outsAt V a hH c (18 * k.val + 17) (last_lt a k) (ix3 (0 : Fin 1) (0 : Fin 1) j)

/-- The array whose blocks the write-backs write: row `k` is `accRow k`. -/
def accArr (a : (pcfg1 (F := F)).Adm) (hH : Hyps a) (c : Dev nD) : S2x1x8192.Idx → Elt F .f32 :=
  fun i => accRow V a hH c (i 0) (i 2)

/-- At a last point of a sweep, the buffer's entry is the row's. -/
theorem outsAt_row (a : (pcfg1 (F := F)).Adm) (hH : Hyps a) (c : Dev nD) (t : Fin (cfgA a).N) (h17 : t.val % 18 = 17)
    (y : S1x1x8192.Idx) (k : Fin 2) (j : Fin 8192) (hk : k.val = t.val / 18) (hj : j.val = (y 2).val) :
    outsAt V a hH c t.val t.isLt y = accRow V a hH c k j := by
  unfold accRow
  have e : y = ix3 (0 : Fin 1) (0 : Fin 1) j := by
    funext ax
    match ax with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => exact Fin.ext hj.symm
  rw [← e]
  exact outsAt_congr V a hH c _ _ (by omega) y

/-- What a write-back writes is its block of `accArr`. -/
theorem flushed2_eq (a : (pcfg1 (F := F)).Adm) (hH : Hyps a) (c : Dev nD) (t : Fin (cfgA a).N)
    (hf : ((cfgA a).win 2).flush t = true) :
    (dat V a hH c).flushed 2 t = (((cfgA a).win 2).blk t).view.read (Elt F) (accArr V a hH c) := by
  have h17 : t.val % 18 = 17 := (flush_2 a t).mp hf
  have e0 : ((cfgA a).win 2).index t (0 : Fin 3) = t.val / 18 := congrFun (index2_eq a t) (0 : Fin 3)
  have e2 : ((cfgA a).win 2).index t (2 : Fin 3) = 0 := congrFun (index2_eq a t) (2 : Fin 3)
  show ((cfgA a).win 2).cut (grid1.coords t) ((dat V a hH c).after 2 t) = _
  rw [after_2]
  funext y
  show outsAt V a hH c t.val t.isLt (((cfgA a).win 2).xinj (grid1.coords t) y)
    = accRow V a hH c ((((cfgA a).win 2).blk t).view.emb y (0 : Fin 3)) ((((cfgA a).win 2).blk t).view.emb y (2 : Fin 3))
  refine outsAt_row V a hH c t h17 _ _ _ ?_ ?_
  · show ((cfgA a).win 2).index t (0 : Fin 3) * 1 + 1 * (y (0 : Fin 3)).val = t.val / 18
    have h : (y (0 : Fin 3)).val < 1 := (y (0 : Fin 3)).isLt
    rw [e0]; omega
  · show ((cfgA a).win 2).index t (2 : Fin 3) * 8192 + 1 * (y (2 : Fin 3)).val = (y (2 : Fin 3)).val
    rw [e2]; omega

/-- The array after the region, at any admissible tables: row `k` holds what the accumulator's buffer held after
    the last point of sweep `k`. -/
theorem arr_final_of (a : (pcfg1 (F := F)).Adm) (hH : Hyps a) (c : Dev nD) (k : Fin 2) (j : Fin 8192) :
    (dat V a hH c).arrAt 2 (cfgA a).N (ix3 k (0 : Fin 1) j) = accRow V a hH c k j := by
  have hlt : 18 * k.val + 17 < (cfgA a).N := last_lt a k
  have hk : k.val < 2 := k.isLt
  have e0 : ((cfgA a).win 2).index ⟨18 * k.val + 17, hlt⟩ (0 : Fin 3) = k.val :=
    (congrFun (index2_eq a ⟨18 * k.val + 17, hlt⟩) (0 : Fin 3)).trans (by show (18 * k.val + 17) / 18 = k.val; omega)
  have e1 : ((cfgA a).win 2).index ⟨18 * k.val + 17, hlt⟩ (1 : Fin 3) = 0 := congrFun (index2_eq a ⟨18 * k.val + 17, hlt⟩) (1 : Fin 3)
  have e2 : ((cfgA a).win 2).index ⟨18 * k.val + 17, hlt⟩ (2 : Fin 3) = 0 := congrFun (index2_eq a ⟨18 * k.val + 17, hlt⟩) (2 : Fin 3)
  refine (dat V a hH c).arrAt_apply_of_mem 2 (accArr V a hH c) (flushed2_eq V a hH c) (cfgA a).N ⟨18 * k.val + 17, hlt⟩
    (ix3 k (0 : Fin 1) j) hlt ((flush_2 a _).mpr (by show (18 * k.val + 17) % 18 = 17; omega)) ?_
  show ix3 k (0 : Fin 1) j ∈ ((View.whole main_v12).slice (((cfgA a).win 2).rect ⟨18 * k.val + 17, hlt⟩)).set
  refine (congrArg (fun S => ix3 k (0 : Fin 1) j ∈ S)
    (View.set_slice_whole main_v12 (((cfgA a).win 2).rect ⟨18 * k.val + 17, hlt⟩))).mpr ?_
  refine Rect.mem_set_unit.mpr fun ax => ?_
  match ax with
  | ⟨0, _⟩ =>
    show ((cfgA a).win 2).index ⟨18 * k.val + 17, hlt⟩ (0 : Fin 3) * 1 ≤ k.val
      ∧ k.val < ((cfgA a).win 2).index ⟨18 * k.val + 17, hlt⟩ (0 : Fin 3) * 1 + 1
    rw [e0]; omega
  | ⟨1, _⟩ =>
    show ((cfgA a).win 2).index ⟨18 * k.val + 17, hlt⟩ (1 : Fin 3) * 1 ≤ 0
      ∧ 0 < ((cfgA a).win 2).index ⟨18 * k.val + 17, hlt⟩ (1 : Fin 3) * 1 + 1
    rw [e1]; omega
  | ⟨2, _⟩ =>
    show ((cfgA a).win 2).index ⟨18 * k.val + 17, hlt⟩ (2 : Fin 3) * 8192 ≤ j.val
      ∧ j.val < ((cfgA a).win 2).index ⟨18 * k.val + 17, hlt⟩ (2 : Fin 3) * 8192 + 8192
    rw [e2]; have := j.isLt; omega

/-- THE ARRAY AFTER THE REGION, at the literal tables: row `k` holds what the accumulator's buffer held after the
    last point of sweep `k`. -/
theorem arr_final (c : Dev nD) (k : Fin 2) (j : Fin 8192) :
    (dat V adm0 h0 c).arrAt 2 (cfgA (adm0 (F := F))).N (ix3 k (0 : Fin 1) j)
      = outsAt V adm0 h0 c (18 * k.val + 17) (last_lt adm0 k) (ix3 (0 : Fin 1) (0 : Fin 1) j) :=
  arr_final_of V adm0 h0 c k j

/-- The input windows' arrays are never written: they end as the region found them. -/
theorem arr_in0 (a : (pcfg1 (F := F)).Adm) (hH : Hyps a) (c : Dev nD) : (dat V a hH c).arrAt 0 (cfgA a).N = V c main_v10 :=
  ((dat V a hH c).arrAt_in 0 rfl _).trans (A_eq V a hH c 0)
theorem arr_in1 (a : (pcfg1 (F := F)).Adm) (hH : Hyps a) (c : Dev nD) : (dat V a hH c).arrAt 1 (cfgA a).N = V c main_v11 :=
  ((dat V a hH c).arrAt_in 1 rfl _).trans (A_eq V a hH c 1)

end Cert.KernelIdeal.TargRank
end
-- ==== Proof.KI.Targ.AccValue.lean ====
/-
  The accumulator's buffer after each pair of a sweep, as real numbers.

  With the two input vectors holding the reals x', pair s of sweep k reads block r = rTab k s of the column
  vector and block cc = cTab k s of the row vector. By induction on s the buffer after pair s holds, at lane j,
  the sweep's value after s + 1 pairs: the first pair starts from the zero fill; a later pair starts from what the
  pair before left; in either case a lane of block cc (when r ≠ cc) gains the mirrored column sum, a lane of
  block r the row sum, and every other lane keeps its value — one step of the sweep.
-/
import proofs.«115298_j79809082295156_2_alg».proof.Proof.KI.Targ.OutValue
import proofs.«115298_j79809082295156_2_alg».proof.Proof.KI.Targ.BlockValue
import proofs.«115298_j79809082295156_2_alg».proof.Proof.KI.PayValue
import proofs.«115298_j79809082295156_2_alg».proof.Proof.SweepSteps
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.WritesUnit
import Idealize.ShloMosaic.Lib.ValueIdx

set_option maxRecDepth 16384

noncomputable section

namespace Cert.KernelIdeal.TargRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx (ix2 ix3)
open Cert.RankSpec

/-! ## One pair's update, read off the stored values

The values are stated over variables: the two input blocks hold block r and block cc of the vector x', the
accumulator's row holds the reals acc. -/

/-- A slab read at lane l is the row at entry l of that block. -/
theorem slc_apply (X : Vec Ideal S1x1x8192 .f32) (b : Fin 8) (l : Fin 1024) :
    slc X b (ix3 (0 : Fin 1) (0 : Fin 1) l) = X (ix3 (0 : Fin 1) (0 : Fin 1) (blkIdx b l)) := rfl

section Step
variable (x' : Fin 8192 → ℝ) (r cc : Fin 8) (acc : Fin 8192 → ℝ)
  (x0 : Vec Ideal S1024x1 .f32) (x1 : Vec Ideal S1x1024 .f32) (xo : Vec Ideal S1x1x8192 .f32)
  (hx0 : ∀ i : Fin 1024, x0 (ix2 i (0 : Fin 1)) = ((x' (blkIdx r i) : ℝ) : EReal))
  (hx1 : ∀ l : Fin 1024, x1 (ix2 (0 : Fin 1) l) = ((x' (blkIdx cc l) : ℝ) : EReal))
  (hxo : ∀ p : Fin 8192, xo (ix3 (0 : Fin 1) (0 : Fin 1) p) = ((acc p : ℝ) : EReal))
include hx0 hx1 hxo

/-- The column store at a lane j of block cc holds acc j plus the mirrored column sum against block r. -/
theorem col_value (j : Fin 8192) (h : j.val / 1024 = cc.val) :
    k1_pay4 (F := Ideal) x0 x1 (slc xo cc) (ix3 (0 : Fin 1) (0 : Fin 1) (loc cc j h))
      = ((acc j + colPart x' r j : ℝ) : EReal) := by
  have hj : blkIdx cc (loc cc j h) = j := blkIdx_of_div cc j h _ rfl
  rw [PayValue.pay4_apply' (fun i => x' (blkIdx r i)) (fun l => x' (blkIdx cc l)) (fun l => acc (blkIdx cc l))
    x0 x1 (slc xo cc) hx0 hx1 (fun l => (slc_apply xo cc l).trans (hxo _)) (loc cc j h)]
  show ((acc (blkIdx cc (loc cc j h)) + (1024 - ∑ i : Fin 1024, sgm (x' (blkIdx r i) - x' (blkIdx cc (loc cc j h)))) : ℝ) : EReal) = _
  rw [hj]
  rfl

/-- The row store at a lane j of block r holds acc j plus the row sum against block cc. -/
theorem row_value (j : Fin 8192) (h : j.val / 1024 = r.val) :
    k1_pay3 (F := Ideal) x0 x1 (slc xo r) (ix3 (0 : Fin 1) (0 : Fin 1) (loc r j h))
      = ((acc j + rowPart x' cc j : ℝ) : EReal) := by
  have hj : blkIdx r (loc r j h) = j := blkIdx_of_div r j h _ rfl
  rw [PayValue.pay3_apply' (fun i => x' (blkIdx r i)) (fun l => x' (blkIdx cc l)) (fun l => acc (blkIdx r l))
    x0 x1 (slc xo r) hx0 hx1 (fun l => (slc_apply xo r l).trans (hxo _)) (loc r j h)]
  show ((acc (blkIdx r (loc r j h)) + ∑ l : Fin 1024, sgm (x' (blkIdx r (loc r j h)) - x' (blkIdx cc l)) : ℝ) : EReal) = _
  rw [hj]
  rfl

/-- Off the diagonal, the buffer after the two stores holds one step of the sweep. -/
theorem stepD_value (hne : r ≠ cc) (j : Fin 8192) :
    (if h : j.val / 1024 = cc.val then k1_pay4 (F := Ideal) x0 x1 (slc xo cc) (ix3 (0 : Fin 1) (0 : Fin 1) (loc cc j h))
      else if h : j.val / 1024 = r.val then k1_pay3 (F := Ideal) x0 x1 (slc xo r) (ix3 (0 : Fin 1) (0 : Fin 1) (loc r j h))
      else xo (ix3 (0 : Fin 1) (0 : Fin 1) j))
      = ((stepR x' r cc acc j : ℝ) : EReal) := by
  have hne' : r.val ≠ cc.val := fun e => hne (Fin.ext e)
  by_cases hc : j.val / 1024 = cc.val
  · rw [dif_pos hc, col_value x' r cc acc x0 x1 xo hx0 hx1 hxo j hc, stepR_col x' r cc acc j hne hc]
  · rw [dif_neg hc]
    by_cases hr : j.val / 1024 = r.val
    · rw [dif_pos hr, row_value x' r cc acc x0 x1 xo hx0 hx1 hxo j hr, stepR_row x' r cc acc j (fun e => hc e.2) hr]
    · rw [dif_neg hr, hxo, stepR_else x' r cc acc j (fun e => hc e.2) hr]

/-- On the diagonal, the buffer after the one store holds one step of the sweep. -/
theorem stepC_value (heq : r = cc) (j : Fin 8192) :
    (if h : j.val / 1024 = r.val then k1_pay3 (F := Ideal) x0 x1 (slc xo r) (ix3 (0 : Fin 1) (0 : Fin 1) (loc r j h))
      else xo (ix3 (0 : Fin 1) (0 : Fin 1) j))
      = ((stepR x' r cc acc j : ℝ) : EReal) := by
  by_cases hr : j.val / 1024 = r.val
  · rw [dif_pos hr, row_value x' r cc acc x0 x1 xo hx0 hx1 hxo j hr, stepR_row x' r cc acc j (fun e => e.1 heq) hr]
  · rw [dif_neg hr, hxo, stepR_else x' r cc acc j (fun e => e.1 heq) hr]

end Step

/-! ## The grid point of pair s of sweep k -/

theorem Rk_eq (k : Fin 2) (s : ℕ) (hs : s < 18) (hn : 18 * k.val + s < grid1.N) :
    Rk ⟨18 * k.val + s, hn⟩ = rTab k ⟨s, hs⟩ := by
  unfold Rk
  congr 1 <;> exact Fin.ext (by
    have := k.isLt
    first
      | (show (18 * k.val + s) / 18 = k.val; omega)
      | (show (18 * k.val + s) % 18 = s; omega))

theorem Ck_eq (k : Fin 2) (s : ℕ) (hs : s < 18) (hn : 18 * k.val + s < grid1.N) :
    Ck ⟨18 * k.val + s, hn⟩ = cTab k ⟨s, hs⟩ := by
  unfold Ck
  congr 1 <;> exact Fin.ext (by
    have := k.isLt
    first
      | (show (18 * k.val + s) / 18 = k.val; omega)
      | (show (18 * k.val + s) % 18 = s; omega))

section Acc
variable (V : (c : Dev nD) → (b : Ref sig .tc) → Buf (Elt Ideal) ((c : Thread nD τ).loc b))

/-- The accumulated contents depend on the point's number only. -/
theorem outsAt_num_congr (c : Dev nD) (n m : ℕ) (e : n = m) (hn : n < (cfgA (adm0 (F := Ideal))).N) (hm : m < (cfgA (adm0 (F := Ideal))).N) :
    outsAt V adm0 h0 c n hn = outsAt V adm0 h0 c m hm := by
  subst e; rfl

/-- The mirrored update runs at a point exactly when its pair is off the diagonal. -/
theorem offDiag_iff (c : Dev nD) (t : Fin (cfgA (adm0 (F := Ideal))).N) : offDiag (adm0 (F := Ideal)) c t ↔ Rk t ≠ Ck t := by
  show k1_cond2 (wd c (grid1.coords t) tbR (tblL (F := Ideal) 0)) (wd c (grid1.coords t) tbC (tblL (F := Ideal) 1)) = 1#1 ↔ _
  rw [wd_r, wd_c]
  exact cond2_iff t

theorem hoff2 (c : Dev nD) (t : Fin (cfgA (adm0 (F := Ideal))).N) :
    k1_off2 (wd c (grid1.coords t) tbR ((adm0 (F := Ideal)).1 0)) = ![0, 0, 1024 * (Rk t).val] := by
  show k1_off2 (wd c (grid1.coords t) tbR (tblL (F := Ideal) 0)) = _
  rw [wd_r]; exact off2_eq t

theorem hoff3 (c : Dev nD) (t : Fin (cfgA (adm0 (F := Ideal))).N) :
    k1_off3 (wd c (grid1.coords t) tbC ((adm0 (F := Ideal)).1 1)) = ![0, 0, 1024 * (Ck t).val] := by
  show k1_off3 (wd c (grid1.coords t) tbC (tblL (F := Ideal) 1)) = _
  rw [wd_c]; exact off3_eq t
end Acc

section Points
variable (V : (c : Dev nD) → (b : Ref sig .tc) → Buf (Elt Ideal) ((c : Thread nD τ).loc b)) (c : Dev nD) (x' : Fin 8192 → ℝ)
  (hV0 : ∀ p : Fin 8192, V c main_v10 (ix2 p (0 : Fin 1)) = ((x' p : ℝ) : EReal))
  (hV1 : ∀ p : Fin 8192, V c main_v11 (ix2 (0 : Fin 1) p) = ((x' p : ℝ) : EReal))
include hV0 hV1

/-- The first point of a sweep leaves one step of the sweep from zero. -/
theorem first_point (t : Fin (cfgA (adm0 (F := Ideal))).N) (h0' : t.val % 18 = 0) (j : Fin 8192) :
    outsAt V adm0 h0 c t.val t.isLt (ix3 (0 : Fin 1) (0 : Fin 1) j)
      = ((stepR x' (Rk t) (Ck t) (fun _ => 0) j : ℝ) : EReal) := by
  have hx0 : ∀ i : Fin 1024, iblk V adm0 c 0 t (ix2 i (0 : Fin 1)) = ((x' (blkIdx (Rk t) i) : ℝ) : EReal) :=
    fun i => (iblk0_apply V c t i).trans (hV0 _)
  have hx1 : ∀ l : Fin 1024, iblk V adm0 c 1 t (ix2 (0 : Fin 1) l) = ((x' (blkIdx (Ck t) l) : ℝ) : EReal) :=
    fun l => (iblk1_apply V c t l).trans (hV1 _)
  have hxo : ∀ p : Fin 8192, k1_pay1 (F := Ideal) (ix3 (0 : Fin 1) (0 : Fin 1) p) = (((fun _ => 0 : Fin 8192 → ℝ) p : ℝ) : EReal) :=
    fun p => PayValue.pay1_apply' _
  by_cases h2 : offDiag (adm0 (F := Ideal)) c t
  · have hne : Rk t ≠ Ck t := (offDiag_iff c t).mp h2
    refine (congrFun (outsAt_B V adm0 h0 c t h0' h2) _).trans ?_
    refine (out_B_apply _ _ _ _ _ _ _ _ _ _ _ _ _ _ _ _ (Rk t) (Ck t) (hoff2 c t) (hoff3 c t) hne j).trans ?_
    exact stepD_value x' (Rk t) (Ck t) (fun _ => 0) _ _ _ hx0 hx1 hxo hne j
  · have heq : Rk t = Ck t := not_not.mp (fun hne => h2 ((offDiag_iff c t).mpr hne))
    refine (congrFun (outsAt_A V adm0 h0 c t h0' h2) _).trans ?_
    refine (out_A_apply _ _ _ _ _ _ _ _ _ _ _ _ _ _ _ _ (Rk t) (hoff2 c t) j).trans ?_
    exact stepC_value x' (Rk t) (Ck t) (fun _ => 0) _ _ _ hx0 hx1 hxo heq j

/-- A later point of a sweep leaves one more step of the sweep over what the point before left. -/
theorem later_point (t : Fin (cfgA (adm0 (F := Ideal))).N) (h0' : ¬t.val % 18 = 0) (acc : Fin 8192 → ℝ)
    (hprev : ∀ p : Fin 8192,
      outsAt V adm0 h0 c (t.val - 1) (Nat.lt_of_le_of_lt (Nat.sub_le _ _) t.isLt) (ix3 (0 : Fin 1) (0 : Fin 1) p) = ((acc p : ℝ) : EReal))
    (j : Fin 8192) :
    outsAt V adm0 h0 c t.val t.isLt (ix3 (0 : Fin 1) (0 : Fin 1) j)
      = ((stepR x' (Rk t) (Ck t) acc j : ℝ) : EReal) := by
  have hx0 : ∀ i : Fin 1024, iblk V adm0 c 0 t (ix2 i (0 : Fin 1)) = ((x' (blkIdx (Rk t) i) : ℝ) : EReal) :=
    fun i => (iblk0_apply V c t i).trans (hV0 _)
  have hx1 : ∀ l : Fin 1024, iblk V adm0 c 1 t (ix2 (0 : Fin 1) l) = ((x' (blkIdx (Ck t) l) : ℝ) : EReal) :=
    fun l => (iblk1_apply V c t l).trans (hV1 _)
  by_cases h2 : offDiag (adm0 (F := Ideal)) c t
  · have hne : Rk t ≠ Ck t := (offDiag_iff c t).mp h2
    refine (congrFun (outsAt_D V adm0 h0 c t h0' h2) _).trans ?_
    refine (out_D_apply _ _ _ _ _ _ _ _ _ _ _ _ _ _ _ _ _ (Rk t) (Ck t) (hoff2 c t) (hoff3 c t) hne j).trans ?_
    exact stepD_value x' (Rk t) (Ck t) acc _ _ _ hx0 hx1 hprev hne j
  · have heq : Rk t = Ck t := not_not.mp (fun hne => h2 ((offDiag_iff c t).mpr hne))
    refine (congrFun (outsAt_C V adm0 h0 c t h0' h2) _).trans ?_
    refine (out_C_apply _ _ _ _ _ _ _ _ _ _ _ _ _ _ _ _ _ (Rk t) (hoff2 c t) j).trans ?_
    exact stepC_value x' (Rk t) (Ck t) acc _ _ _ hx0 hx1 hprev heq j

/-- After pair s of sweep k the accumulator's buffer holds the sweep's first s + 1 steps. -/
theorem acc_value (k : Fin 2) (s : ℕ) (hs : s < 18) (hn : 18 * k.val + s < (cfgA (adm0 (F := Ideal))).N) (j : Fin 8192) :
    outsAt V adm0 h0 c (18 * k.val + s) hn (ix3 (0 : Fin 1) (0 : Fin 1) j)
      = ((sweepR x' (rTab k) (cTab k) (s + 1) j : ℝ) : EReal) := by
  induction s generalizing j with
  | zero =>
    refine (first_point V c x' hV0 hV1 ⟨18 * k.val + 0, hn⟩ (by show (18 * k.val + 0) % 18 = 0; omega) j).trans ?_
    rw [sweepR_step x' (rTab k) (cTab k) 0 hs, Rk_eq k 0 hs hn, Ck_eq k 0 hs hn]
    rfl
  | succ s ih =>
    have hs' : s < 18 := by omega
    have hn' : 18 * k.val + s < (cfgA (adm0 (F := Ideal))).N := by omega
    refine (later_point V c x' hV0 hV1 ⟨18 * k.val + (s + 1), hn⟩ (by show ¬(18 * k.val + (s + 1)) % 18 = 0; omega)
      (sweepR x' (rTab k) (cTab k) (s + 1)) (fun p => ?_) j).trans ?_
    · exact (congrFun (outsAt_num_congr V c _ (18 * k.val + s) (by show 18 * k.val + (s + 1) - 1 = 18 * k.val + s; omega) _ hn') _).trans
        (ih hs' hn' p)
    · rw [sweepR_step x' (rTab k) (cTab k) (s + 1) hs, Rk_eq k (s + 1) hs hn, Ck_eq k (s + 1) hs hn]
end Points

end Cert.KernelIdeal.TargRank
end
-- ==== Proof.PairSweep.lean ====
/-
  The two sweeps over the 36 block pairs add up to the full soft-rank sum.

  Each pair (r, c), r ≤ c, of the eight blocks of 1024 entries adds to an entry j of block r the row sum
  Σ_l σ(x j − x (c, l)) and, when r ≠ c, to an entry j of block c the mirrored column sum
  1024 − Σ_l σ(x (r, l) − x j), which equals Σ_l σ(x j − x (r, l)) because σ(−d) = 1 − σ(d).
  So every pair adds to entry j a sum, over the blocks c' it "feeds" into j's block, of Σ_l σ(x j − x (c', l)).
  A finite check on the two literal tables shows that for each block b and each block c' exactly one of the
  36 pairs feeds c' into b; hence the two sweeps together add Σ_{c'} Σ_l σ(x j − x (c', l)), which is the sum
  over all 8192 entries after re-indexing entries as (block, position in block).
-/
import proofs.«115298_j79809082295156_2_alg».proof.Proof.RankSpec
noncomputable section
open scoped BigOperators
namespace Cert.PairSweep
open Cert.RankSpec

/-- σ(−d) = 1 − σ(d). -/
theorem sgm_neg (d : ℝ) : sgm (-d) = 1 - sgm d := by
  unfold sgm
  rw [neg_neg, Real.exp_neg]
  have h : (0:ℝ) < Real.exp d := Real.exp_pos d
  field_simp
  ring

/-- The logistic operation on a finite extended real is σ. -/
theorem logistic_coe (d : ℝ) :
    Idealize.ShloMosaic.Ideal.logistic ((d : ℝ) : EReal) = ((sgm d : ℝ) : EReal) := by
  rw [Idealize.ShloMosaic.Ideal.logistic_coe]; rfl

/-- The block an entry lies in. -/
def blk (j : Fin 8192) : Fin 8 := ⟨j.val / 1024, by omega⟩

theorem blk_eq_iff (j : Fin 8192) (q : Fin 8) : j.val / 1024 = q.val ↔ blk j = q := by
  simp only [blk, Fin.ext_iff]

/-- The mirrored column sum is the row sum against the other block, because σ(−d) = 1 − σ(d). -/
theorem colPart_eq (x : Fin 8192 → ℝ) (r : Fin 8) (j : Fin 8192) : colPart x r j = rowPart x r j := by
  unfold colPart rowPart
  have h : ∀ l : Fin 1024, sgm (x j - x (blkIdx r l)) = 1 - sgm (x (blkIdx r l) - x j) := fun l => by
    rw [← sgm_neg, neg_sub]
  rw [Finset.sum_congr rfl (fun l _ => h l), Finset.sum_sub_distrib]
  simp only [Finset.sum_const, Finset.card_univ, Fintype.card_fin, nsmul_eq_mul, mul_one]
  norm_num

/-- The pair (r, c) adds the σ-sum against block c' to the entries of block b. -/
def feeds (r c b c' : Fin 8) : Prop :=
  (r ≠ c ∧ b = c ∧ c' = r) ∨ (¬ (r ≠ c ∧ b = c) ∧ b = r ∧ c' = c)

instance (r c b c' : Fin 8) : Decidable (feeds r c b c') := by unfold feeds; infer_instance

/-- What the pair (r, c) adds to entry j, as a sum over all blocks c' with at most one term present. -/
def contrib (x : Fin 8192 → ℝ) (r c : Fin 8) (j : Fin 8192) : ℝ :=
  ∑ c' : Fin 8, if feeds r c (blk j) c' then rowPart x c' j else 0

theorem stepR_eq (x : Fin 8192 → ℝ) (r c : Fin 8) (acc : Fin 8192 → ℝ) (j : Fin 8192) :
    stepR x r c acc j = acc j + contrib x r c j := by
  unfold stepR contrib
  simp only [blk_eq_iff]
  by_cases h1 : r ≠ c ∧ blk j = c
  · rw [if_pos h1]
    have hf : ∀ c' : Fin 8, feeds r c (blk j) c' ↔ c' = r := fun c' => by
      unfold feeds; constructor
      · rintro (⟨_, _, h⟩ | ⟨h, _⟩)
        · exact h
        · exact absurd h1 h
      · intro h; exact Or.inl ⟨h1.1, h1.2, h⟩
    simp only [hf, Finset.sum_ite_eq', Finset.mem_univ, if_true, colPart_eq]
  · rw [if_neg h1]
    by_cases h2 : blk j = r
    · rw [if_pos h2]
      have hf : ∀ c' : Fin 8, feeds r c (blk j) c' ↔ c' = c := fun c' => by
        unfold feeds; constructor
        · rintro (⟨h, h', _⟩ | ⟨_, _, h⟩)
          · exact absurd ⟨h, h'⟩ h1
          · exact h
        · intro h; exact Or.inr ⟨h1, h2, h⟩
      simp only [hf, Finset.sum_ite_eq', Finset.mem_univ, if_true]
    · rw [if_neg h2]
      have hf : ∀ c' : Fin 8, ¬ feeds r c (blk j) c' := fun c' => by
        unfold feeds
        rintro (⟨h, h', _⟩ | ⟨_, h, _⟩)
        · exact h1 ⟨h, h'⟩
        · exact h2 h
      simp only [hf, if_false, Finset.sum_const_zero, add_zero]

/-- The contribution of the pair numbered s of a sweep (zero past the table's end). -/
def term (x : Fin 8192 → ℝ) (R C : Fin 18 → Fin 8) (j : Fin 8192) (s : ℕ) : ℝ :=
  if h : s < 18 then contrib x (R ⟨s, h⟩) (C ⟨s, h⟩) j else 0

theorem sweepR_succ (x : Fin 8192 → ℝ) (R C : Fin 18 → Fin 8) (n : ℕ) :
    sweepR x R C (n + 1)
      = if h : n < 18 then stepR x (R ⟨n, h⟩) (C ⟨n, h⟩) (sweepR x R C n) else sweepR x R C n := rfl

/-- After n pairs the accumulator holds the sum of the first n contributions. -/
theorem sweepR_eq_range (x : Fin 8192 → ℝ) (R C : Fin 18 → Fin 8) (j : Fin 8192) (n : ℕ) :
    sweepR x R C n j = ∑ s ∈ Finset.range n, term x R C j s := by
  induction n with
  | zero => simp only [sweepR, Finset.range_zero, Finset.sum_empty]
  | succ n ih =>
    rw [Finset.sum_range_succ, ← ih, sweepR_succ]
    unfold term
    by_cases h : n < 18
    · rw [dif_pos h, dif_pos h, stepR_eq]
    · rw [dif_neg h, dif_neg h, add_zero]

theorem sweepR_eq (x : Fin 8192 → ℝ) (R C : Fin 18 → Fin 8) (j : Fin 8192) :
    sweepR x R C 18 j = ∑ s : Fin 18, contrib x (R s) (C s) j := by
  rw [sweepR_eq_range, ← Fin.sum_univ_eq_sum_range]
  refine Finset.sum_congr rfl (fun s _ => ?_)
  unfold term
  rw [dif_pos s.2]

/-- The finite check on the tables: for each target block b and each source block c', exactly one of the
36 listed pairs feeds c' into b. -/
theorem feeds_once : ∀ b c' : Fin 8,
    (∑ s : Fin 18, if feeds (rTab 0 s) (cTab 0 s) b c' then (1 : ℕ) else 0)
      + (∑ s : Fin 18, if feeds (rTab 1 s) (cTab 1 s) b c' then (1 : ℕ) else 0) = 1 := by
  decide

/-- A sum of copies of v over the indices where P holds is (the number of such indices) · v. -/
theorem sum_ite_const (P : Fin 18 → Prop) [DecidablePred P] (v : ℝ) :
    (∑ s : Fin 18, if P s then v else 0) = ((∑ s : Fin 18, if P s then (1 : ℕ) else 0 : ℕ) : ℝ) * v := by
  rw [Nat.cast_sum, Finset.sum_mul]
  refine Finset.sum_congr rfl (fun s _ => ?_)
  by_cases h : P s
  · rw [if_pos h, if_pos h, Nat.cast_one, one_mul]
  · rw [if_neg h, if_neg h, Nat.cast_zero, zero_mul]

/-- The two sweeps together add, to entry j, the σ-sums against every one of the eight blocks. -/
theorem sweeps_eq_blocks (x : Fin 8192 → ℝ) (j : Fin 8192) :
    sweepR x (rTab 0) (cTab 0) 18 j + sweepR x (rTab 1) (cTab 1) 18 j = ∑ c' : Fin 8, rowPart x c' j := by
  rw [sweepR_eq, sweepR_eq]
  unfold contrib
  rw [Finset.sum_comm, Finset.sum_comm (s := (Finset.univ : Finset (Fin 18))), ← Finset.sum_add_distrib]
  refine Finset.sum_congr rfl (fun c' _ => ?_)
  rw [sum_ite_const, sum_ite_const, ← add_mul, ← Nat.cast_add, feeds_once, Nat.cast_one, one_mul]

/-- Entries of the vector correspond to (block, position in block). -/
def blkEquiv : Fin 8 × Fin 1024 ≃ Fin 8192 where
  toFun p := blkIdx p.1 p.2
  invFun i := (⟨i.val / 1024, by omega⟩, ⟨i.val % 1024, by omega⟩)
  left_inv p := by
    rcases p with ⟨⟨c, hc⟩, ⟨l, hl⟩⟩
    simp only [blkIdx, Prod.mk.injEq, Fin.mk.injEq]
    constructor <;> omega
  right_inv i := by
    rcases i with ⟨i, hi⟩
    simp only [blkIdx, Fin.mk.injEq]
    omega

/-- Summing block by block is summing over all entries. -/
theorem sum_blocks (f : Fin 8192 → ℝ) : (∑ c' : Fin 8, ∑ l : Fin 1024, f (blkIdx c' l)) = ∑ i : Fin 8192, f i := by
  rw [← Equiv.sum_comp blkEquiv f, Fintype.sum_prod_type]
  rfl

theorem sweep_total (x : Fin 8192 → ℝ) (j : Fin 8192) :
    (sweepR x (rTab 0) (cTab 0) 18 j + sweepR x (rTab 1) (cTab 1) 18 j) + 1 = rankR x j := by
  rw [sweeps_eq_blocks]
  unfold rankR rowPart
  rw [sum_blocks (fun i => sgm (x j - x i))]

end Cert.PairSweep

end
-- ==== Proof.KI.ValueEq.lean ====
/-
  What the kernel's program leaves in its result buffer, on finite inputs: the correlation tail of the two soft-rank vectors.

  After the first pallas_call, row k of its [2, 1, 8192] array is the accumulator of sweep k after its 18 pairs; the
  host adds the two rows and 1, which is the soft rank because the two sweeps together feed every pair of blocks
  once. The second call does the same for the second input. The program's last nineteen host operations are the
  correlation tail of those two vectors.
-/
import proofs.«115298_j79809082295156_2_alg».proof.Proof.KI.Sweep
import proofs.«115298_j79809082295156_2_alg».proof.Proof.KI.HostStages
import proofs.«115298_j79809082295156_2_alg».proof.Proof.KI.Pred.AccValue
import proofs.«115298_j79809082295156_2_alg».proof.Proof.KI.Targ.AccValue
import proofs.«115298_j79809082295156_2_alg».proof.Proof.PairSweep

set_option maxRecDepth 16384

noncomputable section

namespace Cert.KernelIdeal.ValueEq

open Idealize.ShloMosaic Idealize.ShloMosaic.TcCoe Idealize.SL.Sem
open Cert.KernelIdeal Cert.KernelIdeal.Gen Cert.KernelIdeal.Sweep Cert.RankSpec
open Idealize.ShloMosaic.ValueIdx (ix2 ix3)

variable (m : (ℓ : Loc nD τ sig) → Buf (Elt Ideal) ℓ) (c : Dev nD)

/-- The first call's two input arrays are the first argument re-laid as a column and as a row. -/
theorem colP (x' : Fin 8192 → ℝ) (hx : m ((c.tc : Thread nD τ).loc main_arg0) = liftE x') (p : Fin 8192) :
    Sweep.V1 m c main_v0 (ix2 p (0 : Fin 1)) = ((x' p : ℝ) : EReal) := by
  show StableHlo.after hostOps0 (W0 m c) main_v0 (ix2 p (0 : Fin 1)) = _
  rw [HostStages.v0_apply]
  show m ((c.tc : Thread nD τ).loc main_arg0) (ValueIdx.ix1 p) = _
  rw [hx]; rfl
theorem rowP (x' : Fin 8192 → ℝ) (hx : m ((c.tc : Thread nD τ).loc main_arg0) = liftE x') (p : Fin 8192) :
    Sweep.V1 m c main_v1 (ix2 (0 : Fin 1) p) = ((x' p : ℝ) : EReal) := by
  show StableHlo.after hostOps0 (W0 m c) main_v1 (ix2 (0 : Fin 1) p) = _
  rw [HostStages.v1_apply]
  show m ((c.tc : Thread nD τ).loc main_arg0) (ValueIdx.ix1 p) = _
  rw [hx]; rfl

/-- The second argument reaches the second call as launched. -/
theorem arg1_at3 : W2 m c main_arg1 = m ((c.tc : Thread nD τ).loc main_arg1) :=
  (W2_of_ne m c main_arg1 (by decide)).trans ((HostStages.keeps0 (W0 m c) main_arg1 (by decide)).trans rfl)
theorem colT (y' : Fin 8192 → ℝ) (hy : m ((c.tc : Thread nD τ).loc main_arg1) = liftE y') (p : Fin 8192) :
    Sweep.V3 m c main_v10 (ix2 p (0 : Fin 1)) = ((y' p : ℝ) : EReal) := by
  show StableHlo.after hostOps1 (W2 m c) main_v10 (ix2 p (0 : Fin 1)) = _
  rw [HostStages.v10_apply, arg1_at3, hy]; rfl
theorem rowT (y' : Fin 8192 → ℝ) (hy : m ((c.tc : Thread nD τ).loc main_arg1) = liftE y') (p : Fin 8192) :
    Sweep.V3 m c main_v11 (ix2 (0 : Fin 1) p) = ((y' p : ℝ) : EReal) := by
  show StableHlo.after hostOps1 (W2 m c) main_v11 (ix2 (0 : Fin 1) p) = _
  rw [HostStages.v11_apply, arg1_at3, hy]; rfl

/-- Row `k` of the first call's array, after the call: sweep `k`'s accumulator after all 18 pairs. -/
theorem rowsP (x' : Fin 8192 → ℝ) (hx : m ((c.tc : Thread nD τ).loc main_arg0) = liftE x') (k : Fin 2) (p : Fin 8192) :
    (W2 m c main_v2 : FVec Ideal S2x1x8192 .f32) (ix3 k (0 : Fin 1) p) = ((sweepR x' (rTab k) (cTab k) 18 p : ℝ) : EReal) := by
  have e1 : W2 m c main_v2 = (PredRank.dat (Sweep.V1 m) adm0 hyps0 c).arrAt 2 (cfg0 (adm0 (F := Ideal))).N := W2_arr m c 2
  rw [e1]
  exact (PredRank.arr_final (Sweep.V1 m) c k p).trans (PredRank.acc_value (Sweep.V1 m) c x' (colP m c x' hx) (rowP m c x' hx) k 17 (by omega) _ p)
theorem rowsT (y' : Fin 8192 → ℝ) (hy : m ((c.tc : Thread nD τ).loc main_arg1) = liftE y') (k : Fin 2) (p : Fin 8192) :
    (W4 m c main_v12 : FVec Ideal S2x1x8192 .f32) (ix3 k (0 : Fin 1) p) = ((sweepR y' (rTab k) (cTab k) 18 p : ℝ) : EReal) := by
  have e1 : W4 m c main_v12 = (TargRank.dat (Sweep.V3 m) adm1 hyps1 c).arrAt 2 (cfg1 (adm1 (F := Ideal))).N := W4_arr m c 2
  rw [e1]
  exact (TargRank.arr_final (Sweep.V3 m) c k p).trans (TargRank.acc_value (Sweep.V3 m) c y' (colT m c y' hy) (rowT m c y' hy) k 17 (by omega) _ p)

/-- Two rows of sweep accumulators, added, plus one: the soft rank. -/
theorem twoRows_rank (X : FVec Ideal S2x1x8192 .f32) (z : Fin 8192 → ℝ)
    (h : ∀ (k : Fin 2) (p : Fin 8192), X (ix3 k (0 : Fin 1) p) = ((sweepR z (rTab k) (cTab k) 18 p : ℝ) : EReal)) :
    HostStages.twoRowsVec X = rankE z := by
  funext i
  obtain ⟨p, rfl⟩ : ∃ p : Fin 8192, i = ValueIdx.ix1 p := ⟨i 0, ValueIdx.eq_ix1 i⟩
  rw [HostStages.twoRowsVec_apply]
  unfold HostStages.twoRows
  rw [h 0 p, h 1 p]
  show _ = ((rankR z p : ℝ) : EReal)
  rw [← Cert.PairSweep.sweep_total z p, EReal.coe_add, EReal.coe_add, EReal.coe_one]

/-- THE VALUE: the result buffer at the last boundary is the correlation tail of the two soft-rank vectors. -/
theorem value_eq (x' y' : Fin 8192 → ℝ) (hx : m ((c.tc : Thread nD τ).loc main_arg0) = liftE x')
    (hy : m ((c.tc : Thread nD τ).loc main_arg1) = liftE y') :
    W5 m c (Proc.devRef .tc main_v38) = Cert.RefSide.tail (rankE x') (rankE y') := by
  show StableHlo.after hostOps2 (W4 m c) main_v38 = _
  rw [HostStages.v38_eq, twoRows_rank (W4 m c main_v12) y' (rowsT m c y' hy)]
  refine congrArg (fun r => Cert.RefSide.tail r (rankE y')) ?_
  rw [show W4 m c main_v9 = W3 m c main_v9 from W4_of_ne m c main_v9 (by decide)]
  show StableHlo.after hostOps1 (W2 m c) main_v9 = _
  rw [HostStages.v9_eq]
  exact twoRows_rank (W2 m c main_v2) x' (rowsP m c x' hx)

end Cert.KernelIdeal.ValueEq

end
-- ==== Proof.lean ====
/-
  The certificate's claims, assembled.

  The kernel computes two soft-rank vectors, each by a pallas_call that walks the 36 unordered pairs of the eight
  blocks of 1024 entries in two sweeps of 18 pairs, accumulating row sums and mirrored column sums of the pairwise
  logistic into one [1, 8192] row per sweep; the host adds the two rows and 1, and ends with a Pearson correlation
  of the two rank vectors. The reference computes each rank as one row sum over all 8192 entries and ends with the
  same correlation. At the extended reals, on finite inputs, both rank vectors are  i ↦ 1 + Σ_j σ(x i − x j):
  σ(−d) = 1 − σ(d) turns each mirrored column sum into a row sum, and the 36 pairs feed every (block, block) pair
  exactly once. The two programs then apply the same nineteen host operations to equal vectors.

  The three frames come from one run of each program: the kernel's from the run of its two pallas_calls over the
  two literal pair tables (every table word a block number below 8, so every slice lies inside its row), stated
  once for any float instance; the reference's from its run as a list of host operations.
-/
import proofs.«115298_j79809082295156_2_alg».proof.Defs
import proofs.«115298_j79809082295156_2_alg».proof.Proof.Gen.Kernel
import proofs.«115298_j79809082295156_2_alg».proof.Proof.Gen.KernelIdeal
import proofs.«115298_j79809082295156_2_alg».proof.Proof.Gen.ReferenceIdeal
import proofs.«115298_j79809082295156_2_alg».proof.Proof.Gen.Pre_finite_inputs
import proofs.«115298_j79809082295156_2_alg».proof.Proof.K.Sweep
import proofs.«115298_j79809082295156_2_alg».proof.Proof.KI.Sweep
import proofs.«115298_j79809082295156_2_alg».proof.Proof.RefRank
import proofs.«115298_j79809082295156_2_alg».proof.Proof.KI.ValueEq
import Idealize.ShloMosaic.Adequacy
import Idealize.ShloMosaic.Init

noncomputable section

namespace Cert.Proof

open Idealize.ShloMosaic Idealize.SL.Sem

/-- The word-level kernel runs to the end, faults nowhere, and leaves both inputs as launched. -/
theorem frame_k : Cert.frame_Kernel := fun m ρ _ =>
  (θ_run (Cert.Kernel.defs (F := Bits)) _ _).mono (fun _ h c => ⟨(h c).2.1, (h c).2.2⟩) (Cert.Kernel.Sweep.run_valued (F := Bits) m ρ)

/-- So does its idealization. -/
theorem frame_ki : Cert.frame_KernelIdeal := fun m ρ _ =>
  (θ_run (Cert.KernelIdeal.defs (F := Ideal)) _ _).mono (fun _ h c => ⟨(h c).2.1, (h c).2.2⟩) (Cert.KernelIdeal.Sweep.run_valued (F := Ideal) m ρ)

/-- The ideal pass rewrote nothing: the idealization is the kernel's own text read at the extended reals. -/
theorem preserves : Cert.preserves_Kernel_KernelIdeal := trivial

/-- On finite inputs both programs end at the same extended real: the correlation tail of the two soft-rank vectors. -/
theorem algebraic : Cert.algebraic_KernelIdeal_ReferenceIdeal := by
  intro m ρ m' ρ' hpre hagree
  choose x' y' hx hy using fun c => Cert.RefSide.finite_of_pre _ _ (hpre c)
  refine ⟨fun c => Cert.RefSide.tail (Cert.RankSpec.rankE (x' c)) (Cert.RankSpec.rankE (y' c)), ?_, ?_⟩
  · refine (θ_run (Cert.KernelIdeal.defs (F := Ideal)) _ _).mono (fun _ h c => ⟨(h c).1.trans ?_, (h c).2.1, (h c).2.2⟩)
      (Cert.KernelIdeal.Sweep.run_valued (F := Ideal) m ρ)
    exact Cert.KernelIdeal.ValueEq.value_eq m c (x' c) (y' c) (hx c) (hy c)
  · exact Cert.RefSide.ref_run m' ρ' x' y' (fun c => ((hagree c).1).trans (hx c)) (fun c => ((hagree c).2).trans (hy c))

theorem claim : Cert.Claim := ⟨Cert.Kernel.Gen.facts, Cert.KernelIdeal.Gen.facts, Cert.ReferenceIdeal.Gen.facts, Cert.Pre_finite_inputs.Gen.facts,
  frame_k, frame_ki, Cert.RefSide.frame_ri, preserves, algebraic⟩

end Cert.Proof

end
